-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v115)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v115) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v228) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg8 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg5 : FVec F S3x128 .f32) (main_arg6 : FVec F S3x128 .f32) (main_arg7 : FVec F S128x128 .f32) (main_arg8 : FVec F S128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg5
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg6
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_v33

def fn {F : FTy → Type} [FloatOps F] (main_arg0 : FVec F S50000x128 .f32) (main_arg1 : IVec S2x800000 32) (main_arg2 : FVec F S3x128x128 .f32) (main_arg3 : FVec F S3x128 .f32) (main_arg4 : FVec F S3x128x128 .f32) (main_arg5 : FVec F S3x128 .f32) (main_arg6 : FVec F S3x128 .f32) (main_arg7 : FVec F S128x128 .f32) (main_arg8 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S3x128x128 .f32 := Host.absf main_arg2
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg3
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg4
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg5 main_arg6 main_arg7 main_arg8 main_v13 main_v16
-- ==== Kernel.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S1x128 : Shape := ⟨2, ![1, 128]⟩
abbrev S800000x128 : Shape := ⟨2, ![800000, 128]⟩
abbrev S1x128x128 : Shape := ⟨3, ![1, 128, 128]⟩
abbrev S5000x128 : Shape := ⟨2, ![5000, 128]⟩
abbrev S5000 : Shape := ⟨1, ![5000]⟩
abbrev S5000x1 : Shape := ⟨2, ![5000, 1]⟩

abbrev nBuf : Space → Nat
  | .hbm => 153
  | .vmem => 75
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S128x128, .f32⟩
  | 8 => ⟨S128, .f32⟩
  | 9 => ⟨S1x800000, .i32⟩
  | 10 => ⟨S800000, .i32⟩
  | 11 => ⟨S1x800000, .i32⟩
  | 12 => ⟨S800000, .i32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S_, .f32⟩
  | 23 => ⟨S50000, .f32⟩
  | 24 => ⟨S50000, .f32⟩
  | 25 => ⟨S50000x1, .f32⟩
  | 26 => ⟨S3x128x128, .f32⟩
  | 27 => ⟨S3x128x128, .f32⟩
  | 28 => ⟨S128x128, .f32⟩
  | 29 => ⟨S1x128, .f32⟩
  | 30 => ⟨S_, .i32⟩
  | 31 => ⟨S800000, .i32⟩
  | 32 => ⟨S800000, .i1⟩
  | 33 => ⟨S_, .i32⟩
  | 34 => ⟨S800000, .i32⟩
  | 35 => ⟨S800000, .i32⟩
  | 36 => ⟨S800000, .i32⟩
  | 37 => ⟨S800000x1, .i32⟩
  | 38 => ⟨S800000x128, .f32⟩
  | 39 => ⟨S_, .f32⟩
  | 40 => ⟨S50000x128, .f32⟩
  | 41 => ⟨S800000x1, .i32⟩
  | 42 => ⟨S50000x128, .f32⟩
  | 43 => ⟨S50000x128, .f32⟩
  | 44 => ⟨S50000x128, .f32⟩
  | 45 => ⟨S1x128, .f32⟩
  | 46 => ⟨S128, .f32⟩
  | 47 => ⟨S1x128, .f32⟩
  | 48 => ⟨S1x128x128, .f32⟩
  | 49 => ⟨S128x128, .f32⟩
  | 50 => ⟨S1x128x128, .f32⟩
  | 51 => ⟨S128x128, .f32⟩
  | 52 => ⟨S50000x128, .f32⟩
  | 53 => ⟨S50000x128, .f32⟩
  | 54 => ⟨S1x128, .f32⟩
  | 55 => ⟨S1x128, .f32⟩
  | 56 => ⟨S_, .f32⟩
  | 57 => ⟨S1x128, .f32⟩
  | 58 => ⟨S1x128, .f32⟩
  | 59 => ⟨S_, .f32⟩
  | 60 => ⟨S1x128, .f32⟩
  | 61 => ⟨S1x128, .f32⟩
  | 62 => ⟨S1x128, .f32⟩
  | 63 => ⟨S1x128, .f32⟩
  | 64 => ⟨S1x128, .f32⟩
  | 65 => ⟨S128, .f32⟩
  | 66 => ⟨S1x128, .f32⟩
  | 67 => ⟨S1x128, .f32⟩
  | 68 => ⟨S128, .f32⟩
  | 69 => ⟨S1x128, .f32⟩
  | 70 => ⟨S50000x128, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x128, .f32⟩
  | 85 => ⟨S50000x128, .f32⟩
  | 86 => ⟨S1x128, .f32⟩
  | 87 => ⟨S128, .f32⟩
  | 88 => ⟨S1x128, .f32⟩
  | 89 => ⟨S1x128x128, .f32⟩
  | 90 => ⟨S128x128, .f32⟩
  | 91 => ⟨S1x128x128, .f32⟩
  | 92 => ⟨S128x128, .f32⟩
  | 93 => ⟨S50000x128, .f32⟩
  | 94 => ⟨S50000x128, .f32⟩
  | 95 => ⟨S1x128, .f32⟩
  | 96 => ⟨S1x128, .f32⟩
  | 97 => ⟨S_, .f32⟩
  | 98 => ⟨S1x128, .f32⟩
  | 99 => ⟨S1x128, .f32⟩
  | 100 => ⟨S_, .f32⟩
  | 101 => ⟨S1x128, .f32⟩
  | 102 => ⟨S1x128, .f32⟩
  | 103 => ⟨S1x128, .f32⟩
  | 104 => ⟨S1x128, .f32⟩
  | 105 => ⟨S1x128, .f32⟩
  | 106 => ⟨S128, .f32⟩
  | 107 => ⟨S1x128, .f32⟩
  | 108 => ⟨S1x128, .f32⟩
  | 109 => ⟨S128, .f32⟩
  | 110 => ⟨S1x128, .f32⟩
  | 111 => ⟨S50000x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S_, .f32⟩
  | 122 => ⟨S50000x128, .f32⟩
  | 123 => ⟨S800000x1, .i32⟩
  | 124 => ⟨S50000x128, .f32⟩
  | 125 => ⟨S50000x128, .f32⟩
  | 126 => ⟨S50000x128, .f32⟩
  | 127 => ⟨S1x128, .f32⟩
  | _ => ⟨S50000x128, .f32⟩

abbrev hbmTy0_1 (i : Nat) : BufTy := match i % 128 with
  | 0 => ⟨S128, .f32⟩
  | 1 => ⟨S1x128, .f32⟩
  | 2 => ⟨S1x128x128, .f32⟩
  | 3 => ⟨S128x128, .f32⟩
  | 4 => ⟨S1x128x128, .f32⟩
  | 5 => ⟨S128x128, .f32⟩
  | 6 => ⟨S50000x128, .f32⟩
  | 7 => ⟨S50000x128, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S128, .f32⟩
  | 20 => ⟨S1x128, .f32⟩
  | 21 => ⟨S1x128, .f32⟩
  | 22 => ⟨S128, .f32⟩
  | 23 => ⟨S1x128, .f32⟩
  | 24 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S1x128, .f32⟩
  | .local _ .vmem, ⟨20, _⟩ => ⟨S1x128, .f32⟩
  | .local _ .vmem, ⟨21, _⟩ => ⟨S1x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S128x128, .f32⟩
  | .local _ .vmem, ⟨30, _⟩ => ⟨S1x128, .f32⟩
  | .local _ .vmem, ⟨31, _⟩ => ⟨S128x128, .f32⟩
  | .local _ .vmem, ⟨32, _⟩ => ⟨S128x128, .f32⟩
  | .local _ .vmem, ⟨33, _⟩ => ⟨S1x128, .f32⟩
  | .local _ .vmem, ⟨34, _⟩ => ⟨S5000x128, .f32⟩
  | .local _ .vmem, ⟨35, _⟩ => ⟨S5000x128, .f32⟩
  | .local _ .vmem, ⟨36, _⟩ => ⟨S5000x128, .f32⟩
  | .local _ .vmem, ⟨37, _⟩ => ⟨S5000x128, .f32⟩
  | .local _ .vmem, ⟨38, _⟩ => ⟨S1x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S5000x128, .f32⟩
  | .local _ .vmem, ⟨43, _⟩ => ⟨S5000x128, .f32⟩
  | .local _ .vmem, ⟨44, _⟩ => ⟨S1x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S5000x128, .f32⟩
  | .local _ .vmem, ⟨53, _⟩ => ⟨S5000x128, .f32⟩
  | .local _ .vmem, ⟨54, _⟩ => ⟨S128x128, .f32⟩
  | .local _ .vmem, ⟨55, _⟩ => ⟨S1x128, .f32⟩
  | .local _ .vmem, ⟨56, _⟩ => ⟨S128x128, .f32⟩
  | .local _ .vmem, ⟨57, _⟩ => ⟨S128x128, .f32⟩
  | .local _ .vmem, ⟨58, _⟩ => ⟨S1x128, .f32⟩
  | .local _ .vmem, ⟨59, _⟩ => ⟨S5000x128, .f32⟩
  | .local _ .vmem, ⟨60, _⟩ => ⟨S5000x128, .f32⟩
  | .local _ .vmem, ⟨61, _⟩ => ⟨S5000x128, .f32⟩
  | .local _ .vmem, ⟨62, _⟩ => ⟨S5000x128, .f32⟩
  | .local _ .vmem, ⟨63, _⟩ => ⟨S1x128, .f32⟩
  | .local _ .vmem, ⟨64, _⟩ => ⟨S1x128, .f32⟩
  | .local _ .vmem, ⟨65, _⟩ => ⟨S5000x128, .f32⟩
  | .local _ .vmem, ⟨66, _⟩ => ⟨S5000x128, .f32⟩
  | .local _ .vmem, ⟨67, _⟩ => ⟨S5000x128, .f32⟩
  | .local _ .vmem, ⟨68, _⟩ => ⟨S5000x128, .f32⟩
  | .local _ .vmem, ⟨69, _⟩ => ⟨S1x128, .f32⟩
  | .local _ .vmem, ⟨70, _⟩ => ⟨S1x128, .f32⟩
  | .local _ .vmem, ⟨71, _⟩ => ⟨S1x128, .f32⟩
  | .local _ .vmem, ⟨72, _⟩ => ⟨S1x128, .f32⟩
  | .local _ .vmem, ⟨73, _⟩ => ⟨S5000x128, .f32⟩
  | .local _ .vmem, ⟨74, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | _, _ => false

abbrev semScoped : Fin 0 → Bool
  | ⟨_, h⟩ => absurd h (Nat.not_lt_zero _)

abbrev dmaSemScoped : Fin 75 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | _ => false

abbrev sig : RefSig :=
  ofTc nBuf bufTy 0 75 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_cst_0 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst_1 : Ref sig .tc := ⟨.hbm, 19, rfl⟩
abbrev main_v8 : Ref sig .tc := ⟨.hbm, 20, rfl⟩
abbrev main_v9 : Ref sig .tc := ⟨.hbm, 21, rfl⟩
abbrev main_cst_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36_0 : Ref sig .tc := ⟨.hbm, 52, rfl⟩
abbrev main_v36_1 : Ref sig .tc := ⟨.hbm, 53, rfl⟩
abbrev main_v36_2 : Ref sig .tc := ⟨.hbm, 54, rfl⟩
abbrev main_v36_3 : Ref sig .tc := ⟨.hbm, 55, rfl⟩
abbrev main_cst_5 : Ref sig .tc := ⟨.hbm, 56, rfl⟩
abbrev main_v37 : Ref sig .tc := ⟨.hbm, 57, rfl⟩
abbrev main_v38 : Ref sig .tc := ⟨.hbm, 58, rfl⟩
abbrev main_cst_6 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_7 : Ref sig .tc := ⟨.hbm, 71, rfl⟩
abbrev main_v50 : Ref sig .tc := ⟨.hbm, 72, rfl⟩
abbrev main_v51 : Ref sig .tc := ⟨.hbm, 73, rfl⟩
abbrev main_c_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_9 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69_0 : Ref sig .tc := ⟨.hbm, 93, rfl⟩
abbrev main_v69_1 : Ref sig .tc := ⟨.hbm, 94, rfl⟩
abbrev main_v69_2 : Ref sig .tc := ⟨.hbm, 95, rfl⟩
abbrev main_v69_3 : Ref sig .tc := ⟨.hbm, 96, rfl⟩
abbrev main_cst_10 : Ref sig .tc := ⟨.hbm, 97, rfl⟩
abbrev main_v70 : Ref sig .tc := ⟨.hbm, 98, rfl⟩
abbrev main_v71 : Ref sig .tc := ⟨.hbm, 99, rfl⟩
abbrev main_cst_11 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_c_12 : Ref sig .tc := ⟨.hbm, 112, rfl⟩
abbrev main_v83 : Ref sig .tc := ⟨.hbm, 113, rfl⟩
abbrev main_v84 : Ref sig .tc := ⟨.hbm, 114, rfl⟩
abbrev main_c_13 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_14 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102_0 : Ref sig .tc := ⟨.hbm, 134, rfl⟩
abbrev main_v102_1 : Ref sig .tc := ⟨.hbm, 135, rfl⟩
abbrev main_v102_2 : Ref sig .tc := ⟨.hbm, 136, rfl⟩
abbrev main_v102_3 : Ref sig .tc := ⟨.hbm, 137, rfl⟩
abbrev main_cst_15 : Ref sig .tc := ⟨.hbm, 138, rfl⟩
abbrev main_v103 : Ref sig .tc := ⟨.hbm, 139, rfl⟩
abbrev main_v104 : Ref sig .tc := ⟨.hbm, 140, rfl⟩
abbrev main_cst_16 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg1_1 : Ref sig .tc := ⟨.vmem, 18, rfl⟩
abbrev cc1_stg2_0 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg6_0 : Ref sig .tc := ⟨.vmem, 23, rfl⟩
abbrev cc1_stg6_1 : Ref sig .tc := ⟨.vmem, 24, rfl⟩
abbrev cc2_stg0_0 : Ref sig .tc := ⟨.vmem, 25, rfl⟩
abbrev cc2_stg0_1 : Ref sig .tc := ⟨.vmem, 26, rfl⟩
abbrev cc2_stg1_0 : Ref sig .tc := ⟨.vmem, 27, rfl⟩
abbrev cc2_stg1_1 : Ref sig .tc := ⟨.vmem, 28, rfl⟩
abbrev cc2_stg2_0 : Ref sig .tc := ⟨.vmem, 29, rfl⟩
abbrev cc2_stg3_0 : Ref sig .tc := ⟨.vmem, 30, rfl⟩
abbrev cc2_stg4_0 : Ref sig .tc := ⟨.vmem, 31, rfl⟩
abbrev cc2_stg5_0 : Ref sig .tc := ⟨.vmem, 32, rfl⟩
abbrev cc2_stg6_0 : Ref sig .tc := ⟨.vmem, 33, rfl⟩
abbrev cc2_stg7_0 : Ref sig .tc := ⟨.vmem, 34, rfl⟩
abbrev cc2_stg7_1 : Ref sig .tc := ⟨.vmem, 35, rfl⟩
abbrev cc2_stg8_0 : Ref sig .tc := ⟨.vmem, 36, rfl⟩
abbrev cc2_stg8_1 : Ref sig .tc := ⟨.vmem, 37, rfl⟩
abbrev cc2_stg9_0 : Ref sig .tc := ⟨.vmem, 38, rfl⟩
abbrev cc2_stg10_0 : Ref sig .tc := ⟨.vmem, 39, rfl⟩
abbrev cc3_stg0_0 : Ref sig .tc := ⟨.vmem, 40, rfl⟩
abbrev cc3_stg0_1 : Ref sig .tc := ⟨.vmem, 41, rfl⟩
abbrev cc3_stg1_0 : Ref sig .tc := ⟨.vmem, 42, rfl⟩
abbrev cc3_stg1_1 : Ref sig .tc := ⟨.vmem, 43, rfl⟩
abbrev cc3_stg2_0 : Ref sig .tc := ⟨.vmem, 44, rfl⟩
abbrev cc3_stg3_0 : Ref sig .tc := ⟨.vmem, 45, rfl⟩
abbrev cc3_stg4_0 : Ref sig .tc := ⟨.vmem, 46, rfl⟩
abbrev cc3_stg5_0 : Ref sig .tc := ⟨.vmem, 47, rfl⟩
abbrev cc3_stg6_0 : Ref sig .tc := ⟨.vmem, 48, rfl⟩
abbrev cc3_stg6_1 : Ref sig .tc := ⟨.vmem, 49, rfl⟩
abbrev cc4_stg0_0 : Ref sig .tc := ⟨.vmem, 50, rfl⟩
abbrev cc4_stg0_1 : Ref sig .tc := ⟨.vmem, 51, rfl⟩
abbrev cc4_stg1_0 : Ref sig .tc := ⟨.vmem, 52, rfl⟩
abbrev cc4_stg1_1 : Ref sig .tc := ⟨.vmem, 53, rfl⟩
abbrev cc4_stg2_0 : Ref sig .tc := ⟨.vmem, 54, rfl⟩
abbrev cc4_stg3_0 : Ref sig .tc := ⟨.vmem, 55, rfl⟩
abbrev cc4_stg4_0 : Ref sig .tc := ⟨.vmem, 56, rfl⟩
abbrev cc4_stg5_0 : Ref sig .tc := ⟨.vmem, 57, rfl⟩
abbrev cc4_stg6_0 : Ref sig .tc := ⟨.vmem, 58, rfl⟩
abbrev cc4_stg7_0 : Ref sig .tc := ⟨.vmem, 59, rfl⟩
abbrev cc4_stg7_1 : Ref sig .tc := ⟨.vmem, 60, rfl⟩
abbrev cc4_stg8_0 : Ref sig .tc := ⟨.vmem, 61, rfl⟩
abbrev cc4_stg8_1 : Ref sig .tc := ⟨.vmem, 62, rfl⟩
abbrev cc4_stg9_0 : Ref sig .tc := ⟨.vmem, 63, rfl⟩
abbrev cc4_stg10_0 : Ref sig .tc := ⟨.vmem, 64, rfl⟩
abbrev cc5_stg0_0 : Ref sig .tc := ⟨.vmem, 65, rfl⟩
abbrev cc5_stg0_1 : Ref sig .tc := ⟨.vmem, 66, rfl⟩
abbrev cc5_stg1_0 : Ref sig .tc := ⟨.vmem, 67, rfl⟩
abbrev cc5_stg1_1 : Ref sig .tc := ⟨.vmem, 68, rfl⟩
abbrev cc5_stg2_0 : Ref sig .tc := ⟨.vmem, 69, rfl⟩
abbrev cc5_stg3_0 : Ref sig .tc := ⟨.vmem, 70, rfl⟩
abbrev cc5_stg4_0 : Ref sig .tc := ⟨.vmem, 71, rfl⟩
abbrev cc5_stg5_0 : Ref sig .tc := ⟨.vmem, 72, rfl⟩
abbrev cc5_stg6_0 : Ref sig .tc := ⟨.vmem, 73, rfl⟩
abbrev cc5_stg6_1 : Ref sig .tc := ⟨.vmem, 74, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem10_0 : DmaSem sig := 14
abbrev cc1_sem0_0 : DmaSem sig := 15
abbrev cc1_sem0_1 : DmaSem sig := 16
abbrev cc1_sem1_0 : DmaSem sig := 17
abbrev cc1_sem1_1 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem6_1 : DmaSem sig := 24
abbrev cc2_sem0_0 : DmaSem sig := 25
abbrev cc2_sem0_1 : DmaSem sig := 26
abbrev cc2_sem1_0 : DmaSem sig := 27
abbrev cc2_sem1_1 : DmaSem sig := 28
abbrev cc2_sem2_0 : DmaSem sig := 29
abbrev cc2_sem3_0 : DmaSem sig := 30
abbrev cc2_sem4_0 : DmaSem sig := 31
abbrev cc2_sem5_0 : DmaSem sig := 32
abbrev cc2_sem6_0 : DmaSem sig := 33
abbrev cc2_sem7_0 : DmaSem sig := 34
abbrev cc2_sem7_1 : DmaSem sig := 35
abbrev cc2_sem8_0 : DmaSem sig := 36
abbrev cc2_sem8_1 : DmaSem sig := 37
abbrev cc2_sem9_0 : DmaSem sig := 38
abbrev cc2_sem10_0 : DmaSem sig := 39
abbrev cc3_sem0_0 : DmaSem sig := 40
abbrev cc3_sem0_1 : DmaSem sig := 41
abbrev cc3_sem1_0 : DmaSem sig := 42
abbrev cc3_sem1_1 : DmaSem sig := 43
abbrev cc3_sem2_0 : DmaSem sig := 44
abbrev cc3_sem3_0 : DmaSem sig := 45
abbrev cc3_sem4_0 : DmaSem sig := 46
abbrev cc3_sem5_0 : DmaSem sig := 47
abbrev cc3_sem6_0 : DmaSem sig := 48
abbrev cc3_sem6_1 : DmaSem sig := 49
abbrev cc4_sem0_0 : DmaSem sig := 50
abbrev cc4_sem0_1 : DmaSem sig := 51
abbrev cc4_sem1_0 : DmaSem sig := 52
abbrev cc4_sem1_1 : DmaSem sig := 53
abbrev cc4_sem2_0 : DmaSem sig := 54
abbrev cc4_sem3_0 : DmaSem sig := 55
abbrev cc4_sem4_0 : DmaSem sig := 56
abbrev cc4_sem5_0 : DmaSem sig := 57
abbrev cc4_sem6_0 : DmaSem sig := 58
abbrev cc4_sem7_0 : DmaSem sig := 59
abbrev cc4_sem7_1 : DmaSem sig := 60
abbrev cc4_sem8_0 : DmaSem sig := 61
abbrev cc4_sem8_1 : DmaSem sig := 62
abbrev cc4_sem9_0 : DmaSem sig := 63
abbrev cc4_sem10_0 : DmaSem sig := 64
abbrev cc5_sem0_0 : DmaSem sig := 65
abbrev cc5_sem0_1 : DmaSem sig := 66
abbrev cc5_sem1_0 : DmaSem sig := 67
abbrev cc5_sem1_1 : DmaSem sig := 68
abbrev cc5_sem2_0 : DmaSem sig := 69
abbrev cc5_sem3_0 : DmaSem sig := 70
abbrev cc5_sem4_0 : DmaSem sig := 71
abbrev cc5_sem5_0 : DmaSem sig := 72
abbrev cc5_sem6_0 : DmaSem sig := 73
abbrev cc5_sem6_1 : DmaSem sig := 74

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S5000x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S5000x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S1x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S1x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 2 → Memref sig .tc .vmem S5000x128 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_8 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_9 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_10 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S128x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S128x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x128 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev stage4_8 : Fin 2 → Memref sig .tc .vmem S5000x128 .f32 := fun | 0 => Memref.whole cc4_stg8_0 | 1 => Memref.whole cc4_stg8_1 | ⟨_ + 2, h⟩ => absurd h (Nat.not_lt.2 (Nat.le_add_left _ _))
abbrev sem4_8 : Fin 2 → DmaSem sig := fun | 0 => cc4_sem8_0 | 1 => cc4_sem8_1 | ⟨_ + 2, h⟩ => absurd h (Nat.not_lt.2 (Nat.le_add_left _ _))
abbrev reads4_8 : Fin grid4.rank → Bool := ![true]

abbrev stage4_9 : Fin 1 → Memref sig .tc .vmem S1x128 .f32 := fun | 0 => Memref.whole cc4_stg9_0 | ⟨_ + 1, h⟩ => absurd h (Nat.not_lt.2 (Nat.le_add_left _ _))
abbrev sem4_9 : Fin 1 → DmaSem sig := fun | 0 => cc4_sem9_0 | ⟨_ + 1, h⟩ => absurd h (Nat.not_lt.2 (Nat.le_add_left _ _))
abbrev reads4_9 : Fin grid4.rank → Bool := ![false]

abbrev stage4_10 : Fin 1 → Memref sig .tc .vmem S1x128 .f32 := fun | 0 => Memref.whole cc4_stg10_0 | ⟨_ + 1, h⟩ => absurd h (Nat.not_lt.2 (Nat.le_add_left _ _))
abbrev sem4_10 : Fin 1 → DmaSem sig := fun | 0 => cc4_sem10_0 | ⟨_ + 1, h⟩ => absurd h (Nat.not_lt.2 (Nat.le_add_left _ _))
abbrev reads4_10 : Fin grid4.rank → Bool := ![false]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x128 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 2 → Memref sig .tc .vmem S5000x128 .f32 := fun | 0 => Memref.whole cc5_stg6_0 | 1 => Memref.whole cc5_stg6_1 | ⟨_ + 2, h⟩ => absurd h (Nat.not_lt.2 (Nat.le_add_left _ _))
abbrev sem5_6 : Fin 2 → DmaSem sig := fun | 0 => cc5_sem6_0 | 1 => cc5_sem6_1 | ⟨_ + 2, h⟩ => absurd h (Nat.not_lt.2 (Nat.le_add_left _ _))
abbrev reads5_6 : Fin grid5.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  transposes_S3x128x128_S3x128x128_0_2_1 : S3x128x128.Transposes [0, 2, 1] S3x128x128
  transposes_S128x128_S128x128_1_0 : S128x128.Transposes [1, 0] S128x128
  shapeCasts_S128_S1x128 : S128.ShapeCasts S1x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3x128_S1x128_0_0 : S3x128.Slices ![0, 0] S1x128
  shapeCasts_S1x128_S128 : S1x128.ShapeCasts S128
  slices_S3x128x128_S1x128x128_0_0_0 : S3x128x128.Slices ![0, 0, 0] S1x128x128
  shapeCasts_S1x128x128_S128x128 : S1x128x128.ShapeCasts S128x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  reduces_S5000x128_S5000 : S5000x128.Reduces [1] S5000
  shapeCasts_S5000_S5000x1 : S5000.ShapeCasts S5000x1
  broadcasts_S5000x1_S5000x128 : S5000x1.Broadcasts S5000x128
  reduces_S5000x128_S128 : S5000x128.Reduces [0] S128
  bcast_S_S1x128 : S_.BroadcastsInDim S1x128 (![] : Fin 0 → Fin S1x128.rank)
  slices_S3x128_S1x128_1_0 : S3x128.Slices ![1, 0] S1x128
  slices_S3x128x128_S1x128x128_1_0_0 : S3x128x128.Slices ![1, 0, 0] S1x128x128
  slices_S3x128_S1x128_2_0 : S3x128.Slices ![2, 0] S1x128
  slices_S3x128x128_S1x128x128_2_0_0 : S3x128x128.Slices ![2, 0, 0] S1x128x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x128.size a ≤ S50000x128.size a
  hwx0_7 : ∀ i : grid0.Coords, EltTy.bits .f32 = 32 ∨ (Rect.block (s := S50000x128) S5000x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5000x128.size a ≤ S50000x128.size a
  hwx0_8 : ∀ i : grid0.Coords, EltTy.bits .f32 = 32 ∨ (Rect.block (s := S50000x128) S5000x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x128.size a
  hwx0_9 : ∀ i : grid0.Coords, EltTy.bits .f32 = 32 ∨ (Rect.block (s := S1x128) S1x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x128.size a ≤ S1x128.size a
  hwx0_10 : ∀ i : grid0.Coords, EltTy.bits .f32 = 32 ∨ (Rect.block (s := S1x128) S1x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x128.size a ≤ S50000x128.size a
  hwx1_6 : ∀ i : grid1.Coords, EltTy.bits .f32 = 32 ∨ (Rect.block (s := S50000x128) S5000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x128.size a ≤ S50000x128.size a
  hwx2_1 : ∀ i : grid2.Coords, EltTy.bits .f32 = 32 ∨ (Rect.block (s := S50000x128) S5000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S5000x128.size a ≤ S50000x128.size a
  hwx2_8 : ∀ i : grid2.Coords, EltTy.bits .f32 = 32 ∨ (Rect.block (s := S50000x128) S5000x128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x128.size a ≤ S1x128.size a
  hwx2_9 : ∀ i : grid2.Coords, EltTy.bits .f32 = 32 ∨ (Rect.block (s := S1x128) S1x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S1x128.size a ≤ S1x128.size a
  hwx2_10 : ∀ i : grid2.Coords, EltTy.bits .f32 = 32 ∨ (Rect.block (s := S1x128) S1x128.size (cc2_transform_10 i) (hinb2_10 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x128.size a ≤ S50000x128.size a
  hwx3_1 : ∀ i : grid3.Coords, EltTy.bits .f32 = 32 ∨ (Rect.block (s := S50000x128) S5000x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x128.size a ≤ S1x128.size a
  hwx3_5 : ∀ i : grid3.Coords, EltTy.bits .f32 = 32 ∨ (Rect.block (s := S1x128) S1x128.size (cc3_transform_5 i) (hinb3_5 i)).WholeWords (EltTy.packing .f32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S5000x128.size a ≤ S50000x128.size a
  hwx3_6 : ∀ i : grid3.Coords, EltTy.bits .f32 = 32 ∨ (Rect.block (s := S50000x128) S5000x128.size (cc3_transform_6 i) (hinb3_6 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S128x128.size a ≤ S128x128.size a
  hwx4_4 : ∀ i : grid4.Coords, EltTy.bits .f32 = 32 ∨ (Rect.block (s := S128x128) S128x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S128x128.size a ≤ S128x128.size a
  hwx4_5 : ∀ i : grid4.Coords, EltTy.bits .f32 = 32 ∨ (Rect.block (s := S128x128) S128x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x128.size a ≤ S50000x128.size a
  hwx4_7 : ∀ i : grid4.Coords, EltTy.bits .f32 = 32 ∨ (Rect.block (s := S50000x128) S5000x128.size (cc4_transform_7 i) (hinb4_7 i)).WholeWords (EltTy.packing .f32)
  hstage4_8 : ∀ j, (stage4_8 j).IsWhole
  nbuf4_8 : grid4.bufCount reads4_8 false = 2
  hreads4_8 : ∀ i i' : grid4.Coords, (∀ a, reads4_8 a = true → i a = i' a) → cc4_transform_8 i = cc4_transform_8 i'
  hinb4_8 : ∀ (i : grid4.Coords) a, (cc4_transform_8 i a + 1) * S5000x128.size a ≤ S50000x128.size a
  hwx4_8 : ∀ i : grid4.Coords, EltTy.bits .f32 = 32 ∨ (Rect.block (s := S50000x128) S5000x128.size (cc4_transform_8 i) (hinb4_8 i)).WholeWords (EltTy.packing .f32)
  hstage4_9 : ∀ j, (stage4_9 j).IsWhole
  nbuf4_9 : grid4.bufCount reads4_9 true = 1
  hreads4_9 : ∀ i i' : grid4.Coords, (∀ a, reads4_9 a = true → i a = i' a) → cc4_transform_9 i = cc4_transform_9 i'
  hinb4_9 : ∀ (i : grid4.Coords) a, (cc4_transform_9 i a + 1) * S1x128.size a ≤ S1x128.size a
  hwx4_9 : ∀ i : grid4.Coords, EltTy.bits .f32 = 32 ∨ (Rect.block (s := S1x128) S1x128.size (cc4_transform_9 i) (hinb4_9 i)).WholeWords (EltTy.packing .f32)
  hstage4_10 : ∀ j, (stage4_10 j).IsWhole
  nbuf4_10 : grid4.bufCount reads4_10 true = 1
  hreads4_10 : ∀ i i' : grid4.Coords, (∀ a, reads4_10 a = true → i a = i' a) → cc4_transform_10 i = cc4_transform_10 i'
  hinb4_10 : ∀ (i : grid4.Coords) a, (cc4_transform_10 i a + 1) * S1x128.size a ≤ S1x128.size a
  hwx4_10 : ∀ i : grid4.Coords, EltTy.bits .f32 = 32 ∨ (Rect.block (s := S1x128) S1x128.size (cc4_transform_10 i) (hinb4_10 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x128.size a ≤ S50000x128.size a
  hwx5_1 : ∀ i : grid5.Coords, EltTy.bits .f32 = 32 ∨ (Rect.block (s := S50000x128) S5000x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x128.size a ≤ S1x128.size a
  hwx5_5 : ∀ i : grid5.Coords, EltTy.bits .f32 = 32 ∨ (Rect.block (s := S1x128) S1x128.size (cc5_transform_5 i) (hinb5_5 i)).WholeWords (EltTy.packing .f32)
  hstage5_6 : ∀ j, (stage5_6 j).IsWhole
  nbuf5_6 : grid5.bufCount reads5_6 false = 2
  hreads5_6 : ∀ i i' : grid5.Coords, (∀ a, reads5_6 a = true → i a = i' a) → cc5_transform_6 i = cc5_transform_6 i'
  hinb5_6 : ∀ (i : grid5.Coords) a, (cc5_transform_6 i a + 1) * S5000x128.size a ≤ S50000x128.size a
  hwx5_6 : ∀ i : grid5.Coords, EltTy.bits .f32 = 32 ∨ (Rect.block (s := S50000x128) S5000x128.size (cc5_transform_6 i) (hinb5_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v33) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v31) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v35) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v36_0) S5000x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v36_1) S5000x128.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v36_2) S1x128.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v36_3) S1x128.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v36_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36_1) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v48) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v49) S5000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v49) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v61) S5000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v66) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v64) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v68) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v15) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v16) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v69_0) S5000x128.size cc2_transform_7 reads2_7 true false 2 stage2_7 sem2_7
    hrank2 hreads2_7 hinb2_7 nbuf2_7 (Memref.isWhole_whole _) hwx2_7 hstage2_7

abbrev win2_8 : Pipeline.Window sig grid2 :=
  Pipeline.Window.ofSpec (Memref.whole main_v69_1) S5000x128.size cc2_transform_8 reads2_8 true false 2 stage2_8 sem2_8
    hrank2 hreads2_8 hinb2_8 nbuf2_8 (Memref.isWhole_whole _) hwx2_8 hstage2_8

abbrev win2_9 : Pipeline.Window sig grid2 :=
  Pipeline.Window.ofSpec (Memref.whole main_v69_2) S1x128.size cc2_transform_9 reads2_9 true true 1 stage2_9 sem2_9
    hrank2 hreads2_9 hinb2_9 nbuf2_9 (Memref.isWhole_whole _) hwx2_9 hstage2_9

abbrev win2_10 : Pipeline.Window sig grid2 :=
  Pipeline.Window.ofSpec (Memref.whole main_v69_3) S1x128.size cc2_transform_10 reads2_10 true true 1 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

abbrev win3_0 : Pipeline.Window sig grid3 :=
  Pipeline.Window.ofSpec (Memref.whole main_v69_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v69_1) S5000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v71) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v75) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v78) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v81) S1x128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v82) S5000x128.size cc3_transform_6 reads3_6 true false 2 stage3_6 sem3_6
    hrank3 hreads3_6 hinb3_6 nbuf3_6 (Memref.isWhole_whole _) hwx3_6 hstage3_6

abbrev win3 : Fin 7 → Pipeline.Window sig grid3 := fun | 0 => win3_0 | 1 => win3_1 | 2 => win3_2 | 3 => win3_3 | 4 => win3_4 | 5 => win3_5 | 6 => win3_6 | ⟨_ + 7, h⟩ => absurd h (Nat.not_lt.2 (Nat.le_add_left _ _))
abbrev spec3 : Fin 7 → Pipeline.WinSpec sig grid3.rank := fun w => (win3 w).toWinSpec

abbrev win4_0 : Pipeline.Window sig grid4 :=
  Pipeline.Window.ofSpec (Memref.whole main_v82) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v94) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v99) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v97) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v101) S128x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v15) S128x128.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v16) S1x128.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v102_0) S5000x128.size cc4_transform_7 reads4_7 true false 2 stage4_7 sem4_7
    hrank4 hreads4_7 hinb4_7 nbuf4_7 (Memref.isWhole_whole _) hwx4_7 hstage4_7

abbrev win4_8 : Pipeline.Window sig grid4 :=
  Pipeline.Window.ofSpec (Memref.whole main_v102_1) S5000x128.size cc4_transform_8 reads4_8 true false 2 stage4_8 sem4_8
    hrank4 hreads4_8 hinb4_8 nbuf4_8 (Memref.isWhole_whole _) hwx4_8 hstage4_8

abbrev win4_9 : Pipeline.Window sig grid4 :=
  Pipeline.Window.ofSpec (Memref.whole main_v102_2) S1x128.size cc4_transform_9 reads4_9 true true 1 stage4_9 sem4_9
    hrank4 hreads4_9 hinb4_9 nbuf4_9 (Memref.isWhole_whole _) hwx4_9 hstage4_9

abbrev win4_10 : Pipeline.Window sig grid4 :=
  Pipeline.Window.ofSpec (Memref.whole main_v102_3) S1x128.size cc4_transform_10 reads4_10 true true 1 stage4_10 sem4_10
    hrank4 hreads4_10 hinb4_10 nbuf4_10 (Memref.isWhole_whole _) hwx4_10 hstage4_10

abbrev win4 : Fin 11 → Pipeline.Window sig grid4 := fun | 0 => win4_0 | 1 => win4_1 | 2 => win4_2 | 3 => win4_3 | 4 => win4_4 | 5 => win4_5 | 6 => win4_6 | 7 => win4_7 | 8 => win4_8 | 9 => win4_9 | 10 => win4_10 | ⟨_ + 11, h⟩ => absurd h (Nat.not_lt.2 (Nat.le_add_left _ _))
abbrev spec4 : Fin 11 → Pipeline.WinSpec sig grid4.rank := fun w => (win4 w).toWinSpec

abbrev win5_0 : Pipeline.Window sig grid5 :=
  Pipeline.Window.ofSpec (Memref.whole main_v102_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v102_1) S5000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v104) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v108) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v111) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v114) S1x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v115) S5000x128.size cc5_transform_6 reads5_6 true false 2 stage5_6 sem5_6
    hrank5 hreads5_6 hinb5_6 nbuf5_6 (Memref.isWhole_whole _) hwx5_6 hstage5_6

abbrev win5 : Fin 7 → Pipeline.Window sig grid5 := fun | 0 => win5_0 | 1 => win5_1 | 2 => win5_2 | 3 => win5_3 | 4 => win5_4 | 5 => win5_5 | 6 => win5_6 | ⟨_ + 7, h⟩ => absurd h (Nat.not_lt.2 (Nat.le_add_left _ _))
abbrev spec5 : Fin 7 → Pipeline.WinSpec sig grid5.rank := fun w => (win5 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S3x128x128 : Shape := ⟨3, ![3, 128, 128]⟩
abbrev S3x128 : Shape := ⟨2, ![3, 128]⟩
abbrev S128x128 : Shape := ⟨2, ![128, 128]⟩
abbrev S128 : Shape := ⟨1, ![128]⟩
abbrev S1x800000 : Shape := ⟨2, ![1, 800000]⟩
abbrev S800000 : Shape := ⟨1, ![800000]⟩
abbrev S1x128x128 : Shape := ⟨3, ![1, 128, 128]⟩
abbrev S1x128 : Shape := ⟨2, ![1, 128]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩

abbrev nBuf : Space → Nat
  | .hbm => 343
  | .vmem => 0
  | .smem => 0
  | _ => 0

abbrev hbmTy0_0 (i : Nat) : BufTy := match i % 128 with
  | 0 => ⟨S50000x128, .f32⟩
  | 1 => ⟨S2x800000, .i32⟩
  | 2 => ⟨S3x128x128, .f32⟩
  | 3 => ⟨S3x128, .f32⟩
  | 4 => ⟨S3x128x128, .f32⟩
  | 5 => ⟨S3x128, .f32⟩
  | 6 => ⟨S3x128, .f32⟩
  | 7 => ⟨S128x128, .f32⟩
  | 8 => ⟨S128, .f32⟩
  | 9 => ⟨S1x800000, .i32⟩
  | 10 => ⟨S800000, .i32⟩
  | 11 => ⟨S1x800000, .i32⟩
  | 12 => ⟨S800000, .i32⟩
  | 13 => ⟨S1x128x128, .f32⟩
  | 14 => ⟨S128x128, .f32⟩
  | 15 => ⟨S1x128, .f32⟩
  | 16 => ⟨S128, .f32⟩
  | 17 => ⟨S1x128x128, .f32⟩
  | 18 => ⟨S128x128, .f32⟩
  | 19 => ⟨S1x128, .f32⟩
  | 20 => ⟨S128, .f32⟩
  | 21 => ⟨S1x128, .f32⟩
  | 22 => ⟨S128, .f32⟩
  | 23 => ⟨S128x128, .f32⟩
  | 24 => ⟨S50000x128, .f32⟩
  | 25 => ⟨S1x128, .f32⟩
  | 26 => ⟨S50000x128, .f32⟩
  | 27 => ⟨S50000x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S_, .f32⟩
  | 38 => ⟨S50000x128, .f32⟩
  | 39 => ⟨S800000x1, .i32⟩
  | 40 => ⟨S50000x128, .f32⟩
  | 41 => ⟨S_, .f32⟩
  | 42 => ⟨S800000, .f32⟩
  | 43 => ⟨S_, .f32⟩
  | 44 => ⟨S50000, .f32⟩
  | 45 => ⟨S800000x1, .i32⟩
  | 46 => ⟨S50000, .f32⟩
  | 47 => ⟨S_, .f32⟩
  | 48 => ⟨S50000, .f32⟩
  | 49 => ⟨S50000, .f32⟩
  | 50 => ⟨S50000x1, .f32⟩
  | 51 => ⟨S50000x128, .f32⟩
  | 52 => ⟨S50000x128, .f32⟩
  | 53 => ⟨S128x128, .f32⟩
  | 54 => ⟨S50000x128, .f32⟩
  | 55 => ⟨S1x128, .f32⟩
  | 56 => ⟨S50000x128, .f32⟩
  | 57 => ⟨S50000x128, .f32⟩
  | 58 => ⟨S128x128, .f32⟩
  | 59 => ⟨S50000x128, .f32⟩
  | 60 => ⟨S50000x128, .f32⟩
  | 61 => ⟨S50000x128, .f32⟩
  | 62 => ⟨S_, .f32⟩
  | 63 => ⟨S50000, .f32⟩
  | 64 => ⟨S50000x1, .f32⟩
  | 65 => ⟨S50000x1, .f32⟩
  | 66 => ⟨S_, .f32⟩
  | 67 => ⟨S50000x1, .f32⟩
  | 68 => ⟨S50000x1, .f32⟩
  | 69 => ⟨S50000x128, .f32⟩
  | 70 => ⟨S50000x128, .f32⟩
  | 71 => ⟨S_, .f32⟩
  | 72 => ⟨S128, .f32⟩
  | 73 => ⟨S_, .f32⟩
  | 74 => ⟨S128, .f32⟩
  | 75 => ⟨S128, .f32⟩
  | 76 => ⟨S_, .i32⟩
  | 77 => ⟨S_, .f32⟩
  | 78 => ⟨S128, .f32⟩
  | 79 => ⟨S1x128, .f32⟩
  | 80 => ⟨S_, .f32⟩
  | 81 => ⟨S1x128, .f32⟩
  | 82 => ⟨S1x128, .f32⟩
  | 83 => ⟨S50000x128, .f32⟩
  | 84 => ⟨S50000x128, .f32⟩
  | 85 => ⟨S50000x128, .f32⟩
  | 86 => ⟨S_, .f32⟩
  | 87 => ⟨S_, .f32⟩
  | 88 => ⟨S_, .f32⟩
  | 89 => ⟨S_, .f32⟩
  | 90 => ⟨S128, .f32⟩
  | 91 => ⟨S128, .f32⟩
  | 92 => ⟨S128, .f32⟩
  | 93 => ⟨S_, .f32⟩
  | 94 => ⟨S_, .i1⟩
  | 95 => ⟨S_, .f32⟩
  | 96 => ⟨S_, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S_, .f32⟩
  | 103 => ⟨S128, .f32⟩
  | 104 => ⟨S128, .f32⟩
  | 105 => ⟨S128, .f32⟩
  | 106 => ⟨S1x128, .f32⟩
  | 107 => ⟨S50000x128, .f32⟩
  | 108 => ⟨S50000x128, .f32⟩
  | 109 => ⟨S1x128, .f32⟩
  | 110 => ⟨S50000x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .i1⟩
  | 118 => ⟨S_, .f32⟩
  | 119 => ⟨S50000x128, .f32⟩
  | 120 => ⟨S50000x128, .f32⟩
  | 121 => ⟨S50000x128, .f32⟩
  | 122 => ⟨S50000x128, .f32⟩
  | 123 => ⟨S1x128x128, .f32⟩
  | 124 => ⟨S128x128, .f32⟩
  | 125 => ⟨S1x128, .f32⟩
  | 126 => ⟨S128, .f32⟩
  | 127 => ⟨S1x128x128, .f32⟩
  | _ => ⟨S50000x128, .f32⟩

abbrev hbmTy0_1 (i : Nat) : BufTy := match i % 128 with
  | 0 => ⟨S128x128, .f32⟩
  | 1 => ⟨S1x128, .f32⟩
  | 2 => ⟨S128, .f32⟩
  | 3 => ⟨S1x128, .f32⟩
  | 4 => ⟨S128, .f32⟩
  | 5 => ⟨S128x128, .f32⟩
  | 6 => ⟨S50000x128, .f32⟩
  | 7 => ⟨S1x128, .f32⟩
  | 8 => ⟨S50000x128, .f32⟩
  | 9 => ⟨S50000x128, .f32⟩
  | 10 => ⟨S_, .i32⟩
  | 11 => ⟨S800000, .i32⟩
  | 12 => ⟨S800000, .i1⟩
  | 13 => ⟨S_, .i32⟩
  | 14 => ⟨S800000, .i32⟩
  | 15 => ⟨S800000, .i32⟩
  | 16 => ⟨S800000, .i32⟩
  | 17 => ⟨S800000x1, .i32⟩
  | 18 => ⟨S800000x128, .f32⟩
  | 19 => ⟨S_, .f32⟩
  | 20 => ⟨S50000x128, .f32⟩
  | 21 => ⟨S800000x1, .i32⟩
  | 22 => ⟨S50000x128, .f32⟩
  | 23 => ⟨S_, .f32⟩
  | 24 => ⟨S800000, .f32⟩
  | 25 => ⟨S_, .f32⟩
  | 26 => ⟨S50000, .f32⟩
  | 27 => ⟨S800000x1, .i32⟩
  | 28 => ⟨S50000, .f32⟩
  | 29 => ⟨S_, .f32⟩
  | 30 => ⟨S50000, .f32⟩
  | 31 => ⟨S50000, .f32⟩
  | 32 => ⟨S50000x1, .f32⟩
  | 33 => ⟨S50000x128, .f32⟩
  | 34 => ⟨S50000x128, .f32⟩
  | 35 => ⟨S128x128, .f32⟩
  | 36 => ⟨S50000x128, .f32⟩
  | 37 => ⟨S1x128, .f32⟩
  | 38 => ⟨S50000x128, .f32⟩
  | 39 => ⟨S50000x128, .f32⟩
  | 40 => ⟨S128x128, .f32⟩
  | 41 => ⟨S50000x128, .f32⟩
  | 42 => ⟨S50000x128, .f32⟩
  | 43 => ⟨S50000x128, .f32⟩
  | 44 => ⟨S_, .f32⟩
  | 45 => ⟨S50000, .f32⟩
  | 46 => ⟨S50000x1, .f32⟩
  | 47 => ⟨S50000x1, .f32⟩
  | 48 => ⟨S_, .f32⟩
  | 49 => ⟨S50000x1, .f32⟩
  | 50 => ⟨S50000x1, .f32⟩
  | 51 => ⟨S50000x128, .f32⟩
  | 52 => ⟨S50000x128, .f32⟩
  | 53 => ⟨S_, .f32⟩
  | 54 => ⟨S128, .f32⟩
  | 55 => ⟨S_, .f32⟩
  | 56 => ⟨S128, .f32⟩
  | 57 => ⟨S128, .f32⟩
  | 58 => ⟨S_, .i32⟩
  | 59 => ⟨S_, .f32⟩
  | 60 => ⟨S128, .f32⟩
  | 61 => ⟨S1x128, .f32⟩
  | 62 => ⟨S_, .f32⟩
  | 63 => ⟨S1x128, .f32⟩
  | 64 => ⟨S1x128, .f32⟩
  | 65 => ⟨S50000x128, .f32⟩
  | 66 => ⟨S50000x128, .f32⟩
  | 67 => ⟨S50000x128, .f32⟩
  | 68 => ⟨S_, .f32⟩
  | 69 => ⟨S_, .f32⟩
  | 70 => ⟨S_, .f32⟩
  | 71 => ⟨S_, .f32⟩
  | 72 => ⟨S128, .f32⟩
  | 73 => ⟨S128, .f32⟩
  | 74 => ⟨S128, .f32⟩
  | 75 => ⟨S_, .f32⟩
  | 76 => ⟨S_, .i1⟩
  | 77 => ⟨S_, .f32⟩
  | 78 => ⟨S_, .f32⟩
  | 79 => ⟨S128, .f32⟩
  | 80 => ⟨S128, .f32⟩
  | 81 => ⟨S1x128, .f32⟩
  | 82 => ⟨S50000x128, .f32⟩
  | 83 => ⟨S50000x128, .f32⟩
  | 84 => ⟨S_, .f32⟩
  | 85 => ⟨S128, .f32⟩
  | 86 => ⟨S128, .f32⟩
  | 87 => ⟨S128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .i1⟩
  | 100 => ⟨S_, .f32⟩
  | 101 => ⟨S50000x128, .f32⟩
  | 102 => ⟨S50000x128, .f32⟩
  | 103 => ⟨S50000x128, .f32⟩
  | 104 => ⟨S50000x128, .f32⟩
  | 105 => ⟨S1x128x128, .f32⟩
  | 106 => ⟨S128x128, .f32⟩
  | 107 => ⟨S1x128, .f32⟩
  | 108 => ⟨S128, .f32⟩
  | 109 => ⟨S1x128x128, .f32⟩
  | 110 => ⟨S128x128, .f32⟩
  | 111 => ⟨S1x128, .f32⟩
  | 112 => ⟨S128, .f32⟩
  | 113 => ⟨S1x128, .f32⟩
  | 114 => ⟨S128, .f32⟩
  | 115 => ⟨S128x128, .f32⟩
  | 116 => ⟨S50000x128, .f32⟩
  | 117 => ⟨S1x128, .f32⟩
  | 118 => ⟨S50000x128, .f32⟩
  | 119 => ⟨S50000x128, .f32⟩
  | 120 => ⟨S_, .i32⟩
  | 121 => ⟨S800000, .i32⟩
  | 122 => ⟨S800000, .i1⟩
  | 123 => ⟨S_, .i32⟩
  | 124 => ⟨S800000, .i32⟩
  | 125 => ⟨S800000, .i32⟩
  | 126 => ⟨S800000, .i32⟩
  | 127 => ⟨S800000x1, .i32⟩
  | _ => ⟨S50000x128, .f32⟩

abbrev hbmTy0_2 (i : Nat) : BufTy := match i % 128 with
  | 0 => ⟨S800000x128, .f32⟩
  | 1 => ⟨S_, .f32⟩
  | 2 => ⟨S50000x128, .f32⟩
  | 3 => ⟨S800000x1, .i32⟩
  | 4 => ⟨S50000x128, .f32⟩
  | 5 => ⟨S_, .f32⟩
  | 6 => ⟨S800000, .f32⟩
  | 7 => ⟨S_, .f32⟩
  | 8 => ⟨S50000, .f32⟩
  | 9 => ⟨S800000x1, .i32⟩
  | 10 => ⟨S50000, .f32⟩
  | 11 => ⟨S_, .f32⟩
  | 12 => ⟨S50000, .f32⟩
  | 13 => ⟨S50000, .f32⟩
  | 14 => ⟨S50000x1, .f32⟩
  | 15 => ⟨S50000x128, .f32⟩
  | 16 => ⟨S50000x128, .f32⟩
  | 17 => ⟨S128x128, .f32⟩
  | 18 => ⟨S50000x128, .f32⟩
  | 19 => ⟨S1x128, .f32⟩
  | 20 => ⟨S50000x128, .f32⟩
  | 21 => ⟨S50000x128, .f32⟩
  | 22 => ⟨S128x128, .f32⟩
  | 23 => ⟨S50000x128, .f32⟩
  | 24 => ⟨S50000x128, .f32⟩
  | 25 => ⟨S50000x128, .f32⟩
  | 26 => ⟨S_, .f32⟩
  | 27 => ⟨S50000, .f32⟩
  | 28 => ⟨S50000x1, .f32⟩
  | 29 => ⟨S50000x1, .f32⟩
  | 30 => ⟨S_, .f32⟩
  | 31 => ⟨S50000x1, .f32⟩
  | 32 => ⟨S50000x1, .f32⟩
  | 33 => ⟨S50000x128, .f32⟩
  | 34 => ⟨S50000x128, .f32⟩
  | 35 => ⟨S_, .f32⟩
  | 36 => ⟨S128, .f32⟩
  | 37 => ⟨S_, .f32⟩
  | 38 => ⟨S128, .f32⟩
  | 39 => ⟨S128, .f32⟩
  | 40 => ⟨S_, .i32⟩
  | 41 => ⟨S_, .f32⟩
  | 42 => ⟨S128, .f32⟩
  | 43 => ⟨S1x128, .f32⟩
  | 44 => ⟨S_, .f32⟩
  | 45 => ⟨S1x128, .f32⟩
  | 46 => ⟨S1x128, .f32⟩
  | 47 => ⟨S50000x128, .f32⟩
  | 48 => ⟨S50000x128, .f32⟩
  | 49 => ⟨S50000x128, .f32⟩
  | 50 => ⟨S_, .f32⟩
  | 51 => ⟨S_, .f32⟩
  | 52 => ⟨S_, .f32⟩
  | 53 => ⟨S_, .f32⟩
  | 54 => ⟨S128, .f32⟩
  | 55 => ⟨S128, .f32⟩
  | 56 => ⟨S128, .f32⟩
  | 57 => ⟨S_, .f32⟩
  | 58 => ⟨S_, .i1⟩
  | 59 => ⟨S_, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S128, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .i1⟩
  | 82 => ⟨S_, .f32⟩
  | 83 => ⟨S50000x128, .f32⟩
  | 84 => ⟨S50000x128, .f32⟩
  | 85 => ⟨S50000x128, .f32⟩
  | 86 => ⟨S50000x128, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_c : Ref sig .tc := ⟨.hbm, 28, rfl⟩
abbrev main_v19 : Ref sig .tc := ⟨.hbm, 29, rfl⟩
abbrev main_v20 : Ref sig .tc := ⟨.hbm, 30, rfl⟩
abbrev main_c_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_1 : Ref sig .tc := ⟨.hbm, 41, rfl⟩
abbrev main_v29 : Ref sig .tc := ⟨.hbm, 42, rfl⟩
abbrev main_cst_2 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_3 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_4 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_5 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_6 : Ref sig .tc := ⟨.hbm, 71, rfl⟩
abbrev main_v54 : Ref sig .tc := ⟨.hbm, 72, rfl⟩
abbrev main_cst_7 : Ref sig .tc := ⟨.hbm, 73, rfl⟩
abbrev main_v55 : Ref sig .tc := ⟨.hbm, 74, rfl⟩
abbrev main_v56 : Ref sig .tc := ⟨.hbm, 75, rfl⟩
abbrev main_c_8 : Ref sig .tc := ⟨.hbm, 76, rfl⟩
abbrev main_call0_cst : Ref sig .tc := ⟨.hbm, 77, rfl⟩
abbrev main_call0_v0 : Ref sig .tc := ⟨.hbm, 78, rfl⟩
abbrev main_call0_v1 : Ref sig .tc := ⟨.hbm, 79, rfl⟩
abbrev main_call0_cst_0 : Ref sig .tc := ⟨.hbm, 80, rfl⟩
abbrev main_call0_v2 : Ref sig .tc := ⟨.hbm, 81, rfl⟩
abbrev main_call0_v3 : Ref sig .tc := ⟨.hbm, 82, rfl⟩
abbrev main_call0_v4 : Ref sig .tc := ⟨.hbm, 83, rfl⟩
abbrev main_call0_v5 : Ref sig .tc := ⟨.hbm, 84, rfl⟩
abbrev main_call0_v6 : Ref sig .tc := ⟨.hbm, 85, rfl⟩
abbrev main_call0_v7 : Ref sig .tc := ⟨.hbm, 86, rfl⟩
abbrev main_call0_cst_1 : Ref sig .tc := ⟨.hbm, 87, rfl⟩
abbrev main_call0_v8 : Ref sig .tc := ⟨.hbm, 88, rfl⟩
abbrev main_call0_cst_2 : Ref sig .tc := ⟨.hbm, 89, rfl⟩
abbrev main_call0_v9 : Ref sig .tc := ⟨.hbm, 90, rfl⟩
abbrev main_call0_v10 : Ref sig .tc := ⟨.hbm, 91, rfl⟩
abbrev main_call0_v11 : Ref sig .tc := ⟨.hbm, 92, rfl⟩
abbrev main_call0_cst_3 : Ref sig .tc := ⟨.hbm, 93, rfl⟩
abbrev main_call0_v12 : Ref sig .tc := ⟨.hbm, 94, rfl⟩
abbrev main_call0_cst_4 : Ref sig .tc := ⟨.hbm, 95, rfl⟩
abbrev main_call0_call0_v0 : Ref sig .tc := ⟨.hbm, 96, rfl⟩
abbrev main_call0_call0_v1 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_cst_9 : Ref sig .tc := ⟨.hbm, 102, rfl⟩
abbrev main_v61 : Ref sig .tc := ⟨.hbm, 103, rfl⟩
abbrev main_v62 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_cst_10 : Ref sig .tc := ⟨.hbm, 115, rfl⟩
abbrev main_v73 : Ref sig .tc := ⟨.hbm, 116, rfl⟩
abbrev main_v74 : Ref sig .tc := ⟨.hbm, 117, rfl⟩
abbrev main_cst_11 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩
abbrev main_v81 : Ref sig .tc := ⟨.hbm, 125, rfl⟩
abbrev main_v82 : Ref sig .tc := ⟨.hbm, 126, rfl⟩
abbrev main_v83 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_c_12 : Ref sig .tc := ⟨.hbm, 138, rfl⟩
abbrev main_v94 : Ref sig .tc := ⟨.hbm, 139, rfl⟩
abbrev main_v95 : Ref sig .tc := ⟨.hbm, 140, rfl⟩
abbrev main_c_13 : Ref sig .tc := ⟨.hbm, 141, rfl⟩
abbrev main_v96 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_v100 : Ref sig .tc := ⟨.hbm, 146, rfl⟩
abbrev main_cst_14 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_cst_15 : Ref sig .tc := ⟨.hbm, 151, rfl⟩
abbrev main_v104 : Ref sig .tc := ⟨.hbm, 152, rfl⟩
abbrev main_cst_16 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_cst_17 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_18 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_cst_19 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_cst_20 : Ref sig .tc := ⟨.hbm, 181, rfl⟩
abbrev main_v129 : Ref sig .tc := ⟨.hbm, 182, rfl⟩
abbrev main_cst_21 : Ref sig .tc := ⟨.hbm, 183, rfl⟩
abbrev main_v130 : Ref sig .tc := ⟨.hbm, 184, rfl⟩
abbrev main_v131 : Ref sig .tc := ⟨.hbm, 185, rfl⟩
abbrev main_c_22 : Ref sig .tc := ⟨.hbm, 186, rfl⟩
abbrev main_call2_cst : Ref sig .tc := ⟨.hbm, 187, rfl⟩
abbrev main_call2_v0 : Ref sig .tc := ⟨.hbm, 188, rfl⟩
abbrev main_call2_v1 : Ref sig .tc := ⟨.hbm, 189, rfl⟩
abbrev main_call2_cst_0 : Ref sig .tc := ⟨.hbm, 190, rfl⟩
abbrev main_call2_v2 : Ref sig .tc := ⟨.hbm, 191, rfl⟩
abbrev main_call2_v3 : Ref sig .tc := ⟨.hbm, 192, rfl⟩
abbrev main_call2_v4 : Ref sig .tc := ⟨.hbm, 193, rfl⟩
abbrev main_call2_v5 : Ref sig .tc := ⟨.hbm, 194, rfl⟩
abbrev main_call2_v6 : Ref sig .tc := ⟨.hbm, 195, rfl⟩
abbrev main_call2_v7 : Ref sig .tc := ⟨.hbm, 196, rfl⟩
abbrev main_call2_cst_1 : Ref sig .tc := ⟨.hbm, 197, rfl⟩
abbrev main_call2_v8 : Ref sig .tc := ⟨.hbm, 198, rfl⟩
abbrev main_call2_cst_2 : Ref sig .tc := ⟨.hbm, 199, rfl⟩
abbrev main_call2_v9 : Ref sig .tc := ⟨.hbm, 200, rfl⟩
abbrev main_call2_v10 : Ref sig .tc := ⟨.hbm, 201, rfl⟩
abbrev main_call2_v11 : Ref sig .tc := ⟨.hbm, 202, rfl⟩
abbrev main_call2_cst_3 : Ref sig .tc := ⟨.hbm, 203, rfl⟩
abbrev main_call2_v12 : Ref sig .tc := ⟨.hbm, 204, rfl⟩
abbrev main_call2_cst_4 : Ref sig .tc := ⟨.hbm, 205, rfl⟩
abbrev main_call2_call0_v0 : Ref sig .tc := ⟨.hbm, 206, rfl⟩
abbrev main_call2_call0_v1 : Ref sig .tc := ⟨.hbm, 207, rfl⟩
abbrev main_v132 : Ref sig .tc := ⟨.hbm, 208, rfl⟩
abbrev main_v133 : Ref sig .tc := ⟨.hbm, 209, rfl⟩
abbrev main_v134 : Ref sig .tc := ⟨.hbm, 210, rfl⟩
abbrev main_v135 : Ref sig .tc := ⟨.hbm, 211, rfl⟩
abbrev main_cst_23 : Ref sig .tc := ⟨.hbm, 212, rfl⟩
abbrev main_v136 : Ref sig .tc := ⟨.hbm, 213, rfl⟩
abbrev main_v137 : Ref sig .tc := ⟨.hbm, 214, rfl⟩
abbrev main_v138 : Ref sig .tc := ⟨.hbm, 215, rfl⟩
abbrev main_v139 : Ref sig .tc := ⟨.hbm, 216, rfl⟩
abbrev main_v140 : Ref sig .tc := ⟨.hbm, 217, rfl⟩
abbrev main_v141 : Ref sig .tc := ⟨.hbm, 218, rfl⟩
abbrev main_v142 : Ref sig .tc := ⟨.hbm, 219, rfl⟩
abbrev main_v143 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_cst_24 : Ref sig .tc := ⟨.hbm, 225, rfl⟩
abbrev main_v148 : Ref sig .tc := ⟨.hbm, 226, rfl⟩
abbrev main_v149 : Ref sig .tc := ⟨.hbm, 227, rfl⟩
abbrev main_cst_25 : Ref sig .tc := ⟨.hbm, 228, rfl⟩
abbrev main_v150 : Ref sig .tc := ⟨.hbm, 229, rfl⟩
abbrev main_v151 : Ref sig .tc := ⟨.hbm, 230, rfl⟩
abbrev main_v152 : Ref sig .tc := ⟨.hbm, 231, rfl⟩
abbrev main_v153 : Ref sig .tc := ⟨.hbm, 232, rfl⟩
abbrev main_v154 : Ref sig .tc := ⟨.hbm, 233, rfl⟩
abbrev main_v155 : Ref sig .tc := ⟨.hbm, 234, rfl⟩
abbrev main_v156 : Ref sig .tc := ⟨.hbm, 235, rfl⟩
abbrev main_v157 : Ref sig .tc := ⟨.hbm, 236, rfl⟩
abbrev main_v158 : Ref sig .tc := ⟨.hbm, 237, rfl⟩
abbrev main_v159 : Ref sig .tc := ⟨.hbm, 238, rfl⟩
abbrev main_v160 : Ref sig .tc := ⟨.hbm, 239, rfl⟩
abbrev main_v161 : Ref sig .tc := ⟨.hbm, 240, rfl⟩
abbrev main_v162 : Ref sig .tc := ⟨.hbm, 241, rfl⟩
abbrev main_v163 : Ref sig .tc := ⟨.hbm, 242, rfl⟩
abbrev main_v164 : Ref sig .tc := ⟨.hbm, 243, rfl⟩
abbrev main_v165 : Ref sig .tc := ⟨.hbm, 244, rfl⟩
abbrev main_v166 : Ref sig .tc := ⟨.hbm, 245, rfl⟩
abbrev main_v167 : Ref sig .tc := ⟨.hbm, 246, rfl⟩
abbrev main_v168 : Ref sig .tc := ⟨.hbm, 247, rfl⟩
abbrev main_c_26 : Ref sig .tc := ⟨.hbm, 248, rfl⟩
abbrev main_v169 : Ref sig .tc := ⟨.hbm, 249, rfl⟩
abbrev main_v170 : Ref sig .tc := ⟨.hbm, 250, rfl⟩
abbrev main_c_27 : Ref sig .tc := ⟨.hbm, 251, rfl⟩
abbrev main_v171 : Ref sig .tc := ⟨.hbm, 252, rfl⟩
abbrev main_v172 : Ref sig .tc := ⟨.hbm, 253, rfl⟩
abbrev main_v173 : Ref sig .tc := ⟨.hbm, 254, rfl⟩
abbrev main_v174 : Ref sig .tc := ⟨.hbm, 255, rfl⟩
abbrev main_v175 : Ref sig .tc := ⟨.hbm, 256, rfl⟩
abbrev main_cst_28 : Ref sig .tc := ⟨.hbm, 257, rfl⟩
abbrev main_v176 : Ref sig .tc := ⟨.hbm, 258, rfl⟩
abbrev main_v177 : Ref sig .tc := ⟨.hbm, 259, rfl⟩
abbrev main_v178 : Ref sig .tc := ⟨.hbm, 260, rfl⟩
abbrev main_cst_29 : Ref sig .tc := ⟨.hbm, 261, rfl⟩
abbrev main_v179 : Ref sig .tc := ⟨.hbm, 262, rfl⟩
abbrev main_cst_30 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_cst_31 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_cst_32 : Ref sig .tc := ⟨.hbm, 282, rfl⟩
abbrev main_v197 : Ref sig .tc := ⟨.hbm, 283, rfl⟩
abbrev main_v198 : Ref sig .tc := ⟨.hbm, 284, rfl⟩
abbrev main_v199 : Ref sig .tc := ⟨.hbm, 285, rfl⟩
abbrev main_cst_33 : Ref sig .tc := ⟨.hbm, 286, rfl⟩
abbrev main_v200 : Ref sig .tc := ⟨.hbm, 287, rfl⟩
abbrev main_v201 : Ref sig .tc := ⟨.hbm, 288, rfl⟩
abbrev main_v202 : Ref sig .tc := ⟨.hbm, 289, rfl⟩
abbrev main_v203 : Ref sig .tc := ⟨.hbm, 290, rfl⟩
abbrev main_cst_34 : Ref sig .tc := ⟨.hbm, 291, rfl⟩
abbrev main_v204 : Ref sig .tc := ⟨.hbm, 292, rfl⟩
abbrev main_cst_35 : Ref sig .tc := ⟨.hbm, 293, rfl⟩
abbrev main_v205 : Ref sig .tc := ⟨.hbm, 294, rfl⟩
abbrev main_v206 : Ref sig .tc := ⟨.hbm, 295, rfl⟩
abbrev main_c_36 : Ref sig .tc := ⟨.hbm, 296, rfl⟩
abbrev main_call4_cst : Ref sig .tc := ⟨.hbm, 297, rfl⟩
abbrev main_call4_v0 : Ref sig .tc := ⟨.hbm, 298, rfl⟩
abbrev main_call4_v1 : Ref sig .tc := ⟨.hbm, 299, rfl⟩
abbrev main_call4_cst_0 : Ref sig .tc := ⟨.hbm, 300, rfl⟩
abbrev main_call4_v2 : Ref sig .tc := ⟨.hbm, 301, rfl⟩
abbrev main_call4_v3 : Ref sig .tc := ⟨.hbm, 302, rfl⟩
abbrev main_call4_v4 : Ref sig .tc := ⟨.hbm, 303, rfl⟩
abbrev main_call4_v5 : Ref sig .tc := ⟨.hbm, 304, rfl⟩
abbrev main_call4_v6 : Ref sig .tc := ⟨.hbm, 305, rfl⟩
abbrev main_call4_v7 : Ref sig .tc := ⟨.hbm, 306, rfl⟩
abbrev main_call4_cst_1 : Ref sig .tc := ⟨.hbm, 307, rfl⟩
abbrev main_call4_v8 : Ref sig .tc := ⟨.hbm, 308, rfl⟩
abbrev main_call4_cst_2 : Ref sig .tc := ⟨.hbm, 309, rfl⟩
abbrev main_call4_v9 : Ref sig .tc := ⟨.hbm, 310, rfl⟩
abbrev main_call4_v10 : Ref sig .tc := ⟨.hbm, 311, rfl⟩
abbrev main_call4_v11 : Ref sig .tc := ⟨.hbm, 312, rfl⟩
abbrev main_call4_cst_3 : Ref sig .tc := ⟨.hbm, 313, rfl⟩
abbrev main_call4_v12 : Ref sig .tc := ⟨.hbm, 314, rfl⟩
abbrev main_call4_cst_4 : Ref sig .tc := ⟨.hbm, 315, rfl⟩
abbrev main_call4_call0_v0 : Ref sig .tc := ⟨.hbm, 316, rfl⟩
abbrev main_call4_call0_v1 : Ref sig .tc := ⟨.hbm, 317, rfl⟩
abbrev main_v207 : Ref sig .tc := ⟨.hbm, 318, rfl⟩
abbrev main_v208 : Ref sig .tc := ⟨.hbm, 319, rfl⟩
abbrev main_v209 : Ref sig .tc := ⟨.hbm, 320, rfl⟩
abbrev main_v210 : Ref sig .tc := ⟨.hbm, 321, rfl⟩
abbrev main_cst_37 : Ref sig .tc := ⟨.hbm, 322, rfl⟩
abbrev main_v211 : Ref sig .tc := ⟨.hbm, 323, rfl⟩
abbrev main_v212 : Ref sig .tc := ⟨.hbm, 324, rfl⟩
abbrev main_v213 : Ref sig .tc := ⟨.hbm, 325, rfl⟩
abbrev main_v214 : Ref sig .tc := ⟨.hbm, 326, rfl⟩
abbrev main_v215 : Ref sig .tc := ⟨.hbm, 327, rfl⟩
abbrev main_v216 : Ref sig .tc := ⟨.hbm, 328, rfl⟩
abbrev main_v217 : Ref sig .tc := ⟨.hbm, 329, rfl⟩
abbrev main_v218 : Ref sig .tc := ⟨.hbm, 330, rfl⟩
abbrev main_v219 : Ref sig .tc := ⟨.hbm, 331, rfl⟩
abbrev main_v220 : Ref sig .tc := ⟨.hbm, 332, rfl⟩
abbrev main_v221 : Ref sig .tc := ⟨.hbm, 333, rfl⟩
abbrev main_v222 : Ref sig .tc := ⟨.hbm, 334, rfl⟩
abbrev main_cst_38 : Ref sig .tc := ⟨.hbm, 335, rfl⟩
abbrev main_v223 : Ref sig .tc := ⟨.hbm, 336, rfl⟩
abbrev main_v224 : Ref sig .tc := ⟨.hbm, 337, rfl⟩
abbrev main_cst_39 : Ref sig .tc := ⟨.hbm, 338, rfl⟩
abbrev main_v225 : Ref sig .tc := ⟨.hbm, 339, rfl⟩
abbrev main_v226 : Ref sig .tc := ⟨.hbm, 340, rfl⟩
abbrev main_v227 : Ref sig .tc := ⟨.hbm, 341, rfl⟩
abbrev main_v228 : Ref sig .tc := ⟨.hbm, 342, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  reducesTo_S50000x128_S128_d0 : S50000x128.ReducesTo [0] S128
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  dot_S50000x128_S128x128_S50000x128_1_0_0_1_n_n_wf : DotDims.WF S50000x128 S128x128 S50000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf

class Facts : Prop extends Facts₀ where

variable [Facts]
-- ==== Proof.KernelRun.lean ====
/-
  The kernel program's run with its result NAMED: every weakly fair execution of @main (six kernel launches among
  stretches of host operations) terminates, and the result buffer ends at the fold of the segments over the launch
  memory — the last segment boundary's contents `Gen.W12` read at the result — while the arguments end unchanged.
  It is the launch theorem over the program's segments with the final thread state "every unscoped buffer at the
  last boundary's contents" read at one more buffer than the frame claim reads.
-/
import proofs.«131685_j69784628625939_1_alg».proof.Proof.Gen.KernelIdeal.Frame

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ (fun r => ∀ c : Dev nD,
      r.2.mem ((c.tc : Thread nD τ).loc main_v115) = W12 m ρ c (Proc.devRef .tc main_v115)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v115 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c)⟩)

end Cert.KernelIdeal.KRun

end
-- ==== Proof.Spec.lean ====
/-
  The two programs' values as whole-array functions of the argument arrays, over the extended reals.

  A layer of the network takes node features x : [50000,128] and the edge list and returns
      leaky((n − μ) · rsqrt(σ² + ε) · γ + β) + (x·Wsᵀ + bs),
  where n is the row-normalised  o = mean_agg(x)·Wlᵀ + bl + x·Wrᵀ  (each row divided by max(‖row‖, 1e-12)),
  μ the column mean of n and σ² its column variance over the 50000 rows.  The kernel's program scales the neighbour
  sums by the reciprocal of the clamped in-degree and takes σ² = E[n²] − μ² from two running column sums; the
  reference divides by the clamped in-degree and takes σ² = E[(n − μ)²].  Everything is spelt with the host's
  whole-array operations; weights enter the shared pieces already transposed, biases and statistics as one-row matrices.
  The shape side conditions the printed programs state are taken from the programs' proved facts.
-/
import proofs.«131685_j69784628625939_1_alg».proof.KernelIdeal
import proofs.«131685_j69784628625939_1_alg».proof.ReferenceIdeal
import proofs.«131685_j69784628625939_1_alg».proof.Proof.Gen.KernelIdeal
import proofs.«131685_j69784628625939_1_alg».proof.Proof.Gen.ReferenceIdeal
import Idealize.ShloMosaic.PureOps.Ideal

noncomputable section

open Idealize.ShloMosaic

namespace Cert.Sage
open Cert.ReferenceIdeal Cert.ReferenceIdeal.Facts₀

abbrev Mat := FVec Ideal S50000x128 .f32
abbrev Sq := FVec Ideal S128x128 .f32
abbrev V128 := FVec Ideal S128 .f32
abbrev Row := FVec Ideal S1x128 .f32
abbrev Edges := IVec S2x800000 32
abbrev Sq3 := FVec Ideal S3x128x128 .f32
abbrev V3 := FVec Ideal S3x128 .f32

/-! ## The pieces both programs share -/

/-- The f32 word `w` in every entry of a vector of shape `s`. -/
def splat (s : Shape) (h : S_.BroadcastsInDim s (![] : Fin 0 → Fin s.rank)) (w : BitVec 32) : FVec Ideal s .f32 :=
  broadcastInDim s ![] h (constant (F := Ideal) S_ .f32 w)

/-- Row `r` of the edge list as a vector of 800000 node numbers. -/
def edgeRow (ei : Edges) : Fin 2 → IVec S800000 32
  | 0 => shapeCast S800000 (extractStridedSlice S1x800000 ![0, 0] ei slices_S2x800000_S1x800000_0_0) shapeCasts_S1x800000_S800000
  | 1 => shapeCast S800000 (extractStridedSlice S1x800000 ![1, 0] ei slices_S2x800000_S1x800000_1_0) shapeCasts_S1x800000_S800000

/-- The source nodes as a column of start indices, a negative number counted from the end. -/
def srcCol (ei : Edges) : IVec S800000x1 32 :=
  broadcastInDim S800000x1 ![0] bcast_S800000_S800000x1_0
    (select (cmpi .slt (edgeRow ei 0) (broadcastInDim S800000 ![] bcast_S_S800000 (constantI S_ 32 0#32)))
      (addi (edgeRow ei 0) (broadcastInDim S800000 ![] bcast_S_S800000 (constantI S_ 32 50000#32))) (edgeRow ei 0))

/-- The target nodes as a column of scatter indices. -/
def dstCol (ei : Edges) : IVec S800000x1 32 :=
  broadcastInDim S800000x1 ![0] bcast_S800000_S800000x1_0 (edgeRow ei 1)

/-- The sum over the edges into each node of the source node's feature row. -/
def aggSum (x : Mat) (ei : Edges) : Mat :=
  Host.scatterAdd scatter_S50000x128_S800000x1_S800000x128_1_0_0_1 (splat S50000x128 bcast_S_S50000x128 0x00000000#32) (dstCol ei)
    (Host.gather gather_S50000x128_S800000x1_S800000x128_1_0_n_n_0_1_1128 x (srcCol ei))

/-- The in-degree of each node, at least one. -/
def cnt (ei : Edges) : FVec Ideal S50000 .f32 :=
  maximumf (Host.scatterAdd scatter_S50000_S800000x1_S800000_n_0_0_1 (splat S50000 bcast_S_S50000 0x00000000#32) (dstCol ei)
      (splat S800000 bcast_S_S800000 0x3F800000#32)) (splat S50000 bcast_S_S50000 0x3F800000#32)

/-- A one-row matrix on every row. -/
def rowsB (v : Row) : Mat := broadcastInDim S50000x128 ![0, 1] bcast_S1x128_S50000x128_0_1 v

/-- A column of 50000 row values on every lane. -/
def colB (v : FVec Ideal S50000x1 .f32) : Mat := broadcastInDim S50000x128 ![0, 1] bcast_S50000x1_S50000x128_0_1 v

/-- A vector of 128 as a one-row matrix (the reference's way). -/
def asRow (v : V128) : Row := broadcastInDim S1x128 ![1] bcast_S128_S1x128_1 v

def dot (x : Mat) (wT : Sq) : Mat := Host.dotGeneral dot_S50000x128_S128x128_S50000x128_1_0_0_1_n_n none x wT

def tr (w : Sq) : Sq := transpose S128x128 [1, 0] w transposes_S128x128_S128x128_1_0

/-- The skip term x·Wsᵀ + bs. -/
def resid (x : Mat) (wsT : Sq) (bs : Row) : Mat := addf (dot x wsT) (rowsB bs)

/-- The pre-activation a·Wlᵀ + bl + x·Wrᵀ of the aggregated rows `a`. -/
def pre (x a : Mat) (wlT : Sq) (bl : Row) (wrT : Sq) : Mat := addf (addf (dot a wlT) (rowsB bl)) (dot x wrT)

/-- Each row divided by the larger of its Euclidean norm and 1e-12. -/
def normed (o : Mat) : Mat :=
  Host.divf o (colB (maximumf (Host.sqrt (broadcastInDim S50000x1 ![0] bcast_S50000_S50000x1_0
      (Host.reduceAdd (mulf o o) (constant (F := Ideal) S_ .f32 0x00000000#32) reducesTo_S50000x128_S50000_d1 h_S_)))
    (splat S50000x1 bcast_S_S50000x1 0x2B8CBCCC#32)))

/-- The sum of each column over the 50000 rows. -/
def colSum (z : Mat) : V128 := Host.reduceAdd z (constant (F := Ideal) S_ .f32 0x00000000#32) reducesTo_S50000x128_S128_d0 h_S_

/-- Column normalisation with the given mean `mu` and inverse deviation `istd`, scale and shift, the leaky
    rectifier of slope 0.1, plus the skip term `r`. -/
def tailCore (n : Mat) (mu istd g b : Row) (r : Mat) : Mat :=
  let y : Mat := addf (mulf (mulf (subf n (rowsB mu)) (rowsB istd)) (rowsB g)) (rowsB b)
  addf (select (cmpf .oge y (splat S50000x128 bcast_S_S50000x128 0x00000000#32)) y
    (mulf (splat S50000x128 bcast_S_S50000x128 0x3DCCCCCD#32) y)) r

/-! ## The reference -/
namespace Ref

/-- The mean over a node's in-edges of the source rows: the sum divided by the clamped in-degree. -/
def agg (x : Mat) (ei : Edges) : Mat :=
  Host.divf (aggSum x ei) (colB (broadcastInDim S50000x1 ![0] bcast_S50000_S50000x1_0 (cnt ei)))

def mean (n : Mat) : V128 := Host.divf (colSum n) (splat S128 bcast_S_S128 0x47435000#32)

/-- jnp.var over the rows: the mean of the squared deviations from the column mean, with the divisor 50000 − 0 and
    the guard 'divisor > 0, else not-a-number' as the reference computes them. -/
def var (n : Mat) : V128 :=
  let d : FVec Ideal S_ .f32 := subf (constant (F := Ideal) S_ .f32 0x47435000#32) (sitofp .f32 (constantI S_ 32 0#32))
  let dev : Mat := subf n (rowsB (Host.divf (asRow (colSum n)) (splat S1x128 bcast_S_S1x128 0x47435000#32)))
  select (broadcastInDim S128 ![] bcast_S_S128 (cmpf .ogt d (constant (F := Ideal) S_ .f32 0x00000000#32)))
    (Host.divf (colSum (mulf dev dev)) (broadcastInDim S128 ![] bcast_S_S128 d))
    (broadcastInDim S128 ![] bcast_S_S128 (id (constant (F := Ideal) S_ .f32 0x7FC00000#32)))

/-- One layer; the weights given transposed. -/
def layer (x : Mat) (ei : Edges) (wlT : Sq) (bl : V128) (wrT : Sq) (g b : V128) (wsT : Sq) (bs : V128) : Mat :=
  let n := normed (pre x (agg x ei) wlT (asRow bl) wrT)
  tailCore n (asRow (mean n)) (asRow (Host.rsqrt (addf (var n) (splat S128 bcast_S_S128 0x3727C5AC#32)))) (asRow g) (asRow b)
    (resid x wsT (asRow bs))

/-- Layer `l`'s square matrix out of a stack of three. -/
def sq3 (w : Sq3) : Fin 3 → Sq
  | 0 => shapeCast S128x128 (extractStridedSlice S1x128x128 ![0, 0, 0] w slices_S3x128x128_S1x128x128_0_0_0) shapeCasts_S1x128x128_S128x128
  | 1 => shapeCast S128x128 (extractStridedSlice S1x128x128 ![1, 0, 0] w slices_S3x128x128_S1x128x128_1_0_0) shapeCasts_S1x128x128_S128x128
  | 2 => shapeCast S128x128 (extractStridedSlice S1x128x128 ![2, 0, 0] w slices_S3x128x128_S1x128x128_2_0_0) shapeCasts_S1x128x128_S128x128

/-- Layer `l`'s vector of 128 out of a stack of three. -/
def v3 (w : V3) : Fin 3 → V128
  | 0 => shapeCast S128 (extractStridedSlice S1x128 ![0, 0] w slices_S3x128_S1x128_0_0) shapeCasts_S1x128_S128
  | 1 => shapeCast S128 (extractStridedSlice S1x128 ![1, 0] w slices_S3x128_S1x128_1_0) shapeCasts_S1x128_S128
  | 2 => shapeCast S128 (extractStridedSlice S1x128 ![2, 0] w slices_S3x128_S1x128_2_0) shapeCasts_S1x128_S128

def layerAt (l : Fin 3) (x : Mat) (ei : Edges) (Wl : Sq3) (bl : V3) (Wr : Sq3) (g b : V3) (Ws : Sq) (bs : V128) : Mat :=
  layer x ei (tr (sq3 Wl l)) (v3 bl l) (tr (sq3 Wr l)) (v3 g l) (v3 b l) (tr Ws) bs

/-- The reference's result. -/
def out (x : Mat) (ei : Edges) (Wl : Sq3) (bl : V3) (Wr : Sq3) (g b : V3) (Ws : Sq) (bs : V128) : Mat :=
  layerAt 2 (layerAt 1 (layerAt 0 x ei Wl bl Wr g b Ws bs) ei Wl bl Wr g b Ws bs) ei Wl bl Wr g b Ws bs

end Ref

/-! ## The kernel's program -/
namespace Ker

/-- The reciprocal of the clamped in-degree, as a column. -/
def degInv (ei : Edges) : FVec Ideal S50000x1 .f32 :=
  shapeCast S50000x1 (Host.divf (splat S50000 bcast_S_S50000 0x3F800000#32) (cnt ei)) Cert.KernelIdeal.Facts₀.shapeCasts_S50000_S50000x1

/-- The neighbour sums times the reciprocal in-degree. -/
def agg (x : Mat) (ei : Edges) : Mat := mulf (aggSum x ei) (colB (degInv ei))

/-- A column sum as a one-row matrix. -/
def colSumRow (z : Mat) : Row := asRow (colSum z)

/-- The second kernel: its inverse deviation is taken inside it, from the variance row. -/
def pass2 (n r : Mat) (mu sig2 g b : Row) : Mat :=
  tailCore n mu (rsqrt (addf sig2 (broadcast S1x128 (Scalar.ofBits (F := Ideal) .f32 0x3727C5AC#32)))) g b r

/-- One layer of the kernel's program: weights transposed, biases, scale and shift as one-row matrices. -/
def layer (x : Mat) (ei : Edges) (wlT : Sq) (bl : Row) (wrT : Sq) (g b : Row) (wsT : Sq) (bs : Row) : Mat :=
  let n := normed (pre x (agg x ei) wlT bl wrT)
  let mu : Row := Host.divf (colSumRow n) (splat S1x128 bcast_S_S1x128 0x47435000#32)
  let sig2 : Row := subf (Host.divf (colSumRow (mulf n n)) (splat S1x128 bcast_S_S1x128 0x47435000#32)) (mulf mu mu)
  pass2 n (resid x wsT bs) mu sig2 g b

/-- Layer `l`'s square matrix of a stack of three, transposed (the stack is transposed first, then cut). -/
def sqT3 (w : Sq3) : Fin 3 → Sq
  | 0 => shapeCast S128x128 (extractStridedSlice S1x128x128 ![0, 0, 0] (transpose S3x128x128 [0, 2, 1] w Cert.KernelIdeal.Facts₀.transposes_S3x128x128_S3x128x128_0_2_1) slices_S3x128x128_S1x128x128_0_0_0) shapeCasts_S1x128x128_S128x128
  | 1 => shapeCast S128x128 (extractStridedSlice S1x128x128 ![1, 0, 0] (transpose S3x128x128 [0, 2, 1] w Cert.KernelIdeal.Facts₀.transposes_S3x128x128_S3x128x128_0_2_1) slices_S3x128x128_S1x128x128_1_0_0) shapeCasts_S1x128x128_S128x128
  | 2 => shapeCast S128x128 (extractStridedSlice S1x128x128 ![2, 0, 0] (transpose S3x128x128 [0, 2, 1] w Cert.KernelIdeal.Facts₀.transposes_S3x128x128_S3x128x128_0_2_1) slices_S3x128x128_S1x128x128_2_0_0) shapeCasts_S1x128x128_S128x128

/-- Layer `l`'s vector of a stack of three as a one-row matrix (cut, flattened, cast to a row). -/
def row3 (w : V3) (l : Fin 3) : Row := shapeCast S1x128 (Ref.v3 w l) Cert.KernelIdeal.Facts₀.shapeCasts_S128_S1x128

def layerAt (l : Fin 3) (x : Mat) (ei : Edges) (Wl : Sq3) (bl : V3) (Wr : Sq3) (g b : V3) (Ws : Sq) (bs : V128) : Mat :=
  layer x ei (sqT3 Wl l) (row3 bl l) (sqT3 Wr l) (row3 g l) (row3 b l) (tr Ws) (shapeCast S1x128 bs Cert.KernelIdeal.Facts₀.shapeCasts_S128_S1x128)

/-- The kernel program's result. -/
def out (x : Mat) (ei : Edges) (Wl : Sq3) (bl : V3) (Wr : Sq3) (g b : V3) (Ws : Sq) (bs : V128) : Mat :=
  layerAt 2 (layerAt 1 (layerAt 0 x ei Wl bl Wr g b Ws bs) ei Wl bl Wr g b Ws bs) ei Wl bl Wr g b Ws bs

end Ker

end Cert.Sage

end
-- ==== Proof.SpecStages.lean ====
/-
  The pieces of one layer of the kernel's program as functions of the buffers a stretch of host operations reads:
  the two edge rows, the reciprocal in-degree column, the stacked transposed weights.  Each is the piece of the
  whole-network functions with its argument made a variable, so that the whole-network function is, by unfolding,
  the piece at the edge list's rows and the argument arrays.
-/
import proofs.«131685_j69784628625939_1_alg».proof.Proof.Spec

noncomputable section

open Idealize.ShloMosaic

namespace Cert.Sage
open Cert.ReferenceIdeal Cert.ReferenceIdeal.Facts₀

/-- The source column from the row of source nodes. -/
def srcColOf (src : IVec S800000 32) : IVec S800000x1 32 :=
  broadcastInDim S800000x1 ![0] bcast_S800000_S800000x1_0
    (select (cmpi .slt src (broadcastInDim S800000 ![] bcast_S_S800000 (constantI S_ 32 0#32)))
      (addi src (broadcastInDim S800000 ![] bcast_S_S800000 (constantI S_ 32 50000#32))) src)

/-- The target column from the row of target nodes. -/
def dstColOf (dst : IVec S800000 32) : IVec S800000x1 32 :=
  broadcastInDim S800000x1 ![0] bcast_S800000_S800000x1_0 dst

/-- The neighbour sums times a given column of reciprocal in-degrees. -/
def aggOf (src dst : IVec S800000 32) (dinv : FVec Ideal S50000x1 .f32) (x : Mat) : Mat :=
  mulf (Host.scatterAdd scatter_S50000x128_S800000x1_S800000x128_1_0_0_1 (splat S50000x128 bcast_S_S50000x128 0x00000000#32) (dstColOf dst)
    (Host.gather gather_S50000x128_S800000x1_S800000x128_1_0_n_n_0_1_1128 x (srcColOf src))) (colB dinv)

theorem agg_eq_aggOf (x : Mat) (ei : Edges) : Ker.agg x ei = aggOf (edgeRow ei 0) (edgeRow ei 1) (Ker.degInv ei) x := rfl

/-- The reciprocal in-degree column from the row of target nodes. -/
def degInvOf (dst : IVec S800000 32) : FVec Ideal S50000x1 .f32 :=
  shapeCast S50000x1 (Host.divf (splat S50000 bcast_S_S50000 0x3F800000#32)
    (maximumf (Host.scatterAdd scatter_S50000_S800000x1_S800000_n_0_0_1 (splat S50000 bcast_S_S50000 0x00000000#32) (dstColOf dst)
      (splat S800000 bcast_S_S800000 0x3F800000#32)) (splat S50000 bcast_S_S50000 0x3F800000#32))) Cert.KernelIdeal.Facts₀.shapeCasts_S50000_S50000x1

theorem degInv_eq_degInvOf (ei : Edges) : Ker.degInv ei = degInvOf (edgeRow ei 1) := rfl

/-- Layer l's square matrix cut out of a stack of three. -/
def cutSq (w : Sq3) : Fin 3 → Sq := Ref.sq3 w

/-- The stack of three square matrices with each transposed. -/
def trStack (w : Sq3) : Sq3 := transpose S3x128x128 [0, 2, 1] w Cert.KernelIdeal.Facts₀.transposes_S3x128x128_S3x128x128_0_2_1

theorem sqT3_eq_cut (w : Sq3) (l : Fin 3) : Ker.sqT3 w l = cutSq (trStack w) l := by
  match l with
  | 0 => rfl
  | 1 => rfl
  | 2 => rfl

/-- A vector of 128 cast to a one-row matrix (the kernel program's way). -/
def castRow (v : V128) : Row := shapeCast S1x128 v Cert.KernelIdeal.Facts₀.shapeCasts_S128_S1x128

/-- The mean row from the row of column sums. -/
def muOf (s : Row) : Row := Host.divf s (splat S1x128 bcast_S_S1x128 0x47435000#32)

/-- The variance row from the rows of column sums and of column sums of squares. -/
def sig2Of (s ssq : Row) : Row := subf (Host.divf ssq (splat S1x128 bcast_S_S1x128 0x47435000#32)) (mulf (muOf s) (muOf s))

/-- One layer of the kernel's program from its two passes' arrays. -/
theorem layer_eq_passes (x : Mat) (ei : Edges) (wlT : Sq) (bl : Row) (wrT : Sq) (g b : Row) (wsT : Sq) (bs : Row) :
    Ker.layer x ei wlT bl wrT g b wsT bs =
      Ker.pass2 (normed (pre x (Ker.agg x ei) wlT bl wrT)) (resid x wsT bs)
        (muOf (Ker.colSumRow (normed (pre x (Ker.agg x ei) wlT bl wrT))))
        (sig2Of (Ker.colSumRow (normed (pre x (Ker.agg x ei) wlT bl wrT)))
          (Ker.colSumRow (mulf (normed (pre x (Ker.agg x ei) wlT bl wrT)) (normed (pre x (Ker.agg x ei) wlT bl wrT))))) g b := rfl

end Cert.Sage

end
-- ==== Proof.KernelStages.lean ====
/-
  The six stretches of host operations of the kernel's program, each read as functions of the buffer contents it
  starts from: what a stretch leaves in each buffer a later kernel launch or a later stretch reads, and which
  buffers it leaves alone.  Stretch 0 computes, from the edge list and the stacked weights, the two edge rows, the
  reciprocal in-degree column, the transposed weights and the first layer's neighbour mean; stretches 2 and 4 the
  next layers' neighbour means and cut weights from the buffers stretch 0 left; stretches 1, 3 and 5 the mean and
  variance rows from the two rows of column sums the first kernel leaves, and the layer's scale and shift rows.
-/
import proofs.«131685_j69784628625939_1_alg».proof.Proof.Gen.KernelIdeal.Launch
import proofs.«131685_j69784628625939_1_alg».proof.Proof.SpecStages
import Idealize.ShloMosaic.Lib.StableHlo.Run

set_option maxRecDepth 16384

noncomputable section

namespace Cert.KernelIdeal.Stages

open Cert.KernelIdeal Cert.KernelIdeal.Gen Idealize.ShloMosaic Idealize.ShloMosaic.StableHlo
open Cert.Sage

variable (W : Valuation τ sig (Elt Ideal))

/-! ## Stretch 0 -/

theorem s0_v1 : after (hostOps0 (F := Ideal)) W (Proc.devRef .tc main_v1) = edgeRow (W (Proc.devRef .tc main_arg1)) 0 := by
  after_results; rfl
theorem s0_v3 : after (hostOps0 (F := Ideal)) W (Proc.devRef .tc main_v3) = edgeRow (W (Proc.devRef .tc main_arg1)) 1 := by
  after_results; rfl
theorem s0_v12 : after (hostOps0 (F := Ideal)) W (Proc.devRef .tc main_v12) = Ker.degInv (W (Proc.devRef .tc main_arg1)) := by
  after_results; rfl
theorem s0_v13 : after (hostOps0 (F := Ideal)) W (Proc.devRef .tc main_v13) = trStack (W (Proc.devRef .tc main_arg2)) := by
  after_results; rfl
theorem s0_v14 : after (hostOps0 (F := Ideal)) W (Proc.devRef .tc main_v14) = trStack (W (Proc.devRef .tc main_arg4)) := by
  after_results; rfl
theorem s0_v15 : after (hostOps0 (F := Ideal)) W (Proc.devRef .tc main_v15) = tr (W (Proc.devRef .tc main_arg7)) := by
  after_results; rfl
theorem s0_v16 : after (hostOps0 (F := Ideal)) W (Proc.devRef .tc main_v16) = castRow (W (Proc.devRef .tc main_arg8)) := by
  after_results; rfl
theorem s0_v28 : after (hostOps0 (F := Ideal)) W (Proc.devRef .tc main_v28) = Ker.agg (W (Proc.devRef .tc main_arg0)) (W (Proc.devRef .tc main_arg1)) := by
  after_results_simp
  unfold Ker.agg aggSum Ker.degInv cnt srcCol dstCol splat colB
  rfl
theorem s0_v31 : after (hostOps0 (F := Ideal)) W (Proc.devRef .tc main_v31) = Ker.row3 (W (Proc.devRef .tc main_arg3)) 0 := by
  after_results; rfl
theorem s0_v33 : after (hostOps0 (F := Ideal)) W (Proc.devRef .tc main_v33) = Ker.sqT3 (W (Proc.devRef .tc main_arg2)) 0 := by
  after_results; rfl
theorem s0_v35 : after (hostOps0 (F := Ideal)) W (Proc.devRef .tc main_v35) = Ker.sqT3 (W (Proc.devRef .tc main_arg4)) 0 := by
  after_results; rfl
theorem s0_keep_arg0 : after (hostOps0 (F := Ideal)) W (Proc.devRef .tc main_arg0) = W (Proc.devRef .tc main_arg0) := by
  after_results
theorem s0_keep_arg3 : after (hostOps0 (F := Ideal)) W (Proc.devRef .tc main_arg3) = W (Proc.devRef .tc main_arg3) := by
  after_results
theorem s0_keep_arg5 : after (hostOps0 (F := Ideal)) W (Proc.devRef .tc main_arg5) = W (Proc.devRef .tc main_arg5) := by
  after_results
theorem s0_keep_arg6 : after (hostOps0 (F := Ideal)) W (Proc.devRef .tc main_arg6) = W (Proc.devRef .tc main_arg6) := by
  after_results

/-! ## Stretch 1 -/

theorem s1_mu : after (hostOps1 (F := Ideal)) W (Proc.devRef .tc main_v38) = muOf (W (Proc.devRef .tc main_v36_2)) := by
  after_results; rfl
theorem s1_sig2 : after (hostOps1 (F := Ideal)) W (Proc.devRef .tc main_v42) = sig2Of (W (Proc.devRef .tc main_v36_2)) (W (Proc.devRef .tc main_v36_3)) := by
  after_results; rfl
theorem s1_g : after (hostOps1 (F := Ideal)) W (Proc.devRef .tc main_v45) = Ker.row3 (W (Proc.devRef .tc main_arg5)) 0 := by
  after_results; rfl
theorem s1_b : after (hostOps1 (F := Ideal)) W (Proc.devRef .tc main_v48) = Ker.row3 (W (Proc.devRef .tc main_arg6)) 0 := by
  after_results; rfl
theorem s1_keep_v36_0 : after (hostOps1 (F := Ideal)) W (Proc.devRef .tc main_v36_0) = W (Proc.devRef .tc main_v36_0) := by
  after_results
theorem s1_keep_v36_1 : after (hostOps1 (F := Ideal)) W (Proc.devRef .tc main_v36_1) = W (Proc.devRef .tc main_v36_1) := by
  after_results
theorem s1_keep_v1 : after (hostOps1 (F := Ideal)) W (Proc.devRef .tc main_v1) = W (Proc.devRef .tc main_v1) := by
  after_results
theorem s1_keep_v3 : after (hostOps1 (F := Ideal)) W (Proc.devRef .tc main_v3) = W (Proc.devRef .tc main_v3) := by
  after_results
theorem s1_keep_v12 : after (hostOps1 (F := Ideal)) W (Proc.devRef .tc main_v12) = W (Proc.devRef .tc main_v12) := by
  after_results
theorem s1_keep_v13 : after (hostOps1 (F := Ideal)) W (Proc.devRef .tc main_v13) = W (Proc.devRef .tc main_v13) := by
  after_results
theorem s1_keep_v14 : after (hostOps1 (F := Ideal)) W (Proc.devRef .tc main_v14) = W (Proc.devRef .tc main_v14) := by
  after_results
theorem s1_keep_v15 : after (hostOps1 (F := Ideal)) W (Proc.devRef .tc main_v15) = W (Proc.devRef .tc main_v15) := by
  after_results
theorem s1_keep_v16 : after (hostOps1 (F := Ideal)) W (Proc.devRef .tc main_v16) = W (Proc.devRef .tc main_v16) := by
  after_results
theorem s1_keep_arg3 : after (hostOps1 (F := Ideal)) W (Proc.devRef .tc main_arg3) = W (Proc.devRef .tc main_arg3) := by
  after_results
theorem s1_keep_arg5 : after (hostOps1 (F := Ideal)) W (Proc.devRef .tc main_arg5) = W (Proc.devRef .tc main_arg5) := by
  after_results
theorem s1_keep_arg6 : after (hostOps1 (F := Ideal)) W (Proc.devRef .tc main_arg6) = W (Proc.devRef .tc main_arg6) := by
  after_results

/-! ## Stretch 2 -/

theorem s2_agg : after (hostOps2 (F := Ideal)) W (Proc.devRef .tc main_v61) = aggOf (W (Proc.devRef .tc main_v1)) (W (Proc.devRef .tc main_v3)) (W (Proc.devRef .tc main_v12)) (W (Proc.devRef .tc main_v49)) := by
  after_results_simp
  unfold aggOf srcColOf dstColOf splat colB
  rfl
theorem s2_bl : after (hostOps2 (F := Ideal)) W (Proc.devRef .tc main_v64) = Ker.row3 (W (Proc.devRef .tc main_arg3)) 1 := by
  after_results; rfl
theorem s2_wl : after (hostOps2 (F := Ideal)) W (Proc.devRef .tc main_v66) = cutSq (W (Proc.devRef .tc main_v13)) 1 := by
  after_results; rfl
theorem s2_wr : after (hostOps2 (F := Ideal)) W (Proc.devRef .tc main_v68) = cutSq (W (Proc.devRef .tc main_v14)) 1 := by
  after_results; rfl
theorem s2_keep_v49 : after (hostOps2 (F := Ideal)) W (Proc.devRef .tc main_v49) = W (Proc.devRef .tc main_v49) := by
  after_results
theorem s2_keep_v1 : after (hostOps2 (F := Ideal)) W (Proc.devRef .tc main_v1) = W (Proc.devRef .tc main_v1) := by
  after_results
theorem s2_keep_v3 : after (hostOps2 (F := Ideal)) W (Proc.devRef .tc main_v3) = W (Proc.devRef .tc main_v3) := by
  after_results
theorem s2_keep_v12 : after (hostOps2 (F := Ideal)) W (Proc.devRef .tc main_v12) = W (Proc.devRef .tc main_v12) := by
  after_results
theorem s2_keep_v13 : after (hostOps2 (F := Ideal)) W (Proc.devRef .tc main_v13) = W (Proc.devRef .tc main_v13) := by
  after_results
theorem s2_keep_v14 : after (hostOps2 (F := Ideal)) W (Proc.devRef .tc main_v14) = W (Proc.devRef .tc main_v14) := by
  after_results
theorem s2_keep_v15 : after (hostOps2 (F := Ideal)) W (Proc.devRef .tc main_v15) = W (Proc.devRef .tc main_v15) := by
  after_results
theorem s2_keep_v16 : after (hostOps2 (F := Ideal)) W (Proc.devRef .tc main_v16) = W (Proc.devRef .tc main_v16) := by
  after_results
theorem s2_keep_arg3 : after (hostOps2 (F := Ideal)) W (Proc.devRef .tc main_arg3) = W (Proc.devRef .tc main_arg3) := by
  after_results
theorem s2_keep_arg5 : after (hostOps2 (F := Ideal)) W (Proc.devRef .tc main_arg5) = W (Proc.devRef .tc main_arg5) := by
  after_results
theorem s2_keep_arg6 : after (hostOps2 (F := Ideal)) W (Proc.devRef .tc main_arg6) = W (Proc.devRef .tc main_arg6) := by
  after_results

/-! ## Stretch 3 -/

theorem s3_mu : after (hostOps3 (F := Ideal)) W (Proc.devRef .tc main_v71) = muOf (W (Proc.devRef .tc main_v69_2)) := by
  after_results; rfl
theorem s3_sig2 : after (hostOps3 (F := Ideal)) W (Proc.devRef .tc main_v75) = sig2Of (W (Proc.devRef .tc main_v69_2)) (W (Proc.devRef .tc main_v69_3)) := by
  after_results; rfl
theorem s3_g : after (hostOps3 (F := Ideal)) W (Proc.devRef .tc main_v78) = Ker.row3 (W (Proc.devRef .tc main_arg5)) 1 := by
  after_results; rfl
theorem s3_b : after (hostOps3 (F := Ideal)) W (Proc.devRef .tc main_v81) = Ker.row3 (W (Proc.devRef .tc main_arg6)) 1 := by
  after_results; rfl
theorem s3_keep_v69_0 : after (hostOps3 (F := Ideal)) W (Proc.devRef .tc main_v69_0) = W (Proc.devRef .tc main_v69_0) := by
  after_results
theorem s3_keep_v69_1 : after (hostOps3 (F := Ideal)) W (Proc.devRef .tc main_v69_1) = W (Proc.devRef .tc main_v69_1) := by
  after_results
theorem s3_keep_v1 : after (hostOps3 (F := Ideal)) W (Proc.devRef .tc main_v1) = W (Proc.devRef .tc main_v1) := by
  after_results
theorem s3_keep_v3 : after (hostOps3 (F := Ideal)) W (Proc.devRef .tc main_v3) = W (Proc.devRef .tc main_v3) := by
  after_results
theorem s3_keep_v12 : after (hostOps3 (F := Ideal)) W (Proc.devRef .tc main_v12) = W (Proc.devRef .tc main_v12) := by
  after_results
theorem s3_keep_v13 : after (hostOps3 (F := Ideal)) W (Proc.devRef .tc main_v13) = W (Proc.devRef .tc main_v13) := by
  after_results
theorem s3_keep_v14 : after (hostOps3 (F := Ideal)) W (Proc.devRef .tc main_v14) = W (Proc.devRef .tc main_v14) := by
  after_results
theorem s3_keep_v15 : after (hostOps3 (F := Ideal)) W (Proc.devRef .tc main_v15) = W (Proc.devRef .tc main_v15) := by
  after_results
theorem s3_keep_v16 : after (hostOps3 (F := Ideal)) W (Proc.devRef .tc main_v16) = W (Proc.devRef .tc main_v16) := by
  after_results
theorem s3_keep_arg3 : after (hostOps3 (F := Ideal)) W (Proc.devRef .tc main_arg3) = W (Proc.devRef .tc main_arg3) := by
  after_results
theorem s3_keep_arg5 : after (hostOps3 (F := Ideal)) W (Proc.devRef .tc main_arg5) = W (Proc.devRef .tc main_arg5) := by
  after_results
theorem s3_keep_arg6 : after (hostOps3 (F := Ideal)) W (Proc.devRef .tc main_arg6) = W (Proc.devRef .tc main_arg6) := by
  after_results

/-! ## Stretch 4 -/

theorem s4_agg : after (hostOps4 (F := Ideal)) W (Proc.devRef .tc main_v94) = aggOf (W (Proc.devRef .tc main_v1)) (W (Proc.devRef .tc main_v3)) (W (Proc.devRef .tc main_v12)) (W (Proc.devRef .tc main_v82)) := by
  after_results_simp
  unfold aggOf srcColOf dstColOf splat colB
  rfl
theorem s4_bl : after (hostOps4 (F := Ideal)) W (Proc.devRef .tc main_v97) = Ker.row3 (W (Proc.devRef .tc main_arg3)) 2 := by
  after_results; rfl
theorem s4_wl : after (hostOps4 (F := Ideal)) W (Proc.devRef .tc main_v99) = cutSq (W (Proc.devRef .tc main_v13)) 2 := by
  after_results; rfl
theorem s4_wr : after (hostOps4 (F := Ideal)) W (Proc.devRef .tc main_v101) = cutSq (W (Proc.devRef .tc main_v14)) 2 := by
  after_results; rfl
theorem s4_keep_v82 : after (hostOps4 (F := Ideal)) W (Proc.devRef .tc main_v82) = W (Proc.devRef .tc main_v82) := by
  after_results
theorem s4_keep_v1 : after (hostOps4 (F := Ideal)) W (Proc.devRef .tc main_v1) = W (Proc.devRef .tc main_v1) := by
  after_results
theorem s4_keep_v3 : after (hostOps4 (F := Ideal)) W (Proc.devRef .tc main_v3) = W (Proc.devRef .tc main_v3) := by
  after_results
theorem s4_keep_v12 : after (hostOps4 (F := Ideal)) W (Proc.devRef .tc main_v12) = W (Proc.devRef .tc main_v12) := by
  after_results
theorem s4_keep_v13 : after (hostOps4 (F := Ideal)) W (Proc.devRef .tc main_v13) = W (Proc.devRef .tc main_v13) := by
  after_results
theorem s4_keep_v14 : after (hostOps4 (F := Ideal)) W (Proc.devRef .tc main_v14) = W (Proc.devRef .tc main_v14) := by
  after_results
theorem s4_keep_v15 : after (hostOps4 (F := Ideal)) W (Proc.devRef .tc main_v15) = W (Proc.devRef .tc main_v15) := by
  after_results
theorem s4_keep_v16 : after (hostOps4 (F := Ideal)) W (Proc.devRef .tc main_v16) = W (Proc.devRef .tc main_v16) := by
  after_results
theorem s4_keep_arg3 : after (hostOps4 (F := Ideal)) W (Proc.devRef .tc main_arg3) = W (Proc.devRef .tc main_arg3) := by
  after_results
theorem s4_keep_arg5 : after (hostOps4 (F := Ideal)) W (Proc.devRef .tc main_arg5) = W (Proc.devRef .tc main_arg5) := by
  after_results
theorem s4_keep_arg6 : after (hostOps4 (F := Ideal)) W (Proc.devRef .tc main_arg6) = W (Proc.devRef .tc main_arg6) := by
  after_results

/-! ## Stretch 5 -/

theorem s5_mu : after (hostOps5 (F := Ideal)) W (Proc.devRef .tc main_v104) = muOf (W (Proc.devRef .tc main_v102_2)) := by
  after_results; rfl
theorem s5_sig2 : after (hostOps5 (F := Ideal)) W (Proc.devRef .tc main_v108) = sig2Of (W (Proc.devRef .tc main_v102_2)) (W (Proc.devRef .tc main_v102_3)) := by
  after_results; rfl
theorem s5_g : after (hostOps5 (F := Ideal)) W (Proc.devRef .tc main_v111) = Ker.row3 (W (Proc.devRef .tc main_arg5)) 2 := by
  after_results; rfl
theorem s5_b : after (hostOps5 (F := Ideal)) W (Proc.devRef .tc main_v114) = Ker.row3 (W (Proc.devRef .tc main_arg6)) 2 := by
  after_results; rfl
theorem s5_keep_v102_0 : after (hostOps5 (F := Ideal)) W (Proc.devRef .tc main_v102_0) = W (Proc.devRef .tc main_v102_0) := by
  after_results
theorem s5_keep_v102_1 : after (hostOps5 (F := Ideal)) W (Proc.devRef .tc main_v102_1) = W (Proc.devRef .tc main_v102_1) := by
  after_results

end Cert.KernelIdeal.Stages

end
-- ==== Proof.LibMatmulPlain.lean ====
/-
  A plain matrix product read at an index, over the extended reals.

  For the dimension numbers of an [M, K] by [K, N] product with no batch axis (the left operand contracted on its
  second axis, the right operand on its first), the matrix unit's product at the entry (p, q) is the accumulator's
  entry plus the sum over k < K of A (p, k) * B (k, q); into a zero accumulator it is that sum alone. The extents
  M, K, N are arbitrary, and so are the operands' float formats (a change of format is the identity here).
-/
import Idealize.ShloMosaic.PureOps.Ideal.Laws
import Idealize.ShloMosaic.Lib.ValueIdx

noncomputable section

open scoped BigOperators

namespace Idealize.ShloMosaic.MatmulPlain

open Idealize.ShloMosaic Idealize.ShloMosaic.ValueIdx

variable {M K N : Nat}

/-- The contraction of a plain product has one axis, -/
theorem contr_rank : (DotDims.plain M K N).contr.rank = 1 := rfl
/-- of extent K. -/
theorem contr_size : (DotDims.plain M K N).contr.size ⟨0, by rw [contr_rank]; exact Nat.one_pos⟩ = K := rfl

/-- The left operand is read at row `j 0` and at the contraction position as its column. -/
theorem lhsIdx_eq (j : (⟨2, ![M, N]⟩ : Shape).Idx) (k : Fin K) :
    (DotDims.plain M K N).lhsIdx j ((contrEquiv1 (DotDims.plain M K N) K contr_rank contr_size).symm k) = ix2 (j 0) k := by
  funext a
  apply Fin.ext
  match a with
  | ⟨0, _⟩ => rfl
  | ⟨1, _⟩ =>
    refine ((DotDims.plain M K N).lhsIdx_val_of_single (cl := 1) rfl j _).trans ?_
    exact contrEquiv1_symm_val (DotDims.plain M K N) K contr_rank contr_size k

/-- The right operand is read at the contraction position as its row and at column `j 1`. -/
theorem rhsIdx_eq (j : (⟨2, ![M, N]⟩ : Shape).Idx) (k : Fin K) :
    (DotDims.plain M K N).rhsIdx j ((contrEquiv1 (DotDims.plain M K N) K contr_rank contr_size).symm k) = ix2 k (j 1) := by
  funext a
  apply Fin.ext
  match a with
  | ⟨0, _⟩ =>
    refine ((DotDims.plain M K N).rhsIdx_val_of_single (cr := 0) rfl j _).trans ?_
    exact contrEquiv1_symm_val (DotDims.plain M K N) K contr_rank contr_size k
  | ⟨1, _⟩ => rfl

/-- A plain product into any accumulator, at an entry: the accumulator's entry plus the row-by-column sum. -/
theorem matmul_apply {φ₁ φ₂ : FTy} (prec : Option ContractPrecision) (A : FVec Ideal ⟨2, ![M, K]⟩ φ₁)
    (B : FVec Ideal ⟨2, ![K, N]⟩ φ₂) (acc : FVec Ideal ⟨2, ![M, N]⟩ .f32) (j : (⟨2, ![M, N]⟩ : Shape).Idx) :
    matmul (DotDims.plain M K N) prec A B acc j = acc j + ∑ k : Fin K, A (ix2 (j 0) k) * B (ix2 k (j 1)) := by
  refine (Ideal.matmul_apply (DotDims.plain M K N) prec A B acc j).trans ?_
  congr 1
  rw [← Equiv.sum_comp (contrEquiv1 (DotDims.plain M K N) K contr_rank contr_size).symm]
  exact Finset.sum_congr rfl fun k _ => by rw [lhsIdx_eq, rhsIdx_eq]; rfl

/-- Into the zero accumulator: the row-by-column sum alone. -/
theorem matmul_zero_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    matmul (DotDims.plain M K N) prec A B (constant (F := Ideal) ⟨2, ![M, N]⟩ .f32 0x00000000#32) j
      = ∑ k : Fin K, A (ix2 (j 0) k) * B (ix2 k (j 1)) := by
  rw [matmul_apply]
  show Ideal.ofBits .f32 0x00000000#32 + _ = _
  rw [Ideal.ofBits_zero_f32, zero_add]

end Idealize.ShloMosaic.MatmulPlain

end
-- ==== Proof.LibHostDotPlain.lean ====
/-
  The host's plain matrix product read at an index, over the extended reals.

  For the dimension numbers of an [M, K] by [K, N] product with no batch axis, the host's dot_general at the entry
  (p, q) is the sum over k < K of A (p, k) * B (k, q), whatever precision it is asked for. The extents are arbitrary,
  and so are the operands' float formats.
-/
import proofs.«131685_j69784628625939_1_alg».proof.Proof.LibMatmulPlain

noncomputable section

open scoped BigOperators

namespace Idealize.ShloMosaic.HostDotPlain

open Idealize.ShloMosaic Idealize.ShloMosaic.ValueIdx

variable {M K N : Nat}

/-- The host's plain product at an entry: the row-by-column sum. -/
theorem dotGeneral_apply {φ₁ φ₂ : FTy} (prec : Option ContractPrecision) (A : FVec Ideal ⟨2, ![M, K]⟩ φ₁)
    (B : FVec Ideal ⟨2, ![K, N]⟩ φ₂) (j : (⟨2, ![M, N]⟩ : Shape).Idx) :
    Host.dotGeneral (F := Ideal) (DotDims.plain M K N) prec A B j = ∑ k : Fin K, A (ix2 (j 0) k) * B (ix2 k (j 1)) := by
  refine (Ideal.dotGeneral_apply (DotDims.plain M K N) prec .single A B j).trans ?_
  rw [← Equiv.sum_comp (contrEquiv1 (DotDims.plain M K N) K MatmulPlain.contr_rank MatmulPlain.contr_size).symm]
  exact Finset.sum_congr rfl fun k _ => by rw [MatmulPlain.lhsIdx_eq, MatmulPlain.rhsIdx_eq]; rfl

end Idealize.ShloMosaic.HostDotPlain

end
-- ==== Proof.LibDense.lean ====
/-
  A dense layer read at an entry, over the extended reals.

  A dense layer is a plain matrix product plus a bias vector added to every row. On the matrix unit it is written as the
  product into a zero accumulator plus the bias, held as a one-row matrix, broadcast over the rows; on the host as the
  dot_general plus the bias vector broadcast first to one row and then over the rows. Either way the entry (p, q) is
  the row-by-column sum Σ_k A (p, k) · B (k, q) plus the bias at q. The extents and the operands' float formats are
  arbitrary.
-/
import proofs.«131685_j69784628625939_1_alg».proof.Proof.LibMatmulPlain
import proofs.«131685_j69784628625939_1_alg».proof.Proof.LibHostDotPlain
import Idealize.ShloMosaic.Lib.ValueLayout
import Idealize.ShloMosaic.Lib.Pipeline.Value

noncomputable section

open scoped BigOperators

namespace Idealize.ShloMosaic.Dense

open Idealize.ShloMosaic Idealize.ShloMosaic.ValueIdx

variable {M K N : Nat}

/-- The matrix unit's dense layer at an entry: the product into the zero accumulator, plus the one-row bias broadcast
    over the rows. -/
theorem matmul_bias_apply {φ₁ φ₂ : FTy} (A : FVec Ideal ⟨2, ![M, K]⟩ φ₁) (B : FVec Ideal ⟨2, ![K, N]⟩ φ₂)
    (c : FVec Ideal ⟨2, ![1, N]⟩ .f32) (h : (⟨2, ![1, N]⟩ : Shape).Broadcasts ⟨2, ![M, N]⟩) (p : Fin M) (q : Fin N) :
    addf (matmul (DotDims.plain M K N) none A B (constant (F := Ideal) ⟨2, ![M, N]⟩ .f32 0x00000000#32))
        (broadcastTo ⟨2, ![M, N]⟩ c h) (ix2 p q)
      = ∑ k : Fin K, A (ix2 p k) * B (ix2 k q) + c (ix2 (0 : Fin 1) q) := by
  show matmul (DotDims.plain M K N) none A B (constant (F := Ideal) ⟨2, ![M, N]⟩ .f32 0x00000000#32) (ix2 p q)
      + broadcastTo ⟨2, ![M, N]⟩ c h (ix2 p q) = _
  rw [MatmulPlain.matmul_zero_apply, broadcastTo_1b_ab_apply]
  rfl

/-- A bias vector broadcast to one row and then over the rows, at an entry: the bias at the column. -/
theorem bias_rows_apply (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    broadcastInDim ⟨2, ![M, N]⟩ ![0, 1] h2 (broadcastInDim ⟨2, ![1, N]⟩ ![1] h1 b) (ix2 p q) = b (ix1 q) := by
  have hq : (if N = 1 then 0 else q.val) = q.val := by
    split
    · have := q.isLt; omega
    · rfl
  refine (broadcastInDim_apply ![0, 1] h2 _ (ix2 p q) (ix2 (0 : Fin 1) q) fun ax => ?_).trans ?_
  · match ax with
    | ⟨0, _⟩ => rfl
    | ⟨1, _⟩ => exact hq.symm
  · refine broadcastInDim_apply ![1] h1 b (ix2 (0 : Fin 1) q) (ix1 q) fun ax => ?_
    match ax with
    | ⟨0, _⟩ => exact hq.symm

/-- The host's dense layer at an entry: the dot_general plus the bias vector broadcast over the rows. -/
theorem dot_bias_apply {φ₁ φ₂ : FTy} (A : FVec Ideal ⟨2, ![M, K]⟩ φ₁) (B : FVec Ideal ⟨2, ![K, N]⟩ φ₂)
    (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) (p : Fin M) (q : Fin N) :
    addf (Host.dotGeneral (F := Ideal) (DotDims.plain M K N) none A B)
        (broadcastInDim ⟨2, ![M, N]⟩ ![0, 1] h2 (broadcastInDim ⟨2, ![1, N]⟩ ![1] h1 b)) (ix2 p q)
      = ∑ k : Fin K, A (ix2 p k) * B (ix2 k q) + b (ix1 q) := by
  show Host.dotGeneral (F := Ideal) (DotDims.plain M K N) none A B (ix2 p q)
      + broadcastInDim ⟨2, ![M, N]⟩ ![0, 1] h2 (broadcastInDim ⟨2, ![1, N]⟩ ![1] h1 b) (ix2 p q) = _
  rw [HostDotPlain.dotGeneral_apply, bias_rows_apply]
  rfl

end Idealize.ShloMosaic.Dense

end
-- ==== Proof.LibRowLayers.lean ====
/-
  Three row-local layers over the extended reals, read at one entry of a block of rows.

  Each of the three layers below produces row R of its result from row R of its first operand alone (and from the
  whole of its small second and third operands). So when a block `a` of `m` rows agrees with the rows of a whole
  array `A` of `M` rows it was cut from — row `r` of the block is row `R` of the array —, the layer applied to the
  block, read at row `r`, is the layer applied to the whole array, read at row `R`:

  * the product with a matrix: the matrix unit's product into a zero accumulator (its operands narrowed to a shorter
    float format first, which changes nothing here) against the host's dot_general: both are Σ_k A(R,k) · B(k,q);
  * the bias and the activation: tanh (x(r,q) + b(q)), the bias held as one row and spread over the rows on one side,
    broadcast to one row and then over the rows on the other;
  * the product plus the bias: Σ_k A(R,k) · B(k,q) + b(q).

  No law of the extended reals beyond rewriting equal summands is used: the two sides are the same expression.
-/
import proofs.«131685_j69784628625939_1_alg».proof.Proof.LibMatmulPlain
import proofs.«131685_j69784628625939_1_alg».proof.Proof.LibHostDotPlain
import proofs.«131685_j69784628625939_1_alg».proof.Proof.LibDense
import Idealize.ShloMosaic.Lib.ValueLayout
import Idealize.ShloMosaic.Lib.Pipeline.Value

noncomputable section

open scoped BigOperators

namespace Idealize.ShloMosaic.RowLayers

open Idealize.ShloMosaic Idealize.ShloMosaic.ValueIdx

variable {M m K N : Nat}

/-- Row `r` of the block's product is row `R` of the whole product: the same row-by-column sums. -/
theorem product_rows (A : FVec Ideal ⟨2, ![M, K]⟩ .f32) (B : FVec Ideal ⟨2, ![K, N]⟩ .f32)
    (a : FVec Ideal ⟨2, ![m, K]⟩ .f32) (hn : FTy.bf16.bits < FTy.f32.bits) (r : Fin m) (R : Fin M) (q : Fin N)
    (ha : ∀ k : Fin K, a (ix2 r k) = A (ix2 R k)) :
    matmul (DotDims.plain m K N) none (truncf .bf16 a hn) (truncf .bf16 B hn)
        (constant (F := Ideal) ⟨2, ![m, N]⟩ .f32 0x00000000#32) (ix2 r q)
      = Host.dotGeneral (F := Ideal) (DotDims.plain M K N) none A B (ix2 R q) := by
  rw [MatmulPlain.matmul_zero_apply, HostDotPlain.dotGeneral_apply]
  refine Finset.sum_congr rfl fun k _ => ?_
  show a (ix2 r k) * B (ix2 k q) = A (ix2 R k) * B (ix2 k q)
  rw [ha k]

/-- Row `r` of tanh (block + bias) is row `R` of tanh (array + bias): tanh (x + b(q)) at equal x. -/
theorem bias_tanh_rows (X : FVec Ideal ⟨2, ![M, N]⟩ .f32) (b : FVec Ideal ⟨1, ![N]⟩ .f32)
    (x : FVec Ideal ⟨2, ![m, N]⟩ .f32)
    (hs : (⟨2, ![m, N]⟩ : Shape).ShapeCasts ⟨2, ![m, N]⟩) (hr : (⟨1, ![N]⟩ : Shape).ShapeCasts ⟨2, ![1, N]⟩)
    (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (hx : x (ix2 r q) = X (ix2 R q)) :
    tanh (addf (shapeCast ⟨2, ![m, N]⟩ x hs) (broadcastTo ⟨2, ![m, N]⟩ (shapeCast ⟨2, ![1, N]⟩ b hr) hb)) (ix2 r q)
      = Host.tanh (addf X (broadcastInDim ⟨2, ![M, N]⟩ ![0, 1] h2 (broadcastInDim ⟨2, ![1, N]⟩ ![1] h1 b))) (ix2 R q) := by
  show Ideal.tanh (shapeCast ⟨2, ![m, N]⟩ x hs (ix2 r q)
        + broadcastTo ⟨2, ![m, N]⟩ (shapeCast ⟨2, ![1, N]⟩ b hr) hb (ix2 r q))
      = Ideal.tanh (X (ix2 R q)
        + broadcastInDim ⟨2, ![M, N]⟩ ![0, 1] h2 (broadcastInDim ⟨2, ![1, N]⟩ ![1] h1 b) (ix2 R q))
  rw [shapeCast_self, broadcastTo_1b_ab_apply, shapeCast_a_1a_apply, Dense.bias_rows_apply, hx]

/-- Row `r` of the block's product plus the bias is row `R` of the whole product plus the bias. -/
theorem dense_rows (A : FVec Ideal ⟨2, ![M, K]⟩ .f32) (B : FVec Ideal ⟨2, ![K, N]⟩ .f32) (b : FVec Ideal ⟨1, ![N]⟩ .f32)
    (a : FVec Ideal ⟨2, ![m, K]⟩ .f32) (hn : FTy.bf16.bits < FTy.f32.bits)
    (hr : (⟨1, ![N]⟩ : Shape).ShapeCasts ⟨2, ![1, N]⟩) (hb : (⟨2, ![1, N]⟩ : Shape).Broadcasts ⟨2, ![m, N]⟩)
    (h1 : (⟨1, ![N]⟩ : Shape).BroadcastsInDim ⟨2, ![1, N]⟩ ![1])
    (h2 : (⟨2, ![1, N]⟩ : Shape).BroadcastsInDim ⟨2, ![M, N]⟩ ![0, 1])
    (r : Fin m) (R : Fin M) (q : Fin N) (ha : ∀ k : Fin K, a (ix2 r k) = A (ix2 R k)) :
    addf (matmul (DotDims.plain m K N) none (truncf .bf16 a hn) (truncf .bf16 B hn)
          (constant (F := Ideal) ⟨2, ![m, N]⟩ .f32 0x00000000#32))
        (broadcastTo ⟨2, ![m, N]⟩ (shapeCast ⟨2, ![1, N]⟩ b hr) hb) (ix2 r q)
      = addf (Host.dotGeneral (F := Ideal) (DotDims.plain M K N) none A B)
          (broadcastInDim ⟨2, ![M, N]⟩ ![0, 1] h2 (broadcastInDim ⟨2, ![1, N]⟩ ![1] h1 b)) (ix2 R q) := by
  rw [Dense.matmul_bias_apply, Dense.dot_bias_apply, shapeCast_a_1a_apply]
  congr 1
  refine Finset.sum_congr rfl fun k _ => ?_
  show a (ix2 r k) * B (ix2 k q) = A (ix2 R k) * B (ix2 k q)
  rw [ha k]

end Idealize.ShloMosaic.RowLayers

end
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.LibHostRowMax.lean ====
/-
  The host's reduction of a matrix by maximum along its second axis, read at a row, over the extended reals.

  For an `[a, b]` matrix `x` and an initial value held in an array `init` of any non-empty shape, the host's
  one-operand reduce with a maximum body along axis 1 is, at row `i`, the fold of `max` from the initial value's
  first entry over `x (i, k)`, `k < b`. Arbitrary extents and any float format. (The library states this over the
  reduced shape's own index with the coordinate put back; here the index is spelt by its two coordinates.)
-/
import Idealize.ShloMosaic.PureOps.Ideal.Laws
import Idealize.ShloMosaic.PureOps.Reduce
import Idealize.ShloMosaic.Lib.ValueIdx

noncomputable section

namespace Idealize.ShloMosaic.HostRowMax

open Idealize.ShloMosaic Idealize.ShloMosaic.ValueIdx

variable {a b : ℕ} {φ : FTy}

/-- The host's row maxima: at row `i`, the fold of `max` over the row's entries from the initial value. -/
theorem hostRowMax_apply {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduce (FloatOps.maximumf (F := Ideal) (φ := φ)) x init h' hu (ix1 i)
      = (Finset.univ : Finset (Fin b)).fold max (init (Shape.Idx.first hu)) (fun k => x (ix2 i k)) := by
  refine (Host.reduce_eq_fold_single (FloatOps.maximumf (F := Ideal) (φ := φ)) x init h' h hu (ix1 i)).trans ?_
  refine congrArg (Finset.fold max (init (Shape.Idx.first hu)) · (Finset.univ : Finset (Fin b))) (funext fun k => ?_)
  exact congrArg x (funext fun c => Fin.ext (by match c with | ⟨0, _⟩ => rfl | ⟨1, _⟩ => rfl))

end Idealize.ShloMosaic.HostRowMax

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.LibHostColRow.lean ====
/-
  Host broadcasts of a column and of a row, and a vector cast to a column or to a row, read at an index.

  For arbitrary extents and any element type.  A column [M, 1] broadcast (broadcast_in_dim, axes [0, 1]) to [M, N]
  reads at (r, q) the column's entry (r, 0); a row [1, N] broadcast to [M, N] reads at (r, q) the row's entry
  (0, q).  A vector of length M cast to the column [M, 1] holds the same entries as the vector broadcast into
  [M, 1] along axis 0, and a vector of length N cast to the row [1, N] the same as the vector broadcast into [1, N]
  along axis 1: so a program that reshapes a vector and one that broadcasts it agree.
-/
import proofs.«131685_j69784628625939_1_alg».proof.Proof.LibKeepdims
import Idealize.ShloMosaic.Lib.Pipeline.Value
import Idealize.ShloMosaic.Lib.ValueLayout
import Idealize.ShloMosaic.Lib.ValueIdx

namespace Idealize.ShloMosaic.HostColRow

open Idealize.ShloMosaic Idealize.ShloMosaic.ValueIdx

variable {M N : Nat}

/-- A column broadcast along the lanes, at (r, q): the column's entry of row r. -/
theorem bcast_col_apply {α : Type} (n : (⟨2, ![M, 1]⟩ : Shape).Idx → α)
    (h : (⟨2, ![M, 1]⟩ : Shape).BroadcastsInDim ⟨2, ![M, N]⟩ ![0, 1]) (i : (⟨2, ![M, N]⟩ : Shape).Idx) :
    broadcastInDim ⟨2, ![M, N]⟩ ![0, 1] h n i = n (ix2 (i 0) (0 : Fin 1)) := by
  refine broadcastInDim_apply _ h n i (ix2 (i 0) (0 : Fin 1)) fun a => ?_
  match a with
  | ⟨0, _⟩ =>
    show (i 0).val = if M = 1 then 0 else (i 0).val
    have h0 : (i 0).val < M := (i 0).isLt
    split
    · omega
    · rfl
  | ⟨1, _⟩ => rfl

/-- A row broadcast over the rows, at (r, q): the row's entry of lane q. -/
theorem bcast_row_apply {α : Type} (b : (⟨2, ![1, N]⟩ : Shape).Idx → α)
    (h : (⟨2, ![1, N]⟩ : Shape).BroadcastsInDim ⟨2, ![M, N]⟩ ![0, 1]) (i : (⟨2, ![M, N]⟩ : Shape).Idx) :
    broadcastInDim ⟨2, ![M, N]⟩ ![0, 1] h b i = b (ix2 (0 : Fin 1) (i 1)) := by
  refine broadcastInDim_apply _ h b i (ix2 (0 : Fin 1) (i 1)) fun a => ?_
  match a with
  | ⟨0, _⟩ => rfl
  | ⟨1, _⟩ =>
    show (i 1).val = if N = 1 then 0 else (i 1).val
    have h1 : (i 1).val < N := (i 1).isLt
    split
    · omega
    · rfl

/-- A vector cast to a column holds what the vector broadcast into the column along its axis holds. -/
theorem col_eq {α : Type} (x : (⟨1, ![M]⟩ : Shape).Idx → α) (h : (⟨1, ![M]⟩ : Shape).ShapeCasts ⟨2, ![M, 1]⟩)
    (h' : (⟨1, ![M]⟩ : Shape).BroadcastsInDim ⟨2, ![M, 1]⟩ ![0]) :
    shapeCast ⟨2, ![M, 1]⟩ x h = broadcastInDim ⟨2, ![M, 1]⟩ ![0] h' x := by
  funext i
  obtain ⟨p, u, rfl⟩ : ∃ (p : Fin M) (u : Fin 1), i = ix2 p u := ⟨i 0, i 1, eq_ix2 i⟩
  rw [Keepdims.shapeCast_a_a1_apply x h p u]
  refine (broadcastInDim_apply ![0] h' x _ (ix1 p) fun a => ?_).symm
  match a with
  | ⟨0, _⟩ =>
    show p.val = if M = 1 then 0 else p.val
    have h0 : p.val < M := p.isLt
    split
    · omega
    · rfl

/-- A vector cast to a row holds what the vector broadcast into the row along its axis holds. -/
theorem row_eq {α : Type} (x : (⟨1, ![N]⟩ : Shape).Idx → α) (h : (⟨1, ![N]⟩ : Shape).ShapeCasts ⟨2, ![1, N]⟩)
    (h' : (⟨1, ![N]⟩ : Shape).BroadcastsInDim ⟨2, ![1, N]⟩ ![1]) :
    shapeCast ⟨2, ![1, N]⟩ x h = broadcastInDim ⟨2, ![1, N]⟩ ![1] h' x := by
  funext i
  obtain ⟨u, q, rfl⟩ : ∃ (u : Fin 1) (q : Fin N), i = ix2 u q := ⟨i 0, i 1, eq_ix2 i⟩
  rw [shapeCast_a_1a_apply x h u q]
  refine (broadcastInDim_apply ![1] h' x _ (ix1 q) fun a => ?_).symm
  match a with
  | ⟨0, _⟩ =>
    show q.val = if N = 1 then 0 else q.val
    have h1 : q.val < N := q.isLt
    split
    · omega
    · rfl

end Idealize.ShloMosaic.HostColRow
-- ==== Proof.LibTailPieces.lean ====
/-
  A dense layer, a row maximum, a row sum and a column kept as a unit axis, each written once with the matrix unit's
  and the vector unit's operations and once with the host's, are the same arrays over the extended reals.

  Each statement is an equation between whole arrays, for arbitrary extents; each is proved by reading both sides
  at an index: a dense layer at (p, q) is Σ_k A (p, k) · B (k, q) + b q on either side (a change of float format is
  the identity); a row maximum at p is the fold of max over the row from the initial value; a row sum at p is the
  sum of the row (the host's starts from the constant 0); a vector cast to a column and spread over the lanes holds
  at (p, q) the vector's entry p on either side; a scalar spread over a shape holds the scalar everywhere.
-/
import proofs.«131685_j69784628625939_1_alg».proof.Proof.LibDense
import proofs.«131685_j69784628625939_1_alg».proof.Proof.LibRowReduce
import proofs.«131685_j69784628625939_1_alg».proof.Proof.LibHostRowMax
import proofs.«131685_j69784628625939_1_alg».proof.Proof.LibKeepdims
import proofs.«131685_j69784628625939_1_alg».proof.Proof.LibHostColRow

noncomputable section

open scoped BigOperators

namespace Idealize.ShloMosaic.TailPieces

open Idealize.ShloMosaic Idealize.ShloMosaic.ValueIdx

/-- A scalar constant spread over a shape is the rank-0 constant broadcast to the shape. -/
theorem splat_eq {s : Shape} {φ : FTy} (bits : BitVec φ.bits)
    (h : (⟨0, ![]⟩ : Shape).BroadcastsInDim s (![] : Fin 0 → Fin s.rank)) :
    broadcast s (FloatOps.ofBits (F := Ideal) φ bits)
      = broadcastInDim s ![] h (constant (F := Ideal) ⟨0, ![]⟩ φ bits) := by
  funext i
  exact (broadcastInDim_apply _ h (constant (F := Ideal) ⟨0, ![]⟩ φ bits) i ix0 (fun a => a.elim0)).symm

/-- A dense layer on the matrix unit (operands changed to other float formats, the product taken into a zero
    accumulator, the bias cast to one row and spread over the rows) is the host's dense layer. -/
theorem dense_eq {M K N : ℕ} {ψ₁ ψ₂ : FTy} (A : FVec Ideal ⟨2, ![M, K]⟩ .f32) (B : FVec Ideal ⟨2, ![K, N]⟩ .f32)
    (b : FVec Ideal ⟨1, ![N]⟩ .f32) (hA : ψ₁.bits < FTy.bits .f32) (hB : ψ₂.bits < FTy.bits .f32)
    (hc : (⟨1, ![N]⟩ : Shape).ShapeCasts ⟨2, ![1, N]⟩) (hb : (⟨2, ![1, N]⟩ : Shape).Broadcasts ⟨2, ![M, N]⟩)
    (h1 : (⟨1, ![N]⟩ : Shape).BroadcastsInDim ⟨2, ![1, N]⟩ ![1])
    (h2 : (⟨2, ![1, N]⟩ : Shape).BroadcastsInDim ⟨2, ![M, N]⟩ ![0, 1]) :
    addf (matmul (DotDims.plain M K N) none (truncf ψ₁ A hA) (truncf ψ₂ B hB)
          (constant (F := Ideal) ⟨2, ![M, N]⟩ .f32 0x00000000#32))
        (broadcastTo ⟨2, ![M, N]⟩ (shapeCast ⟨2, ![1, N]⟩ b hc) hb)
      = addf (Host.dotGeneral (F := Ideal) (DotDims.plain M K N) none A B)
        (broadcastInDim ⟨2, ![M, N]⟩ ![0, 1] h2 (broadcastInDim ⟨2, ![1, N]⟩ ![1] h1 b)) := by
  funext j
  obtain ⟨p, q, rfl⟩ : ∃ (p : Fin M) (q : Fin N), j = ix2 p q := ⟨j 0, j 1, eq_ix2 j⟩
  rw [Dense.matmul_bias_apply, Dense.dot_bias_apply, shapeCast_a_1a_apply]
  rfl

/-- The row maxima taken by the vector unit from an accumulator are the host's row maxima from the rank-0 constant
    of the same bits. -/
theorem rowMax_eq {a b : ℕ} {φ : FTy} (l : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ)
    (h' : (⟨2, ![a, b]⟩ : Shape).ReducesTo [1] ⟨1, ![a]⟩) (hu : 0 < (⟨0, ![]⟩ : Shape).numel) :
    multiReduction .maximumf [1] ⟨1, ![a]⟩ l acc h hφ hacc
      = Host.reduce (FloatOps.maximumf (F := Ideal) (φ := φ)) l (constant (F := Ideal) ⟨0, ![]⟩ φ acc) h' hu := by
  funext i
  obtain ⟨p, rfl⟩ : ∃ p : Fin a, i = ix1 p := ⟨i 0, eq_ix1 i⟩
  rw [RowReduce.rowMax_apply, HostRowMax.hostRowMax_apply (φ := φ) l _ h' h hu p]
  rfl

/-- The host's row sums: at row i, the initial value plus the sum of the row's entries. -/
theorem hostRowSum_apply {a b : ℕ} {φ : FTy} {u : Shape} (e : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (i : Fin a) :
    Host.reduceAdd (F := Ideal) e init h' hu (ix1 i) = init (Shape.Idx.first hu) + ∑ k : Fin b, e (ix2 i k) := by
  refine (Ideal.hostReduceAdd_single h' h e (init (Shape.Idx.first hu)) (ix1 i)).trans ?_
  refine congrArg (init (Shape.Idx.first hu) + ·) (Finset.sum_congr rfl fun k _ => ?_)
  exact congrArg e (funext fun c => Fin.ext (by match c with | ⟨0, _⟩ => rfl | ⟨1, _⟩ => rfl))

/-- The row sums taken by the vector unit are the host's row sums from the rank-0 constant 0. -/
theorem rowSum_eq {a b : ℕ} (e : FVec Ideal ⟨2, ![a, b]⟩ .f32)
    (h : (⟨2, ![a, b]⟩ : Shape).Reduces [1] ⟨1, ![a]⟩) (hφ : FKind.Formats .f32)
    (hacc : (0x00000000#32 : BitVec (FTy.bits .f32)) = FKind.add.neutral .f32 hφ)
    (h' : (⟨2, ![a, b]⟩ : Shape).ReducesTo [1] ⟨1, ![a]⟩) (hu : 0 < (⟨0, ![]⟩ : Shape).numel) :
    multiReduction .add [1] ⟨1, ![a]⟩ e 0x00000000#32 h hφ hacc
      = Host.reduceAdd (F := Ideal) e (constant (F := Ideal) ⟨0, ![]⟩ .f32 0x00000000#32) h' hu := by
  funext i
  obtain ⟨p, rfl⟩ : ∃ p : Fin a, i = ix1 p := ⟨i 0, eq_ix1 i⟩
  rw [RowReduce.rowSum_apply, hostRowSum_apply e _ h' h hu p]
  show _ = Ideal.ofBits .f32 0x00000000#32 + _
  rw [Ideal.ofBits_zero_f32, zero_add]

/-- A column spread over the lanes by the vector unit is the column broadcast by the host. -/
theorem colBcast_eq {α : Type} {a b : ℕ} (v : (⟨2, ![a, 1]⟩ : Shape).Idx → α)
    (h : (⟨2, ![a, 1]⟩ : Shape).Broadcasts ⟨2, ![a, b]⟩)
    (h' : (⟨2, ![a, 1]⟩ : Shape).BroadcastsInDim ⟨2, ![a, b]⟩ ![0, 1]) :
    broadcastTo ⟨2, ![a, b]⟩ v h = broadcastInDim ⟨2, ![a, b]⟩ ![0, 1] h' v := by
  funext j
  obtain ⟨p, q, rfl⟩ : ∃ (p : Fin a) (q : Fin b), j = ix2 p q := ⟨j 0, j 1, eq_ix2 j⟩
  rw [Keepdims.broadcastTo_a1_ab_apply, HostColRow.bcast_col_apply]
  rfl

/-- A vector cast to a column and spread over the lanes is the vector broadcast to a column and then over the
    lanes. -/
theorem keepdims_eq {α : Type} {a b : ℕ} (m : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (hc' : (⟨1, ![a]⟩ : Shape).BroadcastsInDim ⟨2, ![a, 1]⟩ ![0])
    (hb' : (⟨2, ![a, 1]⟩ : Shape).BroadcastsInDim ⟨2, ![a, b]⟩ ![0, 1]) :
    broadcastTo ⟨2, ![a, b]⟩ (shapeCast ⟨2, ![a, 1]⟩ m hc) hb
      = broadcastInDim ⟨2, ![a, b]⟩ ![0, 1] hb' (broadcastInDim ⟨2, ![a, 1]⟩ ![0] hc' m) := by
  rw [HostColRow.col_eq m hc hc', colBcast_eq _ hb hb']

/-- The exponential and the logarithm of the vector unit are the host's. -/
theorem exp_eq {s : Shape} {φ : FTy} (x : FVec Ideal s φ) : exp x = Host.exp (F := Ideal) x := rfl
theorem log_eq {s : Shape} {φ : FTy} (x : FVec Ideal s φ) : log x = Host.log (F := Ideal) x := rfl

end Idealize.ShloMosaic.TailPieces

end
-- ==== Proof.LibBcastVec.lean ====
/-
  A vector broadcast along one new axis, read at an entry.

  A length-b vector x placed as the row of a [1, b] matrix (broadcast_in_dim along axis 1) reads x k at (u, k); placed
  as the column of an [a, 1] matrix (along axis 0) it reads x i at (i, u); and a one-element vector spread over a
  length-a vector (along axis 0) reads its one entry everywhere. Arbitrary extents and element type.
-/
import Idealize.ShloMosaic.Lib.Pipeline.Value
import Idealize.ShloMosaic.Lib.ValueIdx

noncomputable section

namespace Idealize.ShloMosaic.BcastVec

open Idealize.ShloMosaic Idealize.ShloMosaic.ValueIdx

variable {α : Type}

/-- A vector as a one-row matrix: entry (u, k) is the vector's entry k. -/
theorem bcast_vec_row_apply {b : ℕ} (x : (⟨1, ![b]⟩ : Shape).Idx → α)
    (h : (⟨1, ![b]⟩ : Shape).BroadcastsInDim ⟨2, ![1, b]⟩ ![1]) (u : Fin 1) (k : Fin b) :
    broadcastInDim ⟨2, ![1, b]⟩ ![1] h x (ix2 u k) = x (ix1 k) :=
  broadcastInDim_apply _ h x _ _ (fun a => by
    match a with
    | ⟨0, _⟩ =>
      show k.val = if b = 1 then 0 else k.val
      split
      · omega
      · rfl)

/-- A vector as a one-column matrix: entry (i, u) is the vector's entry i. -/
theorem bcast_vec_col_apply {a : ℕ} (x : (⟨1, ![a]⟩ : Shape).Idx → α)
    (h : (⟨1, ![a]⟩ : Shape).BroadcastsInDim ⟨2, ![a, 1]⟩ ![0]) (i : Fin a) (u : Fin 1) :
    broadcastInDim ⟨2, ![a, 1]⟩ ![0] h x (ix2 i u) = x (ix1 i) :=
  broadcastInDim_apply _ h x _ _ (fun c => by
    match c with
    | ⟨0, _⟩ =>
      show i.val = if a = 1 then 0 else i.val
      split
      · omega
      · rfl)

/-- A one-element vector spread over a vector: every entry is the one element. -/
theorem bcast_one_apply {a : ℕ} (x : (⟨1, ![1]⟩ : Shape).Idx → α)
    (h : (⟨1, ![1]⟩ : Shape).BroadcastsInDim ⟨1, ![a]⟩ ![0]) (i : Fin a) :
    broadcastInDim ⟨1, ![a]⟩ ![0] h x (ix1 i) = x (ix1 (0 : Fin 1)) :=
  broadcastInDim_apply _ h x _ _ (fun c => by
    match c with
    | ⟨0, _⟩ => rfl)

end Idealize.ShloMosaic.BcastVec

end
-- ==== Proof.Pass1BlkPoint.lean ====
/-
  The first kernel's two blockwise results, read at one entry of a block of 5000 rows.

  At a grid point the kernel holds a block x of 5000 rows of the node features X, the same rows a of the aggregated
  features A, and the whole of the three weight matrices and of the two bias rows.  For the block it computes
      o = a·Wl + bl + x·Wr          (two products into zero accumulators, the bias row spread over the rows),
      n = o / max(√(Σ_q o(·,q)²), 1e-12)   (each row divided by the larger of its Euclidean norm and 1e-12),
      s = x·Ws + bs.
  Row r of each of the three depends on row r of x and of a alone.  So when row r of the block is row R of the whole
  array, the entry (r, q) of the block's o, n, s is the entry (R, q) of the whole-array pre-activation, of its row
  normalisation and of the skip term: the products are the same sums Σ_k a(r,k)·Wl(k,q) term by term, the bias is
  read at lane q on either side, the row sum of squares runs over the same 128 entries, and the square root, the
  maximum and the quotient are the same functions of the extended reals on the matrix unit's side and on the host's.
  A change of float format is the identity here, and so is a cast of a shape to itself.
-/
import proofs.«131685_j69784628625939_1_alg».proof.Proof.Gen.KernelIdeal.Skeleton
import proofs.«131685_j69784628625939_1_alg».proof.Proof.Spec
import proofs.«131685_j69784628625939_1_alg».proof.Proof.LibRowLayers
import proofs.«131685_j69784628625939_1_alg».proof.Proof.LibTailPieces
import proofs.«131685_j69784628625939_1_alg».proof.Proof.LibBcastVec

noncomputable section

open scoped BigOperators

namespace Cert.KernelIdeal.Pass1Blk

open Idealize.ShloMosaic Idealize.ShloMosaic.ValueIdx
open Cert.KernelIdeal Cert.KernelIdeal.Gen

/-! ## The block's three values as the kernel computes them -/

/-- The block's pre-activation a·Wl + bl + x·Wr. -/
def preBlk (x a : FVec Ideal S5000x128 .f32) (bl : FVec Ideal S1x128 .f32) (wl wr : FVec Ideal S128x128 .f32) :
    FVec Ideal S5000x128 .f32 :=
  addf (addf (matmul dot_S5000x128_S128x128_S5000x128_1_0_0_1_n_n none (truncf .bf16 a bitsLt_bf16_f32)
        (truncf .bf16 wl bitsLt_bf16_f32) (constant (F := Ideal) S5000x128 .f32 0x00000000#32))
      (broadcastTo S5000x128 bl broadcasts_S1x128_S5000x128))
    (matmul dot_S5000x128_S128x128_S5000x128_1_0_0_1_n_n none (truncf .bf16 x bitsLt_bf16_f32)
      (truncf .bf16 wr bitsLt_bf16_f32) (constant (F := Ideal) S5000x128 .f32 0x00000000#32))

/-- Each row of a block divided by the larger of its Euclidean norm and 1e-12. -/
def normBlk (o : FVec Ideal S5000x128 .f32) : FVec Ideal S5000x128 .f32 :=
  divf o (broadcastTo S5000x128
    (maximumf (sqrt (shapeCast S5000x1
        (multiReduction .add [1] S5000 (mulf o o) 0x00000000#32 reduces_S5000x128_S5000 (.inl rfl) rfl)
        shapeCasts_S5000_S5000x1))
      (broadcast S5000x1 (Scalar.ofBits (F := Ideal) .f32 0x2B8CBCCC#32)))
    broadcasts_S5000x1_S5000x128)

/-- The block's skip term x·Ws + bs. -/
def residBlk (x : FVec Ideal S5000x128 .f32) (bs : FVec Ideal S1x128 .f32) (ws : FVec Ideal S128x128 .f32) :
    FVec Ideal S5000x128 .f32 :=
  addf (matmul dot_S5000x128_S128x128_S5000x128_1_0_0_1_n_n none (truncf .bf16 x bitsLt_bf16_f32)
      (truncf .bf16 ws bitsLt_bf16_f32) (constant (F := Ideal) S5000x128 .f32 0x00000000#32))
    (broadcastTo S5000x128 bs broadcasts_S1x128_S5000x128)

/-- The kernel's normalised payload is the row normalisation of the block's pre-activation (the casts of a shape to
    itself dropped). -/
theorem pay7_blk (x0 x1 : FVec Ideal S5000x128 .f32) (x3 : FVec Ideal S1x128 .f32) (x2 x4 : FVec Ideal S128x128 .f32) :
    k0_pay7 (F := Ideal) x0 x1 x3 x2 x4 = normBlk (preBlk x0 x1 x3 x2 x4) := by
  unfold k0_pay7 k0_pay5 normBlk preBlk
  simp only [shapeCast_self]

/-- The kernel's skip payload is the block's skip term. -/
theorem pay6_blk (x0 : FVec Ideal S5000x128 .f32) (x6 : FVec Ideal S1x128 .f32) (x5 : FVec Ideal S128x128 .f32) :
    k0_pay6 (F := Ideal) x0 x6 x5 = residBlk x0 x6 x5 := by
  unfold k0_pay6 k0_pay5 residBlk
  simp only [shapeCast_self]

/-! ## One entry of the block against one entry of the whole array -/

/-- The larger of the Euclidean norm of a row of 128 entries and 1e-12. -/
def rowNorm (f : Fin 128 → EReal) : EReal :=
  max (Ideal.sqrt (∑ k : Fin 128, f k * f k)) (Ideal.ofBits .f32 0x2B8CBCCC#32)

/-- The block's row normalisation at (r, q): the entry divided by its row's clamped norm. -/
theorem normBlk_apply (o : FVec Ideal S5000x128 .f32) (r : Fin 5000) (q : Fin 128) :
    normBlk o (ix2 r q) = Ideal.div (o (ix2 r q)) (rowNorm fun k => o (ix2 r k)) := by
  unfold normBlk
  refine congrArg (Ideal.div (o (ix2 r q))) ?_
  refine (Keepdims.broadcastTo_a1_ab_apply _ broadcasts_S5000x1_S5000x128 r q).trans ?_
  refine congrArg (fun z => max (Ideal.sqrt z) (Ideal.ofBits .f32 0x2B8CBCCC#32)) ?_
  refine (Keepdims.shapeCast_a_a1_apply _ shapeCasts_S5000_S5000x1 r (0 : Fin 1)).trans ?_
  exact RowReduce.rowSum_apply (mulf o o) 0x00000000#32 reduces_S5000x128_S5000 (.inl rfl) rfl r

/-- The whole array's rows reduce along the lanes (from the reference's own shape fact: the result has rank one). -/
theorem reduces_all : Cert.ReferenceIdeal.S50000x128.Reduces [1] Cert.ReferenceIdeal.S50000 :=
  ⟨Cert.ReferenceIdeal.Facts₀.reducesTo_S50000x128_S50000_d1.1, Nat.one_pos,
    Cert.ReferenceIdeal.Facts₀.reducesTo_S50000x128_S50000_d1.2⟩

/-- The host's quotient and square root at an index (at the ideal values they are the vector unit's). -/
theorem hostDivf_apply {s : Shape} (a b : FVec Ideal s .f32) (i : s.Idx) :
    Host.divf (F := Ideal) a b i = Ideal.div (a i) (b i) := rfl
theorem hostSqrt_apply {s : Shape} (a : FVec Ideal s .f32) (i : s.Idx) :
    Host.sqrt (F := Ideal) a i = Ideal.sqrt (a i) := rfl

/-- The whole array's row normalisation at (R, q): the entry divided by its row's clamped norm (the host's row sum
    starts from the constant 0). -/
theorem normed_apply (O : Cert.Sage.Mat) (R : Fin 50000) (q : Fin 128) :
    Cert.Sage.normed O (ix2 R q) = Ideal.div (O (ix2 R q)) (rowNorm fun k => O (ix2 R k)) := by
  unfold Cert.Sage.normed Cert.Sage.colB
  rw [hostDivf_apply]
  refine congrArg (Ideal.div (O (ix2 R q))) ?_
  refine (HostColRow.bcast_col_apply _ Cert.ReferenceIdeal.Facts₀.bcast_S50000x1_S50000x128_0_1 (ix2 R q)).trans ?_
  rw [maximumf_apply, hostSqrt_apply]
  unfold rowNorm
  refine congrArg₂ (fun z w => max (Ideal.sqrt z) w) ?_ ?_
  · refine (BcastVec.bcast_vec_col_apply _ Cert.ReferenceIdeal.Facts₀.bcast_S50000_S50000x1_0 R (0 : Fin 1)).trans ?_
    refine (TailPieces.hostRowSum_apply (mulf O O) _ Cert.ReferenceIdeal.Facts₀.reducesTo_S50000x128_S50000_d1
      reduces_all Cert.ReferenceIdeal.Facts₀.h_S_ R).trans ?_
    show Ideal.ofBits .f32 0x00000000#32 + _ = _
    rw [Ideal.ofBits_zero_f32, zero_add]
    rfl
  · unfold Cert.Sage.splat
    exact broadcastInDim_apply _ Cert.ReferenceIdeal.Facts₀.bcast_S_S50000x1
      (constant (F := Ideal) Cert.ReferenceIdeal.S_ .f32 0x2B8CBCCC#32) _ ix0 (fun a => a.elim0)

/-- Row r of the block's normalisation is row R of the whole array's, when the rows agree. -/
theorem norm_point (O : Cert.Sage.Mat) (o : FVec Ideal S5000x128 .f32) (r : Fin 5000) (R : Fin 50000) (q : Fin 128)
    (ho : ∀ k : Fin 128, o (ix2 r k) = O (ix2 R k)) : normBlk o (ix2 r q) = Cert.Sage.normed O (ix2 R q) := by
  rw [normBlk_apply, normed_apply, ho q]
  exact congrArg (fun f => Ideal.div (O (ix2 R q)) (rowNorm f)) (funext ho)

/-- Row r of the block's pre-activation is row R of the whole array's, when the rows of x and of a agree. -/
theorem pre_point (X A : Cert.Sage.Mat) (WL : Cert.Sage.Sq) (BL : Cert.Sage.Row) (WR : Cert.Sage.Sq)
    (x a : FVec Ideal S5000x128 .f32) (r : Fin 5000) (R : Fin 50000) (q : Fin 128)
    (hx : ∀ k : Fin 128, x (ix2 r k) = X (ix2 R k)) (ha : ∀ k : Fin 128, a (ix2 r k) = A (ix2 R k)) :
    preBlk x a BL WL WR (ix2 r q) = Cert.Sage.pre X A WL BL WR (ix2 R q) := by
  have e1 := RowLayers.product_rows A WL a bitsLt_bf16_f32 r R q ha
  have e2 := RowLayers.product_rows X WR x bitsLt_bf16_f32 r R q hx
  have e3 : broadcastTo S5000x128 BL broadcasts_S1x128_S5000x128 (ix2 r q) = Cert.Sage.rowsB BL (ix2 R q) :=
    (broadcastTo_1b_ab_apply BL broadcasts_S1x128_S5000x128 r q).trans
      (HostColRow.bcast_row_apply BL Cert.ReferenceIdeal.Facts₀.bcast_S1x128_S50000x128_0_1 (ix2 R q)).symm
  exact congrArg₂ (fun u v : EReal => u + v) (congrArg₂ (fun u v : EReal => u + v) e1 e3) e2

/-- Row r of the block's skip term is row R of the whole array's, when the rows of x agree. -/
theorem resid_point (X : Cert.Sage.Mat) (WS : Cert.Sage.Sq) (BS : Cert.Sage.Row) (x : FVec Ideal S5000x128 .f32)
    (r : Fin 5000) (R : Fin 50000) (q : Fin 128) (hx : ∀ k : Fin 128, x (ix2 r k) = X (ix2 R k)) :
    residBlk x BS WS (ix2 r q) = Cert.Sage.resid X WS BS (ix2 R q) := by
  have e1 := RowLayers.product_rows X WS x bitsLt_bf16_f32 r R q hx
  have e3 : broadcastTo S5000x128 BS broadcasts_S1x128_S5000x128 (ix2 r q) = Cert.Sage.rowsB BS (ix2 R q) :=
    (broadcastTo_1b_ab_apply BS broadcasts_S1x128_S5000x128 r q).trans
      (HostColRow.bcast_row_apply BS Cert.ReferenceIdeal.Facts₀.bcast_S1x128_S50000x128_0_1 (ix2 R q)).symm
  exact congrArg₂ (fun u v : EReal => u + v) e1 e3

/-! ## The kernel's two payloads at one entry -/

/-- The row normalisation of the pre-activation of blocks whose rows r of x and of a are rows R of the arrays X and
    A, and whose bias row and weight matrices are the whole arrays, at (r, q): the whole-array row normalisation of
    the pre-activation at (R, q). -/
theorem blk7_point (X A : Cert.Sage.Mat) (WL : Cert.Sage.Sq) (BL : Cert.Sage.Row) (WR : Cert.Sage.Sq)
    (x0 x1 : FVec Ideal S5000x128 .f32) (x3 : FVec Ideal S1x128 .f32) (x2 x4 : FVec Ideal S128x128 .f32)
    (r : Fin 5000) (R : Fin 50000) (q : Fin 128)
    (h0 : ∀ k : Fin 128, x0 (ix2 r k) = X (ix2 R k)) (h1 : ∀ k : Fin 128, x1 (ix2 r k) = A (ix2 R k))
    (h3 : x3 = BL) (h2 : x2 = WL) (h4 : x4 = WR) :
    normBlk (preBlk x0 x1 x3 x2 x4) (ix2 r q) = Cert.Sage.normed (Cert.Sage.pre X A WL BL WR) (ix2 R q) := by
  subst h3 h2 h4
  exact norm_point (Cert.Sage.pre X A x2 x3 x4) (preBlk x0 x1 x3 x2 x4) r R q
    (fun k => pre_point X A x2 x3 x4 x0 x1 r R k h0 h1)

/-- The skip term of such blocks at (r, q): the whole-array skip term at (R, q). -/
theorem blk6_point (X : Cert.Sage.Mat) (WS : Cert.Sage.Sq) (BS : Cert.Sage.Row)
    (x0 : FVec Ideal S5000x128 .f32) (x6 : FVec Ideal S1x128 .f32) (x5 : FVec Ideal S128x128 .f32)
    (r : Fin 5000) (R : Fin 50000) (q : Fin 128)
    (h0 : ∀ k : Fin 128, x0 (ix2 r k) = X (ix2 R k)) (h6 : x6 = BS) (h5 : x5 = WS) :
    residBlk x0 x6 x5 (ix2 r q) = Cert.Sage.resid X WS BS (ix2 R q) := by
  subst h6 h5
  exact resid_point X x5 x6 x0 r R q h0

/-- The kernel's normalised payload at one entry (first layer). -/
theorem pay7_point (X A : Cert.Sage.Mat) (WL : Cert.Sage.Sq) (BL : Cert.Sage.Row) (WR : Cert.Sage.Sq)
    (x0 x1 : FVec Ideal S5000x128 .f32) (x3 : FVec Ideal S1x128 .f32) (x2 x4 : FVec Ideal S128x128 .f32)
    (r : Fin 5000) (R : Fin 50000) (q : Fin 128)
    (h0 : ∀ k : Fin 128, x0 (ix2 r k) = X (ix2 R k)) (h1 : ∀ k : Fin 128, x1 (ix2 r k) = A (ix2 R k))
    (h3 : x3 = BL) (h2 : x2 = WL) (h4 : x4 = WR) :
    k0_pay7 (F := Ideal) x0 x1 x3 x2 x4 (ix2 r q) = Cert.Sage.normed (Cert.Sage.pre X A WL BL WR) (ix2 R q) := by
  rw [pay7_blk]
  exact blk7_point X A WL BL WR x0 x1 x3 x2 x4 r R q h0 h1 h3 h2 h4

/-- The kernel's skip payload at one entry (first layer). -/
theorem pay6_point (X : Cert.Sage.Mat) (WS : Cert.Sage.Sq) (BS : Cert.Sage.Row)
    (x0 : FVec Ideal S5000x128 .f32) (x6 : FVec Ideal S1x128 .f32) (x5 : FVec Ideal S128x128 .f32)
    (r : Fin 5000) (R : Fin 50000) (q : Fin 128)
    (h0 : ∀ k : Fin 128, x0 (ix2 r k) = X (ix2 R k)) (h6 : x6 = BS) (h5 : x5 = WS) :
    k0_pay6 (F := Ideal) x0 x6 x5 (ix2 r q) = Cert.Sage.resid X WS BS (ix2 R q) := by
  rw [pay6_blk]
  exact blk6_point X WS BS x0 x6 x5 r R q h0 h6 h5

/-- The same kernel in the second layer: its payloads are the same two block functions (it casts the block of x to
    its own shape first, which changes nothing). -/
theorem pay7_blk2 (x0 x1 : FVec Ideal S5000x128 .f32) (x3 : FVec Ideal S1x128 .f32) (x2 x4 : FVec Ideal S128x128 .f32) :
    k2_pay7 (F := Ideal) x0 x1 x3 x2 x4 = normBlk (preBlk x0 x1 x3 x2 x4) := by
  unfold k2_pay7 k2_pay5 normBlk preBlk
  simp only [shapeCast_self]
theorem pay6_blk2 (x0 : FVec Ideal S5000x128 .f32) (x6 : FVec Ideal S1x128 .f32) (x5 : FVec Ideal S128x128 .f32) :
    k2_pay6 (F := Ideal) x0 x6 x5 = residBlk x0 x6 x5 := by
  unfold k2_pay6 k2_pay5 residBlk
  simp only [shapeCast_self]
theorem pay7_point2 (X A : Cert.Sage.Mat) (WL : Cert.Sage.Sq) (BL : Cert.Sage.Row) (WR : Cert.Sage.Sq)
    (x0 x1 : FVec Ideal S5000x128 .f32) (x3 : FVec Ideal S1x128 .f32) (x2 x4 : FVec Ideal S128x128 .f32)
    (r : Fin 5000) (R : Fin 50000) (q : Fin 128)
    (h0 : ∀ k : Fin 128, x0 (ix2 r k) = X (ix2 R k)) (h1 : ∀ k : Fin 128, x1 (ix2 r k) = A (ix2 R k))
    (h3 : x3 = BL) (h2 : x2 = WL) (h4 : x4 = WR) :
    k2_pay7 (F := Ideal) x0 x1 x3 x2 x4 (ix2 r q) = Cert.Sage.normed (Cert.Sage.pre X A WL BL WR) (ix2 R q) := by
  rw [pay7_blk2]
  exact blk7_point X A WL BL WR x0 x1 x3 x2 x4 r R q h0 h1 h3 h2 h4
theorem pay6_point2 (X : Cert.Sage.Mat) (WS : Cert.Sage.Sq) (BS : Cert.Sage.Row)
    (x0 : FVec Ideal S5000x128 .f32) (x6 : FVec Ideal S1x128 .f32) (x5 : FVec Ideal S128x128 .f32)
    (r : Fin 5000) (R : Fin 50000) (q : Fin 128)
    (h0 : ∀ k : Fin 128, x0 (ix2 r k) = X (ix2 R k)) (h6 : x6 = BS) (h5 : x5 = WS) :
    k2_pay6 (F := Ideal) x0 x6 x5 (ix2 r q) = Cert.Sage.resid X WS BS (ix2 R q) := by
  rw [pay6_blk2]
  exact blk6_point X WS BS x0 x6 x5 r R q h0 h6 h5

/-- The same kernel in the third layer: its payloads are the same two block functions (it casts the block of x to
    its own shape first, which changes nothing). -/
theorem pay7_blk4 (x0 x1 : FVec Ideal S5000x128 .f32) (x3 : FVec Ideal S1x128 .f32) (x2 x4 : FVec Ideal S128x128 .f32) :
    k4_pay7 (F := Ideal) x0 x1 x3 x2 x4 = normBlk (preBlk x0 x1 x3 x2 x4) := by
  unfold k4_pay7 k4_pay5 normBlk preBlk
  simp only [shapeCast_self]
theorem pay6_blk4 (x0 : FVec Ideal S5000x128 .f32) (x6 : FVec Ideal S1x128 .f32) (x5 : FVec Ideal S128x128 .f32) :
    k4_pay6 (F := Ideal) x0 x6 x5 = residBlk x0 x6 x5 := by
  unfold k4_pay6 k4_pay5 residBlk
  simp only [shapeCast_self]
theorem pay7_point4 (X A : Cert.Sage.Mat) (WL : Cert.Sage.Sq) (BL : Cert.Sage.Row) (WR : Cert.Sage.Sq)
    (x0 x1 : FVec Ideal S5000x128 .f32) (x3 : FVec Ideal S1x128 .f32) (x2 x4 : FVec Ideal S128x128 .f32)
    (r : Fin 5000) (R : Fin 50000) (q : Fin 128)
    (h0 : ∀ k : Fin 128, x0 (ix2 r k) = X (ix2 R k)) (h1 : ∀ k : Fin 128, x1 (ix2 r k) = A (ix2 R k))
    (h3 : x3 = BL) (h2 : x2 = WL) (h4 : x4 = WR) :
    k4_pay7 (F := Ideal) x0 x1 x3 x2 x4 (ix2 r q) = Cert.Sage.normed (Cert.Sage.pre X A WL BL WR) (ix2 R q) := by
  rw [pay7_blk4]
  exact blk7_point X A WL BL WR x0 x1 x3 x2 x4 r R q h0 h1 h3 h2 h4
theorem pay6_point4 (X : Cert.Sage.Mat) (WS : Cert.Sage.Sq) (BS : Cert.Sage.Row)
    (x0 : FVec Ideal S5000x128 .f32) (x6 : FVec Ideal S1x128 .f32) (x5 : FVec Ideal S128x128 .f32)
    (r : Fin 5000) (R : Fin 50000) (q : Fin 128)
    (h0 : ∀ k : Fin 128, x0 (ix2 r k) = X (ix2 R k)) (h6 : x6 = BS) (h5 : x5 = WS) :
    k4_pay6 (F := Ideal) x0 x6 x5 (ix2 r q) = Cert.Sage.resid X WS BS (ix2 R q) := by
  rw [pay6_blk4]
  exact blk6_point X WS BS x0 x6 x5 r R q h0 h6 h5

/-- The zero offsets of a load or store of a whole staging buffer. -/
theorem hz : (![0, 0] : Fin 2 → Nat) = fun _ => 0 := funext fun a => by fin_cases a <;> rfl

end Cert.KernelIdeal.Pass1Blk

end
-- ==== Proof.Pass1BlkR0.lean ====
/-
  The first kernel's two blockwise outputs in the first of the three layers, as arrays.

  The kernel runs over ten grid points; at point t it loads rows 5000·t … 5000·t + 4999 of the node features and of
  the aggregated features, and the whole of the weights and biases, and stores two blocks of 5000 rows: the
  row-normalised pre-activation (output 7) and the skip term (output 8).  This module reads what each case of the
  body leaves in the two staging buffers (the payloads of the blocks just loaded, whichever case), reads the blocks
  off their arrays, and concludes with the entrywise lemmas that after the region the two output arrays are the
  whole-array row normalisation of the pre-activation and the whole-array skip term of the arrays the region found.
-/
import proofs.«131685_j69784628625939_1_alg».proof.Proof.Gen.KernelIdeal.Frame
import proofs.«131685_j69784628625939_1_alg».proof.Proof.Pass1BlkPoint
import Idealize.ShloMosaic.Lib.Pipeline.Value
import Idealize.ShloMosaic.Lib.Tactic

noncomputable section

open scoped BigOperators

namespace Cert.KernelIdeal.Pass1Blk

open Idealize.ShloMosaic Idealize.ShloMosaic.ValueIdx Idealize.ShloMosaic.TcCoe Idealize.SL.Sem
open Idealize.ShloMosaic.Pipeline (Dat)
open Cert.KernelIdeal Cert.KernelIdeal.Gen

variable {F : FTy → Type} [FloatOps F]

/-! ## What each case of the body leaves in the two blockwise outputs

  In either case (the first grid point, which also resets the running sums, or a later one) the body writes output 7
  by one store of the whole block: the normalised payload of the blocks of x, of the aggregated rows, of the bias
  row and of the two weight matrices it has just loaded; and output 8 by one store of the skip payload of the blocks
  of x, of its bias row and of its weight matrix.  Neither depends on the running sums. -/

theorem out_A_7_R0 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond0_0 i) (x0 x1 : Vec F S5000x128 .f32) (x2 : Vec F S128x128 .f32) (x3 : Vec F S1x128 .f32) (x4 x5 : Vec F S128x128 .f32) (x6 : Vec F S1x128 .f32) :
    out0_A_7 c i a1 h1 a2 h2 a3 h3 a4 h4 a5 h5 a6 h6 a7 h7 a8 h8 a9 h9 a10 h10 a11 h11 hc x0 x1 x2 x3 x4 x5 x6 = k0_pay7 x0 x1 x3 x2 x4 := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S1x128) hz, View.ld_unit_zero (S := S128x128) hz]

theorem out_A_8_R0 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond0_0 i) (x0 x1 : Vec F S5000x128 .f32) (x2 : Vec F S128x128 .f32) (x3 : Vec F S1x128 .f32) (x4 x5 : Vec F S128x128 .f32) (x6 : Vec F S1x128 .f32) :
    out0_A_8 c i a1 h1 a2 h2 a3 h3 a4 h4 a5 h5 a6 h6 a7 h7 a8 h8 a9 h9 a10 h10 a11 h11 hc x0 x1 x2 x3 x4 x5 x6 = k0_pay6 x0 x6 x5 := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_unit_zero hz]
  simp only [View.readAt_eq_ld, h1.read_unread, h6.read_unread, h7.read_unread, View.ld_unit_zero (S := S5000x128) hz, View.ld_unit_zero (S := S1x128) hz, View.ld_unit_zero (S := S128x128) hz]

theorem out_B_7_R0 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond0_0 i) (x0 x1 : Vec F S5000x128 .f32) (x2 : Vec F S128x128 .f32) (x3 : Vec F S1x128 .f32) (x4 x5 : Vec F S128x128 .f32) (x6 : Vec F S1x128 .f32) (xo9 xo10 : Vec F S1x128 .f32) :
    out0_B_7 c i a1 h1 a2 h2 a3 h3 a4 h4 a5 h5 a6 h6 a7 h7 a8 h8 a9 h9 a10 h10 a11 h11 hc x0 x1 x2 x3 x4 x5 x6 xo9 xo10 = k0_pay7 x0 x1 x3 x2 x4 := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 x6 xo9 xo10)]
  unfold kernelRun0_B
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S1x128) hz, View.ld_unit_zero (S := S128x128) hz]

theorem out_B_8_R0 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond0_0 i) (x0 x1 : Vec F S5000x128 .f32) (x2 : Vec F S128x128 .f32) (x3 : Vec F S1x128 .f32) (x4 x5 : Vec F S128x128 .f32) (x6 : Vec F S1x128 .f32) (xo9 xo10 : Vec F S1x128 .f32) :
    out0_B_8 c i a1 h1 a2 h2 a3 h3 a4 h4 a5 h5 a6 h6 a7 h7 a8 h8 a9 h9 a10 h10 a11 h11 hc x0 x1 x2 x3 x4 x5 x6 xo9 xo10 = k0_pay6 x0 x6 x5 := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 x6 xo9 xo10)]
  unfold kernelRun0_B
  dsimp only
  sl_unfold_words
  rw [View.canon_unit_zero hz]
  simp only [View.readAt_eq_ld, h1.read_unread, h6.read_unread, h7.read_unread, View.ld_unit_zero (S := S5000x128) hz, View.ld_unit_zero (S := S1x128) hz, View.ld_unit_zero (S := S128x128) hz]

section Points
variable (V : (c : Dev nD) → (b : Ref sig .tc) → Buf (Elt F) ((c : Thread nD τ).loc b))

/-- After the body at any point, output 7's staging buffer holds the normalised payload of the point's blocks. -/
theorem outs7_R0 (c : Dev nD) (t : Fin cfg0.N) :
    (outsAt0 V c t.val t.isLt).1 = k0_pay7 (iblk0 V c 0 t) (iblk0 V c 1 t) (iblk0 V c 3 t) (iblk0 V c 2 t) (iblk0 V c 4 t) := by
  by_cases h : t.val % 10 = 0
  · rw [outsAt0_A V c t h]
    dsimp only
    exact out_A_7_R0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk0 V c 0 t) (iblk0 V c 1 t) (iblk0 V c 2 t) (iblk0 V c 3 t) (iblk0 V c 4 t) (iblk0 V c 5 t) (iblk0 V c 6 t)
  · rw [outsAt0_B V c t h]
    dsimp only
    exact out_B_7_R0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h' => h ((hcond0_0 t).mp h')) (iblk0 V c 0 t) (iblk0 V c 1 t) (iblk0 V c 2 t) (iblk0 V c 3 t) (iblk0 V c 4 t) (iblk0 V c 5 t) (iblk0 V c 6 t)
      (outsAt0 V c (t.val - 1) (Nat.lt_of_le_of_lt (Nat.sub_le _ _) t.isLt)).2.2.1
      (outsAt0 V c (t.val - 1) (Nat.lt_of_le_of_lt (Nat.sub_le _ _) t.isLt)).2.2.2

/-- After the body at any point, output 8's staging buffer holds the skip payload of the point's blocks. -/
theorem outs8_R0 (c : Dev nD) (t : Fin cfg0.N) :
    (outsAt0 V c t.val t.isLt).2.1 = k0_pay6 (iblk0 V c 0 t) (iblk0 V c 6 t) (iblk0 V c 5 t) := by
  by_cases h : t.val % 10 = 0
  · rw [outsAt0_A V c t h]
    dsimp only
    exact out_A_8_R0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) ((hcond0_0 t).mpr h) (iblk0 V c 0 t) (iblk0 V c 1 t) (iblk0 V c 2 t) (iblk0 V c 3 t) (iblk0 V c 4 t) (iblk0 V c 5 t) (iblk0 V c 6 t)
  · rw [outsAt0_B V c t h]
    dsimp only
    exact out_B_8_R0 (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (fun h' => h ((hcond0_0 t).mp h')) (iblk0 V c 0 t) (iblk0 V c 1 t) (iblk0 V c 2 t) (iblk0 V c 3 t) (iblk0 V c 4 t) (iblk0 V c 5 t) (iblk0 V c 6 t)
      (outsAt0 V c (t.val - 1) (Nat.lt_of_le_of_lt (Nat.sub_le _ _) t.isLt)).2.2.1
      (outsAt0 V c (t.val - 1) (Nat.lt_of_le_of_lt (Nat.sub_le _ _) t.isLt)).2.2.2

end Points

/-! ## The blocks read off their arrays

  At point t the blocks of x, of the aggregated rows and of the two blockwise outputs are rows 5000·t … 5000·t + 4999
  of their arrays (block index (t, 0), blocks of 5000 × 128); the three weight matrices and the two bias rows have
  one block, the whole array (block index (0, 0) at every point). -/

/-- The printed index maps, decided once over the grid. -/
theorem idx_facts_R0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-- Row r of the block of point t, as a row of the array. -/
def rowAt_R0 (t : Fin cfg0.N) (r : Fin 5000) : Fin 50000 :=
  ⟨5000 * t.val + r.val, by
    have hN : t.val < 10 := lt_of_lt_of_eq t.isLt (show cfg0.N = 10 from N_0)
    have hr := r.isLt
    omega⟩

section Reads
variable (V : (c : Dev nD) → (b : Ref sig .tc) → Buf (Elt F) ((c : Thread nD τ).loc b))

/-- Row r of point t's block of window 0 is row 5000·t + r of its array. -/
theorem blk0_read_R0 (c : Dev nD) (t : Fin cfg0.N) (r : Fin 5000) (k : Fin 128) :
    iblk0 V c 0 t (ix2 r k) = V c (Pipeline.arrRef spec0 0) (ix2 (rowAt_R0 t r) k) := by
  obtain ⟨e0a, e0b, e1a, e1b, e2a, e2b, e3a, e3b, e4a, e4b, e5a, e5b, e6a, e6b, e7a, e7b, e8a, e8b⟩ := idx_facts_R0 t
  unfold iblk0
  rw [View.read_apply]
  show V c (Pipeline.arrRef spec0 0) _ = V c (Pipeline.arrRef spec0 0) _
  refine congrArg (V c (Pipeline.arrRef spec0 0)) (funext fun a => Fin.ext ?_)
  match a with
  | ⟨0, _⟩ => show win0_0.index t (0 : Fin 2) * 5000 + 1 * r.val = 5000 * t.val + r.val; rw [e0a]; omega
  | ⟨1, _⟩ => show win0_0.index t (1 : Fin 2) * 128 + 1 * k.val = k.val; rw [e0b]; omega

/-- Row r of point t's block of window 1 is row 5000·t + r of its array. -/
theorem blk1_read_R0 (c : Dev nD) (t : Fin cfg0.N) (r : Fin 5000) (k : Fin 128) :
    iblk0 V c 1 t (ix2 r k) = V c (Pipeline.arrRef spec0 1) (ix2 (rowAt_R0 t r) k) := by
  obtain ⟨e0a, e0b, e1a, e1b, e2a, e2b, e3a, e3b, e4a, e4b, e5a, e5b, e6a, e6b, e7a, e7b, e8a, e8b⟩ := idx_facts_R0 t
  unfold iblk0
  rw [View.read_apply]
  show V c (Pipeline.arrRef spec0 1) _ = V c (Pipeline.arrRef spec0 1) _
  refine congrArg (V c (Pipeline.arrRef spec0 1)) (funext fun a => Fin.ext ?_)
  match a with
  | ⟨0, _⟩ => show win0_1.index t (0 : Fin 2) * 5000 + 1 * r.val = 5000 * t.val + r.val; rw [e1a]; omega
  | ⟨1, _⟩ => show win0_1.index t (1 : Fin 2) * 128 + 1 * k.val = k.val; rw [e1b]; omega

/-- Window 2's one block is its whole array at every point. -/
theorem blk2_read_R0 (c : Dev nD) (t : Fin cfg0.N) :
    (iblk0 V c 2 t : Vec F S128x128 .f32) = V c (Pipeline.arrRef spec0 2) := by
  obtain ⟨e0a, e0b, e1a, e1b, e2a, e2b, e3a, e3b, e4a, e4b, e5a, e5b, e6a, e6b, e7a, e7b, e8a, e8b⟩ := idx_facts_R0 t
  funext j
  unfold iblk0
  rw [View.read_apply]
  show V c (Pipeline.arrRef spec0 2) _ = V c (Pipeline.arrRef spec0 2) j
  refine congrArg (V c (Pipeline.arrRef spec0 2)) (funext fun a => Fin.ext ?_)
  match a with
  | ⟨0, _⟩ => show win0_2.index t (0 : Fin 2) * 128 + 1 * (j 0).val = (j 0).val; rw [e2a]; omega
  | ⟨1, _⟩ => show win0_2.index t (1 : Fin 2) * 128 + 1 * (j 1).val = (j 1).val; rw [e2b]; omega

/-- Window 3's one block is its whole array at every point. -/
theorem blk3_read_R0 (c : Dev nD) (t : Fin cfg0.N) :
    (iblk0 V c 3 t : Vec F S1x128 .f32) = V c (Pipeline.arrRef spec0 3) := by
  obtain ⟨e0a, e0b, e1a, e1b, e2a, e2b, e3a, e3b, e4a, e4b, e5a, e5b, e6a, e6b, e7a, e7b, e8a, e8b⟩ := idx_facts_R0 t
  funext j
  unfold iblk0
  rw [View.read_apply]
  show V c (Pipeline.arrRef spec0 3) _ = V c (Pipeline.arrRef spec0 3) j
  refine congrArg (V c (Pipeline.arrRef spec0 3)) (funext fun a => Fin.ext ?_)
  match a with
  | ⟨0, _⟩ => show win0_3.index t (0 : Fin 2) * 1 + 1 * (j 0).val = (j 0).val; rw [e3a]; omega
  | ⟨1, _⟩ => show win0_3.index t (1 : Fin 2) * 128 + 1 * (j 1).val = (j 1).val; rw [e3b]; omega

/-- Window 4's one block is its whole array at every point. -/
theorem blk4_read_R0 (c : Dev nD) (t : Fin cfg0.N) :
    (iblk0 V c 4 t : Vec F S128x128 .f32) = V c (Pipeline.arrRef spec0 4) := by
  obtain ⟨e0a, e0b, e1a, e1b, e2a, e2b, e3a, e3b, e4a, e4b, e5a, e5b, e6a, e6b, e7a, e7b, e8a, e8b⟩ := idx_facts_R0 t
  funext j
  unfold iblk0
  rw [View.read_apply]
  show V c (Pipeline.arrRef spec0 4) _ = V c (Pipeline.arrRef spec0 4) j
  refine congrArg (V c (Pipeline.arrRef spec0 4)) (funext fun a => Fin.ext ?_)
  match a with
  | ⟨0, _⟩ => show win0_4.index t (0 : Fin 2) * 128 + 1 * (j 0).val = (j 0).val; rw [e4a]; omega
  | ⟨1, _⟩ => show win0_4.index t (1 : Fin 2) * 128 + 1 * (j 1).val = (j 1).val; rw [e4b]; omega

/-- Window 5's one block is its whole array at every point. -/
theorem blk5_read_R0 (c : Dev nD) (t : Fin cfg0.N) :
    (iblk0 V c 5 t : Vec F S128x128 .f32) = V c (Pipeline.arrRef spec0 5) := by
  obtain ⟨e0a, e0b, e1a, e1b, e2a, e2b, e3a, e3b, e4a, e4b, e5a, e5b, e6a, e6b, e7a, e7b, e8a, e8b⟩ := idx_facts_R0 t
  funext j
  unfold iblk0
  rw [View.read_apply]
  show V c (Pipeline.arrRef spec0 5) _ = V c (Pipeline.arrRef spec0 5) j
  refine congrArg (V c (Pipeline.arrRef spec0 5)) (funext fun a => Fin.ext ?_)
  match a with
  | ⟨0, _⟩ => show win0_5.index t (0 : Fin 2) * 128 + 1 * (j 0).val = (j 0).val; rw [e5a]; omega
  | ⟨1, _⟩ => show win0_5.index t (1 : Fin 2) * 128 + 1 * (j 1).val = (j 1).val; rw [e5b]; omega

/-- Window 6's one block is its whole array at every point. -/
theorem blk6_read_R0 (c : Dev nD) (t : Fin cfg0.N) :
    (iblk0 V c 6 t : Vec F S1x128 .f32) = V c (Pipeline.arrRef spec0 6) := by
  obtain ⟨e0a, e0b, e1a, e1b, e2a, e2b, e3a, e3b, e4a, e4b, e5a, e5b, e6a, e6b, e7a, e7b, e8a, e8b⟩ := idx_facts_R0 t
  funext j
  unfold iblk0
  rw [View.read_apply]
  show V c (Pipeline.arrRef spec0 6) _ = V c (Pipeline.arrRef spec0 6) j
  refine congrArg (V c (Pipeline.arrRef spec0 6)) (funext fun a => Fin.ext ?_)
  match a with
  | ⟨0, _⟩ => show win0_6.index t (0 : Fin 2) * 1 + 1 * (j 0).val = (j 0).val; rw [e6a]; omega
  | ⟨1, _⟩ => show win0_6.index t (1 : Fin 2) * 128 + 1 * (j 1).val = (j 1).val; rw [e6b]; omega

end Reads

/-- Entry (r, q) of point t's block of a blockwise output sits at row 5000·t + r, lane q of its array. -/
theorem emb7_R0 (t : Fin cfg0.N) (r : Fin 5000) (q : Fin 128) :
    ((cfg0.win 7).blk t).view.emb (ix2 r q) = ix2 (rowAt_R0 t r) q := by
  obtain ⟨e0a, e0b, e1a, e1b, e2a, e2b, e3a, e3b, e4a, e4b, e5a, e5b, e6a, e6b, e7a, e7b, e8a, e8b⟩ := idx_facts_R0 t
  refine funext fun a => Fin.ext ?_
  match a with
  | ⟨0, _⟩ => show win0_7.index t (0 : Fin 2) * 5000 + 1 * r.val = 5000 * t.val + r.val; rw [e7a]; omega
  | ⟨1, _⟩ => show win0_7.index t (1 : Fin 2) * 128 + 1 * q.val = q.val; rw [e7b]; omega

theorem emb8_R0 (t : Fin cfg0.N) (r : Fin 5000) (q : Fin 128) :
    ((cfg0.win 8).blk t).view.emb (ix2 r q) = ix2 (rowAt_R0 t r) q := by
  obtain ⟨e0a, e0b, e1a, e1b, e2a, e2b, e3a, e3b, e4a, e4b, e5a, e5b, e6a, e6b, e7a, e7b, e8a, e8b⟩ := idx_facts_R0 t
  refine funext fun a => Fin.ext ?_
  match a with
  | ⟨0, _⟩ => show win0_8.index t (0 : Fin 2) * 5000 + 1 * r.val = 5000 * t.val + r.val; rw [e8a]; omega
  | ⟨1, _⟩ => show win0_8.index t (1 : Fin 2) * 128 + 1 * q.val = q.val; rw [e8b]; omega

/-! ## The two payloads of a point's blocks, as blocks of the whole-array functions -/

section Values
variable (V : (c : Dev nD) → (b : Ref sig .tc) → Buf (Elt Ideal) ((c : Thread nD τ).loc b))

/-- THE NORMALISED PAYLOAD of point t's blocks is block t of the whole-array row normalisation of the pre-activation
    of the arrays as the region finds them. -/
theorem pay7_R0 (c : Dev nD) (t : Fin cfg0.N) :
    k0_pay7 (iblk0 V c 0 t) (iblk0 V c 1 t) (iblk0 V c 3 t) (iblk0 V c 2 t) (iblk0 V c 4 t)
      = ((cfg0.win 7).blk t).view.read (Elt Ideal) (Cert.Sage.normed (Cert.Sage.pre (V c (Pipeline.arrRef spec0 0)) (V c (Pipeline.arrRef spec0 1)) (V c (Pipeline.arrRef spec0 2)) (V c (Pipeline.arrRef spec0 3)) (V c (Pipeline.arrRef spec0 4)))) := by
  funext j
  obtain ⟨r, q, rfl⟩ : ∃ (r : Fin 5000) (q : Fin 128), j = ix2 r q := ⟨j 0, j 1, eq_ix2 j⟩
  rw [View.read_apply]
  show _ = Cert.Sage.normed (Cert.Sage.pre (V c (Pipeline.arrRef spec0 0)) (V c (Pipeline.arrRef spec0 1)) (V c (Pipeline.arrRef spec0 2)) (V c (Pipeline.arrRef spec0 3)) (V c (Pipeline.arrRef spec0 4)))
    (((cfg0.win 7).blk t).view.emb (ix2 r q))
  rw [emb7_R0 t r q]
  exact pay7_point (V c (Pipeline.arrRef spec0 0)) (V c (Pipeline.arrRef spec0 1)) (V c (Pipeline.arrRef spec0 2)) (V c (Pipeline.arrRef spec0 3)) (V c (Pipeline.arrRef spec0 4))
    (iblk0 V c 0 t) (iblk0 V c 1 t) (iblk0 V c 3 t) (iblk0 V c 2 t) (iblk0 V c 4 t) r (rowAt_R0 t r) q
    (fun k => blk0_read_R0 V c t r k) (fun k => blk1_read_R0 V c t r k) (blk3_read_R0 V c t) (blk2_read_R0 V c t)
    (blk4_read_R0 V c t)

/-- THE SKIP PAYLOAD of point t's blocks is block t of the whole-array skip term. -/
theorem pay6_R0 (c : Dev nD) (t : Fin cfg0.N) :
    k0_pay6 (iblk0 V c 0 t) (iblk0 V c 6 t) (iblk0 V c 5 t)
      = ((cfg0.win 8).blk t).view.read (Elt Ideal) (Cert.Sage.resid (V c (Pipeline.arrRef spec0 0)) (V c (Pipeline.arrRef spec0 5)) (V c (Pipeline.arrRef spec0 6))) := by
  funext j
  obtain ⟨r, q, rfl⟩ : ∃ (r : Fin 5000) (q : Fin 128), j = ix2 r q := ⟨j 0, j 1, eq_ix2 j⟩
  rw [View.read_apply]
  show _ = Cert.Sage.resid (V c (Pipeline.arrRef spec0 0)) (V c (Pipeline.arrRef spec0 5)) (V c (Pipeline.arrRef spec0 6)) (((cfg0.win 8).blk t).view.emb (ix2 r q))
  rw [emb8_R0 t r q]
  exact pay6_point (V c (Pipeline.arrRef spec0 0)) (V c (Pipeline.arrRef spec0 5)) (V c (Pipeline.arrRef spec0 6)) (iblk0 V c 0 t) (iblk0 V c 6 t) (iblk0 V c 5 t) r (rowAt_R0 t r) q
    (fun k => blk0_read_R0 V c t r k) (blk6_read_R0 V c t) (blk5_read_R0 V c t)

end Values

/-! ## The two output arrays after the region

  Both outputs are written back at every point, each point its own block of 5000 rows; the ten blocks tile the
  50000 rows.  So the arrays end holding the two whole-array functions. -/

/-- Every entry of output 7's array is in the block of the point its row falls in: rows 5000·t … 5000·t + 4999. -/
theorem cover7_R0 (i : S50000x128.Idx) :
    ∃ t : Fin cfg0.N, (cfg0.win 7).flush t = true ∧ i ∈ ((cfg0.win 7).blk t).view.set := by
  have h0 : (i 0).val < 50000 := (i 0).isLt
  have h1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0a, e0b, e1a, e1b, e2a, e2b, e3a, e3b, e4a, e4b, e5a, e5b, e6a, e6b, e7a, e7b, e8a, e8b⟩ := idx_facts_R0 t
  refine ⟨t, flush0_7 t, ?_⟩
  show i ∈ ((View.whole main_v36_0).slice (win0_7.rect t)).set
  rw [View.set_slice_whole, Rect.mem_set_unit]
  intro a
  match a with
  | ⟨0, _⟩ =>
    show win0_7.index t (0 : Fin 2) * 5000 ≤ (i 0).val ∧ (i 0).val < win0_7.index t (0 : Fin 2) * 5000 + 5000
    rw [e7a, ht]; omega
  | ⟨1, _⟩ =>
    show win0_7.index t (1 : Fin 2) * 128 ≤ (i 1).val ∧ (i 1).val < win0_7.index t (1 : Fin 2) * 128 + 128
    rw [e7b]; omega

/-- Every entry of output 8's array is in the block of the point its row falls in: rows 5000·t … 5000·t + 4999. -/
theorem cover8_R0 (i : S50000x128.Idx) :
    ∃ t : Fin cfg0.N, (cfg0.win 8).flush t = true ∧ i ∈ ((cfg0.win 8).blk t).view.set := by
  have h0 : (i 0).val < 50000 := (i 0).isLt
  have h1 : (i 1).val < 128 := (i 1).isLt
  have hN : cfg0.N = 10 := N_0
  obtain ⟨t, ht⟩ : ∃ t : Fin cfg0.N, t.val = (i 0).val / 5000 := ⟨⟨(i 0).val / 5000, by rw [hN]; omega⟩, rfl⟩
  obtain ⟨e0a, e0b, e1a, e1b, e2a, e2b, e3a, e3b, e4a, e4b, e5a, e5b, e6a, e6b, e7a, e7b, e8a, e8b⟩ := idx_facts_R0 t
  refine ⟨t, flush0_8 t, ?_⟩
  show i ∈ ((View.whole main_v36_1).slice (win0_8.rect t)).set
  rw [View.set_slice_whole, Rect.mem_set_unit]
  intro a
  match a with
  | ⟨0, _⟩ =>
    show win0_8.index t (0 : Fin 2) * 5000 ≤ (i 0).val ∧ (i 0).val < win0_8.index t (0 : Fin 2) * 5000 + 5000
    rw [e8a, ht]; omega
  | ⟨1, _⟩ =>
    show win0_8.index t (1 : Fin 2) * 128 ≤ (i 1).val ∧ (i 1).val < win0_8.index t (1 : Fin 2) * 128 + 128
    rw [e8b]; omega

section Arrays
variable (V : (c : Dev nD) → (b : Ref sig .tc) → Buf (Elt Ideal) ((c : Thread nD τ).loc b))

/-- What point t writes back to output 7 is block t of the whole-array row normalisation. -/
theorem flushed7_R0 (c : Dev nD) (t : Fin cfg0.N) :
    (dat0 V c).flushed 7 t = ((cfg0.win 7).blk t).view.read (Elt Ideal) (Cert.Sage.normed (Cert.Sage.pre (V c (Pipeline.arrRef spec0 0)) (V c (Pipeline.arrRef spec0 1)) (V c (Pipeline.arrRef spec0 2)) (V c (Pipeline.arrRef spec0 3)) (V c (Pipeline.arrRef spec0 4)))) := by
  show (cfg0.win 7).cut (grid0.coords t) ((dat0 V c).after 7 t) = _
  rw [after0_7, outs7_R0 V c t]
  exact pay7_R0 V c t

/-- What point t writes back to output 8 is block t of the whole-array skip term. -/
theorem flushed8_R0 (c : Dev nD) (t : Fin cfg0.N) :
    (dat0 V c).flushed 8 t = ((cfg0.win 8).blk t).view.read (Elt Ideal) (Cert.Sage.resid (V c (Pipeline.arrRef spec0 0)) (V c (Pipeline.arrRef spec0 5)) (V c (Pipeline.arrRef spec0 6))) := by
  show (cfg0.win 8).cut (grid0.coords t) ((dat0 V c).after 8 t) = _
  rw [after0_8, outs8_R0 V c t]
  exact pay6_R0 V c t

/-- OUTPUT 7 after the region: the row-normalised pre-activation of the arrays as the region finds them. -/
theorem arr7_R0 (c : Dev nD) : (dat0 V c).arrAt 7 cfg0.N = (Cert.Sage.normed (Cert.Sage.pre (V c (Pipeline.arrRef spec0 0)) (V c (Pipeline.arrRef spec0 1)) (V c (Pipeline.arrRef spec0 2)) (V c (Pipeline.arrRef spec0 3)) (V c (Pipeline.arrRef spec0 4)))) :=
  (dat0 V c).arrAt_eq_of_cover 7 (Cert.Sage.normed (Cert.Sage.pre (V c (Pipeline.arrRef spec0 0)) (V c (Pipeline.arrRef spec0 1)) (V c (Pipeline.arrRef spec0 2)) (V c (Pipeline.arrRef spec0 3)) (V c (Pipeline.arrRef spec0 4)))) (fun t _ => flushed7_R0 V c t) cover7_R0

/-- OUTPUT 8 after the region: the skip term of the arrays as the region finds them. -/
theorem arr8_R0 (c : Dev nD) : (dat0 V c).arrAt 8 cfg0.N = (Cert.Sage.resid (V c (Pipeline.arrRef spec0 0)) (V c (Pipeline.arrRef spec0 5)) (V c (Pipeline.arrRef spec0 6))) :=
  (dat0 V c).arrAt_eq_of_cover 8 (Cert.Sage.resid (V c (Pipeline.arrRef spec0 0)) (V c (Pipeline.arrRef spec0 5)) (V c (Pipeline.arrRef spec0 6))) (fun t _ => flushed8_R0 V c t) cover8_R0

end Arrays

end Cert.KernelIdeal.Pass1Blk

end
-- ==== Proof.Pass1BlkR2.lean ====
/-
  The first kernel's two blockwise outputs in the second of the three layers, as arrays.

  The kernel runs over ten grid points; at point t it loads rows 5000·t … 5000·t + 4999 of the node features and of
  the aggregated features, and the whole of the weights and biases, and stores two blocks of 5000 rows: the
  row-normalised pre-activation (output 7) and the skip term (output 8).  This module reads what each case of the
  body leaves in the two staging buffers (the payloads of the blocks just loaded, whichever case), reads the blocks
  off their arrays, and concludes with the entrywise lemmas that after the region the two output arrays are the
  whole-array row normalisation of the pre-activation and the whole-array skip term of the arrays the region found.
-/
import proofs.«131685_j69784628625939_1_alg».proof.Proof.Gen.KernelIdeal.Frame
import proofs.«131685_j69784628625939_1_alg».proof.Proof.Pass1BlkPoint
import Idealize.ShloMosaic.Lib.Pipeline.Value
import Idealize.ShloMosaic.Lib.Tactic

noncomputable section

open scoped BigOperators

namespace Cert.KernelIdeal.Pass1Blk

open Idealize.ShloMosaic Idealize.ShloMosaic.ValueIdx Idealize.ShloMosaic.TcCoe Idealize.SL.Sem
open Idealize.ShloMosaic.Pipeline (Dat)
open Cert.KernelIdeal Cert.KernelIdeal.Gen

variable {F : FTy → Type} [FloatOps F]

/-! ## What each case of the body leaves in the two blockwise outputs

  In either case (the first grid point, which also resets the running sums, or a later one) the body writes output 7
  by one store of the whole block: the normalised payload of the blocks of x, of the aggregated rows, of the bias
  row and of the two weight matrices it has just loaded; and output 8 by one store of the skip payload of the blocks
  of x, of its bias row and of its weight matrix.  Neither depends on the running sums. -/

theorem out_A_7_R2 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond2_0 i) (x0 x1 : Vec F S5000x128 .f32) (x2 : Vec F S128x128 .f32) (x3 : Vec F S1x128 .f32) (x4 x5 : Vec F S128x128 .f32) (x6 : Vec F S1x128 .f32) :
    out2_A_7 c i a1 h1 a2 h2 a3 h3 a4 h4 a5 h5 a6 h6 a7 h7 a8 h8 a9 h9 a10 h10 a11 h11 hc x0 x1 x2 x3 x4 x5 x6 = k2_pay7 x0 x1 x3 x2 x4 := by
  unfold out2_A_7
  rw [View.read_writes_eq_canon _ _ _ (cover2_A_7 c i a1 h1 a2 h2 a3 h3 a4 h4 a5 h5 a6 h6 a7 h7 a8 h8 a9 h9 a10 h10 a11 h11 hc x0 x1 x2 x3 x4 x5 x6)]
  unfold kernelRun2_A
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S1x128) hz, View.ld_unit_zero (S := S128x128) hz]

theorem out_A_8_R2 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond2_0 i) (x0 x1 : Vec F S5000x128 .f32) (x2 : Vec F S128x128 .f32) (x3 : Vec F S1x128 .f32) (x4 x5 : Vec F S128x128 .f32) (x6 : Vec F S1x128 .f32) :
    out2_A_8 c i a1 h1 a2 h2 a3 h3 a4 h4 a5 h5 a6 h6 a7 h7 a8 h8 a9 h9 a10 h10 a11 h11 hc x0 x1 x2 x3 x4 x5 x6 = k2_pay6 x0 x6 x5 := by
  unfold out2_A_8
  rw [View.read_writes_eq_canon _ _ _ (cover2_A_8 c i a1 h1 a2 h2 a3 h3 a4 h4 a5 h5 a6 h6 a7 h7 a8 h8 a9 h9 a10 h10 a11 h11 hc x0 x1 x2 x3 x4 x5 x6)]
  unfold kernelRun2_A
  dsimp only
  sl_unfold_words
  rw [View.canon_unit_zero hz]
  simp only [View.readAt_eq_ld, h1.read_unread, h6.read_unread, h7.read_unread, View.ld_unit_zero (S := S5000x128) hz, View.ld_unit_zero (S := S1x128) hz, View.ld_unit_zero (S := S128x128) hz]

theorem out_B_7_R2 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond2_0 i) (x0 x1 : Vec F S5000x128 .f32) (x2 : Vec F S128x128 .f32) (x3 : Vec F S1x128 .f32) (x4 x5 : Vec F S128x128 .f32) (x6 : Vec F S1x128 .f32) (xo9 xo10 : Vec F S1x128 .f32) :
    out2_B_7 c i a1 h1 a2 h2 a3 h3 a4 h4 a5 h5 a6 h6 a7 h7 a8 h8 a9 h9 a10 h10 a11 h11 hc x0 x1 x2 x3 x4 x5 x6 xo9 xo10 = k2_pay7 x0 x1 x3 x2 x4 := by
  unfold out2_B_7
  rw [View.read_writes_eq_canon _ _ _ (cover2_B_7 c i a1 h1 a2 h2 a3 h3 a4 h4 a5 h5 a6 h6 a7 h7 a8 h8 a9 h9 a10 h10 a11 h11 hc x0 x1 x2 x3 x4 x5 x6 xo9 xo10)]
  unfold kernelRun2_B
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S1x128) hz, View.ld_unit_zero (S := S128x128) hz]

theorem out_B_8_R2 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond2_0 i) (x0 x1 : Vec F S5000x128 .f32) (x2 : Vec F S128x128 .f32) (x3 : Vec F S1x128 .f32) (x4 x5 : Vec F S128x128 .f32) (x6 : Vec F S1x128 .f32) (xo9 xo10 : Vec F S1x128 .f32) :
    out2_B_8 c i a1 h1 a2 h2 a3 h3 a4 h4 a5 h5 a6 h6 a7 h7 a8 h8 a9 h9 a10 h10 a11 h11 hc x0 x1 x2 x3 x4 x5 x6 xo9 xo10 = k2_pay6 x0 x6 x5 := by
  unfold out2_B_8
  rw [View.read_writes_eq_canon _ _ _ (cover2_B_8 c i a1 h1 a2 h2 a3 h3 a4 h4 a5 h5 a6 h6 a7 h7 a8 h8 a9 h9 a10 h10 a11 h11 hc x0 x1 x2 x3 x4 x5 x6 xo9 xo10)]
  unfold kernelRun2_B
  dsimp only
  sl_unfold_words
  rw [View.canon_unit_zero hz]
  simp only [View.readAt_eq_ld, h1.read_unread, h6.read_unread, h7.read_unread, View.ld_unit_zero (S := S5000x128) hz, View.ld_unit_zero (S := S1x128) hz, View.ld_unit_zero (S := S128x128) hz]

section Points
variable (V : (c : Dev nD) → (b : Ref sig .tc) → Buf (Elt F) ((c : Thread nD τ).loc b))

/-- After the body at any point, output 7's staging buffer holds the normalised payload of the point's blocks. -/
theorem outs7_R2 (c : Dev nD) (t : Fin cfg2.N) :
    (outsAt2 V c t.val t.isLt).1 = k2_pay7 (iblk2 V c 0 t) (iblk2 V c 1 t) (iblk2 V c 3 t) (iblk2 V c 2 t) (iblk2 V c 4 t) := by
  by_cases h : t.val % 10 = 0
  · rw [outsAt2_A V c t h]
    dsimp only
    exact out_A_7_R2 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h) (iblk2 V c 0 t) (iblk2 V c 1 t) (iblk2 V c 2 t) (iblk2 V c 3 t) (iblk2 V c 4 t) (iblk2 V c 5 t) (iblk2 V c 6 t)
  · rw [outsAt2_B V c t h]
    dsimp only
    exact out_B_7_R2 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h' => h ((hcond2_0 t).mp h')) (iblk2 V c 0 t) (iblk2 V c 1 t) (iblk2 V c 2 t) (iblk2 V c 3 t) (iblk2 V c 4 t) (iblk2 V c 5 t) (iblk2 V c 6 t)
      (outsAt2 V c (t.val - 1) (Nat.lt_of_le_of_lt (Nat.sub_le _ _) t.isLt)).2.2.1
      (outsAt2 V c (t.val - 1) (Nat.lt_of_le_of_lt (Nat.sub_le _ _) t.isLt)).2.2.2

/-- After the body at any point, output 8's staging buffer holds the skip payload of the point's blocks. -/
theorem outs8_R2 (c : Dev nD) (t : Fin cfg2.N) :
    (outsAt2 V c t.val t.isLt).2.1 = k2_pay6 (iblk2 V c 0 t) (iblk2 V c 6 t) (iblk2 V c 5 t) := by
  by_cases h : t.val % 10 = 0
  · rw [outsAt2_A V c t h]
    dsimp only
    exact out_A_8_R2 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) ((hcond2_0 t).mpr h) (iblk2 V c 0 t) (iblk2 V c 1 t) (iblk2 V c 2 t) (iblk2 V c 3 t) (iblk2 V c 4 t) (iblk2 V c 5 t) (iblk2 V c 6 t)
  · rw [outsAt2_B V c t h]
    dsimp only
    exact out_B_8_R2 (F := F) c (grid2.coords t) (ms2_0 t) (hs2_0 t) (ms2_1 t) (hs2_1 t) (ms2_2 t) (hs2_2 t) (ms2_3 t) (hs2_3 t) (ms2_4 t) (hs2_4 t) (ms2_5 t) (hs2_5 t) (ms2_6 t) (hs2_6 t) (ms2_7 t) (hs2_7 t) (ms2_8 t) (hs2_8 t) (ms2_9 t) (hs2_9 t) (ms2_10 t) (hs2_10 t) (fun h' => h ((hcond2_0 t).mp h')) (iblk2 V c 0 t) (iblk2 V c 1 t) (iblk2 V c 2 t) (iblk2 V c 3 t) (iblk2 V c 4 t) (iblk2 V c 5 t) (iblk2 V c 6 t)
      (outsAt2 V c (t.val - 1) (Nat.lt_of_le_of_lt (Nat.sub_le _ _) t.isLt)).2.2.1
      (outsAt2 V c (t.val - 1) (Nat.lt_of_le_of_lt (Nat.sub_le _ _) t.isLt)).2.2.2

end Points

/-! ## The blocks read off their arrays

  At point t the blocks of x, of the aggregated rows and of the two blockwise outputs are rows 5000·t … 5000·t + 4999
  of their arrays (block index (t, 0), blocks of 5000 × 128); the three weight matrices and the two bias rows have
  one block, the whole array (block index (0, 0) at every point). -/

/-- The printed index maps, decided once over the grid. -/
theorem idx_facts_R2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0
    ∧ win2_8.index t (0 : Fin 2) = t.val ∧ win2_8.index t (1 : Fin 2) = 0 :=
  (by decide +kernel : ∀ t : Fin grid2.N, _)

/-- Row r of the block of point t, as a row of the array. -/
def rowAt_R2 (t : Fin cfg2.N) (r : Fin 5000) : Fin 50000 :=
  ⟨5000 * t.val + r.val, by
    have hN : t.val < 10 := lt_of_lt_of_eq t.isLt (show cfg2.N = 10 from N_2)
    have hr := r.isLt
    omega⟩

section Reads
variable (V : (c : Dev nD) → (b : Ref sig .tc) → Buf (Elt F) ((c : Thread nD τ).loc b))

/-- Row r of point t's block of window 0 is row 5000·t + r of its array. -/
theorem blk0_read_R2 (c : Dev nD) (t : Fin cfg2.N) (r : Fin 5000) (k : Fin 128) :
    iblk2 V c 0 t (ix2 r k) = V c (Pipeline.arrRef spec2 0) (ix2 (rowAt_R2 t r) k) := by
  obtain ⟨e0a, e0b, e1a, e1b, e2a, e2b, e3a, e3b, e4a, e4b, e5a, e5b, e6a, e6b, e7a, e7b, e8a, e8b⟩ := idx_facts_R2 t
  unfold iblk2
  rw [View.read_apply]
  show V c (Pipeline.arrRef spec2 0) _ = V c (Pipeline.arrRef spec2 0) _
  refine congrArg (V c (Pipeline.arrRef spec2 0)) (funext fun a => Fin.ext ?_)
  match a with
  | ⟨0, _⟩ => show win2_0.index t (0 : Fin 2) * 5000 + 1 * r.val = 5000 * t.val + r.val; rw [e0a]; omega
  | ⟨1, _⟩ => show win2_0.index t (1 : Fin 2) * 128 + 1 * k.val = k.val; rw [e0b]; omega

/-- Row r of point t's block of window 1 is row 5000·t + r of its array. -/
theorem blk1_read_R2 (c : Dev nD) (t : Fin cfg2.N) (r : Fin 5000) (k : Fin 128) :
    iblk2 V c 1 t (ix2 r k) = V c (Pipeline.arrRef spec2 1) (ix2 (rowAt_R2 t r) k) := by
  obtain ⟨e0a, e0b, e1a, e1b, e2a, e2b, e3a, e3b, e4a, e4b, e5a, e5b, e6a, e6b, e7a, e7b, e8a, e8b⟩ := idx_facts_R2 t
  unfold iblk2
  rw [View.read_apply]
  show V c (Pipeline.arrRef spec2 1) _ = V c (Pipeline.arrRef spec2 1) _
  refine congrArg (V c (Pipeline.arrRef spec2 1)) (funext fun a => Fin.ext ?_)
  match a with
  | ⟨0, _⟩ => show win2_1.index t (0 : Fin 2) * 5000 + 1 * r.val = 5000 * t.val + r.val; rw [e1a]; omega
  | ⟨1, _⟩ => show win2_1.index t (1 : Fin 2) * 128 + 1 * k.val = k.val; rw [e1b]; omega

/-- Window 2's one block is its whole array at every point. -/
theorem blk2_read_R2 (c : Dev nD) (t : Fin cfg2.N) :
    (iblk2 V c 2 t : Vec F S128x128 .f32) = V c (Pipeline.arrRef spec2 2) := by
  obtain ⟨e0a, e0b, e1a, e1b, e2a, e2b, e3a, e3b, e4a, e4b, e5a, e5b, e6a, e6b, e7a, e7b, e8a, e8b⟩ := idx_facts_R2 t
  funext j
  unfold iblk2
  rw [View.read_apply]
  show V c (Pipeline.arrRef spec2 2) _ = V c (Pipeline.arrRef spec2 2) j
  refine congrArg (V c (Pipeline.arrRef spec2 2)) (funext fun a => Fin.ext ?_)
  match a with
  | ⟨0, _⟩ => show win2_2.index t (0 : Fin 2) * 128 + 1 * (j 0).val = (j 0).val; rw [e2a]; omega
  | ⟨1, _⟩ => show win2_2.index t (1 : Fin 2) * 128 + 1 * (j 1).val = (j 1).val; rw [e2b]; omega

/-- Window 3's one block is its whole array at every point. -/
theorem blk3_read_R2 (c : Dev nD) (t : Fin cfg2.N) :
    (iblk2 V c 3 t : Vec F S1x128 .f32) = V c (Pipeline.arrRef spec2 3) := by
  obtain ⟨e0a, e0b, e1a, e1b, e2a, e2b, e3a, e3b, e4a, e4b, e5a, e5b, e6a, e6b, e7a, e7b, e8a, e8b⟩ := idx_facts_R2 t
  funext j
  unfold iblk2
  rw [View.read_apply]
  show V c (Pipeline.arrRef spec2 3) _ = V c (Pipeline.arrRef spec2 3) j
  refine congrArg (V c (Pipeline.arrRef spec2 3)) (funext fun a => Fin.ext ?_)
  match a with
  | ⟨0, _⟩ => show win2_3.index t (0 : Fin 2) * 1 + 1 * (j 0).val = (j 0).val; rw [e3a]; omega
  | ⟨1, _⟩ => show win2_3.index t (1 : Fin 2) * 128 + 1 * (j 1).val = (j 1).val; rw [e3b]; omega

/-- Window 4's one block is its whole array at every point. -/
theorem blk4_read_R2 (c : Dev nD) (t : Fin cfg2.N) :
    (iblk2 V c 4 t : Vec F S128x128 .f32) = V c (Pipeline.arrRef spec2 4) := by
  obtain ⟨e0a, e0b, e1a, e1b, e2a, e2b, e3a, e3b, e4a, e4b, e5a, e5b, e6a, e6b, e7a, e7b, e8a, e8b⟩ := idx_facts_R2 t
  funext j
  unfold iblk2
  rw [View.read_apply]
  show V c (Pipeline.arrRef spec2 4) _ = V c (Pipeline.arrRef spec2 4) j
  refine congrArg (V c (Pipeline.arrRef spec2 4)) (funext fun a => Fin.ext ?_)
  match a with
  | ⟨0, _⟩ => show win2_4.index t (0 : Fin 2) * 128 + 1 * (j 0).val = (j 0).val; rw [e4a]; omega
  | ⟨1, _⟩ => show win2_4.index t (1 : Fin 2) * 128 + 1 * (j 1).val = (j 1).val; rw [e4b]; omega

/-- Window 5's one block is its whole array at every point. -/
theorem blk5_read_R2 (c : Dev nD) (t : Fin cfg2.N) :
    (iblk2 V c 5 t : Vec F S128x128 .f32) = V c (Pipeline.arrRef spec2 5) := by
  obtain ⟨e0a, e0b, e1a, e1b, e2a, e2b, e3a, e3b, e4a, e4b, e5a, e5b, e6a, e6b, e7a, e7b, e8a, e8b⟩ := idx_facts_R2 t
  funext j
  unfold iblk2
  rw [View.read_apply]
  show V c (Pipeline.arrRef spec2 5) _ = V c (Pipeline.arrRef spec2 5) j
  refine congrArg (V c (Pipeline.arrRef spec2 5)) (funext fun a => Fin.ext ?_)
  match a with
  | ⟨0, _⟩ => show win2_5.index t (0 : Fin 2) * 128 + 1 * (j 0).val = (j 0).val; rw [e5a]; omega
  | ⟨1, _⟩ => show win2_5.index t (1 : Fin 2) * 128 + 1 * (j 1).val = (j 1).val; rw [e5b]; omega

/-- Window 6's one block is its whole array at every point. -/
theorem blk6_read_R2 (c : Dev nD) (t : Fin cfg2.N) :
    (iblk2 V c 6 t : Vec F S1x128 .f32) = V c (Pipeline.arrRef spec2 6) := by
  obtain ⟨e0a, e0b, e1a, e1b, e2a, e2b, e3a, e3b, e4a, e4b, e5a, e5b, e6a, e6b, e7a, e7b, e8a, e8b⟩ := idx_facts_R2 t
  funext j
  unfold iblk2
  rw [View.read_apply]
  show V c (Pipeline.arrRef spec2 6) _ = V c (Pipeline.arrRef spec2 6) j
  refine congrArg (V c (Pipeline.arrRef spec2 6)) (funext fun a => Fin.ext ?_)
  match a with
  | ⟨0, _⟩ => show win2_6.index t (0 : Fin 2) * 1 + 1 * (j 0).val = (j 0).val; rw [e6a]; omega
  | ⟨1, _⟩ => show win2_6.index t (1 : Fin 2) * 128 + 1 * (j 1).val = (j 1).val; rw [e6b]; omega

end Reads

/-- Entry (r, q) of point t's block of a blockwise output sits at row 5000·t + r, lane q of its array. -/
theorem emb7_R2 (t : Fin cfg2.N) (r : Fin 5000) (q : Fin 128) :
    ((cfg2.win 7).blk t).view.emb (ix2 r q) = ix2 (rowAt_R2 t r) q := by
  obtain ⟨e0a, e0b, e1a, e1b, e2a, e2b, e3a, e3b, e4a, e4b, e5a, e5b, e6a, e6b, e7a, e7b, e8a, e8b⟩ := idx_facts_R2 t
  refine funext fun a => Fin.ext ?_
  match a with
  | ⟨0, _⟩ => show win2_7.index t (0 : Fin 2) * 5000 + 1 * r.val = 5000 * t.val + r.val; rw [e7a]; omega
  | ⟨1, _⟩ => show win2_7.index t (1 : Fin 2) * 128 + 1 * q.val = q.val; rw [e7b]; omega

theorem emb8_R2 (t : Fin cfg2.N) (r : Fin 5000) (q : Fin 128) :
    ((cfg2.win 8).blk t).view.emb (ix2 r q) = ix2 (rowAt_R2 t r) q := by
  obtain ⟨e0a, e0b, e1a, e1b, e2a, e2b, e3a, e3b, e4a, e4b, e5a, e5b, e6a, e6b, e7a, e7b, e8a, e8b⟩ := idx_facts_R2 t
  refine funext fun a => Fin.ext ?_
  match a with
  | ⟨0, _⟩ => show win2_8.index t (0 : Fin 2) * 5000 + 1 * r.val = 5000 * t.val + r.val; rw [e8a]; omega
  | ⟨1, _⟩ => show win2_8.index t (1 : Fin 2) * 128 + 1 * q.val = q.val; rw [e8b]; omega

/-! ## The two payloads of a point's blocks, as blocks of the whole-array functions -/

section Values
variable (V : (c : Dev nD) → (b : Ref sig .tc) → Buf (Elt Ideal) ((c : Thread nD τ).loc b))

/-- THE NORMALISED PAYLOAD of point t's blocks is block t of the whole-array row normalisation of the pre-activation
    of the arrays as the region finds them. -/
theorem pay7_R2 (c : Dev nD) (t : Fin cfg2.N) :
    k2_pay7 (iblk2 V c 0 t) (iblk2 V c 1 t) (iblk2 V c 3 t) (iblk2 V c 2 t) (iblk2 V c 4 t)
      = ((cfg2.win 7).blk t).view.read (Elt Ideal) (Cert.Sage.normed (Cert.Sage.pre (V c (Pipeline.arrRef spec2 0)) (V c (Pipeline.arrRef spec2 1)) (V c (Pipeline.arrRef spec2 2)) (V c (Pipeline.arrRef spec2 3)) (V c (Pipeline.arrRef spec2 4)))) := by
  funext j
  obtain ⟨r, q, rfl⟩ : ∃ (r : Fin 5000) (q : Fin 128), j = ix2 r q := ⟨j 0, j 1, eq_ix2 j⟩
  rw [View.read_apply]
  show _ = Cert.Sage.normed (Cert.Sage.pre (V c (Pipeline.arrRef spec2 0)) (V c (Pipeline.arrRef spec2 1)) (V c (Pipeline.arrRef spec2 2)) (V c (Pipeline.arrRef spec2 3)) (V c (Pipeline.arrRef spec2 4)))
    (((cfg2.win 7).blk t).view.emb (ix2 r q))
  rw [emb7_R2 t r q]
  exact pay7_point2 (V c (Pipeline.arrRef spec2 0)) (V c (Pipeline.arrRef spec2 1)) (V c (Pipeline.arrRef spec2 2)) (V c (Pipeline.arrRef spec2 3)) (V c (Pipeline.arrRef spec2 4))
    (iblk2 V c 0 t) (iblk2 V c 1 t) (iblk2 V c 3 t) (iblk2 V c 2 t) (iblk2 V c 4 t) r (rowAt_R2 t r) q
    (fun k => blk0_read_R2 V c t r k) (fun k => blk1_read_R2 V c t r k) (blk3_read_R2 V c t) (blk2_read_R2 V c t)
    (blk4_read_R2 V c t)

/-- THE SKIP PAYLOAD of point t's blocks is block t of the whole-array skip term. -/
theorem pay6_R2 (c : Dev nD) (t : Fin cfg2.N) :
    k2_pay6 (iblk2 V c 0 t) (iblk2 V c 6 t) (iblk2 V c 5 t)
      = ((cfg2.win 8).blk t).view.read (Elt Ideal) (Cert.Sage.resid (V c (Pipeline.arrRef spec2 0)) (V c (Pipeline.arrRef spec2 5)) (V c (Pipeline.arrRef spec2 6))) := by
  funext j
  obtain ⟨r, q, rfl⟩ : ∃ (r : Fin 5000) (q : Fin 128), j = ix2 r q := ⟨j 0, j 1, eq_ix2 j⟩
  rw [View.read_apply]
  show _ = Cert.Sage.resid (V c (Pipeline.arrRef spec2 0)) (V c (Pipeline.arrRef spec2 5)) (V c (Pipeline.arrRef spec2 6)) (((cfg2.win 8).blk t).view.emb (ix2 r q))
  rw [emb8_R2 t r q]
  exact pay6_point2 (V c (Pipeline.arrRef spec2 0)) (V c (Pipeline.arrRef spec2 5)) (V c (Pipeline.arrRef spec2 6)) (iblk2 V c 0 t) (iblk2 V c 6 t) (iblk2 V c 5 t) r (rowAt_R2 t r) q
    (fun k => blk0_read_R2 V c t r k) (blk6_read_R2 V c t) (blk5_read_R2 V c t)

end Values

/-! ## The two output arrays after the region

  Both outputs are written back at every point, each point its own block of 5000 rows; the ten blocks tile the
  50000 rows.  So the arrays end holding the two whole-array functions. -/

/-- Every entry of output 7's array is in the block of the point its row falls in: rows 5000·t … 5000·t + 4999. -/
theorem cover7_R2 (i : S50000x128.Idx) :
    ∃ t : Fin cfg2.N, (cfg2.win 7).flush t = true ∧ i ∈ ((cfg2.win 7).blk t).view.set := by
  have h0 : (i 0).val < 50000 := (i 0).isLt
  have h1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0a, e0b, e1a, e1b, e2a, e2b, e3a, e3b, e4a, e4b, e5a, e5b, e6a, e6b, e7a, e7b, e8a, e8b⟩ := idx_facts_R2 t
  refine ⟨t, flush2_7 t, ?_⟩
  show i ∈ ((View.whole main_v69_0).slice (win2_7.rect t)).set
  rw [View.set_slice_whole, Rect.mem_set_unit]
  intro a
  match a with
  | ⟨0, _⟩ =>
    show win2_7.index t (0 : Fin 2) * 5000 ≤ (i 0).val ∧ (i 0).val < win2_7.index t (0 : Fin 2) * 5000 + 5000
    rw [e7a, ht]; omega
  | ⟨1, _⟩ =>
    show win2_7.index t (1 : Fin 2) * 128 ≤ (i 1).val ∧ (i 1).val < win2_7.index t (1 : Fin 2) * 128 + 128
    rw [e7b]; omega

/-- Every entry of output 8's array is in the block of the point its row falls in: rows 5000·t … 5000·t + 4999. -/
theorem cover8_R2 (i : S50000x128.Idx) :
    ∃ t : Fin cfg2.N, (cfg2.win 8).flush t = true ∧ i ∈ ((cfg2.win 8).blk t).view.set := by
  have h0 : (i 0).val < 50000 := (i 0).isLt
  have h1 : (i 1).val < 128 := (i 1).isLt
  have hN : cfg2.N = 10 := N_2
  obtain ⟨t, ht⟩ : ∃ t : Fin cfg2.N, t.val = (i 0).val / 5000 := ⟨⟨(i 0).val / 5000, by rw [hN]; omega⟩, rfl⟩
  obtain ⟨e0a, e0b, e1a, e1b, e2a, e2b, e3a, e3b, e4a, e4b, e5a, e5b, e6a, e6b, e7a, e7b, e8a, e8b⟩ := idx_facts_R2 t
  refine ⟨t, flush2_8 t, ?_⟩
  show i ∈ ((View.whole main_v69_1).slice (win2_8.rect t)).set
  rw [View.set_slice_whole, Rect.mem_set_unit]
  intro a
  match a with
  | ⟨0, _⟩ =>
    show win2_8.index t (0 : Fin 2) * 5000 ≤ (i 0).val ∧ (i 0).val < win2_8.index t (0 : Fin 2) * 5000 + 5000
    rw [e8a, ht]; omega
  | ⟨1, _⟩ =>
    show win2_8.index t (1 : Fin 2) * 128 ≤ (i 1).val ∧ (i 1).val < win2_8.index t (1 : Fin 2) * 128 + 128
    rw [e8b]; omega

section Arrays
variable (V : (c : Dev nD) → (b : Ref sig .tc) → Buf (Elt Ideal) ((c : Thread nD τ).loc b))

/-- What point t writes back to output 7 is block t of the whole-array row normalisation. -/
theorem flushed7_R2 (c : Dev nD) (t : Fin cfg2.N) :
    (dat2 V c).flushed 7 t = ((cfg2.win 7).blk t).view.read (Elt Ideal) (Cert.Sage.normed (Cert.Sage.pre (V c (Pipeline.arrRef spec2 0)) (V c (Pipeline.arrRef spec2 1)) (V c (Pipeline.arrRef spec2 2)) (V c (Pipeline.arrRef spec2 3)) (V c (Pipeline.arrRef spec2 4)))) := by
  show (cfg2.win 7).cut (grid2.coords t) ((dat2 V c).after 7 t) = _
  rw [after2_7, outs7_R2 V c t]
  exact pay7_R2 V c t

/-- What point t writes back to output 8 is block t of the whole-array skip term. -/
theorem flushed8_R2 (c : Dev nD) (t : Fin cfg2.N) :
    (dat2 V c).flushed 8 t = ((cfg2.win 8).blk t).view.read (Elt Ideal) (Cert.Sage.resid (V c (Pipeline.arrRef spec2 0)) (V c (Pipeline.arrRef spec2 5)) (V c (Pipeline.arrRef spec2 6))) := by
  show (cfg2.win 8).cut (grid2.coords t) ((dat2 V c).after 8 t) = _
  rw [after2_8, outs8_R2 V c t]
  exact pay6_R2 V c t

/-- OUTPUT 7 after the region: the row-normalised pre-activation of the arrays as the region finds them. -/
theorem arr7_R2 (c : Dev nD) : (dat2 V c).arrAt 7 cfg2.N = (Cert.Sage.normed (Cert.Sage.pre (V c (Pipeline.arrRef spec2 0)) (V c (Pipeline.arrRef spec2 1)) (V c (Pipeline.arrRef spec2 2)) (V c (Pipeline.arrRef spec2 3)) (V c (Pipeline.arrRef spec2 4)))) :=
  (dat2 V c).arrAt_eq_of_cover 7 (Cert.Sage.normed (Cert.Sage.pre (V c (Pipeline.arrRef spec2 0)) (V c (Pipeline.arrRef spec2 1)) (V c (Pipeline.arrRef spec2 2)) (V c (Pipeline.arrRef spec2 3)) (V c (Pipeline.arrRef spec2 4)))) (fun t _ => flushed7_R2 V c t) cover7_R2

/-- OUTPUT 8 after the region: the skip term of the arrays as the region finds them. -/
theorem arr8_R2 (c : Dev nD) : (dat2 V c).arrAt 8 cfg2.N = (Cert.Sage.resid (V c (Pipeline.arrRef spec2 0)) (V c (Pipeline.arrRef spec2 5)) (V c (Pipeline.arrRef spec2 6))) :=
  (dat2 V c).arrAt_eq_of_cover 8 (Cert.Sage.resid (V c (Pipeline.arrRef spec2 0)) (V c (Pipeline.arrRef spec2 5)) (V c (Pipeline.arrRef spec2 6))) (fun t _ => flushed8_R2 V c t) cover8_R2

end Arrays

end Cert.KernelIdeal.Pass1Blk

end
-- ==== Proof.Pass1BlkR4.lean ====
/-
  The first kernel's two blockwise outputs in the third of the three layers, as arrays.

  The kernel runs over ten grid points; at point t it loads rows 5000·t … 5000·t + 4999 of the node features and of
  the aggregated features, and the whole of the weights and biases, and stores two blocks of 5000 rows: the
  row-normalised pre-activation (output 7) and the skip term (output 8).  This module reads what each case of the
  body leaves in the two staging buffers (the payloads of the blocks just loaded, whichever case), reads the blocks
  off their arrays, and concludes with the entrywise lemmas that after the region the two output arrays are the
  whole-array row normalisation of the pre-activation and the whole-array skip term of the arrays the region found.
-/
import proofs.«131685_j69784628625939_1_alg».proof.Proof.Gen.KernelIdeal.Frame
import proofs.«131685_j69784628625939_1_alg».proof.Proof.Pass1BlkPoint
import Idealize.ShloMosaic.Lib.Pipeline.Value
import Idealize.ShloMosaic.Lib.Tactic

noncomputable section

open scoped BigOperators

namespace Cert.KernelIdeal.Pass1Blk

open Idealize.ShloMosaic Idealize.ShloMosaic.ValueIdx Idealize.ShloMosaic.TcCoe Idealize.SL.Sem
open Idealize.ShloMosaic.Pipeline (Dat)
open Cert.KernelIdeal Cert.KernelIdeal.Gen

variable {F : FTy → Type} [FloatOps F]

/-! ## What each case of the body leaves in the two blockwise outputs

  In either case (the first grid point, which also resets the running sums, or a later one) the body writes output 7
  by one store of the whole block: the normalised payload of the blocks of x, of the aggregated rows, of the bias
  row and of the two weight matrices it has just loaded; and output 8 by one store of the skip payload of the blocks
  of x, of its bias row and of its weight matrix.  Neither depends on the running sums. -/

theorem out_A_7_R4 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond4_0 i) (x0 x1 : Vec F S5000x128 .f32) (x2 : Vec F S128x128 .f32) (x3 : Vec F S1x128 .f32) (x4 x5 : Vec F S128x128 .f32) (x6 : Vec F S1x128 .f32) :
    out4_A_7 c i a1 h1 a2 h2 a3 h3 a4 h4 a5 h5 a6 h6 a7 h7 a8 h8 a9 h9 a10 h10 a11 h11 hc x0 x1 x2 x3 x4 x5 x6 = k4_pay7 x0 x1 x3 x2 x4 := by
  unfold out4_A_7
  rw [View.read_writes_eq_canon _ _ _ (cover4_A_7 c i a1 h1 a2 h2 a3 h3 a4 h4 a5 h5 a6 h6 a7 h7 a8 h8 a9 h9 a10 h10 a11 h11 hc x0 x1 x2 x3 x4 x5 x6)]
  unfold kernelRun4_A
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S1x128) hz, View.ld_unit_zero (S := S128x128) hz]

theorem out_A_8_R4 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond4_0 i) (x0 x1 : Vec F S5000x128 .f32) (x2 : Vec F S128x128 .f32) (x3 : Vec F S1x128 .f32) (x4 x5 : Vec F S128x128 .f32) (x6 : Vec F S1x128 .f32) :
    out4_A_8 c i a1 h1 a2 h2 a3 h3 a4 h4 a5 h5 a6 h6 a7 h7 a8 h8 a9 h9 a10 h10 a11 h11 hc x0 x1 x2 x3 x4 x5 x6 = k4_pay6 x0 x6 x5 := by
  unfold out4_A_8
  rw [View.read_writes_eq_canon _ _ _ (cover4_A_8 c i a1 h1 a2 h2 a3 h3 a4 h4 a5 h5 a6 h6 a7 h7 a8 h8 a9 h9 a10 h10 a11 h11 hc x0 x1 x2 x3 x4 x5 x6)]
  unfold kernelRun4_A
  dsimp only
  sl_unfold_words
  rw [View.canon_unit_zero hz]
  simp only [View.readAt_eq_ld, h1.read_unread, h6.read_unread, h7.read_unread, View.ld_unit_zero (S := S5000x128) hz, View.ld_unit_zero (S := S1x128) hz, View.ld_unit_zero (S := S128x128) hz]

theorem out_B_7_R4 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond4_0 i) (x0 x1 : Vec F S5000x128 .f32) (x2 : Vec F S128x128 .f32) (x3 : Vec F S1x128 .f32) (x4 x5 : Vec F S128x128 .f32) (x6 : Vec F S1x128 .f32) (xo9 xo10 : Vec F S1x128 .f32) :
    out4_B_7 c i a1 h1 a2 h2 a3 h3 a4 h4 a5 h5 a6 h6 a7 h7 a8 h8 a9 h9 a10 h10 a11 h11 hc x0 x1 x2 x3 x4 x5 x6 xo9 xo10 = k4_pay7 x0 x1 x3 x2 x4 := by
  unfold out4_B_7
  rw [View.read_writes_eq_canon _ _ _ (cover4_B_7 c i a1 h1 a2 h2 a3 h3 a4 h4 a5 h5 a6 h6 a7 h7 a8 h8 a9 h9 a10 h10 a11 h11 hc x0 x1 x2 x3 x4 x5 x6 xo9 xo10)]
  unfold kernelRun4_B
  dsimp only
  sl_unfold_words
  rw [View.canon_unit_zero hz]
  simp only [View.readAt_eq_ld, h1.read_unread, h2.read_unread, h3.read_unread, h4.read_unread, h5.read_unread, View.ld_unit_zero (S := S5000x128) hz, View.ld_unit_zero (S := S1x128) hz, View.ld_unit_zero (S := S128x128) hz]

theorem out_B_8_R4 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond4_0 i) (x0 x1 : Vec F S5000x128 .f32) (x2 : Vec F S128x128 .f32) (x3 : Vec F S1x128 .f32) (x4 x5 : Vec F S128x128 .f32) (x6 : Vec F S1x128 .f32) (xo9 xo10 : Vec F S1x128 .f32) :
    out4_B_8 c i a1 h1 a2 h2 a3 h3 a4 h4 a5 h5 a6 h6 a7 h7 a8 h8 a9 h9 a10 h10 a11 h11 hc x0 x1 x2 x3 x4 x5 x6 xo9 xo10 = k4_pay6 x0 x6 x5 := by
  unfold out4_B_8
  rw [View.read_writes_eq_canon _ _ _ (cover4_B_8 c i a1 h1 a2 h2 a3 h3 a4 h4 a5 h5 a6 h6 a7 h7 a8 h8 a9 h9 a10 h10 a11 h11 hc x0 x1 x2 x3 x4 x5 x6 xo9 xo10)]
  unfold kernelRun4_B
  dsimp only
  sl_unfold_words
  rw [View.canon_unit_zero hz]
  simp only [View.readAt_eq_ld, h1.read_unread, h6.read_unread, h7.read_unread, View.ld_unit_zero (S := S5000x128) hz, View.ld_unit_zero (S := S1x128) hz, View.ld_unit_zero (S := S128x128) hz]

section Points
variable (V : (c : Dev nD) → (b : Ref sig .tc) → Buf (Elt F) ((c : Thread nD τ).loc b))

/-- After the body at any point, output 7's staging buffer holds the normalised payload of the point's blocks. -/
theorem outs7_R4 (c : Dev nD) (t : Fin cfg4.N) :
    (outsAt4 V c t.val t.isLt).1 = k4_pay7 (iblk4 V c 0 t) (iblk4 V c 1 t) (iblk4 V c 3 t) (iblk4 V c 2 t) (iblk4 V c 4 t) := by
  by_cases h : t.val % 10 = 0
  · rw [outsAt4_A V c t h]
    dsimp only
    exact out_A_7_R4 (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) ((hcond4_0 t).mpr h) (iblk4 V c 0 t) (iblk4 V c 1 t) (iblk4 V c 2 t) (iblk4 V c 3 t) (iblk4 V c 4 t) (iblk4 V c 5 t) (iblk4 V c 6 t)
  · rw [outsAt4_B V c t h]
    dsimp only
    exact out_B_7_R4 (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (fun h' => h ((hcond4_0 t).mp h')) (iblk4 V c 0 t) (iblk4 V c 1 t) (iblk4 V c 2 t) (iblk4 V c 3 t) (iblk4 V c 4 t) (iblk4 V c 5 t) (iblk4 V c 6 t)
      (outsAt4 V c (t.val - 1) (Nat.lt_of_le_of_lt (Nat.sub_le _ _) t.isLt)).2.2.1
      (outsAt4 V c (t.val - 1) (Nat.lt_of_le_of_lt (Nat.sub_le _ _) t.isLt)).2.2.2

/-- After the body at any point, output 8's staging buffer holds the skip payload of the point's blocks. -/
theorem outs8_R4 (c : Dev nD) (t : Fin cfg4.N) :
    (outsAt4 V c t.val t.isLt).2.1 = k4_pay6 (iblk4 V c 0 t) (iblk4 V c 6 t) (iblk4 V c 5 t) := by
  by_cases h : t.val % 10 = 0
  · rw [outsAt4_A V c t h]
    dsimp only
    exact out_A_8_R4 (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) ((hcond4_0 t).mpr h) (iblk4 V c 0 t) (iblk4 V c 1 t) (iblk4 V c 2 t) (iblk4 V c 3 t) (iblk4 V c 4 t) (iblk4 V c 5 t) (iblk4 V c 6 t)
  · rw [outsAt4_B V c t h]
    dsimp only
    exact out_B_8_R4 (F := F) c (grid4.coords t) (ms4_0 t) (hs4_0 t) (ms4_1 t) (hs4_1 t) (ms4_2 t) (hs4_2 t) (ms4_3 t) (hs4_3 t) (ms4_4 t) (hs4_4 t) (ms4_5 t) (hs4_5 t) (ms4_6 t) (hs4_6 t) (ms4_7 t) (hs4_7 t) (ms4_8 t) (hs4_8 t) (ms4_9 t) (hs4_9 t) (ms4_10 t) (hs4_10 t) (fun h' => h ((hcond4_0 t).mp h')) (iblk4 V c 0 t) (iblk4 V c 1 t) (iblk4 V c 2 t) (iblk4 V c 3 t) (iblk4 V c 4 t) (iblk4 V c 5 t) (iblk4 V c 6 t)
      (outsAt4 V c (t.val - 1) (Nat.lt_of_le_of_lt (Nat.sub_le _ _) t.isLt)).2.2.1
      (outsAt4 V c (t.val - 1) (Nat.lt_of_le_of_lt (Nat.sub_le _ _) t.isLt)).2.2.2

end Points

/-! ## The blocks read off their arrays

  At point t the blocks of x, of the aggregated rows and of the two blockwise outputs are rows 5000·t … 5000·t + 4999
  of their arrays (block index (t, 0), blocks of 5000 × 128); the three weight matrices and the two bias rows have
  one block, the whole array (block index (0, 0) at every point). -/

/-- The printed index maps, decided once over the grid. -/
theorem idx_facts_R4 : ∀ t : Fin cfg4.N,
    win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0
    ∧ win4_8.index t (0 : Fin 2) = t.val ∧ win4_8.index t (1 : Fin 2) = 0 :=
  (by decide +kernel : ∀ t : Fin grid4.N, _)

/-- Row r of the block of point t, as a row of the array. -/
def rowAt_R4 (t : Fin cfg4.N) (r : Fin 5000) : Fin 50000 :=
  ⟨5000 * t.val + r.val, by
    have hN : t.val < 10 := lt_of_lt_of_eq t.isLt (show cfg4.N = 10 from N_4)
    have hr := r.isLt
    omega⟩

section Reads
variable (V : (c : Dev nD) → (b : Ref sig .tc) → Buf (Elt F) ((c : Thread nD τ).loc b))

/-- Row r of point t's block of window 0 is row 5000·t + r of its array. -/
theorem blk0_read_R4 (c : Dev nD) (t : Fin cfg4.N) (r : Fin 5000) (k : Fin 128) :
    iblk4 V c 0 t (ix2 r k) = V c (Pipeline.arrRef spec4 0) (ix2 (rowAt_R4 t r) k) := by
  obtain ⟨e0a, e0b, e1a, e1b, e2a, e2b, e3a, e3b, e4a, e4b, e5a, e5b, e6a, e6b, e7a, e7b, e8a, e8b⟩ := idx_facts_R4 t
  unfold iblk4
  rw [View.read_apply]
  show V c (Pipeline.arrRef spec4 0) _ = V c (Pipeline.arrRef spec4 0) _
  refine congrArg (V c (Pipeline.arrRef spec4 0)) (funext fun a => Fin.ext ?_)
  match a with
  | ⟨0, _⟩ => show win4_0.index t (0 : Fin 2) * 5000 + 1 * r.val = 5000 * t.val + r.val; rw [e0a]; omega
  | ⟨1, _⟩ => show win4_0.index t (1 : Fin 2) * 128 + 1 * k.val = k.val; rw [e0b]; omega

/-- Row r of point t's block of window 1 is row 5000·t + r of its array. -/
theorem blk1_read_R4 (c : Dev nD) (t : Fin cfg4.N) (r : Fin 5000) (k : Fin 128) :
    iblk4 V c 1 t (ix2 r k) = V c (Pipeline.arrRef spec4 1) (ix2 (rowAt_R4 t r) k) := by
  obtain ⟨e0a, e0b, e1a, e1b, e2a, e2b, e3a, e3b, e4a, e4b, e5a, e5b, e6a, e6b, e7a, e7b, e8a, e8b⟩ := idx_facts_R4 t
  unfold iblk4
  rw [View.read_apply]
  show V c (Pipeline.arrRef spec4 1) _ = V c (Pipeline.arrRef spec4 1) _
  refine congrArg (V c (Pipeline.arrRef spec4 1)) (funext fun a => Fin.ext ?_)
  match a with
  | ⟨0, _⟩ => show win4_1.index t (0 : Fin 2) * 5000 + 1 * r.val = 5000 * t.val + r.val; rw [e1a]; omega
  | ⟨1, _⟩ => show win4_1.index t (1 : Fin 2) * 128 + 1 * k.val = k.val; rw [e1b]; omega

/-- Window 2's one block is its whole array at every point. -/
theorem blk2_read_R4 (c : Dev nD) (t : Fin cfg4.N) :
    (iblk4 V c 2 t : Vec F S128x128 .f32) = V c (Pipeline.arrRef spec4 2) := by
  obtain ⟨e0a, e0b, e1a, e1b, e2a, e2b, e3a, e3b, e4a, e4b, e5a, e5b, e6a, e6b, e7a, e7b, e8a, e8b⟩ := idx_facts_R4 t
  funext j
  unfold iblk4
  rw [View.read_apply]
  show V c (Pipeline.arrRef spec4 2) _ = V c (Pipeline.arrRef spec4 2) j
  refine congrArg (V c (Pipeline.arrRef spec4 2)) (funext fun a => Fin.ext ?_)
  match a with
  | ⟨0, _⟩ => show win4_2.index t (0 : Fin 2) * 128 + 1 * (j 0).val = (j 0).val; rw [e2a]; omega
  | ⟨1, _⟩ => show win4_2.index t (1 : Fin 2) * 128 + 1 * (j 1).val = (j 1).val; rw [e2b]; omega

/-- Window 3's one block is its whole array at every point. -/
theorem blk3_read_R4 (c : Dev nD) (t : Fin cfg4.N) :
    (iblk4 V c 3 t : Vec F S1x128 .f32) = V c (Pipeline.arrRef spec4 3) := by
  obtain ⟨e0a, e0b, e1a, e1b, e2a, e2b, e3a, e3b, e4a, e4b, e5a, e5b, e6a, e6b, e7a, e7b, e8a, e8b⟩ := idx_facts_R4 t
  funext j
  unfold iblk4
  rw [View.read_apply]
  show V c (Pipeline.arrRef spec4 3) _ = V c (Pipeline.arrRef spec4 3) j
  refine congrArg (V c (Pipeline.arrRef spec4 3)) (funext fun a => Fin.ext ?_)
  match a with
  | ⟨0, _⟩ => show win4_3.index t (0 : Fin 2) * 1 + 1 * (j 0).val = (j 0).val; rw [e3a]; omega
  | ⟨1, _⟩ => show win4_3.index t (1 : Fin 2) * 128 + 1 * (j 1).val = (j 1).val; rw [e3b]; omega

/-- Window 4's one block is its whole array at every point. -/
theorem blk4_read_R4 (c : Dev nD) (t : Fin cfg4.N) :
    (iblk4 V c 4 t : Vec F S128x128 .f32) = V c (Pipeline.arrRef spec4 4) := by
  obtain ⟨e0a, e0b, e1a, e1b, e2a, e2b, e3a, e3b, e4a, e4b, e5a, e5b, e6a, e6b, e7a, e7b, e8a, e8b⟩ := idx_facts_R4 t
  funext j
  unfold iblk4
  rw [View.read_apply]
  show V c (Pipeline.arrRef spec4 4) _ = V c (Pipeline.arrRef spec4 4) j
  refine congrArg (V c (Pipeline.arrRef spec4 4)) (funext fun a => Fin.ext ?_)
  match a with
  | ⟨0, _⟩ => show win4_4.index t (0 : Fin 2) * 128 + 1 * (j 0).val = (j 0).val; rw [e4a]; omega
  | ⟨1, _⟩ => show win4_4.index t (1 : Fin 2) * 128 + 1 * (j 1).val = (j 1).val; rw [e4b]; omega

/-- Window 5's one block is its whole array at every point. -/
theorem blk5_read_R4 (c : Dev nD) (t : Fin cfg4.N) :
    (iblk4 V c 5 t : Vec F S128x128 .f32) = V c (Pipeline.arrRef spec4 5) := by
  obtain ⟨e0a, e0b, e1a, e1b, e2a, e2b, e3a, e3b, e4a, e4b, e5a, e5b, e6a, e6b, e7a, e7b, e8a, e8b⟩ := idx_facts_R4 t
  funext j
  unfold iblk4
  rw [View.read_apply]
  show V c (Pipeline.arrRef spec4 5) _ = V c (Pipeline.arrRef spec4 5) j
  refine congrArg (V c (Pipeline.arrRef spec4 5)) (funext fun a => Fin.ext ?_)
  match a with
  | ⟨0, _⟩ => show win4_5.index t (0 : Fin 2) * 128 + 1 * (j 0).val = (j 0).val; rw [e5a]; omega
  | ⟨1, _⟩ => show win4_5.index t (1 : Fin 2) * 128 + 1 * (j 1).val = (j 1).val; rw [e5b]; omega

/-- Window 6's one block is its whole array at every point. -/
theorem blk6_read_R4 (c : Dev nD) (t : Fin cfg4.N) :
    (iblk4 V c 6 t : Vec F S1x128 .f32) = V c (Pipeline.arrRef spec4 6) := by
  obtain ⟨e0a, e0b, e1a, e1b, e2a, e2b, e3a, e3b, e4a, e4b, e5a, e5b, e6a, e6b, e7a, e7b, e8a, e8b⟩ := idx_facts_R4 t
  funext j
  unfold iblk4
  rw [View.read_apply]
  show V c (Pipeline.arrRef spec4 6) _ = V c (Pipeline.arrRef spec4 6) j
  refine congrArg (V c (Pipeline.arrRef spec4 6)) (funext fun a => Fin.ext ?_)
  match a with
  | ⟨0, _⟩ => show win4_6.index t (0 : Fin 2) * 1 + 1 * (j 0).val = (j 0).val; rw [e6a]; omega
  | ⟨1, _⟩ => show win4_6.index t (1 : Fin 2) * 128 + 1 * (j 1).val = (j 1).val; rw [e6b]; omega

end Reads

/-- Entry (r, q) of point t's block of a blockwise output sits at row 5000·t + r, lane q of its array. -/
theorem emb7_R4 (t : Fin cfg4.N) (r : Fin 5000) (q : Fin 128) :
    ((cfg4.win 7).blk t).view.emb (ix2 r q) = ix2 (rowAt_R4 t r) q := by
  obtain ⟨e0a, e0b, e1a, e1b, e2a, e2b, e3a, e3b, e4a, e4b, e5a, e5b, e6a, e6b, e7a, e7b, e8a, e8b⟩ := idx_facts_R4 t
  refine funext fun a => Fin.ext ?_
  match a with
  | ⟨0, _⟩ => show win4_7.index t (0 : Fin 2) * 5000 + 1 * r.val = 5000 * t.val + r.val; rw [e7a]; omega
  | ⟨1, _⟩ => show win4_7.index t (1 : Fin 2) * 128 + 1 * q.val = q.val; rw [e7b]; omega

theorem emb8_R4 (t : Fin cfg4.N) (r : Fin 5000) (q : Fin 128) :
    ((cfg4.win 8).blk t).view.emb (ix2 r q) = ix2 (rowAt_R4 t r) q := by
  obtain ⟨e0a, e0b, e1a, e1b, e2a, e2b, e3a, e3b, e4a, e4b, e5a, e5b, e6a, e6b, e7a, e7b, e8a, e8b⟩ := idx_facts_R4 t
  refine funext fun a => Fin.ext ?_
  match a with
  | ⟨0, _⟩ => show win4_8.index t (0 : Fin 2) * 5000 + 1 * r.val = 5000 * t.val + r.val; rw [e8a]; omega
  | ⟨1, _⟩ => show win4_8.index t (1 : Fin 2) * 128 + 1 * q.val = q.val; rw [e8b]; omega

/-! ## The two payloads of a point's blocks, as blocks of the whole-array functions -/

section Values
variable (V : (c : Dev nD) → (b : Ref sig .tc) → Buf (Elt Ideal) ((c : Thread nD τ).loc b))

/-- THE NORMALISED PAYLOAD of point t's blocks is block t of the whole-array row normalisation of the pre-activation
    of the arrays as the region finds them. -/
theorem pay7_R4 (c : Dev nD) (t : Fin cfg4.N) :
    k4_pay7 (iblk4 V c 0 t) (iblk4 V c 1 t) (iblk4 V c 3 t) (iblk4 V c 2 t) (iblk4 V c 4 t)
      = ((cfg4.win 7).blk t).view.read (Elt Ideal) (Cert.Sage.normed (Cert.Sage.pre (V c (Pipeline.arrRef spec4 0)) (V c (Pipeline.arrRef spec4 1)) (V c (Pipeline.arrRef spec4 2)) (V c (Pipeline.arrRef spec4 3)) (V c (Pipeline.arrRef spec4 4)))) := by
  funext j
  obtain ⟨r, q, rfl⟩ : ∃ (r : Fin 5000) (q : Fin 128), j = ix2 r q := ⟨j 0, j 1, eq_ix2 j⟩
  rw [View.read_apply]
  show _ = Cert.Sage.normed (Cert.Sage.pre (V c (Pipeline.arrRef spec4 0)) (V c (Pipeline.arrRef spec4 1)) (V c (Pipeline.arrRef spec4 2)) (V c (Pipeline.arrRef spec4 3)) (V c (Pipeline.arrRef spec4 4)))
    (((cfg4.win 7).blk t).view.emb (ix2 r q))
  rw [emb7_R4 t r q]
  exact pay7_point4 (V c (Pipeline.arrRef spec4 0)) (V c (Pipeline.arrRef spec4 1)) (V c (Pipeline.arrRef spec4 2)) (V c (Pipeline.arrRef spec4 3)) (V c (Pipeline.arrRef spec4 4))
    (iblk4 V c 0 t) (iblk4 V c 1 t) (iblk4 V c 3 t) (iblk4 V c 2 t) (iblk4 V c 4 t) r (rowAt_R4 t r) q
    (fun k => blk0_read_R4 V c t r k) (fun k => blk1_read_R4 V c t r k) (blk3_read_R4 V c t) (blk2_read_R4 V c t)
    (blk4_read_R4 V c t)

/-- THE SKIP PAYLOAD of point t's blocks is block t of the whole-array skip term. -/
theorem pay6_R4 (c : Dev nD) (t : Fin cfg4.N) :
    k4_pay6 (iblk4 V c 0 t) (iblk4 V c 6 t) (iblk4 V c 5 t)
      = ((cfg4.win 8).blk t).view.read (Elt Ideal) (Cert.Sage.resid (V c (Pipeline.arrRef spec4 0)) (V c (Pipeline.arrRef spec4 5)) (V c (Pipeline.arrRef spec4 6))) := by
  funext j
  obtain ⟨r, q, rfl⟩ : ∃ (r : Fin 5000) (q : Fin 128), j = ix2 r q := ⟨j 0, j 1, eq_ix2 j⟩
  rw [View.read_apply]
  show _ = Cert.Sage.resid (V c (Pipeline.arrRef spec4 0)) (V c (Pipeline.arrRef spec4 5)) (V c (Pipeline.arrRef spec4 6)) (((cfg4.win 8).blk t).view.emb (ix2 r q))
  rw [emb8_R4 t r q]
  exact pay6_point4 (V c (Pipeline.arrRef spec4 0)) (V c (Pipeline.arrRef spec4 5)) (V c (Pipeline.arrRef spec4 6)) (iblk4 V c 0 t) (iblk4 V c 6 t) (iblk4 V c 5 t) r (rowAt_R4 t r) q
    (fun k => blk0_read_R4 V c t r k) (blk6_read_R4 V c t) (blk5_read_R4 V c t)

end Values

/-! ## The two output arrays after the region

  Both outputs are written back at every point, each point its own block of 5000 rows; the ten blocks tile the
  50000 rows.  So the arrays end holding the two whole-array functions. -/

/-- Every entry of output 7's array is in the block of the point its row falls in: rows 5000·t … 5000·t + 4999. -/
theorem cover7_R4 (i : S50000x128.Idx) :
    ∃ t : Fin cfg4.N, (cfg4.win 7).flush t = true ∧ i ∈ ((cfg4.win 7).blk t).view.set := by
  have h0 : (i 0).val < 50000 := (i 0).isLt
  have h1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e0a, e0b, e1a, e1b, e2a, e2b, e3a, e3b, e4a, e4b, e5a, e5b, e6a, e6b, e7a, e7b, e8a, e8b⟩ := idx_facts_R4 t
  refine ⟨t, flush4_7 t, ?_⟩
  show i ∈ ((View.whole main_v102_0).slice (win4_7.rect t)).set
  rw [View.set_slice_whole, Rect.mem_set_unit]
  intro a
  match a with
  | ⟨0, _⟩ =>
    show win4_7.index t (0 : Fin 2) * 5000 ≤ (i 0).val ∧ (i 0).val < win4_7.index t (0 : Fin 2) * 5000 + 5000
    rw [e7a, ht]; omega
  | ⟨1, _⟩ =>
    show win4_7.index t (1 : Fin 2) * 128 ≤ (i 1).val ∧ (i 1).val < win4_7.index t (1 : Fin 2) * 128 + 128
    rw [e7b]; omega

/-- Every entry of output 8's array is in the block of the point its row falls in: rows 5000·t … 5000·t + 4999. -/
theorem cover8_R4 (i : S50000x128.Idx) :
    ∃ t : Fin cfg4.N, (cfg4.win 8).flush t = true ∧ i ∈ ((cfg4.win 8).blk t).view.set := by
  have h0 : (i 0).val < 50000 := (i 0).isLt
  have h1 : (i 1).val < 128 := (i 1).isLt
  have hN : cfg4.N = 10 := N_4
  obtain ⟨t, ht⟩ : ∃ t : Fin cfg4.N, t.val = (i 0).val / 5000 := ⟨⟨(i 0).val / 5000, by rw [hN]; omega⟩, rfl⟩
  obtain ⟨e0a, e0b, e1a, e1b, e2a, e2b, e3a, e3b, e4a, e4b, e5a, e5b, e6a, e6b, e7a, e7b, e8a, e8b⟩ := idx_facts_R4 t
  refine ⟨t, flush4_8 t, ?_⟩
  show i ∈ ((View.whole main_v102_1).slice (win4_8.rect t)).set
  rw [View.set_slice_whole, Rect.mem_set_unit]
  intro a
  match a with
  | ⟨0, _⟩ =>
    show win4_8.index t (0 : Fin 2) * 5000 ≤ (i 0).val ∧ (i 0).val < win4_8.index t (0 : Fin 2) * 5000 + 5000
    rw [e8a, ht]; omega
  | ⟨1, _⟩ =>
    show win4_8.index t (1 : Fin 2) * 128 ≤ (i 1).val ∧ (i 1).val < win4_8.index t (1 : Fin 2) * 128 + 128
    rw [e8b]; omega

section Arrays
variable (V : (c : Dev nD) → (b : Ref sig .tc) → Buf (Elt Ideal) ((c : Thread nD τ).loc b))

/-- What point t writes back to output 7 is block t of the whole-array row normalisation. -/
theorem flushed7_R4 (c : Dev nD) (t : Fin cfg4.N) :
    (dat4 V c).flushed 7 t = ((cfg4.win 7).blk t).view.read (Elt Ideal) (Cert.Sage.normed (Cert.Sage.pre (V c (Pipeline.arrRef spec4 0)) (V c (Pipeline.arrRef spec4 1)) (V c (Pipeline.arrRef spec4 2)) (V c (Pipeline.arrRef spec4 3)) (V c (Pipeline.arrRef spec4 4)))) := by
  show (cfg4.win 7).cut (grid4.coords t) ((dat4 V c).after 7 t) = _
  rw [after4_7, outs7_R4 V c t]
  exact pay7_R4 V c t

/-- What point t writes back to output 8 is block t of the whole-array skip term. -/
theorem flushed8_R4 (c : Dev nD) (t : Fin cfg4.N) :
    (dat4 V c).flushed 8 t = ((cfg4.win 8).blk t).view.read (Elt Ideal) (Cert.Sage.resid (V c (Pipeline.arrRef spec4 0)) (V c (Pipeline.arrRef spec4 5)) (V c (Pipeline.arrRef spec4 6))) := by
  show (cfg4.win 8).cut (grid4.coords t) ((dat4 V c).after 8 t) = _
  rw [after4_8, outs8_R4 V c t]
  exact pay6_R4 V c t

/-- OUTPUT 7 after the region: the row-normalised pre-activation of the arrays as the region finds them. -/
theorem arr7_R4 (c : Dev nD) : (dat4 V c).arrAt 7 cfg4.N = (Cert.Sage.normed (Cert.Sage.pre (V c (Pipeline.arrRef spec4 0)) (V c (Pipeline.arrRef spec4 1)) (V c (Pipeline.arrRef spec4 2)) (V c (Pipeline.arrRef spec4 3)) (V c (Pipeline.arrRef spec4 4)))) :=
  (dat4 V c).arrAt_eq_of_cover 7 (Cert.Sage.normed (Cert.Sage.pre (V c (Pipeline.arrRef spec4 0)) (V c (Pipeline.arrRef spec4 1)) (V c (Pipeline.arrRef spec4 2)) (V c (Pipeline.arrRef spec4 3)) (V c (Pipeline.arrRef spec4 4)))) (fun t _ => flushed7_R4 V c t) cover7_R4

/-- OUTPUT 8 after the region: the skip term of the arrays as the region finds them. -/
theorem arr8_R4 (c : Dev nD) : (dat4 V c).arrAt 8 cfg4.N = (Cert.Sage.resid (V c (Pipeline.arrRef spec4 0)) (V c (Pipeline.arrRef spec4 5)) (V c (Pipeline.arrRef spec4 6))) :=
  (dat4 V c).arrAt_eq_of_cover 8 (Cert.Sage.resid (V c (Pipeline.arrRef spec4 0)) (V c (Pipeline.arrRef spec4 5)) (V c (Pipeline.arrRef spec4 6))) (fun t _ => flushed8_R4 V c t) cover8_R4

end Arrays

end Cert.KernelIdeal.Pass1Blk

end
-- ==== Proof.LibSumRegroup.lean ====
/-
  Finite sums in a commutative monoid, regrouped (a general lemma file: it imports Mathlib only and mentions no program).

  The kernel adds the squared differences tile by tile and lane by lane; the reference adds them all at once.
  Both are the same finite family of summands, and in a commutative monoid (the extended reals under addition are
  one: `+` is commutative and associative there, infinities included) a finite sum does not depend on how the
  family is cut up or in which order it is run through.  No finiteness of the summands is used anywhere.

  * `sum_range_mul`: `m * n` consecutive terms are `m` runs of `n` terms.
  * `regroup`: rows `(p * K + k) * R + r` (half `p`, step `k`, row `r` inside the tile), summed for each lane
    `l` first over the rows of a tile, then over the steps, then over the lanes, then over the halves, exhaust
    the `P * K * R` rows times `L` lanes exactly once.
  * `regroup_fin`: the same over `Fin`-indexed families.
-/
import Mathlib.Algebra.BigOperators.Group.Finset.Basic
import Mathlib.Algebra.BigOperators.Intervals
import Mathlib.Algebra.BigOperators.Fin

namespace SumLaw

open Finset

variable {M : Type*} [AddCommMonoid M]

/-- `m * n` consecutive terms are `m` runs of `n` terms. -/
theorem sum_range_mul (f : ℕ → M) (m n : ℕ) :
    ∑ x ∈ range (m * n), f x = ∑ i ∈ range m, ∑ r ∈ range n, f (i * n + r) := by
  induction m with
  | zero => simp
  | succ m ih => rw [Nat.succ_mul, sum_range_add, ih, sum_range_succ]

/-- Tile by tile and lane by lane is row by row: every (row, lane) pair is met exactly once. -/
theorem regroup (f : ℕ → ℕ → M) (P K R L : ℕ) :
    ∑ p ∈ range P, ∑ l ∈ range L, ∑ k ∈ range K, ∑ r ∈ range R, f ((p * K + k) * R + r) l
      = ∑ row ∈ range (P * K * R), ∑ l ∈ range L, f row l := by
  rw [sum_range_mul (fun row => ∑ l ∈ range L, f row l) (P * K) R,
    sum_range_mul (fun i => ∑ r ∈ range R, ∑ l ∈ range L, f (i * R + r) l) P K]
  refine sum_congr rfl fun p _ => ?_
  refine sum_comm.trans (sum_congr rfl fun k _ => ?_)
  exact sum_comm

/-- `regroup` for families indexed by `Fin`: `idx p k r` is row `(p * K + k) * R + r`. -/
theorem regroup_fin {P K R L N : ℕ} (hN : P * K * R = N) (g : Fin N → Fin L → M)
    (idx : Fin P → Fin K → Fin R → Fin N)
    (hidx : ∀ p k r, (idx p k r).val = (p.val * K + k.val) * R + r.val) :
    ∑ p : Fin P, ∑ l : Fin L, ∑ k : Fin K, ∑ r : Fin R, g (idx p k r) l
      = ∑ row : Fin N, ∑ l : Fin L, g row l := by
  subst hN
  let f : ℕ → ℕ → M := fun a b => if h : a < P * K * R ∧ b < L then g ⟨a, h.1⟩ ⟨b, h.2⟩ else 0
  have e : ∀ (a : Fin (P * K * R)) (l : Fin L), g a l = f a.val l := fun a l => by
    simp only [f, dif_pos (And.intro a.isLt l.isLt)]
  have key := regroup f P K R L
  simp only [Finset.sum_range] at key
  have lhs : ∀ (p : Fin P) (l : Fin L) (k : Fin K) (r : Fin R),
      g (idx p k r) l = f ((p.val * K + k.val) * R + r.val) l.val := fun p l k r => by rw [e, hidx]
  simp only [lhs, e]
  exact key

end SumLaw
-- ==== Proof.LibBlockSum.lean ====
/-
  A sum over all rows of an array is the sum, block by block, of the sums over each block's rows (a general lemma:
  it imports Mathlib and the regrouping law only, and mentions no program).

  The rows 0 … T−1 are cut into B consecutive blocks of R rows, row r of block s being row s·R + r. In a commutative
  monoid the sum over all rows is the sum over the blocks of the sums within a block. The block sums are written as a
  function of a natural number that is zero past the last block, the form a running accumulator over a grid takes.
-/
import proofs.«131685_j69784628625939_1_alg».proof.Proof.LibSumRegroup
import Mathlib.Algebra.BigOperators.Fin

namespace SumLaw

open Finset

variable {M : Type*} [AddCommMonoid M]

/-- `B` blocks of `R` rows exhaust `T = B * R` rows. -/
theorem sum_blocks {B R T : ℕ} (hT : B * R = T) (f : Fin T → M) (row : (s : ℕ) → s < B → Fin R → Fin T)
    (hrow : ∀ s h r, (row s h r).val = s * R + r.val) :
    ∑ s ∈ range B, (if h : s < B then ∑ r : Fin R, f (row s h r) else 0) = ∑ p : Fin T, f p := by
  subst hT
  let g : ℕ → M := fun a => if h : a < B * R then f ⟨a, h⟩ else 0
  have hg : ∀ p : Fin (B * R), f p = g p.val := fun p => by simp only [g, dif_pos p.isLt]
  have e : ∑ p : Fin (B * R), f p = ∑ a ∈ range (B * R), g a := by
    rw [Finset.sum_range]; exact Finset.sum_congr rfl fun p _ => hg p
  rw [e, sum_range_mul g B R]
  refine Finset.sum_congr rfl fun s hs => ?_
  have h : s < B := Finset.mem_range.mp hs
  rw [dif_pos h, Finset.sum_range]
  refine Finset.sum_congr rfl fun r _ => ?_
  rw [hg, hrow]

end SumLaw
-- ==== Proof.LibHostSums.lean ====
/-
  The host's float sum along the leading axis, read at an index, at the ideal values.

  For an [a, b] matrix x the host's sum over axis 0 from an initial value is, at column j, the initial value plus
  the sum over the rows i of x (i, j); for a length-a vector the host's sum over its one axis, a scalar, is the
  initial value plus the sum of its entries. Arbitrary extents. Also: the host's float scatter-add is the exact
  accumulation (stated once over arbitrary shapes, to be used by rewriting). (The library states the first over the reduced
  shape's own index and the second over the operand's index set; here both are sums over Fin a.)
-/
import Idealize.ShloMosaic.PureOps.Ideal.Laws
import Idealize.ShloMosaic.Lib.ValueIdx

noncomputable section

open scoped BigOperators

namespace Idealize.ShloMosaic.HostSums

open Idealize.ShloMosaic Idealize.ShloMosaic.ValueIdx

variable {a b : ℕ}

/-- The column sums on the host: at column j, the initial value plus the sum of the column's entries. -/
theorem hostColSum_apply (x : (⟨2, ![a, b]⟩ : Shape).Idx → EReal) (init : EReal)
    (h' : (⟨2, ![a, b]⟩ : Shape).ReducesTo [0] ⟨1, ![b]⟩) (j : Fin b) :
    Ideal.hostReduceAdd h' x init (ix1 j) = init + ∑ i : Fin a, x (ix2 i j) := by
  have h : (⟨2, ![a, b]⟩ : Shape).Reduces [0] ⟨1, ![b]⟩ := ⟨h'.1, Nat.one_pos, h'.2⟩
  rw [Ideal.hostReduceAdd_single h' h]
  refine congrArg (init + ·) (Finset.sum_congr rfl fun i _ => ?_)
  exact congrArg x (funext fun c => Fin.ext (by match c with | ⟨0, _⟩ => rfl | ⟨1, _⟩ => rfl))

/-- A vector's indices are its positions. -/
def idxEquiv1 {n : ℕ} : (⟨1, ![n]⟩ : Shape).Idx ≃ Fin n where
  toFun j := j 0
  invFun := ix1
  left_inv j := (eq_ix1 j).symm
  right_inv _ := rfl

/-- A sum over a vector's index set is the sum over its positions. -/
theorem sum_idx1 {M : Type*} [AddCommMonoid M] {n : ℕ} (f : (⟨1, ![n]⟩ : Shape).Idx → M) :
    ∑ j, f j = ∑ i : Fin n, f (ix1 i) :=
  Fintype.sum_equiv idxEquiv1 f (fun i => f (ix1 i)) fun j => congrArg f (eq_ix1 j)

/-- The host's sum of a vector: the initial value plus the sum of the entries. -/
theorem hostVecSum_apply (x : (⟨1, ![a]⟩ : Shape).Idx → EReal) (init : EReal)
    (h' : (⟨1, ![a]⟩ : Shape).ReducesTo [0] ⟨0, ![]⟩) (j : (⟨0, ![]⟩ : Shape).Idx) :
    Ideal.hostReduceAdd h' x init j = init + ∑ i : Fin a, x (ix1 i) := by
  rw [Ideal.hostReduceAdd_total h' (fun b => b.elim0) x init j, sum_idx1]

/-- The host's float scatter-add at the ideal values is the exact accumulation, whatever the shapes. -/
theorem hostScatterAdd_eq {s si u : Shape} {w : Nat} {φ : FTy} (d : ScatterDims s si u) (x : FVec Ideal s φ)
    (idx : IVec si w) (upd : FVec Ideal u φ) : Host.scatterAdd d x idx upd = Ideal.hostScatterAdd d x idx upd := rfl

end Idealize.ShloMosaic.HostSums

end
-- ==== Proof.Pass1SumMath.lean ====
/-
  Column sums of a [50000,128] matrix, taken whole and taken ten row blocks of 5000 at a time.

  The host's column sum of a matrix z, written as a one-row matrix, holds at lane q the value 0 + Σ_i z(i, q) over the
  50000 rows. Cut the rows into ten consecutive blocks of 5000 (row r of block s is row 5000·s + r): the sum over all
  rows is the sum over the blocks of the sums within a block, because addition of extended reals is commutative and
  associative (no finiteness is needed). The kernel's two running rows are updated, per block, by
  "previous contents + column sum of this block" and "previous contents + column sum of this block's squares", both read
  here at a lane; the row they start from holds 0 at every lane.
-/
import proofs.«131685_j69784628625939_1_alg».proof.Proof.Spec
import proofs.«131685_j69784628625939_1_alg».proof.Proof.Gen.KernelIdeal.Skeleton
import proofs.«131685_j69784628625939_1_alg».proof.Proof.LibBlockSum
import proofs.«131685_j69784628625939_1_alg».proof.Proof.LibRowReduce
import proofs.«131685_j69784628625939_1_alg».proof.Proof.LibHostSums
import Idealize.ShloMosaic.Lib.IdealHost
import Idealize.ShloMosaic.Lib.ValueLayout
import Idealize.ShloMosaic.Lib.Pipeline.Value

noncomputable section

open scoped BigOperators

namespace Cert.KernelIdeal.Pass1Sum

open Idealize.ShloMosaic Idealize.ShloMosaic.ValueIdx
open Cert.KernelIdeal Cert.KernelIdeal.Gen
open Cert.Sage (Mat Row)

/-- A pair of zero offsets, as the constant-zero function. -/
theorem hz2 : (![0, 0] : Fin 2 → Nat) = fun _ => 0 := funext fun a => by fin_cases a <;> rfl

/-- Row `r` of block `s` among the 50000 rows. -/
def blkRow (s : ℕ) (h : s < 10) (r : Fin 5000) : Fin 50000 := ⟨s * 5000 + r.val, by have := r.isLt; omega⟩

/-- Lane `q` summed over the rows of block `s`; zero past the last block. -/
def blkTerm (z : Mat) (q : Fin 128) (s : ℕ) : EReal :=
  if h : s < 10 then ∑ r : Fin 5000, z (ix2 (blkRow s h r) q) else 0

/-- The ten block sums of a lane add up to the lane's sum over all rows. -/
theorem sum_blkTerm (z : Mat) (q : Fin 128) :
    ∑ s ∈ Finset.range 10, blkTerm z q s = ∑ i : Fin 50000, z (ix2 i q) :=
  SumLaw.sum_blocks (B := 10) (R := 5000) (T := 50000) rfl (fun i => z (ix2 i q)) blkRow (fun _ _ _ => rfl)

/-- The host's column sum as a one-row matrix, at lane `q`: zero plus the lane's sum over all rows. -/
theorem colSumRow_apply (z : Mat) (p : Fin 1) (q : Fin 128) :
    Cert.Sage.Ker.colSumRow z (ix2 p q) = 0 + ∑ i : Fin 50000, z (ix2 i q) := by
  unfold Cert.Sage.Ker.colSumRow Cert.Sage.asRow Cert.Sage.colSum
  refine (broadcastInDim_apply _ _ _ (ix2 p q) (ix1 q) fun a => ?_).trans ?_
  · match a with
    | ⟨0, _⟩ => rfl
  · refine (hostReduceAdd_apply z _ _ _ (ix1 q)).trans ?_
    refine (HostSums.hostColSum_apply z _ _ q).trans ?_
    rw [constant_apply, Ideal.ofBits_zero_f32]

/-- The row the running column sums start from holds 0 at every lane. -/
theorem pay1_apply (j : S1x128.Idx) : (k0_pay1 (F := Ideal)) j = 0 := by
  unfold k0_pay1
  exact Ideal.ofBits_zero_f32

/-- The row the running sums of squares start from holds 0 at every lane. -/
theorem pay2_apply (j : S1x128.Idx) : (k0_pay2 (F := Ideal)) j = 0 := by
  unfold k0_pay2
  exact Ideal.ofBits_zero_f32

/-- One update of the running column sum, at lane `q`: the previous contents plus the block's lane summed over its rows. -/
theorem pay3_apply (b : FVec Ideal S5000x128 .f32) (prev : Vec Ideal S1x128 .f32) (p : Fin 1) (q : Fin 128) :
    k0_pay3 b prev (ix2 p q) = prev (ix2 p q) + ∑ r : Fin 5000, b (ix2 r q) := by
  unfold k0_pay3
  refine congrArg₂ (· + ·) ?_ ?_
  · exact congrFun (shapeCast_self prev _) (ix2 p q)
  · refine (shapeCast_a_1a_apply _ _ p q).trans ?_
    exact RowReduce.colSum_apply b _ _ _ _ q

/-- One update of the running sum of squares, at lane `q`: the previous contents plus the squares of the block's lane
    summed over its rows. -/
theorem pay4_apply (b : FVec Ideal S5000x128 .f32) (prev : Vec Ideal S1x128 .f32) (p : Fin 1) (q : Fin 128) :
    k0_pay4 b prev (ix2 p q) = prev (ix2 p q) + ∑ r : Fin 5000, b (ix2 r q) * b (ix2 r q) := by
  unfold k0_pay4
  refine congrArg₂ (· + ·) ?_ ?_
  · exact congrFun (shapeCast_self prev _) (ix2 p q)
  · refine (shapeCast_a_1a_apply _ _ p q).trans ?_
    exact RowReduce.colSum_apply (mulf b b) _ _ _ _ q

end Cert.KernelIdeal.Pass1Sum

end
-- ==== Proof.Pass1SumR0.lean ====
/-
  The two running rows of the first kernel of layer 0: what their arrays hold after the run.

  The kernel walks ten row blocks of 5000 rows. At the first it stores a row of zeros in each of two one-row buffers and
  at every block it adds to the first the column sum of the block's normalised rows and to the second the column sum
  of their squares; the buffers are written back once, after the last block. Read at a lane, the first buffer after
  block n holds 0 plus the lane summed over the rows of blocks 0 … n (induction on n over the two cases of the body: the
  block that resets, the blocks that continue from what the block before left), so after the last block it holds the
  lane summed over all 50000 rows, which is what the host's column sum holds there; likewise for the squares. The block of
  normalised rows is taken as given: it is assumed to be, at every block, that block of one whole matrix N.
-/
import proofs.«131685_j69784628625939_1_alg».proof.Proof.Gen.KernelIdeal.Frame
import proofs.«131685_j69784628625939_1_alg».proof.Proof.Pass1SumMath
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Pass1Sum.R0

open Cert.KernelIdeal Cert.KernelIdeal.Gen Cert.KernelIdeal.Pass1Sum

variable {F : FTy → Type} [FloatOps F]

/-! ## What each case of the body leaves in the two buffers -/

theorem outA9 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond0_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) :
    out0_A_9 c i a1 h1 a2 h2 a3 h3 a4 h4 a5 h5 a6 h6 a7 h7 a8 h8 a9 h9 a10 h10 a11 h11 hc x0 x1 x2 x3 x4 x5 x6 = k0_pay3 (k0_pay7 x0 x1 x3 x2 x4) (k0_pay1 (F := F)) := by
  unfold out0_A_9
  rw [View.read_writes_eq_canon _ _ _ (cover0_A_9 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, View.ld_unit_zero (S := S5000x128) hz2, View.ld_unit_zero (S := S1x128) hz2, View.ld_unit_zero (S := S128x128) hz2]

theorem outB9 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond0_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) (xo9 xo10 : Vec F S1x128 .f32) :
    out0_B_9 c i a1 h1 a2 h2 a3 h3 a4 h4 a5 h5 a6 h6 a7 h7 a8 h8 a9 h9 a10 h10 a11 h11 hc x0 x1 x2 x3 x4 x5 x6 xo9 xo10 = k0_pay3 (k0_pay7 x0 x1 x3 x2 x4) xo9 := by
  unfold out0_B_9
  rw [View.read_writes_eq_canon _ _ _ (cover0_B_9 c i a1 h1 a2 h2 a3 h3 a4 h4 a5 h5 a6 h6 a7 h7 a8 h8 a9 h9 a10 h10 a11 h11 hc x0 x1 x2 x3 x4 x5 x6 xo9 xo10)]
  unfold kernelRun0_B
  dsimp only
  sl_unfold_words
  rw [View.canon_unit_zero (S := S1x128) hz2]
  simp only [View.readAt_eq_ld, h1.read_unread, h2.read_unread, h3.read_unread, h4.read_unread, h5.read_unread, h10.read_unread, View.ld_unit_zero (S := S5000x128) hz2, View.ld_unit_zero (S := S1x128) hz2, View.ld_unit_zero (S := S128x128) hz2]

theorem outA10 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond0_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) :
    out0_A_10 c i a1 h1 a2 h2 a3 h3 a4 h4 a5 h5 a6 h6 a7 h7 a8 h8 a9 h9 a10 h10 a11 h11 hc x0 x1 x2 x3 x4 x5 x6 = k0_pay4 (k0_pay7 x0 x1 x3 x2 x4) (k0_pay2 (F := F)) := by
  unfold out0_A_10
  rw [View.read_writes_eq_canon _ _ _ (cover0_A_10 c i a1 h1 a2 h2 a3 h3 a4 h4 a5 h5 a6 h6 a7 h7 a8 h8 a9 h9 a10 h10 a11 h11 hc x0 x1 x2 x3 x4 x5 x6)]
  unfold kernelRun0_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, View.ld_unit_zero (S := S5000x128) hz2, View.ld_unit_zero (S := S1x128) hz2, View.ld_unit_zero (S := S128x128) hz2]

theorem outB10 (c : Dev nD) (i : grid0.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond0_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) (xo9 xo10 : Vec F S1x128 .f32) :
    out0_B_10 c i a1 h1 a2 h2 a3 h3 a4 h4 a5 h5 a6 h6 a7 h7 a8 h8 a9 h9 a10 h10 a11 h11 hc x0 x1 x2 x3 x4 x5 x6 xo9 xo10 = k0_pay4 (k0_pay7 x0 x1 x3 x2 x4) xo10 := by
  unfold out0_B_10
  rw [View.read_writes_eq_canon _ _ _ (cover0_B_10 c i a1 h1 a2 h2 a3 h3 a4 h4 a5 h5 a6 h6 a7 h7 a8 h8 a9 h9 a10 h10 a11 h11 hc x0 x1 x2 x3 x4 x5 x6 xo9 xo10)]
  unfold kernelRun0_B
  dsimp only
  sl_unfold_words
  rw [View.canon_unit_zero (S := S1x128) hz2]
  simp only [View.readAt_eq_ld, h1.read_unread, h2.read_unread, h3.read_unread, h4.read_unread, h5.read_unread, h11.read_unread, View.ld_unit_zero (S := S5000x128) hz2, View.ld_unit_zero (S := S1x128) hz2, View.ld_unit_zero (S := S128x128) hz2]

/-! ## The recurrence over the points -/

section Rec
variable (V : (c : Dev nD) → (b : Ref sig .tc) → Buf (Elt F) ((c : Thread nD τ).loc b))

/-- The block of normalised rows the body computes at point `t`. -/
abbrev nblk (c : Dev nD) (t : Fin cfg0.N) : FVec F S5000x128 .f32 :=
  k0_pay7 (iblk0 V c 0 t) (iblk0 V c 1 t) (iblk0 V c 3 t) (iblk0 V c 2 t) (iblk0 V c 4 t)

theorem row9_zero (c : Dev nD) (hn : 0 < cfg0.N) :
    (outsAt0 V c 0 hn).2.2.1 = k0_pay3 (nblk V c ⟨0, hn⟩) (k0_pay1 (F := F)) := by
  rw [outsAt0_A V c ⟨0, hn⟩ (Nat.zero_mod _)]
  dsimp only
  exact outA9 (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)

theorem row9_succ (c : Dev nD) (n : ℕ) (hn : n + 1 < cfg0.N) :
    (outsAt0 V c (n + 1) hn).2.2.1 = k0_pay3 (nblk V c ⟨n + 1, hn⟩) (outsAt0 V c n (Nat.lt_of_succ_lt hn)).2.2.1 := by
  have hN : cfg0.N = 10 := N_0
  have hB : ¬(⟨n + 1, hn⟩ : Fin cfg0.N).val % 10 = 0 := by dsimp only; omega
  rw [outsAt0_B V c ⟨n + 1, hn⟩ hB]
  dsimp only
  exact outB9 (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) _ _

theorem row10_zero (c : Dev nD) (hn : 0 < cfg0.N) :
    (outsAt0 V c 0 hn).2.2.2 = k0_pay4 (nblk V c ⟨0, hn⟩) (k0_pay2 (F := F)) := by
  rw [outsAt0_A V c ⟨0, hn⟩ (Nat.zero_mod _)]
  dsimp only
  exact outA10 (F := F) c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) ((hcond0_0 ⟨0, hn⟩).mpr (Nat.zero_mod _)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩)

theorem row10_succ (c : Dev nD) (n : ℕ) (hn : n + 1 < cfg0.N) :
    (outsAt0 V c (n + 1) hn).2.2.2 = k0_pay4 (nblk V c ⟨n + 1, hn⟩) (outsAt0 V c n (Nat.lt_of_succ_lt hn)).2.2.2 := by
  have hN : cfg0.N = 10 := N_0
  have hB : ¬(⟨n + 1, hn⟩ : Fin cfg0.N).val % 10 = 0 := by dsimp only; omega
  rw [outsAt0_B V c ⟨n + 1, hn⟩ hB]
  dsimp only
  exact outB10 (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (fun h => hB ((hcond0_0 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) _ _

end Rec

/-! ## The values, over the extended reals -/

section Val
open Idealize.ShloMosaic.ValueIdx
open scoped BigOperators

theorem idx7 : ∀ t : Fin grid0.N, win0_7.index t 0 = t.val ∧ win0_7.index t 1 = 0 := by decide +kernel

/-- Window 7's block at point `t`, read off a whole matrix: entry (r, q) of the block is entry (5000·t + r, q). -/
theorem blk7_read (N : Cert.Sage.Mat) (t : Fin cfg0.N) (ht : t.val < 10) (r : Fin 5000) (q : Fin 128) :
    ((cfg0.win 7).blk t).view.read (Elt Ideal) N (ix2 r q) = N (ix2 (blkRow t.val ht r) q) := by
  rw [View.read_apply]
  show N _ = N _
  refine congrArg N (funext fun a => Fin.ext ?_)
  match a with
  | ⟨0, _⟩ => show win0_7.index t 0 * 5000 + 1 * r.val = t.val * 5000 + r.val; rw [(idx7 t).1]; omega
  | ⟨1, _⟩ => show win0_7.index t 1 * 128 + 1 * q.val = q.val; rw [(idx7 t).2]; omega

/-- The two zero rows, and one update of each running row, at a lane (the payloads are those of the first layer's kernel). -/
theorem p1 (j : S1x128.Idx) : (k0_pay1 (F := Ideal)) j = 0 := pay1_apply j
theorem p2 (j : S1x128.Idx) : (k0_pay2 (F := Ideal)) j = 0 := pay2_apply j
theorem p3 (b : FVec Ideal S5000x128 .f32) (prev : Vec Ideal S1x128 .f32) (p : Fin 1) (q : Fin 128) :
    k0_pay3 b prev (ix2 p q) = prev (ix2 p q) + ∑ r : Fin 5000, b (ix2 r q) := pay3_apply b prev p q
theorem p4 (b : FVec Ideal S5000x128 .f32) (prev : Vec Ideal S1x128 .f32) (p : Fin 1) (q : Fin 128) :
    k0_pay4 b prev (ix2 p q) = prev (ix2 p q) + ∑ r : Fin 5000, b (ix2 r q) * b (ix2 r q) := pay4_apply b prev p q

variable (V : (c : Dev nD) → (b : Ref sig .tc) → Buf (Elt Ideal) ((c : Thread nD τ).loc b))

/-- When the body's block of normalised rows at every point is that point's block of `N`, its lane `q` summed over the
    block's rows is block `n`'s term of `N`, -/
theorem nblk_sum (c : Dev nD) (N : Cert.Sage.Mat) (hN : ∀ t : Fin cfg0.N, nblk V c t = ((cfg0.win 7).blk t).view.read (Elt Ideal) N)
    (n : ℕ) (hn : n < cfg0.N) (q : Fin 128) :
    ∑ r : Fin 5000, nblk V c ⟨n, hn⟩ (ix2 r q) = blkTerm N q n := by
  have h10 : n < 10 := lt_of_lt_of_eq hn N_0
  unfold blkTerm
  rw [dif_pos h10, hN]
  exact Finset.sum_congr rfl fun r _ => blk7_read N ⟨n, hn⟩ h10 r q

/-- and its squares summed over the block's rows are block `n`'s term of the matrix of squares. -/
theorem nblk_sq_sum (c : Dev nD) (N : Cert.Sage.Mat) (hN : ∀ t : Fin cfg0.N, nblk V c t = ((cfg0.win 7).blk t).view.read (Elt Ideal) N)
    (n : ℕ) (hn : n < cfg0.N) (q : Fin 128) :
    ∑ r : Fin 5000, nblk V c ⟨n, hn⟩ (ix2 r q) * nblk V c ⟨n, hn⟩ (ix2 r q) = blkTerm (mulf N N) q n := by
  have h10 : n < 10 := lt_of_lt_of_eq hn N_0
  unfold blkTerm
  rw [dif_pos h10, hN]
  refine Finset.sum_congr rfl fun r _ => ?_
  rw [blk7_read N ⟨n, hn⟩ h10 r q]
  rfl

/-- After point `n` the running row of column sums holds, at lane `q`, zero plus the terms of blocks 0 … n. -/
theorem acc9 (c : Dev nD) (N : Cert.Sage.Mat) (hN : ∀ t : Fin cfg0.N, nblk V c t = ((cfg0.win 7).blk t).view.read (Elt Ideal) N) :
    ∀ (n : ℕ) (hn : n < cfg0.N) (p : Fin 1) (q : Fin 128),
      (outsAt0 V c n hn).2.2.1 (ix2 p q) = 0 + ∑ s ∈ Finset.range (n + 1), blkTerm N q s
  | 0, hn, p, q => by
    rw [row9_zero V c hn, p3, p1, nblk_sum V c N hN 0 hn q, Finset.sum_range_one]
  | n + 1, hn, p, q => by
    rw [row9_succ V c n hn, p3, acc9 c N hN n (Nat.lt_of_succ_lt hn) p q, nblk_sum V c N hN (n + 1) hn q,
      Finset.sum_range_succ _ (n + 1), add_assoc]

/-- After point `n` the running row of sums of squares holds, at lane `q`, zero plus the terms of blocks 0 … n of the
    matrix of squares. -/
theorem acc10 (c : Dev nD) (N : Cert.Sage.Mat) (hN : ∀ t : Fin cfg0.N, nblk V c t = ((cfg0.win 7).blk t).view.read (Elt Ideal) N) :
    ∀ (n : ℕ) (hn : n < cfg0.N) (p : Fin 1) (q : Fin 128),
      (outsAt0 V c n hn).2.2.2 (ix2 p q) = 0 + ∑ s ∈ Finset.range (n + 1), blkTerm (mulf N N) q s
  | 0, hn, p, q => by
    rw [row10_zero V c hn, p4, p2, nblk_sq_sum V c N hN 0 hn q, Finset.sum_range_one]
  | n + 1, hn, p, q => by
    rw [row10_succ V c n hn, p4, acc10 c N hN n (Nat.lt_of_succ_lt hn) p q, nblk_sq_sum V c N hN (n + 1) hn q,
      Finset.sum_range_succ _ (n + 1), add_assoc]

/-- After the last point the running row of column sums is the host's column sum of `N` as a one-row matrix, -/
theorem last9 (c : Dev nD) (N : Cert.Sage.Mat) (hN : ∀ t : Fin cfg0.N, nblk V c t = ((cfg0.win 7).blk t).view.read (Elt Ideal) N) :
    (outsAt0 V c t0_9.val t0_9.isLt).2.2.1 = Cert.Sage.Ker.colSumRow N := by
  funext j
  obtain ⟨p, q, rfl⟩ : ∃ (p : Fin 1) (q : Fin 128), j = ix2 p q := ⟨j 0, j 1, eq_ix2 j⟩
  refine (acc9 V c N hN 9 t0_9.isLt p q).trans ?_
  rw [colSumRow_apply, ← sum_blkTerm]

/-- and the running row of sums of squares the host's column sum of the squares. -/
theorem last10 (c : Dev nD) (N : Cert.Sage.Mat) (hN : ∀ t : Fin cfg0.N, nblk V c t = ((cfg0.win 7).blk t).view.read (Elt Ideal) N) :
    (outsAt0 V c t0_9.val t0_9.isLt).2.2.2 = Cert.Sage.Ker.colSumRow (mulf N N) := by
  funext j
  obtain ⟨p, q, rfl⟩ : ∃ (p : Fin 1) (q : Fin 128), j = ix2 p q := ⟨j 0, j 1, eq_ix2 j⟩
  refine (acc10 V c N hN 9 t0_9.isLt p q).trans ?_
  rw [colSumRow_apply, ← sum_blkTerm]

/-- The one write-back of the first running row, at the last point, writes the host's column sum: the row's one block,
    read through zero offsets, is the whole one-row array. -/
theorem flushed9 (c : Dev nD) (N : Cert.Sage.Mat) (hN : ∀ t : Fin cfg0.N, nblk V c t = ((cfg0.win 7).blk t).view.read (Elt Ideal) N)
    (t : Fin cfg0.N) (hf : (cfg0.win 9).flush t = true) :
    (dat0 V c).flushed 9 t = ((cfg0.win 9).blk t).view.read (Elt Ideal) (Cert.Sage.Ker.colSumRow N) := by
  have hN10 : cfg0.N = 10 := N_0
  have h9 : t.val = 9 := by have := (flush0_9 t).mp hf; have := t.isLt; omega
  obtain rfl : t = t0_9 := Fin.ext h9
  show (cfg0.win 9).cut (grid0.coords t0_9) ((dat0 V c).after 9 t0_9) = _
  rw [after0_9, last9 V c N hN]
  have hz' : (fun a => win0_9.index t0_9 a * main_v36_2.ty.shape.size a) = fun _ => 0 := funext fun a => by fin_cases a <;> decide
  exact (Memref.read_access_unit_zero (Elt Ideal) main_v36_2 hz' (fun a => by rw [congrFun hz' a]; simp) (Cert.Sage.Ker.colSumRow N)).symm

/-- The one write-back of the second running row writes the host's column sum of the squares. -/
theorem flushed10 (c : Dev nD) (N : Cert.Sage.Mat) (hN : ∀ t : Fin cfg0.N, nblk V c t = ((cfg0.win 7).blk t).view.read (Elt Ideal) N)
    (t : Fin cfg0.N) (hf : (cfg0.win 10).flush t = true) :
    (dat0 V c).flushed 10 t = ((cfg0.win 10).blk t).view.read (Elt Ideal) (Cert.Sage.Ker.colSumRow (mulf N N)) := by
  have hN10 : cfg0.N = 10 := N_0
  have h9 : t.val = 9 := by have := (flush0_10 t).mp hf; have := t.isLt; omega
  obtain rfl : t = t0_9 := Fin.ext h9
  show (cfg0.win 10).cut (grid0.coords t0_9) ((dat0 V c).after 10 t0_9) = _
  rw [after0_10, last10 V c N hN]
  have hz' : (fun a => win0_10.index t0_9 a * main_v36_3.ty.shape.size a) = fun _ => 0 := funext fun a => by fin_cases a <;> decide
  exact (Memref.read_access_unit_zero (Elt Ideal) main_v36_3 hz' (fun a => by rw [congrFun hz' a]; simp) (Cert.Sage.Ker.colSumRow (mulf N N))).symm

end Val

end Cert.KernelIdeal.Pass1Sum.R0

namespace Cert.KernelIdeal.Pass1Sum

open Cert.KernelIdeal Cert.KernelIdeal.Gen Cert.KernelIdeal.Pass1Sum.R0

variable (V : (c : Dev nD) → (b : Ref sig .tc) → Buf (Elt Ideal) ((c : Thread nD τ).loc b))

/-- The first running row's array after the run: the column sums of `N`, as the host takes them, in a one-row matrix
    (the last point writes it back and its block is the whole array). -/
theorem arr9_R0 (c : Dev nD) (N : Cert.Sage.Mat) (hN : ∀ t : Fin cfg0.N, k0_pay7 (iblk0 V c 0 t) (iblk0 V c 1 t) (iblk0 V c 3 t) (iblk0 V c 2 t) (iblk0 V c 4 t) = ((cfg0.win 7).blk t).view.read (Elt Ideal) N) :
    (dat0 V c).arrAt 9 cfg0.N = Cert.Sage.Ker.colSumRow N :=
  (dat0 V c).arrAt_eq_of_cover 9 (Cert.Sage.Ker.colSumRow N) (flushed9 V c N hN) fun i =>
    ⟨t0_9, (flush0_9 t0_9).mpr rfl, by
      show i ∈ ((View.whole main_v36_2).slice (win0_9.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_9.index t0_9 0 * win0_9.size 0 ≤ (i 0 : Nat) ∧ (i 0 : Nat) < win0_9.index t0_9 0 * win0_9.size 0 + win0_9.xsize (grid0.coords t0_9) 0
                  rw [show win0_9.index t0_9 0 * win0_9.size 0 = 0 from by decide +kernel, show win0_9.xsize (grid0.coords t0_9) 0 = 1 from by decide +kernel]; omega
      | ⟨1, _⟩ => show win0_9.index t0_9 1 * win0_9.size 1 ≤ (i 1 : Nat) ∧ (i 1 : Nat) < win0_9.index t0_9 1 * win0_9.size 1 + win0_9.xsize (grid0.coords t0_9) 1
                  rw [show win0_9.index t0_9 1 * win0_9.size 1 = 0 from by decide +kernel, show win0_9.xsize (grid0.coords t0_9) 1 = 128 from by decide +kernel]; omega⟩

/-- The second running row's array after the run: the column sums of the squares of `N`, in a one-row matrix. -/
theorem arr10_R0 (c : Dev nD) (N : Cert.Sage.Mat) (hN : ∀ t : Fin cfg0.N, k0_pay7 (iblk0 V c 0 t) (iblk0 V c 1 t) (iblk0 V c 3 t) (iblk0 V c 2 t) (iblk0 V c 4 t) = ((cfg0.win 7).blk t).view.read (Elt Ideal) N) :
    (dat0 V c).arrAt 10 cfg0.N = Cert.Sage.Ker.colSumRow (mulf N N) :=
  (dat0 V c).arrAt_eq_of_cover 10 (Cert.Sage.Ker.colSumRow (mulf N N)) (flushed10 V c N hN) fun i =>
    ⟨t0_9, (flush0_10 t0_9).mpr rfl, by
      show i ∈ ((View.whole main_v36_3).slice (win0_10.rect t0_9)).set
      rw [View.set_slice_whole, Rect.mem_set_unit]
      intro a
      have h0 : (i 0 : Nat) < 1 := (i 0).isLt
      have h1 : (i 1 : Nat) < 128 := (i 1).isLt
      match a with
      | ⟨0, _⟩ => show win0_10.index t0_9 0 * win0_10.size 0 ≤ (i 0 : Nat) ∧ (i 0 : Nat) < win0_10.index t0_9 0 * win0_10.size 0 + win0_10.xsize (grid0.coords t0_9) 0
                  rw [show win0_10.index t0_9 0 * win0_10.size 0 = 0 from by decide +kernel, show win0_10.xsize (grid0.coords t0_9) 0 = 1 from by decide +kernel]; omega
      | ⟨1, _⟩ => show win0_10.index t0_9 1 * win0_10.size 1 ≤ (i 1 : Nat) ∧ (i 1 : Nat) < win0_10.index t0_9 1 * win0_10.size 1 + win0_10.xsize (grid0.coords t0_9) 1
                  rw [show win0_10.index t0_9 1 * win0_10.size 1 = 0 from by decide +kernel, show win0_10.xsize (grid0.coords t0_9) 1 = 128 from by decide +kernel]; omega⟩

end Cert.KernelIdeal.Pass1Sum

end
-- ==== Proof.Pass1SumR2.lean ====
/-
  The two running rows of the first kernel of layer 1: what their arrays hold after the run.

  The kernel walks ten row blocks of 5000 rows. At the first it stores a row of zeros in each of two one-row buffers and
  at every block it adds to the first the column sum of the block's normalised rows and to the second the column sum
  of their squares; the buffers are written back once, after the last block. Read at a lane, the first buffer after
  block n holds 0 plus the lane summed over the rows of blocks 0 … n (induction on n over the two cases of the body: the
  block that resets, the blocks that continue from what the block before left), so after the last block it holds the
  lane summed over all 50000 rows, which is what the host's column sum holds there; likewise for the squares. The block of
  normalised rows is taken as given: it is assumed to be, at every block, that block of one whole matrix N.
-/
import proofs.«131685_j69784628625939_1_alg».proof.Proof.Gen.KernelIdeal.Frame
import proofs.«131685_j69784628625939_1_alg».proof.Proof.Pass1SumMath
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Pass1Sum.R2

open Cert.KernelIdeal Cert.KernelIdeal.Gen Cert.KernelIdeal.Pass1Sum

variable {F : FTy → Type} [FloatOps F]

/-! ## What each case of the body leaves in the two buffers -/

theorem outA9 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond2_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) :
    out2_A_9 c i a1 h1 a2 h2 a3 h3 a4 h4 a5 h5 a6 h6 a7 h7 a8 h8 a9 h9 a10 h10 a11 h11 hc x0 x1 x2 x3 x4 x5 x6 = k2_pay3 (k2_pay7 x0 x1 x3 x2 x4) (k2_pay1 (F := F)) := by
  unfold out2_A_9
  rw [View.read_writes_eq_canon _ _ _ (cover2_A_9 c i a1 h1 a2 h2 a3 h3 a4 h4 a5 h5 a6 h6 a7 h7 a8 h8 a9 h9 a10 h10 a11 h11 hc x0 x1 x2 x3 x4 x5 x6)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, View.ld_unit_zero (S := S5000x128) hz2, View.ld_unit_zero (S := S1x128) hz2, View.ld_unit_zero (S := S128x128) hz2]

theorem outB9 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond2_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) (xo9 xo10 : Vec F S1x128 .f32) :
    out2_B_9 c i a1 h1 a2 h2 a3 h3 a4 h4 a5 h5 a6 h6 a7 h7 a8 h8 a9 h9 a10 h10 a11 h11 hc x0 x1 x2 x3 x4 x5 x6 xo9 xo10 = k2_pay3 (k2_pay7 x0 x1 x3 x2 x4) xo9 := by
  unfold out2_B_9
  rw [View.read_writes_eq_canon _ _ _ (cover2_B_9 c i a1 h1 a2 h2 a3 h3 a4 h4 a5 h5 a6 h6 a7 h7 a8 h8 a9 h9 a10 h10 a11 h11 hc x0 x1 x2 x3 x4 x5 x6 xo9 xo10)]
  unfold kernelRun2_B
  dsimp only
  sl_unfold_words
  rw [View.canon_unit_zero (S := S1x128) hz2]
  simp only [View.readAt_eq_ld, h1.read_unread, h2.read_unread, h3.read_unread, h4.read_unread, h5.read_unread, h10.read_unread, View.ld_unit_zero (S := S5000x128) hz2, View.ld_unit_zero (S := S1x128) hz2, View.ld_unit_zero (S := S128x128) hz2]

theorem outA10 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond2_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) :
    out2_A_10 c i a1 h1 a2 h2 a3 h3 a4 h4 a5 h5 a6 h6 a7 h7 a8 h8 a9 h9 a10 h10 a11 h11 hc x0 x1 x2 x3 x4 x5 x6 = k2_pay4 (k2_pay7 x0 x1 x3 x2 x4) (k2_pay2 (F := F)) := by
  unfold out2_A_10
  rw [View.read_writes_eq_canon _ _ _ (cover2_A_10 c i a1 h1 a2 h2 a3 h3 a4 h4 a5 h5 a6 h6 a7 h7 a8 h8 a9 h9 a10 h10 a11 h11 hc x0 x1 x2 x3 x4 x5 x6)]
  unfold kernelRun2_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, View.ld_unit_zero (S := S5000x128) hz2, View.ld_unit_zero (S := S1x128) hz2, View.ld_unit_zero (S := S128x128) hz2]

theorem outB10 (c : Dev nD) (i : grid2.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond2_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) (xo9 xo10 : Vec F S1x128 .f32) :
    out2_B_10 c i a1 h1 a2 h2 a3 h3 a4 h4 a5 h5 a6 h6 a7 h7 a8 h8 a9 h9 a10 h10 a11 h11 hc x0 x1 x2 x3 x4 x5 x6 xo9 xo10 = k2_pay4 (k2_pay7 x0 x1 x3 x2 x4) xo10 := by
  unfold out2_B_10
  rw [View.read_writes_eq_canon _ _ _ (cover2_B_10 c i a1 h1 a2 h2 a3 h3 a4 h4 a5 h5 a6 h6 a7 h7 a8 h8 a9 h9 a10 h10 a11 h11 hc x0 x1 x2 x3 x4 x5 x6 xo9 xo10)]
  unfold kernelRun2_B
  dsimp only
  sl_unfold_words
  rw [View.canon_unit_zero (S := S1x128) hz2]
  simp only [View.readAt_eq_ld, h1.read_unread, h2.read_unread, h3.read_unread, h4.read_unread, h5.read_unread, h11.read_unread, View.ld_unit_zero (S := S5000x128) hz2, View.ld_unit_zero (S := S1x128) hz2, View.ld_unit_zero (S := S128x128) hz2]

/-! ## The recurrence over the points -/

section Rec
variable (V : (c : Dev nD) → (b : Ref sig .tc) → Buf (Elt F) ((c : Thread nD τ).loc b))

/-- The block of normalised rows the body computes at point `t`. -/
abbrev nblk (c : Dev nD) (t : Fin cfg2.N) : FVec F S5000x128 .f32 :=
  k2_pay7 (iblk2 V c 0 t) (iblk2 V c 1 t) (iblk2 V c 3 t) (iblk2 V c 2 t) (iblk2 V c 4 t)

theorem row9_zero (c : Dev nD) (hn : 0 < cfg2.N) :
    (outsAt2 V c 0 hn).2.2.1 = k2_pay3 (nblk V c ⟨0, hn⟩) (k2_pay1 (F := F)) := by
  rw [outsAt2_A V c ⟨0, hn⟩ (Nat.zero_mod _)]
  dsimp only
  exact outA9 (F := F) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩)

theorem row9_succ (c : Dev nD) (n : ℕ) (hn : n + 1 < cfg2.N) :
    (outsAt2 V c (n + 1) hn).2.2.1 = k2_pay3 (nblk V c ⟨n + 1, hn⟩) (outsAt2 V c n (Nat.lt_of_succ_lt hn)).2.2.1 := by
  have hN : cfg2.N = 10 := N_2
  have hB : ¬(⟨n + 1, hn⟩ : Fin cfg2.N).val % 10 = 0 := by dsimp only; omega
  rw [outsAt2_B V c ⟨n + 1, hn⟩ hB]
  dsimp only
  exact outB9 (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) _ _

theorem row10_zero (c : Dev nD) (hn : 0 < cfg2.N) :
    (outsAt2 V c 0 hn).2.2.2 = k2_pay4 (nblk V c ⟨0, hn⟩) (k2_pay2 (F := F)) := by
  rw [outsAt2_A V c ⟨0, hn⟩ (Nat.zero_mod _)]
  dsimp only
  exact outA10 (F := F) c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) (ms2_5 ⟨0, hn⟩) (hs2_5 ⟨0, hn⟩) (ms2_6 ⟨0, hn⟩) (hs2_6 ⟨0, hn⟩) (ms2_7 ⟨0, hn⟩) (hs2_7 ⟨0, hn⟩) (ms2_8 ⟨0, hn⟩) (hs2_8 ⟨0, hn⟩) (ms2_9 ⟨0, hn⟩) (hs2_9 ⟨0, hn⟩) (ms2_10 ⟨0, hn⟩) (hs2_10 ⟨0, hn⟩) ((hcond2_0 ⟨0, hn⟩).mpr (Nat.zero_mod _)) (iblk2 V c 0 ⟨0, hn⟩) (iblk2 V c 1 ⟨0, hn⟩) (iblk2 V c 2 ⟨0, hn⟩) (iblk2 V c 3 ⟨0, hn⟩) (iblk2 V c 4 ⟨0, hn⟩) (iblk2 V c 5 ⟨0, hn⟩) (iblk2 V c 6 ⟨0, hn⟩)

theorem row10_succ (c : Dev nD) (n : ℕ) (hn : n + 1 < cfg2.N) :
    (outsAt2 V c (n + 1) hn).2.2.2 = k2_pay4 (nblk V c ⟨n + 1, hn⟩) (outsAt2 V c n (Nat.lt_of_succ_lt hn)).2.2.2 := by
  have hN : cfg2.N = 10 := N_2
  have hB : ¬(⟨n + 1, hn⟩ : Fin cfg2.N).val % 10 = 0 := by dsimp only; omega
  rw [outsAt2_B V c ⟨n + 1, hn⟩ hB]
  dsimp only
  exact outB10 (F := F) c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) (ms2_5 ⟨n + 1, hn⟩) (hs2_5 ⟨n + 1, hn⟩) (ms2_6 ⟨n + 1, hn⟩) (hs2_6 ⟨n + 1, hn⟩) (ms2_7 ⟨n + 1, hn⟩) (hs2_7 ⟨n + 1, hn⟩) (ms2_8 ⟨n + 1, hn⟩) (hs2_8 ⟨n + 1, hn⟩) (ms2_9 ⟨n + 1, hn⟩) (hs2_9 ⟨n + 1, hn⟩) (ms2_10 ⟨n + 1, hn⟩) (hs2_10 ⟨n + 1, hn⟩) (fun h => hB ((hcond2_0 ⟨n + 1, hn⟩).mp h)) (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (iblk2 V c 5 ⟨n + 1, hn⟩) (iblk2 V c 6 ⟨n + 1, hn⟩) _ _

end Rec

/-! ## The values, over the extended reals -/

section Val
open Idealize.ShloMosaic.ValueIdx
open scoped BigOperators

theorem idx7 : ∀ t : Fin grid2.N, win2_7.index t 0 = t.val ∧ win2_7.index t 1 = 0 := by decide +kernel

/-- Window 7's block at point `t`, read off a whole matrix: entry (r, q) of the block is entry (5000·t + r, q). -/
theorem blk7_read (N : Cert.Sage.Mat) (t : Fin cfg2.N) (ht : t.val < 10) (r : Fin 5000) (q : Fin 128) :
    ((cfg2.win 7).blk t).view.read (Elt Ideal) N (ix2 r q) = N (ix2 (blkRow t.val ht r) q) := by
  rw [View.read_apply]
  show N _ = N _
  refine congrArg N (funext fun a => Fin.ext ?_)
  match a with
  | ⟨0, _⟩ => show win2_7.index t 0 * 5000 + 1 * r.val = t.val * 5000 + r.val; rw [(idx7 t).1]; omega
  | ⟨1, _⟩ => show win2_7.index t 1 * 128 + 1 * q.val = q.val; rw [(idx7 t).2]; omega

/-- The two zero rows, and one update of each running row, at a lane (the payloads are those of the first layer's kernel). -/
theorem p1 (j : S1x128.Idx) : (k2_pay1 (F := Ideal)) j = 0 := pay1_apply j
theorem p2 (j : S1x128.Idx) : (k2_pay2 (F := Ideal)) j = 0 := pay2_apply j
theorem p3 (b : FVec Ideal S5000x128 .f32) (prev : Vec Ideal S1x128 .f32) (p : Fin 1) (q : Fin 128) :
    k2_pay3 b prev (ix2 p q) = prev (ix2 p q) + ∑ r : Fin 5000, b (ix2 r q) := pay3_apply b prev p q
theorem p4 (b : FVec Ideal S5000x128 .f32) (prev : Vec Ideal S1x128 .f32) (p : Fin 1) (q : Fin 128) :
    k2_pay4 b prev (ix2 p q) = prev (ix2 p q) + ∑ r : Fin 5000, b (ix2 r q) * b (ix2 r q) := pay4_apply b prev p q

variable (V : (c : Dev nD) → (b : Ref sig .tc) → Buf (Elt Ideal) ((c : Thread nD τ).loc b))

/-- When the body's block of normalised rows at every point is that point's block of `N`, its lane `q` summed over the
    block's rows is block `n`'s term of `N`, -/
theorem nblk_sum (c : Dev nD) (N : Cert.Sage.Mat) (hN : ∀ t : Fin cfg2.N, nblk V c t = ((cfg2.win 7).blk t).view.read (Elt Ideal) N)
    (n : ℕ) (hn : n < cfg2.N) (q : Fin 128) :
    ∑ r : Fin 5000, nblk V c ⟨n, hn⟩ (ix2 r q) = blkTerm N q n := by
  have h10 : n < 10 := lt_of_lt_of_eq hn N_2
  unfold blkTerm
  rw [dif_pos h10, hN]
  exact Finset.sum_congr rfl fun r _ => blk7_read N ⟨n, hn⟩ h10 r q

/-- and its squares summed over the block's rows are block `n`'s term of the matrix of squares. -/
theorem nblk_sq_sum (c : Dev nD) (N : Cert.Sage.Mat) (hN : ∀ t : Fin cfg2.N, nblk V c t = ((cfg2.win 7).blk t).view.read (Elt Ideal) N)
    (n : ℕ) (hn : n < cfg2.N) (q : Fin 128) :
    ∑ r : Fin 5000, nblk V c ⟨n, hn⟩ (ix2 r q) * nblk V c ⟨n, hn⟩ (ix2 r q) = blkTerm (mulf N N) q n := by
  have h10 : n < 10 := lt_of_lt_of_eq hn N_2
  unfold blkTerm
  rw [dif_pos h10, hN]
  refine Finset.sum_congr rfl fun r _ => ?_
  rw [blk7_read N ⟨n, hn⟩ h10 r q]
  rfl

/-- After point `n` the running row of column sums holds, at lane `q`, zero plus the terms of blocks 0 … n. -/
theorem acc9 (c : Dev nD) (N : Cert.Sage.Mat) (hN : ∀ t : Fin cfg2.N, nblk V c t = ((cfg2.win 7).blk t).view.read (Elt Ideal) N) :
    ∀ (n : ℕ) (hn : n < cfg2.N) (p : Fin 1) (q : Fin 128),
      (outsAt2 V c n hn).2.2.1 (ix2 p q) = 0 + ∑ s ∈ Finset.range (n + 1), blkTerm N q s
  | 0, hn, p, q => by
    rw [row9_zero V c hn, p3, p1, nblk_sum V c N hN 0 hn q, Finset.sum_range_one]
  | n + 1, hn, p, q => by
    rw [row9_succ V c n hn, p3, acc9 c N hN n (Nat.lt_of_succ_lt hn) p q, nblk_sum V c N hN (n + 1) hn q,
      Finset.sum_range_succ _ (n + 1), add_assoc]

/-- After point `n` the running row of sums of squares holds, at lane `q`, zero plus the terms of blocks 0 … n of the
    matrix of squares. -/
theorem acc10 (c : Dev nD) (N : Cert.Sage.Mat) (hN : ∀ t : Fin cfg2.N, nblk V c t = ((cfg2.win 7).blk t).view.read (Elt Ideal) N) :
    ∀ (n : ℕ) (hn : n < cfg2.N) (p : Fin 1) (q : Fin 128),
      (outsAt2 V c n hn).2.2.2 (ix2 p q) = 0 + ∑ s ∈ Finset.range (n + 1), blkTerm (mulf N N) q s
  | 0, hn, p, q => by
    rw [row10_zero V c hn, p4, p2, nblk_sq_sum V c N hN 0 hn q, Finset.sum_range_one]
  | n + 1, hn, p, q => by
    rw [row10_succ V c n hn, p4, acc10 c N hN n (Nat.lt_of_succ_lt hn) p q, nblk_sq_sum V c N hN (n + 1) hn q,
      Finset.sum_range_succ _ (n + 1), add_assoc]

/-- After the last point the running row of column sums is the host's column sum of `N` as a one-row matrix, -/
theorem last9 (c : Dev nD) (N : Cert.Sage.Mat) (hN : ∀ t : Fin cfg2.N, nblk V c t = ((cfg2.win 7).blk t).view.read (Elt Ideal) N) :
    (outsAt2 V c t2_9.val t2_9.isLt).2.2.1 = Cert.Sage.Ker.colSumRow N := by
  funext j
  obtain ⟨p, q, rfl⟩ : ∃ (p : Fin 1) (q : Fin 128), j = ix2 p q := ⟨j 0, j 1, eq_ix2 j⟩
  refine (acc9 V c N hN 9 t2_9.isLt p q).trans ?_
  rw [colSumRow_apply, ← sum_blkTerm]

/-- and the running row of sums of squares the host's column sum of the squares. -/
theorem last10 (c : Dev nD) (N : Cert.Sage.Mat) (hN : ∀ t : Fin cfg2.N, nblk V c t = ((cfg2.win 7).blk t).view.read (Elt Ideal) N) :
    (outsAt2 V c t2_9.val t2_9.isLt).2.2.2 = Cert.Sage.Ker.colSumRow (mulf N N) := by
  funext j
  obtain ⟨p, q, rfl⟩ : ∃ (p : Fin 1) (q : Fin 128), j = ix2 p q := ⟨j 0, j 1, eq_ix2 j⟩
  refine (acc10 V c N hN 9 t2_9.isLt p q).trans ?_
  rw [colSumRow_apply, ← sum_blkTerm]

/-- The one write-back of the first running row, at the last point, writes the host's column sum: the row's one block,
    read through zero offsets, is the whole one-row array. -/
theorem flushed9 (c : Dev nD) (N : Cert.Sage.Mat) (hN : ∀ t : Fin cfg2.N, nblk V c t = ((cfg2.win 7).blk t).view.read (Elt Ideal) N)
    (t : Fin cfg2.N) (hf : (cfg2.win 9).flush t = true) :
    (dat2 V c).flushed 9 t = ((cfg2.win 9).blk t).view.read (Elt Ideal) (Cert.Sage.Ker.colSumRow N) := by
  have hN10 : cfg2.N = 10 := N_2
  have h9 : t.val = 9 := by have := (flush2_9 t).mp hf; have := t.isLt; omega
  obtain rfl : t = t2_9 := Fin.ext h9
  show (cfg2.win 9).cut (grid2.coords t2_9) ((dat2 V c).after 9 t2_9) = _
  rw [after2_9, last9 V c N hN]
  have hz' : (fun a => win2_9.index t2_9 a * main_v69_2.ty.shape.size a) = fun _ => 0 := funext fun a => by fin_cases a <;> decide
  exact (Memref.read_access_unit_zero (Elt Ideal) main_v69_2 hz' (fun a => by rw [congrFun hz' a]; simp) (Cert.Sage.Ker.colSumRow N)).symm

/-- The one write-back of the second running row writes the host's column sum of the squares. -/
theorem flushed10 (c : Dev nD) (N : Cert.Sage.Mat) (hN : ∀ t : Fin cfg2.N, nblk V c t = ((cfg2.win 7).blk t).view.read (Elt Ideal) N)
    (t : Fin cfg2.N) (hf : (cfg2.win 10).flush t = true) :
    (dat2 V c).flushed 10 t = ((cfg2.win 10).blk t).view.read (Elt Ideal) (Cert.Sage.Ker.colSumRow (mulf N N)) := by
  have hN10 : cfg2.N = 10 := N_2
  have h9 : t.val = 9 := by have := (flush2_10 t).mp hf; have := t.isLt; omega
  obtain rfl : t = t2_9 := Fin.ext h9
  show (cfg2.win 10).cut (grid2.coords t2_9) ((dat2 V c).after 10 t2_9) = _
  rw [after2_10, last10 V c N hN]
  have hz' : (fun a => win2_10.index t2_9 a * main_v69_3.ty.shape.size a) = fun _ => 0 := funext fun a => by fin_cases a <;> decide
  exact (Memref.read_access_unit_zero (Elt Ideal) main_v69_3 hz' (fun a => by rw [congrFun hz' a]; simp) (Cert.Sage.Ker.colSumRow (mulf N N))).symm

end Val

end Cert.KernelIdeal.Pass1Sum.R2

namespace Cert.KernelIdeal.Pass1Sum

open Cert.KernelIdeal Cert.KernelIdeal.Gen Cert.KernelIdeal.Pass1Sum.R2

variable (V : (c : Dev nD) → (b : Ref sig .tc) → Buf (Elt Ideal) ((c : Thread nD τ).loc b))

/-- The first running row's array after the run: the column sums of `N`, as the host takes them, in a one-row matrix
    (the last point writes it back and its block is the whole array). -/
theorem arr9_R2 (c : Dev nD) (N : Cert.Sage.Mat) (hN : ∀ t : Fin cfg2.N, k2_pay7 (iblk2 V c 0 t) (iblk2 V c 1 t) (iblk2 V c 3 t) (iblk2 V c 2 t) (iblk2 V c 4 t) = ((cfg2.win 7).blk t).view.read (Elt Ideal) N) :
    (dat2 V c).arrAt 9 cfg2.N = Cert.Sage.Ker.colSumRow N :=
  (dat2 V c).arrAt_eq_of_cover 9 (Cert.Sage.Ker.colSumRow N) (flushed9 V c N hN) fun i =>
    ⟨t2_9, (flush2_9 t2_9).mpr rfl, by
      show i ∈ ((View.whole main_v69_2).slice (win2_9.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_9.index t2_9 0 * win2_9.size 0 ≤ (i 0 : Nat) ∧ (i 0 : Nat) < win2_9.index t2_9 0 * win2_9.size 0 + win2_9.xsize (grid2.coords t2_9) 0
                  rw [show win2_9.index t2_9 0 * win2_9.size 0 = 0 from by decide +kernel, show win2_9.xsize (grid2.coords t2_9) 0 = 1 from by decide +kernel]; omega
      | ⟨1, _⟩ => show win2_9.index t2_9 1 * win2_9.size 1 ≤ (i 1 : Nat) ∧ (i 1 : Nat) < win2_9.index t2_9 1 * win2_9.size 1 + win2_9.xsize (grid2.coords t2_9) 1
                  rw [show win2_9.index t2_9 1 * win2_9.size 1 = 0 from by decide +kernel, show win2_9.xsize (grid2.coords t2_9) 1 = 128 from by decide +kernel]; omega⟩

/-- The second running row's array after the run: the column sums of the squares of `N`, in a one-row matrix. -/
theorem arr10_R2 (c : Dev nD) (N : Cert.Sage.Mat) (hN : ∀ t : Fin cfg2.N, k2_pay7 (iblk2 V c 0 t) (iblk2 V c 1 t) (iblk2 V c 3 t) (iblk2 V c 2 t) (iblk2 V c 4 t) = ((cfg2.win 7).blk t).view.read (Elt Ideal) N) :
    (dat2 V c).arrAt 10 cfg2.N = Cert.Sage.Ker.colSumRow (mulf N N) :=
  (dat2 V c).arrAt_eq_of_cover 10 (Cert.Sage.Ker.colSumRow (mulf N N)) (flushed10 V c N hN) fun i =>
    ⟨t2_9, (flush2_10 t2_9).mpr rfl, by
      show i ∈ ((View.whole main_v69_3).slice (win2_10.rect t2_9)).set
      rw [View.set_slice_whole, Rect.mem_set_unit]
      intro a
      have h0 : (i 0 : Nat) < 1 := (i 0).isLt
      have h1 : (i 1 : Nat) < 128 := (i 1).isLt
      match a with
      | ⟨0, _⟩ => show win2_10.index t2_9 0 * win2_10.size 0 ≤ (i 0 : Nat) ∧ (i 0 : Nat) < win2_10.index t2_9 0 * win2_10.size 0 + win2_10.xsize (grid2.coords t2_9) 0
                  rw [show win2_10.index t2_9 0 * win2_10.size 0 = 0 from by decide +kernel, show win2_10.xsize (grid2.coords t2_9) 0 = 1 from by decide +kernel]; omega
      | ⟨1, _⟩ => show win2_10.index t2_9 1 * win2_10.size 1 ≤ (i 1 : Nat) ∧ (i 1 : Nat) < win2_10.index t2_9 1 * win2_10.size 1 + win2_10.xsize (grid2.coords t2_9) 1
                  rw [show win2_10.index t2_9 1 * win2_10.size 1 = 0 from by decide +kernel, show win2_10.xsize (grid2.coords t2_9) 1 = 128 from by decide +kernel]; omega⟩

end Cert.KernelIdeal.Pass1Sum

end
-- ==== Proof.Pass1SumR4.lean ====
/-
  The two running rows of the first kernel of layer 2: what their arrays hold after the run.

  The kernel walks ten row blocks of 5000 rows. At the first it stores a row of zeros in each of two one-row buffers and
  at every block it adds to the first the column sum of the block's normalised rows and to the second the column sum
  of their squares; the buffers are written back once, after the last block. Read at a lane, the first buffer after
  block n holds 0 plus the lane summed over the rows of blocks 0 … n (induction on n over the two cases of the body: the
  block that resets, the blocks that continue from what the block before left), so after the last block it holds the
  lane summed over all 50000 rows, which is what the host's column sum holds there; likewise for the squares. The block of
  normalised rows is taken as given: it is assumed to be, at every block, that block of one whole matrix N.
-/
import proofs.«131685_j69784628625939_1_alg».proof.Proof.Gen.KernelIdeal.Frame
import proofs.«131685_j69784628625939_1_alg».proof.Proof.Pass1SumMath
import Idealize.ShloMosaic.Lib.Pipeline.Value
import Idealize.ShloMosaic.Lib.Tactic

noncomputable section

open Idealize.ShloMosaic Idealize.ShloMosaic.TcCoe Idealize.SL.Sem Idealize.ShloMosaic.Tactic
open Idealize.ShloMosaic.Pipeline (Dat)

namespace Cert.KernelIdeal.Pass1Sum.R4

open Cert.KernelIdeal Cert.KernelIdeal.Gen Cert.KernelIdeal.Pass1Sum

variable {F : FTy → Type} [FloatOps F]

/-! ## What each case of the body leaves in the two buffers -/

theorem outA9 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond4_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) :
    out4_A_9 c i a1 h1 a2 h2 a3 h3 a4 h4 a5 h5 a6 h6 a7 h7 a8 h8 a9 h9 a10 h10 a11 h11 hc x0 x1 x2 x3 x4 x5 x6 = k4_pay3 (k4_pay7 x0 x1 x3 x2 x4) (k4_pay1 (F := F)) := by
  unfold out4_A_9
  rw [View.read_writes_eq_canon _ _ _ (cover4_A_9 c i a1 h1 a2 h2 a3 h3 a4 h4 a5 h5 a6 h6 a7 h7 a8 h8 a9 h9 a10 h10 a11 h11 hc x0 x1 x2 x3 x4 x5 x6)]
  unfold kernelRun4_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, View.ld_unit_zero (S := S5000x128) hz2, View.ld_unit_zero (S := S1x128) hz2, View.ld_unit_zero (S := S128x128) hz2]

theorem outB9 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond4_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) (xo9 xo10 : Vec F S1x128 .f32) :
    out4_B_9 c i a1 h1 a2 h2 a3 h3 a4 h4 a5 h5 a6 h6 a7 h7 a8 h8 a9 h9 a10 h10 a11 h11 hc x0 x1 x2 x3 x4 x5 x6 xo9 xo10 = k4_pay3 (k4_pay7 x0 x1 x3 x2 x4) xo9 := by
  unfold out4_B_9
  rw [View.read_writes_eq_canon _ _ _ (cover4_B_9 c i a1 h1 a2 h2 a3 h3 a4 h4 a5 h5 a6 h6 a7 h7 a8 h8 a9 h9 a10 h10 a11 h11 hc x0 x1 x2 x3 x4 x5 x6 xo9 xo10)]
  unfold kernelRun4_B
  dsimp only
  sl_unfold_words
  rw [View.canon_unit_zero (S := S1x128) hz2]
  simp only [View.readAt_eq_ld, h1.read_unread, h2.read_unread, h3.read_unread, h4.read_unread, h5.read_unread, h10.read_unread, View.ld_unit_zero (S := S5000x128) hz2, View.ld_unit_zero (S := S1x128) hz2, View.ld_unit_zero (S := S128x128) hz2]

theorem outA10 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : cond4_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) :
    out4_A_10 c i a1 h1 a2 h2 a3 h3 a4 h4 a5 h5 a6 h6 a7 h7 a8 h8 a9 h9 a10 h10 a11 h11 hc x0 x1 x2 x3 x4 x5 x6 = k4_pay4 (k4_pay7 x0 x1 x3 x2 x4) (k4_pay2 (F := F)) := by
  unfold out4_A_10
  rw [View.read_writes_eq_canon _ _ _ (cover4_A_10 c i a1 h1 a2 h2 a3 h3 a4 h4 a5 h5 a6 h6 a7 h7 a8 h8 a9 h9 a10 h10 a11 h11 hc x0 x1 x2 x3 x4 x5 x6)]
  unfold kernelRun4_A
  dsimp only
  sl_unfold_words
  rw [View.canon_cons_unit_zero (S := S1x128) hz2, View.readCov_unit_zero (S := S1x128) _ hz2]
  simp only [View.readAt_eq_ld, h1.read_unread, h2.read_unread, h3.read_unread, h4.read_unread, h5.read_unread, View.ld_unit_zero (S := S5000x128) hz2, View.ld_unit_zero (S := S1x128) hz2, View.ld_unit_zero (S := S128x128) hz2]

theorem outB10 (c : Dev nD) (i : grid4.Coords) (a1 : Memref sig .tc .vmem S5000x128 .f32) (h1 : a1.IsWhole) (a2 : Memref sig .tc .vmem S5000x128 .f32) (h2 : a2.IsWhole) (a3 : Memref sig .tc .vmem S128x128 .f32) (h3 : a3.IsWhole) (a4 : Memref sig .tc .vmem S1x128 .f32) (h4 : a4.IsWhole) (a5 : Memref sig .tc .vmem S128x128 .f32) (h5 : a5.IsWhole) (a6 : Memref sig .tc .vmem S128x128 .f32) (h6 : a6.IsWhole) (a7 : Memref sig .tc .vmem S1x128 .f32) (h7 : a7.IsWhole) (a8 : Memref sig .tc .vmem S5000x128 .f32) (h8 : a8.IsWhole) (a9 : Memref sig .tc .vmem S5000x128 .f32) (h9 : a9.IsWhole) (a10 : Memref sig .tc .vmem S1x128 .f32) (h10 : a10.IsWhole) (a11 : Memref sig .tc .vmem S1x128 .f32) (h11 : a11.IsWhole) (hc : ¬cond4_0 i) (x0 : Vec F S5000x128 .f32) (x1 : Vec F S5000x128 .f32) (x2 : Vec F S128x128 .f32) (x3 : Vec F S1x128 .f32) (x4 : Vec F S128x128 .f32) (x5 : Vec F S128x128 .f32) (x6 : Vec F S1x128 .f32) (xo9 xo10 : Vec F S1x128 .f32) :
    out4_B_10 c i a1 h1 a2 h2 a3 h3 a4 h4 a5 h5 a6 h6 a7 h7 a8 h8 a9 h9 a10 h10 a11 h11 hc x0 x1 x2 x3 x4 x5 x6 xo9 xo10 = k4_pay4 (k4_pay7 x0 x1 x3 x2 x4) xo10 := by
  unfold out4_B_10
  rw [View.read_writes_eq_canon _ _ _ (cover4_B_10 c i a1 h1 a2 h2 a3 h3 a4 h4 a5 h5 a6 h6 a7 h7 a8 h8 a9 h9 a10 h10 a11 h11 hc x0 x1 x2 x3 x4 x5 x6 xo9 xo10)]
  unfold kernelRun4_B
  dsimp only
  sl_unfold_words
  rw [View.canon_unit_zero (S := S1x128) hz2]
  simp only [View.readAt_eq_ld, h1.read_unread, h2.read_unread, h3.read_unread, h4.read_unread, h5.read_unread, h11.read_unread, View.ld_unit_zero (S := S5000x128) hz2, View.ld_unit_zero (S := S1x128) hz2, View.ld_unit_zero (S := S128x128) hz2]

/-! ## The recurrence over the points -/

section Rec
variable (V : (c : Dev nD) → (b : Ref sig .tc) → Buf (Elt F) ((c : Thread nD τ).loc b))

/-- The block of normalised rows the body computes at point `t`. -/
abbrev nblk (c : Dev nD) (t : Fin cfg4.N) : FVec F S5000x128 .f32 :=
  k4_pay7 (iblk4 V c 0 t) (iblk4 V c 1 t) (iblk4 V c 3 t) (iblk4 V c 2 t) (iblk4 V c 4 t)

theorem row9_zero (c : Dev nD) (hn : 0 < cfg4.N) :
    (outsAt4 V c 0 hn).2.2.1 = k4_pay3 (nblk V c ⟨0, hn⟩) (k4_pay1 (F := F)) := by
  rw [outsAt4_A V c ⟨0, hn⟩ (Nat.zero_mod _)]
  dsimp only
  exact outA9 (F := F) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩)

theorem row9_succ (c : Dev nD) (n : ℕ) (hn : n + 1 < cfg4.N) :
    (outsAt4 V c (n + 1) hn).2.2.1 = k4_pay3 (nblk V c ⟨n + 1, hn⟩) (outsAt4 V c n (Nat.lt_of_succ_lt hn)).2.2.1 := by
  have hN : cfg4.N = 10 := N_4
  have hB : ¬(⟨n + 1, hn⟩ : Fin cfg4.N).val % 10 = 0 := by dsimp only; omega
  rw [outsAt4_B V c ⟨n + 1, hn⟩ hB]
  dsimp only
  exact outB9 (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (fun h => hB ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) _ _

theorem row10_zero (c : Dev nD) (hn : 0 < cfg4.N) :
    (outsAt4 V c 0 hn).2.2.2 = k4_pay4 (nblk V c ⟨0, hn⟩) (k4_pay2 (F := F)) := by
  rw [outsAt4_A V c ⟨0, hn⟩ (Nat.zero_mod _)]
  dsimp only
  exact outA10 (F := F) c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) (ms4_4 ⟨0, hn⟩) (hs4_4 ⟨0, hn⟩) (ms4_5 ⟨0, hn⟩) (hs4_5 ⟨0, hn⟩) (ms4_6 ⟨0, hn⟩) (hs4_6 ⟨0, hn⟩) (ms4_7 ⟨0, hn⟩) (hs4_7 ⟨0, hn⟩) (ms4_8 ⟨0, hn⟩) (hs4_8 ⟨0, hn⟩) (ms4_9 ⟨0, hn⟩) (hs4_9 ⟨0, hn⟩) (ms4_10 ⟨0, hn⟩) (hs4_10 ⟨0, hn⟩) ((hcond4_0 ⟨0, hn⟩).mpr (Nat.zero_mod _)) (iblk4 V c 0 ⟨0, hn⟩) (iblk4 V c 1 ⟨0, hn⟩) (iblk4 V c 2 ⟨0, hn⟩) (iblk4 V c 3 ⟨0, hn⟩) (iblk4 V c 4 ⟨0, hn⟩) (iblk4 V c 5 ⟨0, hn⟩) (iblk4 V c 6 ⟨0, hn⟩)

theorem row10_succ (c : Dev nD) (n : ℕ) (hn : n + 1 < cfg4.N) :
    (outsAt4 V c (n + 1) hn).2.2.2 = k4_pay4 (nblk V c ⟨n + 1, hn⟩) (outsAt4 V c n (Nat.lt_of_succ_lt hn)).2.2.2 := by
  have hN : cfg4.N = 10 := N_4
  have hB : ¬(⟨n + 1, hn⟩ : Fin cfg4.N).val % 10 = 0 := by dsimp only; omega
  rw [outsAt4_B V c ⟨n + 1, hn⟩ hB]
  dsimp only
  exact outB10 (F := F) c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) (ms4_4 ⟨n + 1, hn⟩) (hs4_4 ⟨n + 1, hn⟩) (ms4_5 ⟨n + 1, hn⟩) (hs4_5 ⟨n + 1, hn⟩) (ms4_6 ⟨n + 1, hn⟩) (hs4_6 ⟨n + 1, hn⟩) (ms4_7 ⟨n + 1, hn⟩) (hs4_7 ⟨n + 1, hn⟩) (ms4_8 ⟨n + 1, hn⟩) (hs4_8 ⟨n + 1, hn⟩) (ms4_9 ⟨n + 1, hn⟩) (hs4_9 ⟨n + 1, hn⟩) (ms4_10 ⟨n + 1, hn⟩) (hs4_10 ⟨n + 1, hn⟩) (fun h => hB ((hcond4_0 ⟨n + 1, hn⟩).mp h)) (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (iblk4 V c 5 ⟨n + 1, hn⟩) (iblk4 V c 6 ⟨n + 1, hn⟩) _ _

end Rec

/-! ## The values, over the extended reals -/

section Val
open Idealize.ShloMosaic.ValueIdx
open scoped BigOperators

theorem idx7 : ∀ t : Fin grid4.N, win4_7.index t 0 = t.val ∧ win4_7.index t 1 = 0 := by decide +kernel

/-- Window 7's block at point `t`, read off a whole matrix: entry (r, q) of the block is entry (5000·t + r, q). -/
theorem blk7_read (N : Cert.Sage.Mat) (t : Fin cfg4.N) (ht : t.val < 10) (r : Fin 5000) (q : Fin 128) :
    ((cfg4.win 7).blk t).view.read (Elt Ideal) N (ix2 r q) = N (ix2 (blkRow t.val ht r) q) := by
  rw [View.read_apply]
  show N _ = N _
  refine congrArg N (funext fun a => Fin.ext ?_)
  match a with
  | ⟨0, _⟩ => show win4_7.index t 0 * 5000 + 1 * r.val = t.val * 5000 + r.val; rw [(idx7 t).1]; omega
  | ⟨1, _⟩ => show win4_7.index t 1 * 128 + 1 * q.val = q.val; rw [(idx7 t).2]; omega

/-- The two zero rows, and one update of each running row, at a lane (the payloads are those of the first layer's kernel). -/
theorem p1 (j : S1x128.Idx) : (k4_pay1 (F := Ideal)) j = 0 := pay1_apply j
theorem p2 (j : S1x128.Idx) : (k4_pay2 (F := Ideal)) j = 0 := pay2_apply j
theorem p3 (b : FVec Ideal S5000x128 .f32) (prev : Vec Ideal S1x128 .f32) (p : Fin 1) (q : Fin 128) :
    k4_pay3 b prev (ix2 p q) = prev (ix2 p q) + ∑ r : Fin 5000, b (ix2 r q) := pay3_apply b prev p q
theorem p4 (b : FVec Ideal S5000x128 .f32) (prev : Vec Ideal S1x128 .f32) (p : Fin 1) (q : Fin 128) :
    k4_pay4 b prev (ix2 p q) = prev (ix2 p q) + ∑ r : Fin 5000, b (ix2 r q) * b (ix2 r q) := pay4_apply b prev p q

variable (V : (c : Dev nD) → (b : Ref sig .tc) → Buf (Elt Ideal) ((c : Thread nD τ).loc b))

/-- When the body's block of normalised rows at every point is that point's block of `N`, its lane `q` summed over the
    block's rows is block `n`'s term of `N`, -/
theorem nblk_sum (c : Dev nD) (N : Cert.Sage.Mat) (hN : ∀ t : Fin cfg4.N, nblk V c t = ((cfg4.win 7).blk t).view.read (Elt Ideal) N)
    (n : ℕ) (hn : n < cfg4.N) (q : Fin 128) :
    ∑ r : Fin 5000, nblk V c ⟨n, hn⟩ (ix2 r q) = blkTerm N q n := by
  have h10 : n < 10 := lt_of_lt_of_eq hn N_4
  unfold blkTerm
  rw [dif_pos h10, hN]
  exact Finset.sum_congr rfl fun r _ => blk7_read N ⟨n, hn⟩ h10 r q

/-- and its squares summed over the block's rows are block `n`'s term of the matrix of squares. -/
theorem nblk_sq_sum (c : Dev nD) (N : Cert.Sage.Mat) (hN : ∀ t : Fin cfg4.N, nblk V c t = ((cfg4.win 7).blk t).view.read (Elt Ideal) N)
    (n : ℕ) (hn : n < cfg4.N) (q : Fin 128) :
    ∑ r : Fin 5000, nblk V c ⟨n, hn⟩ (ix2 r q) * nblk V c ⟨n, hn⟩ (ix2 r q) = blkTerm (mulf N N) q n := by
  have h10 : n < 10 := lt_of_lt_of_eq hn N_4
  unfold blkTerm
  rw [dif_pos h10, hN]
  refine Finset.sum_congr rfl fun r _ => ?_
  rw [blk7_read N ⟨n, hn⟩ h10 r q]
  rfl

/-- After point `n` the running row of column sums holds, at lane `q`, zero plus the terms of blocks 0 … n. -/
theorem acc9 (c : Dev nD) (N : Cert.Sage.Mat) (hN : ∀ t : Fin cfg4.N, nblk V c t = ((cfg4.win 7).blk t).view.read (Elt Ideal) N) :
    ∀ (n : ℕ) (hn : n < cfg4.N) (p : Fin 1) (q : Fin 128),
      (outsAt4 V c n hn).2.2.1 (ix2 p q) = 0 + ∑ s ∈ Finset.range (n + 1), blkTerm N q s
  | 0, hn, p, q => by
    rw [row9_zero V c hn, p3, p1, nblk_sum V c N hN 0 hn q, Finset.sum_range_one]
  | n + 1, hn, p, q => by
    rw [row9_succ V c n hn, p3, acc9 c N hN n (Nat.lt_of_succ_lt hn) p q, nblk_sum V c N hN (n + 1) hn q,
      Finset.sum_range_succ _ (n + 1), add_assoc]

/-- After point `n` the running row of sums of squares holds, at lane `q`, zero plus the terms of blocks 0 … n of the
    matrix of squares. -/
theorem acc10 (c : Dev nD) (N : Cert.Sage.Mat) (hN : ∀ t : Fin cfg4.N, nblk V c t = ((cfg4.win 7).blk t).view.read (Elt Ideal) N) :
    ∀ (n : ℕ) (hn : n < cfg4.N) (p : Fin 1) (q : Fin 128),
      (outsAt4 V c n hn).2.2.2 (ix2 p q) = 0 + ∑ s ∈ Finset.range (n + 1), blkTerm (mulf N N) q s
  | 0, hn, p, q => by
    rw [row10_zero V c hn, p4, p2, nblk_sq_sum V c N hN 0 hn q, Finset.sum_range_one]
  | n + 1, hn, p, q => by
    rw [row10_succ V c n hn, p4, acc10 c N hN n (Nat.lt_of_succ_lt hn) p q, nblk_sq_sum V c N hN (n + 1) hn q,
      Finset.sum_range_succ _ (n + 1), add_assoc]

/-- After the last point the running row of column sums is the host's column sum of `N` as a one-row matrix, -/
theorem last9 (c : Dev nD) (N : Cert.Sage.Mat) (hN : ∀ t : Fin cfg4.N, nblk V c t = ((cfg4.win 7).blk t).view.read (Elt Ideal) N) :
    (outsAt4 V c t4_9.val t4_9.isLt).2.2.1 = Cert.Sage.Ker.colSumRow N := by
  funext j
  obtain ⟨p, q, rfl⟩ : ∃ (p : Fin 1) (q : Fin 128), j = ix2 p q := ⟨j 0, j 1, eq_ix2 j⟩
  refine (acc9 V c N hN 9 t4_9.isLt p q).trans ?_
  rw [colSumRow_apply, ← sum_blkTerm]

/-- and the running row of sums of squares the host's column sum of the squares. -/
theorem last10 (c : Dev nD) (N : Cert.Sage.Mat) (hN : ∀ t : Fin cfg4.N, nblk V c t = ((cfg4.win 7).blk t).view.read (Elt Ideal) N) :
    (outsAt4 V c t4_9.val t4_9.isLt).2.2.2 = Cert.Sage.Ker.colSumRow (mulf N N) := by
  funext j
  obtain ⟨p, q, rfl⟩ : ∃ (p : Fin 1) (q : Fin 128), j = ix2 p q := ⟨j 0, j 1, eq_ix2 j⟩
  refine (acc10 V c N hN 9 t4_9.isLt p q).trans ?_
  rw [colSumRow_apply, ← sum_blkTerm]

/-- The one write-back of the first running row, at the last point, writes the host's column sum: the row's one block,
    read through zero offsets, is the whole one-row array. -/
theorem flushed9 (c : Dev nD) (N : Cert.Sage.Mat) (hN : ∀ t : Fin cfg4.N, nblk V c t = ((cfg4.win 7).blk t).view.read (Elt Ideal) N)
    (t : Fin cfg4.N) (hf : (cfg4.win 9).flush t = true) :
    (dat4 V c).flushed 9 t = ((cfg4.win 9).blk t).view.read (Elt Ideal) (Cert.Sage.Ker.colSumRow N) := by
  have hN10 : cfg4.N = 10 := N_4
  have h9 : t.val = 9 := by have := (flush4_9 t).mp hf; have := t.isLt; omega
  obtain rfl : t = t4_9 := Fin.ext h9
  show (cfg4.win 9).cut (grid4.coords t4_9) ((dat4 V c).after 9 t4_9) = _
  rw [after4_9, last9 V c N hN]
  have hz' : (fun a => win4_9.index t4_9 a * main_v102_2.ty.shape.size a) = fun _ => 0 := funext fun a => by fin_cases a <;> decide
  exact (Memref.read_access_unit_zero (Elt Ideal) main_v102_2 hz' (fun a => by rw [congrFun hz' a]; simp) (Cert.Sage.Ker.colSumRow N)).symm

/-- The one write-back of the second running row writes the host's column sum of the squares. -/
theorem flushed10 (c : Dev nD) (N : Cert.Sage.Mat) (hN : ∀ t : Fin cfg4.N, nblk V c t = ((cfg4.win 7).blk t).view.read (Elt Ideal) N)
    (t : Fin cfg4.N) (hf : (cfg4.win 10).flush t = true) :
    (dat4 V c).flushed 10 t = ((cfg4.win 10).blk t).view.read (Elt Ideal) (Cert.Sage.Ker.colSumRow (mulf N N)) := by
  have hN10 : cfg4.N = 10 := N_4
  have h9 : t.val = 9 := by have := (flush4_10 t).mp hf; have := t.isLt; omega
  obtain rfl : t = t4_9 := Fin.ext h9
  show (cfg4.win 10).cut (grid4.coords t4_9) ((dat4 V c).after 10 t4_9) = _
  rw [after4_10, last10 V c N hN]
  have hz' : (fun a => win4_10.index t4_9 a * main_v102_3.ty.shape.size a) = fun _ => 0 := funext fun a => by fin_cases a <;> decide
  exact (Memref.read_access_unit_zero (Elt Ideal) main_v102_3 hz' (fun a => by rw [congrFun hz' a]; simp) (Cert.Sage.Ker.colSumRow (mulf N N))).symm

end Val

end Cert.KernelIdeal.Pass1Sum.R4

namespace Cert.KernelIdeal.Pass1Sum

open Cert.KernelIdeal Cert.KernelIdeal.Gen Cert.KernelIdeal.Pass1Sum.R4

variable (V : (c : Dev nD) → (b : Ref sig .tc) → Buf (Elt Ideal) ((c : Thread nD τ).loc b))

/-- The first running row's array after the run: the column sums of `N`, as the host takes them, in a one-row matrix
    (the last point writes it back and its block is the whole array). -/
theorem arr9_R4 (c : Dev nD) (N : Cert.Sage.Mat) (hN : ∀ t : Fin cfg4.N, k4_pay7 (iblk4 V c 0 t) (iblk4 V c 1 t) (iblk4 V c 3 t) (iblk4 V c 2 t) (iblk4 V c 4 t) = ((cfg4.win 7).blk t).view.read (Elt Ideal) N) :
    (dat4 V c).arrAt 9 cfg4.N = Cert.Sage.Ker.colSumRow N :=
  (dat4 V c).arrAt_eq_of_cover 9 (Cert.Sage.Ker.colSumRow N) (flushed9 V c N hN) fun i =>
    ⟨t4_9, (flush4_9 t4_9).mpr rfl, by
      show i ∈ ((View.whole main_v102_2).slice (win4_9.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_9.index t4_9 0 * win4_9.size 0 ≤ (i 0 : Nat) ∧ (i 0 : Nat) < win4_9.index t4_9 0 * win4_9.size 0 + win4_9.xsize (grid4.coords t4_9) 0
                  rw [show win4_9.index t4_9 0 * win4_9.size 0 = 0 from by decide +kernel, show win4_9.xsize (grid4.coords t4_9) 0 = 1 from by decide +kernel]; omega
      | ⟨1, _⟩ => show win4_9.index t4_9 1 * win4_9.size 1 ≤ (i 1 : Nat) ∧ (i 1 : Nat) < win4_9.index t4_9 1 * win4_9.size 1 + win4_9.xsize (grid4.coords t4_9) 1
                  rw [show win4_9.index t4_9 1 * win4_9.size 1 = 0 from by decide +kernel, show win4_9.xsize (grid4.coords t4_9) 1 = 128 from by decide +kernel]; omega⟩

/-- The second running row's array after the run: the column sums of the squares of `N`, in a one-row matrix. -/
theorem arr10_R4 (c : Dev nD) (N : Cert.Sage.Mat) (hN : ∀ t : Fin cfg4.N, k4_pay7 (iblk4 V c 0 t) (iblk4 V c 1 t) (iblk4 V c 3 t) (iblk4 V c 2 t) (iblk4 V c 4 t) = ((cfg4.win 7).blk t).view.read (Elt Ideal) N) :
    (dat4 V c).arrAt 10 cfg4.N = Cert.Sage.Ker.colSumRow (mulf N N) :=
  (dat4 V c).arrAt_eq_of_cover 10 (Cert.Sage.Ker.colSumRow (mulf N N)) (flushed10 V c N hN) fun i =>
    ⟨t4_9, (flush4_10 t4_9).mpr rfl, by
      show i ∈ ((View.whole main_v102_3).slice (win4_10.rect t4_9)).set
      rw [View.set_slice_whole, Rect.mem_set_unit]
      intro a
      have h0 : (i 0 : Nat) < 1 := (i 0).isLt
      have h1 : (i 1 : Nat) < 128 := (i 1).isLt
      match a with
      | ⟨0, _⟩ => show win4_10.index t4_9 0 * win4_10.size 0 ≤ (i 0 : Nat) ∧ (i 0 : Nat) < win4_10.index t4_9 0 * win4_10.size 0 + win4_10.xsize (grid4.coords t4_9) 0
                  rw [show win4_10.index t4_9 0 * win4_10.size 0 = 0 from by decide +kernel, show win4_10.xsize (grid4.coords t4_9) 0 = 1 from by decide +kernel]; omega
      | ⟨1, _⟩ => show win4_10.index t4_9 1 * win4_10.size 1 ≤ (i 1 : Nat) ∧ (i 1 : Nat) < win4_10.index t4_9 1 * win4_10.size 1 + win4_10.xsize (grid4.coords t4_9) 1
                  rw [show win4_10.index t4_9 1 * win4_10.size 1 = 0 from by decide +kernel, show win4_10.xsize (grid4.coords t4_9) 1 = 128 from by decide +kernel]; omega⟩

end Cert.KernelIdeal.Pass1Sum

end
-- ==== Proof.Pass2Point.lean ====
/-
  The second kernel's arithmetic, entry by entry.

  The kernel body computes, from a block of the normalised rows n, a block of the skip term r and the four one-row
  matrices μ, σ², γ, β,
      leaky((n − μ) · rsqrt(σ² + ε) · γ + β) + r
  with the one-row matrices laid along every row of the block.  Read at one entry (p, q) of a block this is the same
  expression of n(p, q), r(p, q) and the rows' q-th entries as the whole-array function `Cert.Sage.Ker.pass2` read at
  any entry (s, q) of the array whose n and r are the block's: nothing but the column number enters through the rows.
-/
import proofs.«131685_j69784628625939_1_alg».proof.Proof.Gen.KernelIdeal.Skeleton
import proofs.«131685_j69784628625939_1_alg».proof.Proof.Spec
import Idealize.ShloMosaic.Lib.ValueIdx
import Idealize.ShloMosaic.Lib.ValueLayout
import Idealize.ShloMosaic.Lib.IdealHost
import Idealize.ShloMosaic.Lib.Pipeline.Value

noncomputable section

open Idealize.ShloMosaic Idealize.ShloMosaic.ValueIdx

namespace Cert.KernelIdeal.Pass2

open Cert.KernelIdeal Cert.KernelIdeal.Gen

/-- A one-row matrix laid along the 50000 rows reads, at (s, q), the row's q-th entry. -/
theorem rowsB_apply (v : Cert.Sage.Row) (s : Fin 50000) (q : Fin 128) :
    Cert.Sage.rowsB v (ix2 s q) = v (ix2 (0 : Fin 1) q) := by
  unfold Cert.Sage.rowsB
  refine broadcastInDim_apply _ _ v (ix2 s q) (ix2 (0 : Fin 1) q) fun a => ?_
  match a with
  | ⟨0, _⟩ => rfl
  | ⟨1, _⟩ => rfl

/-- A constant laid over a whole shape reads the constant everywhere. -/
theorem splat_apply (s : Shape) (h : Cert.ReferenceIdeal.S_.BroadcastsInDim s (![] : Fin 0 → Fin s.rank)) (w : BitVec 32) (i : s.Idx) :
    Cert.Sage.splat s h w i = Scalar.ofBits (F := Ideal) .f32 w := by
  unfold Cert.Sage.splat
  rw [broadcastInDim_scalar_apply]
  rfl

/-- The body's stored value at entry (p, q) of a block is the whole-array function at entry (s, q) of the array,
    whenever the block's n and r there are the array's. -/
theorem pay_entry (x0 x1 : Vec Ideal S5000x128 .f32) (x2 x3 x4 x5 : Vec Ideal S1x128 .f32)
    (N R : Cert.Sage.Mat) (p : Fin 5000) (s : Fin 50000) (q : Fin 128)
    (h0 : x0 (ix2 p q) = N (ix2 s q)) (h1 : x1 (ix2 p q) = R (ix2 s q)) :
    k1_pay1 (F := Ideal) x0 x1 x2 x3 x4 x5 (ix2 p q) = Cert.Sage.Ker.pass2 N R x2 x3 x4 x5 (ix2 s q) := by
  unfold k1_pay1 Cert.Sage.Ker.pass2 Cert.Sage.tailCore
  simp only [addf_apply, mulf_apply, subf_apply, select_apply, cmpf_apply, broadcast_apply, shapeCast_self,
    broadcastTo_1b_ab_apply, rowsB_apply, splat_apply, h0, h1]

/-- The same over any two indices with one column number, the body's four one-row blocks being the four one-row arrays. -/
theorem pay_point (x0 x1 : Vec Ideal S5000x128 .f32) (x2 x3 x4 x5 : Vec Ideal S1x128 .f32)
    (N R : Cert.Sage.Mat) (mu sg g b : Cert.Sage.Row) (j : S5000x128.Idx) (i : Cert.KernelIdeal.S50000x128.Idx)
    (h0 : x0 j = N i) (h1 : x1 j = R i) (h2 : x2 = mu) (h3 : x3 = sg) (h4 : x4 = g) (h5 : x5 = b)
    (hc : (i 1).val = (j 1).val) :
    k1_pay1 (F := Ideal) x0 x1 x2 x3 x4 x5 j = Cert.Sage.Ker.pass2 N R mu sg g b i := by
  subst h2 h3 h4 h5
  obtain ⟨p, q, rfl⟩ : ∃ (p : Fin 5000) (q : Fin 128), j = ix2 p q := ⟨j 0, j 1, eq_ix2 j⟩
  obtain ⟨s, q', rfl⟩ : ∃ (s : Fin 50000) (q' : Fin 128), i = ix2 s q' := ⟨i 0, i 1, eq_ix2 i⟩
  obtain rfl : q' = q := Fin.ext hc
  exact pay_entry x0 x1 x2 x3 x4 x5 N R p s q' h0 h1

/-- The three launches of the second kernel store the same value. -/
theorem k3_pay1_eq (x0 x1 : Vec Ideal S5000x128 .f32) (x2 x3 x4 x5 : Vec Ideal S1x128 .f32) :
    k3_pay1 (F := Ideal) x0 x1 x2 x3 x4 x5 = k1_pay1 (F := Ideal) x0 x1 x2 x3 x4 x5 := rfl
theorem k5_pay1_eq (x0 x1 : Vec Ideal S5000x128 .f32) (x2 x3 x4 x5 : Vec Ideal S1x128 .f32) :
    k5_pay1 (F := Ideal) x0 x1 x2 x3 x4 x5 = k1_pay1 (F := Ideal) x0 x1 x2 x3 x4 x5 := rfl

/-- The point lemma for launch 3's body, which stores the same value. -/
theorem pay_point3 (x0 x1 : Vec Ideal S5000x128 .f32) (x2 x3 x4 x5 : Vec Ideal S1x128 .f32)
    (N R : Cert.Sage.Mat) (mu sg g b : Cert.Sage.Row) (j : S5000x128.Idx) (i : Cert.KernelIdeal.S50000x128.Idx)
    (h0 : x0 j = N i) (h1 : x1 j = R i) (h2 : x2 = mu) (h3 : x3 = sg) (h4 : x4 = g) (h5 : x5 = b)
    (hc : (i 1).val = (j 1).val) :
    k3_pay1 (F := Ideal) x0 x1 x2 x3 x4 x5 j = Cert.Sage.Ker.pass2 N R mu sg g b i :=
  (congrFun (k3_pay1_eq x0 x1 x2 x3 x4 x5) j).trans (pay_point x0 x1 x2 x3 x4 x5 N R mu sg g b j i h0 h1 h2 h3 h4 h5 hc)

/-- The point lemma for launch 5's body, which stores the same value. -/
theorem pay_point5 (x0 x1 : Vec Ideal S5000x128 .f32) (x2 x3 x4 x5 : Vec Ideal S1x128 .f32)
    (N R : Cert.Sage.Mat) (mu sg g b : Cert.Sage.Row) (j : S5000x128.Idx) (i : Cert.KernelIdeal.S50000x128.Idx)
    (h0 : x0 j = N i) (h1 : x1 j = R i) (h2 : x2 = mu) (h3 : x3 = sg) (h4 : x4 = g) (h5 : x5 = b)
    (hc : (i 1).val = (j 1).val) :
    k5_pay1 (F := Ideal) x0 x1 x2 x3 x4 x5 j = Cert.Sage.Ker.pass2 N R mu sg g b i :=
  (congrFun (k5_pay1_eq x0 x1 x2 x3 x4 x5) j).trans (pay_point x0 x1 x2 x3 x4 x5 N R mu sg g b j i h0 h1 h2 h3 h4 h5 hc)

end Cert.KernelIdeal.Pass2

end
-- ==== Proof.Pass2R1.lean ====
/-
  The second kernel's launch as a whole-array function (region 1 of the program's six, counted from 0).

  The launch runs the body once per block of 5000 rows, ten blocks in all.  At block t the body reads rows
  5000·t … 5000·t + 4999 of the normalised rows n and of the skip term r, and the four one-row arrays μ, σ², γ, β whole
  (their index maps are constant), and writes rows 5000·t … 5000·t + 4999 of the result.  Entry by entry the written
  value is `Cert.Sage.Ker.pass2` of the six arrays (Pass2Point.lean), and the ten blocks tile the 50000 rows — row s lies
  in block s / 5000 —, so after the launch the result array is `Cert.Sage.Ker.pass2` of the six arrays as the launch
  finds them.
-/
import proofs.«131685_j69784628625939_1_alg».proof.Proof.Gen.KernelIdeal.Frame
import proofs.«131685_j69784628625939_1_alg».proof.Proof.Pass2Point
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass2

open Cert.KernelIdeal Cert.KernelIdeal.Gen

variable (V : (c : Dev nD) → (b : Ref sig .tc) → Buf (Elt Ideal) ((c : Thread nD τ).loc b))

/-- The zero offsets of the body's whole-buffer loads and store. -/
theorem zeros1 : (![0, 0] : Fin 2 → Nat) = fun _ => 0 := funext fun a => by fin_cases a <;> rfl

/-- The launch's index maps over its ten points: the three big windows are at row block t, column block 0; the four
    one-row windows at block (0, 0). -/
theorem idx_facts1 : ∀ t : Fin cfg1.N,
      win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- The result array the launch leaves: the whole-array function of the six arrays as the launch finds them. -/
abbrev result1 (c : Dev nD) : Buf (Elt Ideal) ((cfg1.win 6).arr.view.loc (c.tc : Thread nD τ)) :=
  Cert.Sage.Ker.pass2 (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))

/-! A one-row window's block is its whole array (block (0, 0) of a [1,128] array in blocks of [1,128]). -/

theorem row_block1_2 (c : Dev nD) (t : Fin cfg1.N) :
    (iblk1 V c 2 t : Vec Ideal S1x128 .f32) = V c (Pipeline.arrRef spec1 2) := by
  obtain ⟨e0, e1⟩ : win1_2.index t (0 : Fin 2) = 0 ∧ win1_2.index t (1 : Fin 2) = 0 := by
    obtain ⟨-, -, -, -, e20, e21, e30, e31, e40, e41, e50, e51, -, -⟩ := idx_facts1 t
    exact ⟨e20, e21⟩
  funext y
  refine congrArg (V c (Pipeline.arrRef spec1 2)) (funext fun a => Fin.ext ?_)
  match a with
  | ⟨0, _⟩ => show win1_2.index t (0 : Fin 2) * 1 + 1 * (y 0).val = (y 0).val; omega
  | ⟨1, _⟩ => show win1_2.index t (1 : Fin 2) * 128 + 1 * (y 1).val = (y 1).val; omega

theorem row_block1_3 (c : Dev nD) (t : Fin cfg1.N) :
    (iblk1 V c 3 t : Vec Ideal S1x128 .f32) = V c (Pipeline.arrRef spec1 3) := by
  obtain ⟨e0, e1⟩ : win1_3.index t (0 : Fin 2) = 0 ∧ win1_3.index t (1 : Fin 2) = 0 := by
    obtain ⟨-, -, -, -, e20, e21, e30, e31, e40, e41, e50, e51, -, -⟩ := idx_facts1 t
    exact ⟨e30, e31⟩
  funext y
  refine congrArg (V c (Pipeline.arrRef spec1 3)) (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

theorem row_block1_4 (c : Dev nD) (t : Fin cfg1.N) :
    (iblk1 V c 4 t : Vec Ideal S1x128 .f32) = V c (Pipeline.arrRef spec1 4) := by
  obtain ⟨e0, e1⟩ : win1_4.index t (0 : Fin 2) = 0 ∧ win1_4.index t (1 : Fin 2) = 0 := by
    obtain ⟨-, -, -, -, e20, e21, e30, e31, e40, e41, e50, e51, -, -⟩ := idx_facts1 t
    exact ⟨e40, e41⟩
  funext y
  refine congrArg (V c (Pipeline.arrRef spec1 4)) (funext fun a => Fin.ext ?_)
  match a with
  | ⟨0, _⟩ => show win1_4.index t (0 : Fin 2) * 1 + 1 * (y 0).val = (y 0).val; omega
  | ⟨1, _⟩ => show win1_4.index t (1 : Fin 2) * 128 + 1 * (y 1).val = (y 1).val; omega

theorem row_block1_5 (c : Dev nD) (t : Fin cfg1.N) :
    (iblk1 V c 5 t : Vec Ideal S1x128 .f32) = V c (Pipeline.arrRef spec1 5) := by
  obtain ⟨e0, e1⟩ : win1_5.index t (0 : Fin 2) = 0 ∧ win1_5.index t (1 : Fin 2) = 0 := by
    obtain ⟨-, -, -, -, e20, e21, e30, e31, e40, e41, e50, e51, -, -⟩ := idx_facts1 t
    exact ⟨e50, e51⟩
  funext y
  refine congrArg (V c (Pipeline.arrRef spec1 5)) (funext fun a => Fin.ext ?_)
  match a with
  | ⟨0, _⟩ => show win1_5.index t (0 : Fin 2) * 1 + 1 * (y 0).val = (y 0).val; omega
  | ⟨1, _⟩ => show win1_5.index t (1 : Fin 2) * 128 + 1 * (y 1).val = (y 1).val; omega

/-! A big window's block at point t sits in its array where the result's block at t sits in the result array (the three
    index maps agree). -/

theorem big_block1_0 (c : Dev nD) (t : Fin cfg1.N) (y : S5000x128.Idx) :
    (iblk1 V c 0 t : Vec Ideal S5000x128 .f32) y = V c (Pipeline.arrRef spec1 0) (((cfg1.win 6).blk t).view.emb y) := by
  obtain ⟨e0, e1, e60, e61⟩ : win1_0.index t (0 : Fin 2) = t.val ∧ win1_0.index t (1 : Fin 2) = 0
      ∧ win1_6.index t (0 : Fin 2) = t.val ∧ win1_6.index t (1 : Fin 2) = 0 := by
    obtain ⟨e00, e01, e10, e11, -, -, -, -, -, -, -, -, e60, e61⟩ := idx_facts1 t
    exact ⟨e00, e01, e60, e61⟩
  refine congrArg (V c (Pipeline.arrRef spec1 0)) (funext fun a => Fin.ext ?_)
  match a with
  | ⟨0, _⟩ => show win1_0.index t (0 : Fin 2) * 5000 + 1 * (y 0).val = win1_6.index t (0 : Fin 2) * 5000 + 1 * (y 0).val; omega
  | ⟨1, _⟩ => show win1_0.index t (1 : Fin 2) * 128 + 1 * (y 1).val = win1_6.index t (1 : Fin 2) * 128 + 1 * (y 1).val; omega

theorem big_block1_1 (c : Dev nD) (t : Fin cfg1.N) (y : S5000x128.Idx) :
    (iblk1 V c 1 t : Vec Ideal S5000x128 .f32) y = V c (Pipeline.arrRef spec1 1) (((cfg1.win 6).blk t).view.emb y) := by
  obtain ⟨e0, e1, e60, e61⟩ : win1_1.index t (0 : Fin 2) = t.val ∧ win1_1.index t (1 : Fin 2) = 0
      ∧ win1_6.index t (0 : Fin 2) = t.val ∧ win1_6.index t (1 : Fin 2) = 0 := by
    obtain ⟨e00, e01, e10, e11, -, -, -, -, -, -, -, -, e60, e61⟩ := idx_facts1 t
    exact ⟨e10, e11, e60, e61⟩
  refine congrArg (V c (Pipeline.arrRef spec1 1)) (funext fun a => Fin.ext ?_)
  match a with
  | ⟨0, _⟩ => show win1_1.index t (0 : Fin 2) * 5000 + 1 * (y 0).val = win1_6.index t (0 : Fin 2) * 5000 + 1 * (y 0).val; omega
  | ⟨1, _⟩ => show win1_1.index t (1 : Fin 2) * 128 + 1 * (y 1).val = win1_6.index t (1 : Fin 2) * 128 + 1 * (y 1).val; omega

/-- The result block's column number is the array's (its column block is block 0). -/
theorem col_block1 (t : Fin cfg1.N) (y : S5000x128.Idx) :
    ((((cfg1.win 6).blk t).view.emb y) 1).val = (y 1).val := by
  obtain ⟨-, -, -, -, -, -, -, -, -, -, -, -, -, e61⟩ := idx_facts1 t
  show win1_6.index t (1 : Fin 2) * 128 + 1 * (y 1).val = (y 1).val; omega

set_option maxHeartbeats 400000 in
/-- What point t writes back is block t of the result array. -/
theorem flushed_eq1 (c : Dev nD) (t : Fin cfg1.N) :
    (dat1 (F := Ideal) V c).flushed 6 t = ((cfg1.win 6).blk t).view.read (Elt Ideal) (result1 V c) := by
  show (cfg1.win 6).cut (grid1.coords t) ((dat1 (F := Ideal) V c).after 6 t) = _
  rw [after1_6]
  unfold out1_6
  rw [View.canon_unit_zero zeros1]
  simp only [View.ld_unit_zero (S := S5000x128) zeros1, View.ld_unit_zero (S := S1x128) zeros1]
  funext y
  exact pay_point (iblk1 V c 0 t) (iblk1 V c 1 t) (iblk1 V c 2 t) (iblk1 V c 3 t) (iblk1 V c 4 t) (iblk1 V c 5 t)
    (V c (Pipeline.arrRef spec1 0)) (V c (Pipeline.arrRef spec1 1)) (V c (Pipeline.arrRef spec1 2))
    (V c (Pipeline.arrRef spec1 3)) (V c (Pipeline.arrRef spec1 4)) (V c (Pipeline.arrRef spec1 5))
    y (((cfg1.win 6).blk t).view.emb y) (big_block1_0 V c t y) (big_block1_1 V c t y)
    (row_block1_2 V c t) (row_block1_3 V c t) (row_block1_4 V c t) (row_block1_5 V c t) (col_block1 t y)

/-- An index of the result array is in point t's block iff each coordinate is in the block's range on its axis. -/
theorem mem_blk1 (t : Fin cfg1.N) (i : S50000x128.Idx) :
    i ∈ ((cfg1.win 6).blk t).view.set ↔ ∀ a : Fin 2, win1_6.index t a * S5000x128.size a ≤ (i a).val ∧ (i a).val < win1_6.index t a * S5000x128.size a + S5000x128.size a := by
  show i ∈ ((View.whole main_v49).slice (win1_6.rect t)).set ↔ _
  rw [View.set_slice_whole, Rect.mem_set_unit]
  exact Iff.rfl

/-- Every row is in some point's block: row s in block s / 5000. -/
theorem cover1 (i : S50000x128.Idx) : ∃ t : Fin cfg1.N, (cfg1.win 6).flush t = true ∧ i ∈ ((cfg1.win 6).blk t).view.set := by
  have hi0 : (i 0).val < 50000 := (i 0).isLt
  have hi1 : (i 1).val < 128 := (i 1).isLt
  have hN : cfg1.N = 10 := N_1
  obtain ⟨t, ht⟩ : ∃ t : Fin cfg1.N, t.val = (i 0).val / 5000 := ⟨⟨(i 0).val / 5000, by rw [hN]; omega⟩, rfl⟩
  obtain ⟨-, -, -, -, -, -, -, -, -, -, -, -, e60, e61⟩ := idx_facts1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 128 ≤ (i 1).val ∧ (i 1).val < win1_6.index t (1 : Fin 2) * 128 + 128; omega

/-- THE RESULT ARRAY after the launch is the whole-array function of the six arrays as the launch finds them. -/
theorem arr6_R1 (c : Dev nD) :
    (dat1 (F := Ideal) V c).arrAt 6 cfg1.N
      = Cert.Sage.Ker.pass2 (V c (Pipeline.arrRef spec1 0)) (V c (Pipeline.arrRef spec1 1)) (V c (Pipeline.arrRef spec1 2))
          (V c (Pipeline.arrRef spec1 3)) (V c (Pipeline.arrRef spec1 4)) (V c (Pipeline.arrRef spec1 5)) :=
  (dat1 (F := Ideal) V c).arrAt_eq_of_cover 6 (result1 V c) (fun t _ => flushed_eq1 V c t) (cover1)

end Cert.KernelIdeal.Pass2

end
-- ==== Proof.Pass2R3.lean ====
/-
  The second kernel's launch as a whole-array function (region 3 of the program's six, counted from 0).

  The launch runs the body once per block of 5000 rows, ten blocks in all.  At block t the body reads rows
  5000·t … 5000·t + 4999 of the normalised rows n and of the skip term r, and the four one-row arrays μ, σ², γ, β whole
  (their index maps are constant), and writes rows 5000·t … 5000·t + 4999 of the result.  Entry by entry the written
  value is `Cert.Sage.Ker.pass2` of the six arrays (Pass2Point.lean), and the ten blocks tile the 50000 rows — row s lies
  in block s / 5000 —, so after the launch the result array is `Cert.Sage.Ker.pass2` of the six arrays as the launch
  finds them.
-/
import proofs.«131685_j69784628625939_1_alg».proof.Proof.Gen.KernelIdeal.Frame
import proofs.«131685_j69784628625939_1_alg».proof.Proof.Pass2Point
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass2

open Cert.KernelIdeal Cert.KernelIdeal.Gen

variable (V : (c : Dev nD) → (b : Ref sig .tc) → Buf (Elt Ideal) ((c : Thread nD τ).loc b))

/-- The zero offsets of the body's whole-buffer loads and store. -/
theorem zeros3 : (![0, 0] : Fin 2 → Nat) = fun _ => 0 := funext fun a => by fin_cases a <;> rfl

/-- The launch's index maps over its ten points: the three big windows are at row block t, column block 0; the four
    one-row windows at block (0, 0). -/
theorem idx_facts3 : ∀ t : Fin cfg3.N,
      win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = t.val ∧ win3_6.index t (1 : Fin 2) = 0 :=
  (by decide +kernel : ∀ t : Fin grid3.N, _)

/-- The result array the launch leaves: the whole-array function of the six arrays as the launch finds them. -/
abbrev result3 (c : Dev nD) : Buf (Elt Ideal) ((cfg3.win 6).arr.view.loc (c.tc : Thread nD τ)) :=
  Cert.Sage.Ker.pass2 (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))

/-! A one-row window's block is its whole array (block (0, 0) of a [1,128] array in blocks of [1,128]). -/

theorem row_block3_2 (c : Dev nD) (t : Fin cfg3.N) :
    (iblk3 V c 2 t : Vec Ideal S1x128 .f32) = V c (Pipeline.arrRef spec3 2) := by
  obtain ⟨e0, e1⟩ : win3_2.index t (0 : Fin 2) = 0 ∧ win3_2.index t (1 : Fin 2) = 0 := by
    obtain ⟨-, -, -, -, e20, e21, e30, e31, e40, e41, e50, e51, -, -⟩ := idx_facts3 t
    exact ⟨e20, e21⟩
  funext y
  refine congrArg (V c (Pipeline.arrRef spec3 2)) (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

theorem row_block3_3 (c : Dev nD) (t : Fin cfg3.N) :
    (iblk3 V c 3 t : Vec Ideal S1x128 .f32) = V c (Pipeline.arrRef spec3 3) := by
  obtain ⟨e0, e1⟩ : win3_3.index t (0 : Fin 2) = 0 ∧ win3_3.index t (1 : Fin 2) = 0 := by
    obtain ⟨-, -, -, -, e20, e21, e30, e31, e40, e41, e50, e51, -, -⟩ := idx_facts3 t
    exact ⟨e30, e31⟩
  funext y
  refine congrArg (V c (Pipeline.arrRef spec3 3)) (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

theorem row_block3_4 (c : Dev nD) (t : Fin cfg3.N) :
    (iblk3 V c 4 t : Vec Ideal S1x128 .f32) = V c (Pipeline.arrRef spec3 4) := by
  obtain ⟨e0, e1⟩ : win3_4.index t (0 : Fin 2) = 0 ∧ win3_4.index t (1 : Fin 2) = 0 := by
    obtain ⟨-, -, -, -, e20, e21, e30, e31, e40, e41, e50, e51, -, -⟩ := idx_facts3 t
    exact ⟨e40, e41⟩
  funext y
  refine congrArg (V c (Pipeline.arrRef spec3 4)) (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

theorem row_block3_5 (c : Dev nD) (t : Fin cfg3.N) :
    (iblk3 V c 5 t : Vec Ideal S1x128 .f32) = V c (Pipeline.arrRef spec3 5) := by
  obtain ⟨e0, e1⟩ : win3_5.index t (0 : Fin 2) = 0 ∧ win3_5.index t (1 : Fin 2) = 0 := by
    obtain ⟨-, -, -, -, e20, e21, e30, e31, e40, e41, e50, e51, -, -⟩ := idx_facts3 t
    exact ⟨e50, e51⟩
  funext y
  refine congrArg (V c (Pipeline.arrRef spec3 5)) (funext fun a => Fin.ext ?_)
  match a with
  | ⟨0, _⟩ => show win3_5.index t (0 : Fin 2) * 1 + 1 * (y 0).val = (y 0).val; omega
  | ⟨1, _⟩ => show win3_5.index t (1 : Fin 2) * 128 + 1 * (y 1).val = (y 1).val; omega

/-! A big window's block at point t sits in its array where the result's block at t sits in the result array (the three
    index maps agree). -/

theorem big_block3_0 (c : Dev nD) (t : Fin cfg3.N) (y : S5000x128.Idx) :
    (iblk3 V c 0 t : Vec Ideal S5000x128 .f32) y = V c (Pipeline.arrRef spec3 0) (((cfg3.win 6).blk t).view.emb y) := by
  obtain ⟨e0, e1, e60, e61⟩ : win3_0.index t (0 : Fin 2) = t.val ∧ win3_0.index t (1 : Fin 2) = 0
      ∧ win3_6.index t (0 : Fin 2) = t.val ∧ win3_6.index t (1 : Fin 2) = 0 := by
    obtain ⟨e00, e01, e10, e11, -, -, -, -, -, -, -, -, e60, e61⟩ := idx_facts3 t
    exact ⟨e00, e01, e60, e61⟩
  refine congrArg (V c (Pipeline.arrRef spec3 0)) (funext fun a => Fin.ext ?_)
  match a with
  | ⟨0, _⟩ => show win3_0.index t (0 : Fin 2) * 5000 + 1 * (y 0).val = win3_6.index t (0 : Fin 2) * 5000 + 1 * (y 0).val; omega
  | ⟨1, _⟩ => show win3_0.index t (1 : Fin 2) * 128 + 1 * (y 1).val = win3_6.index t (1 : Fin 2) * 128 + 1 * (y 1).val; omega

theorem big_block3_1 (c : Dev nD) (t : Fin cfg3.N) (y : S5000x128.Idx) :
    (iblk3 V c 1 t : Vec Ideal S5000x128 .f32) y = V c (Pipeline.arrRef spec3 1) (((cfg3.win 6).blk t).view.emb y) := by
  obtain ⟨e0, e1, e60, e61⟩ : win3_1.index t (0 : Fin 2) = t.val ∧ win3_1.index t (1 : Fin 2) = 0
      ∧ win3_6.index t (0 : Fin 2) = t.val ∧ win3_6.index t (1 : Fin 2) = 0 := by
    obtain ⟨e00, e01, e10, e11, -, -, -, -, -, -, -, -, e60, e61⟩ := idx_facts3 t
    exact ⟨e10, e11, e60, e61⟩
  refine congrArg (V c (Pipeline.arrRef spec3 1)) (funext fun a => Fin.ext ?_)
  match a with
  | ⟨0, _⟩ => show win3_1.index t (0 : Fin 2) * 5000 + 1 * (y 0).val = win3_6.index t (0 : Fin 2) * 5000 + 1 * (y 0).val; omega
  | ⟨1, _⟩ => show win3_1.index t (1 : Fin 2) * 128 + 1 * (y 1).val = win3_6.index t (1 : Fin 2) * 128 + 1 * (y 1).val; omega

/-- The result block's column number is the array's (its column block is block 0). -/
theorem col_block3 (t : Fin cfg3.N) (y : S5000x128.Idx) :
    ((((cfg3.win 6).blk t).view.emb y) 1).val = (y 1).val := by
  obtain ⟨-, -, -, -, -, -, -, -, -, -, -, -, -, e61⟩ := idx_facts3 t
  show win3_6.index t (1 : Fin 2) * 128 + 1 * (y 1).val = (y 1).val; omega

set_option maxHeartbeats 400000 in
/-- What point t writes back is block t of the result array. -/
theorem flushed_eq3 (c : Dev nD) (t : Fin cfg3.N) :
    (dat3 (F := Ideal) V c).flushed 6 t = ((cfg3.win 6).blk t).view.read (Elt Ideal) (result3 V c) := by
  show (cfg3.win 6).cut (grid3.coords t) ((dat3 (F := Ideal) V c).after 6 t) = _
  rw [after3_6]
  unfold out3_6
  rw [View.canon_unit_zero zeros3]
  simp only [View.ld_unit_zero (S := S5000x128) zeros3, View.ld_unit_zero (S := S1x128) zeros3]
  funext y
  exact pay_point3 (iblk3 V c 0 t) (iblk3 V c 1 t) (iblk3 V c 2 t) (iblk3 V c 3 t) (iblk3 V c 4 t) (iblk3 V c 5 t)
    (V c (Pipeline.arrRef spec3 0)) (V c (Pipeline.arrRef spec3 1)) (V c (Pipeline.arrRef spec3 2))
    (V c (Pipeline.arrRef spec3 3)) (V c (Pipeline.arrRef spec3 4)) (V c (Pipeline.arrRef spec3 5))
    y (((cfg3.win 6).blk t).view.emb y) (big_block3_0 V c t y) (big_block3_1 V c t y)
    (row_block3_2 V c t) (row_block3_3 V c t) (row_block3_4 V c t) (row_block3_5 V c t) (col_block3 t y)

/-- An index of the result array is in point t's block iff each coordinate is in the block's range on its axis. -/
theorem mem_blk3 (t : Fin cfg3.N) (i : S50000x128.Idx) :
    i ∈ ((cfg3.win 6).blk t).view.set ↔ ∀ a : Fin 2, win3_6.index t a * S5000x128.size a ≤ (i a).val ∧ (i a).val < win3_6.index t a * S5000x128.size a + S5000x128.size a := by
  show i ∈ ((View.whole main_v82).slice (win3_6.rect t)).set ↔ _
  rw [View.set_slice_whole, Rect.mem_set_unit]
  exact Iff.rfl

/-- Every row is in some point's block: row s in block s / 5000. -/
theorem cover3 (i : S50000x128.Idx) : ∃ t : Fin cfg3.N, (cfg3.win 6).flush t = true ∧ i ∈ ((cfg3.win 6).blk t).view.set := by
  have hi0 : (i 0).val < 50000 := (i 0).isLt
  have hi1 : (i 1).val < 128 := (i 1).isLt
  have hN : cfg3.N = 10 := N_3
  obtain ⟨t, ht⟩ : ∃ t : Fin cfg3.N, t.val = (i 0).val / 5000 := ⟨⟨(i 0).val / 5000, by rw [hN]; omega⟩, rfl⟩
  obtain ⟨-, -, -, -, -, -, -, -, -, -, -, -, e60, e61⟩ := idx_facts3 t
  refine ⟨t, flush3_6 t, ?_⟩
  rw [mem_blk3]
  intro a
  match a with
  | ⟨0, _⟩ => show win3_6.index t (0 : Fin 2) * 5000 ≤ (i 0).val ∧ (i 0).val < win3_6.index t (0 : Fin 2) * 5000 + 5000; omega
  | ⟨1, _⟩ => show win3_6.index t (1 : Fin 2) * 128 ≤ (i 1).val ∧ (i 1).val < win3_6.index t (1 : Fin 2) * 128 + 128; omega

/-- THE RESULT ARRAY after the launch is the whole-array function of the six arrays as the launch finds them. -/
theorem arr6_R3 (c : Dev nD) :
    (dat3 (F := Ideal) V c).arrAt 6 cfg3.N
      = Cert.Sage.Ker.pass2 (V c (Pipeline.arrRef spec3 0)) (V c (Pipeline.arrRef spec3 1)) (V c (Pipeline.arrRef spec3 2))
          (V c (Pipeline.arrRef spec3 3)) (V c (Pipeline.arrRef spec3 4)) (V c (Pipeline.arrRef spec3 5)) :=
  (dat3 (F := Ideal) V c).arrAt_eq_of_cover 6 (result3 V c) (fun t _ => flushed_eq3 V c t) (cover3)

end Cert.KernelIdeal.Pass2

end
-- ==== Proof.Pass2R5.lean ====
/-
  The second kernel's launch as a whole-array function (region 5 of the program's six, counted from 0).

  The launch runs the body once per block of 5000 rows, ten blocks in all.  At block t the body reads rows
  5000·t … 5000·t + 4999 of the normalised rows n and of the skip term r, and the four one-row arrays μ, σ², γ, β whole
  (their index maps are constant), and writes rows 5000·t … 5000·t + 4999 of the result.  Entry by entry the written
  value is `Cert.Sage.Ker.pass2` of the six arrays (Pass2Point.lean), and the ten blocks tile the 50000 rows — row s lies
  in block s / 5000 —, so after the launch the result array is `Cert.Sage.Ker.pass2` of the six arrays as the launch
  finds them.
-/
import proofs.«131685_j69784628625939_1_alg».proof.Proof.Gen.KernelIdeal.Frame
import proofs.«131685_j69784628625939_1_alg».proof.Proof.Pass2Point
import Idealize.ShloMosaic.Lib.Pipeline.Value
import Idealize.ShloMosaic.Lib.Tactic

noncomputable section

open Idealize.ShloMosaic Idealize.ShloMosaic.TcCoe Idealize.SL.Sem Idealize.ShloMosaic.ValueIdx
open Idealize.ShloMosaic.Pipeline (Dat)

namespace Cert.KernelIdeal.Pass2

open Cert.KernelIdeal Cert.KernelIdeal.Gen

variable (V : (c : Dev nD) → (b : Ref sig .tc) → Buf (Elt Ideal) ((c : Thread nD τ).loc b))

/-- The zero offsets of the body's whole-buffer loads and store. -/
theorem zeros5 : (![0, 0] : Fin 2 → Nat) = fun _ => 0 := funext fun a => by fin_cases a <;> rfl

/-- The launch's index maps over its ten points: the three big windows are at row block t, column block 0; the four
    one-row windows at block (0, 0). -/
theorem idx_facts5 : ∀ t : Fin cfg5.N,
      win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = t.val ∧ win5_6.index t (1 : Fin 2) = 0 :=
  (by decide +kernel : ∀ t : Fin grid5.N, _)

/-- The result array the launch leaves: the whole-array function of the six arrays as the launch finds them. -/
abbrev result5 (c : Dev nD) : Buf (Elt Ideal) ((cfg5.win 6).arr.view.loc (c.tc : Thread nD τ)) :=
  Cert.Sage.Ker.pass2 (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))

/-! A one-row window's block is its whole array (block (0, 0) of a [1,128] array in blocks of [1,128]). -/

theorem row_block5_2 (c : Dev nD) (t : Fin cfg5.N) :
    (iblk5 V c 2 t : Vec Ideal S1x128 .f32) = V c (Pipeline.arrRef spec5 2) := by
  obtain ⟨e0, e1⟩ : win5_2.index t (0 : Fin 2) = 0 ∧ win5_2.index t (1 : Fin 2) = 0 := by
    obtain ⟨-, -, -, -, e20, e21, e30, e31, e40, e41, e50, e51, -, -⟩ := idx_facts5 t
    exact ⟨e20, e21⟩
  funext y
  refine congrArg (V c (Pipeline.arrRef spec5 2)) (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

theorem row_block5_3 (c : Dev nD) (t : Fin cfg5.N) :
    (iblk5 V c 3 t : Vec Ideal S1x128 .f32) = V c (Pipeline.arrRef spec5 3) := by
  obtain ⟨e0, e1⟩ : win5_3.index t (0 : Fin 2) = 0 ∧ win5_3.index t (1 : Fin 2) = 0 := by
    obtain ⟨-, -, -, -, e20, e21, e30, e31, e40, e41, e50, e51, -, -⟩ := idx_facts5 t
    exact ⟨e30, e31⟩
  funext y
  refine congrArg (V c (Pipeline.arrRef spec5 3)) (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

theorem row_block5_4 (c : Dev nD) (t : Fin cfg5.N) :
    (iblk5 V c 4 t : Vec Ideal S1x128 .f32) = V c (Pipeline.arrRef spec5 4) := by
  obtain ⟨e0, e1⟩ : win5_4.index t (0 : Fin 2) = 0 ∧ win5_4.index t (1 : Fin 2) = 0 := by
    obtain ⟨-, -, -, -, e20, e21, e30, e31, e40, e41, e50, e51, -, -⟩ := idx_facts5 t
    exact ⟨e40, e41⟩
  funext y
  refine congrArg (V c (Pipeline.arrRef spec5 4)) (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

theorem row_block5_5 (c : Dev nD) (t : Fin cfg5.N) :
    (iblk5 V c 5 t : Vec Ideal S1x128 .f32) = V c (Pipeline.arrRef spec5 5) := by
  obtain ⟨e0, e1⟩ : win5_5.index t (0 : Fin 2) = 0 ∧ win5_5.index t (1 : Fin 2) = 0 := by
    obtain ⟨-, -, -, -, e20, e21, e30, e31, e40, e41, e50, e51, -, -⟩ := idx_facts5 t
    exact ⟨e50, e51⟩
  funext y
  refine congrArg (V c (Pipeline.arrRef spec5 5)) (funext fun a => Fin.ext ?_)
  match a with
  | ⟨0, _⟩ => show win5_5.index t (0 : Fin 2) * 1 + 1 * (y 0).val = (y 0).val; omega
  | ⟨1, _⟩ => show win5_5.index t (1 : Fin 2) * 128 + 1 * (y 1).val = (y 1).val; omega

/-! A big window's block at point t sits in its array where the result's block at t sits in the result array (the three
    index maps agree). -/

theorem big_block5_0 (c : Dev nD) (t : Fin cfg5.N) (y : S5000x128.Idx) :
    (iblk5 V c 0 t : Vec Ideal S5000x128 .f32) y = V c (Pipeline.arrRef spec5 0) (((cfg5.win 6).blk t).view.emb y) := by
  obtain ⟨e0, e1, e60, e61⟩ : win5_0.index t (0 : Fin 2) = t.val ∧ win5_0.index t (1 : Fin 2) = 0
      ∧ win5_6.index t (0 : Fin 2) = t.val ∧ win5_6.index t (1 : Fin 2) = 0 := by
    obtain ⟨e00, e01, e10, e11, -, -, -, -, -, -, -, -, e60, e61⟩ := idx_facts5 t
    exact ⟨e00, e01, e60, e61⟩
  refine congrArg (V c (Pipeline.arrRef spec5 0)) (funext fun a => Fin.ext ?_)
  match a with
  | ⟨0, _⟩ => show win5_0.index t (0 : Fin 2) * 5000 + 1 * (y 0).val = win5_6.index t (0 : Fin 2) * 5000 + 1 * (y 0).val; omega
  | ⟨1, _⟩ => show win5_0.index t (1 : Fin 2) * 128 + 1 * (y 1).val = win5_6.index t (1 : Fin 2) * 128 + 1 * (y 1).val; omega

theorem big_block5_1 (c : Dev nD) (t : Fin cfg5.N) (y : S5000x128.Idx) :
    (iblk5 V c 1 t : Vec Ideal S5000x128 .f32) y = V c (Pipeline.arrRef spec5 1) (((cfg5.win 6).blk t).view.emb y) := by
  obtain ⟨e0, e1, e60, e61⟩ : win5_1.index t (0 : Fin 2) = t.val ∧ win5_1.index t (1 : Fin 2) = 0
      ∧ win5_6.index t (0 : Fin 2) = t.val ∧ win5_6.index t (1 : Fin 2) = 0 := by
    obtain ⟨e00, e01, e10, e11, -, -, -, -, -, -, -, -, e60, e61⟩ := idx_facts5 t
    exact ⟨e10, e11, e60, e61⟩
  refine congrArg (V c (Pipeline.arrRef spec5 1)) (funext fun a => Fin.ext ?_)
  match a with
  | ⟨0, _⟩ => show win5_1.index t (0 : Fin 2) * 5000 + 1 * (y 0).val = win5_6.index t (0 : Fin 2) * 5000 + 1 * (y 0).val; omega
  | ⟨1, _⟩ => show win5_1.index t (1 : Fin 2) * 128 + 1 * (y 1).val = win5_6.index t (1 : Fin 2) * 128 + 1 * (y 1).val; omega

/-- The result block's column number is the array's (its column block is block 0). -/
theorem col_block5 (t : Fin cfg5.N) (y : S5000x128.Idx) :
    ((((cfg5.win 6).blk t).view.emb y) 1).val = (y 1).val := by
  obtain ⟨-, -, -, -, -, -, -, -, -, -, -, -, -, e61⟩ := idx_facts5 t
  show win5_6.index t (1 : Fin 2) * 128 + 1 * (y 1).val = (y 1).val; omega

set_option maxHeartbeats 400000 in
/-- What point t writes back is block t of the result array. -/
theorem flushed_eq5 (c : Dev nD) (t : Fin cfg5.N) :
    (dat5 (F := Ideal) V c).flushed 6 t = ((cfg5.win 6).blk t).view.read (Elt Ideal) (result5 V c) := by
  show (cfg5.win 6).cut (grid5.coords t) ((dat5 (F := Ideal) V c).after 6 t) = _
  rw [after5_6]
  unfold out5_6
  rw [View.canon_unit_zero zeros5]
  simp only [View.ld_unit_zero (S := S5000x128) zeros5, View.ld_unit_zero (S := S1x128) zeros5]
  funext y
  exact pay_point5 (iblk5 V c 0 t) (iblk5 V c 1 t) (iblk5 V c 2 t) (iblk5 V c 3 t) (iblk5 V c 4 t) (iblk5 V c 5 t)
    (V c (Pipeline.arrRef spec5 0)) (V c (Pipeline.arrRef spec5 1)) (V c (Pipeline.arrRef spec5 2))
    (V c (Pipeline.arrRef spec5 3)) (V c (Pipeline.arrRef spec5 4)) (V c (Pipeline.arrRef spec5 5))
    y (((cfg5.win 6).blk t).view.emb y) (big_block5_0 V c t y) (big_block5_1 V c t y)
    (row_block5_2 V c t) (row_block5_3 V c t) (row_block5_4 V c t) (row_block5_5 V c t) (col_block5 t y)

/-- An index of the result array is in point t's block iff each coordinate is in the block's range on its axis. -/
theorem mem_blk5 (t : Fin cfg5.N) (i : S50000x128.Idx) :
    i ∈ ((cfg5.win 6).blk t).view.set ↔ ∀ a : Fin 2, win5_6.index t a * S5000x128.size a ≤ (i a).val ∧ (i a).val < win5_6.index t a * S5000x128.size a + S5000x128.size a := by
  show i ∈ ((View.whole main_v115).slice (win5_6.rect t)).set ↔ _
  rw [View.set_slice_whole, Rect.mem_set_unit]
  exact Iff.rfl

/-- Every row is in some point's block: row s in block s / 5000. -/
theorem cover5 (i : S50000x128.Idx) : ∃ t : Fin cfg5.N, (cfg5.win 6).flush t = true ∧ i ∈ ((cfg5.win 6).blk t).view.set := by
  have hi0 : (i 0).val < 50000 := (i 0).isLt
  have hi1 : (i 1).val < 128 := (i 1).isLt
  have hN : cfg5.N = 10 := N_5
  obtain ⟨t, ht⟩ : ∃ t : Fin cfg5.N, t.val = (i 0).val / 5000 := ⟨⟨(i 0).val / 5000, by rw [hN]; omega⟩, rfl⟩
  obtain ⟨-, -, -, -, -, -, -, -, -, -, -, -, e60, e61⟩ := idx_facts5 t
  refine ⟨t, flush5_6 t, ?_⟩
  rw [mem_blk5]
  intro a
  match a with
  | ⟨0, _⟩ => show win5_6.index t (0 : Fin 2) * 5000 ≤ (i 0).val ∧ (i 0).val < win5_6.index t (0 : Fin 2) * 5000 + 5000; omega
  | ⟨1, _⟩ => show win5_6.index t (1 : Fin 2) * 128 ≤ (i 1).val ∧ (i 1).val < win5_6.index t (1 : Fin 2) * 128 + 128; omega

/-- THE RESULT ARRAY after the launch is the whole-array function of the six arrays as the launch finds them. -/
theorem arr6_R5 (c : Dev nD) :
    (dat5 (F := Ideal) V c).arrAt 6 cfg5.N
      = Cert.Sage.Ker.pass2 (V c (Pipeline.arrRef spec5 0)) (V c (Pipeline.arrRef spec5 1)) (V c (Pipeline.arrRef spec5 2))
          (V c (Pipeline.arrRef spec5 3)) (V c (Pipeline.arrRef spec5 4)) (V c (Pipeline.arrRef spec5 5)) :=
  (dat5 (F := Ideal) V c).arrAt_eq_of_cover 6 (result5 V c) (fun t _ => flushed_eq5 V c t) (cover5)

end Cert.KernelIdeal.Pass2

end
-- ==== Proof.KernelChain.lean ====
/-
  The kernel program's result buffer after the run is the three-layer function of the launch arguments.

  The buffer contents at the twelve segment boundaries are a fold through the program; the fold is read one
  boundary at a time.  A stretch of host operations is read by its stage functions; a launch of the first kernel
  leaves in its four output arrays the normalised pre-activation, the skip term and the two rows of column sums of
  the arrays it was given; a launch of the second kernel leaves the layer's output.  The edge rows, the reciprocal
  in-degree column, the transposed weights and the bias row computed by the first stretch, and the argument
  arrays, are carried unchanged across every later boundary, because no later operation and no kernel writes them.
-/
import proofs.«131685_j69784628625939_1_alg».proof.Proof.Gen.KernelIdeal.Frame
import proofs.«131685_j69784628625939_1_alg».proof.Proof.KernelStages
import proofs.«131685_j69784628625939_1_alg».proof.Proof.Pass1BlkR0
import proofs.«131685_j69784628625939_1_alg».proof.Proof.Pass1BlkR2
import proofs.«131685_j69784628625939_1_alg».proof.Proof.Pass1BlkR4
import proofs.«131685_j69784628625939_1_alg».proof.Proof.Pass1SumR0
import proofs.«131685_j69784628625939_1_alg».proof.Proof.Pass1SumR2
import proofs.«131685_j69784628625939_1_alg».proof.Proof.Pass1SumR4
import proofs.«131685_j69784628625939_1_alg».proof.Proof.Pass2R1
import proofs.«131685_j69784628625939_1_alg».proof.Proof.Pass2R3
import proofs.«131685_j69784628625939_1_alg».proof.Proof.Pass2R5

set_option maxRecDepth 16384

noncomputable section

namespace Cert.KernelIdeal.Chain

open Cert.KernelIdeal Cert.KernelIdeal.Gen Idealize.ShloMosaic Idealize.ShloMosaic.StableHlo Idealize.ShloMosaic.TcCoe
open Idealize.SL.Sem
open Cert.Sage Cert.KernelIdeal.Stages

variable (m : (ℓ : Loc nD τ sig) → Buf (Elt Ideal) ℓ) (ρ : Dev nD → PrngReg) (c : Dev nD)

/-! ## The carried buffers -/
theorem v1_v1 : W1 m ρ c (Proc.devRef .tc main_v1) = edgeRow (m ((c : Thread nD τ).loc main_arg1)) 0 := s0_v1 (W0 m ρ c)
theorem v1_v3 : W1 m ρ c (Proc.devRef .tc main_v3) = edgeRow (m ((c : Thread nD τ).loc main_arg1)) 1 := s0_v3 (W0 m ρ c)
theorem v1_v12 : W1 m ρ c (Proc.devRef .tc main_v12) = Ker.degInv (m ((c : Thread nD τ).loc main_arg1)) := s0_v12 (W0 m ρ c)
theorem v1_v13 : W1 m ρ c (Proc.devRef .tc main_v13) = trStack (m ((c : Thread nD τ).loc main_arg2)) := s0_v13 (W0 m ρ c)
theorem v1_v14 : W1 m ρ c (Proc.devRef .tc main_v14) = trStack (m ((c : Thread nD τ).loc main_arg4)) := s0_v14 (W0 m ρ c)
theorem v1_v15 : W1 m ρ c (Proc.devRef .tc main_v15) = tr (m ((c : Thread nD τ).loc main_arg7)) := s0_v15 (W0 m ρ c)
theorem v1_v16 : W1 m ρ c (Proc.devRef .tc main_v16) = castRow (m ((c : Thread nD τ).loc main_arg8)) := s0_v16 (W0 m ρ c)
theorem v1_arg3 : W1 m ρ c (Proc.devRef .tc main_arg3) = (m ((c : Thread nD τ).loc main_arg3)) := s0_keep_arg3 (W0 m ρ c)
theorem v1_arg5 : W1 m ρ c (Proc.devRef .tc main_arg5) = (m ((c : Thread nD τ).loc main_arg5)) := s0_keep_arg5 (W0 m ρ c)
theorem v1_arg6 : W1 m ρ c (Proc.devRef .tc main_arg6) = (m ((c : Thread nD τ).loc main_arg6)) := s0_keep_arg6 (W0 m ρ c)
theorem c2_v1 : W2 m ρ c (Proc.devRef .tc main_v1) = W1 m ρ c (Proc.devRef .tc main_v1) := W2_of_ne m ρ c main_v1 (by decide)
theorem v2_v1 : W2 m ρ c (Proc.devRef .tc main_v1) = edgeRow (m ((c : Thread nD τ).loc main_arg1)) 0 := (c2_v1 m ρ c).trans (v1_v1 m ρ c)
theorem c2_v3 : W2 m ρ c (Proc.devRef .tc main_v3) = W1 m ρ c (Proc.devRef .tc main_v3) := W2_of_ne m ρ c main_v3 (by decide)
theorem v2_v3 : W2 m ρ c (Proc.devRef .tc main_v3) = edgeRow (m ((c : Thread nD τ).loc main_arg1)) 1 := (c2_v3 m ρ c).trans (v1_v3 m ρ c)
theorem c2_v12 : W2 m ρ c (Proc.devRef .tc main_v12) = W1 m ρ c (Proc.devRef .tc main_v12) := W2_of_ne m ρ c main_v12 (by decide)
theorem v2_v12 : W2 m ρ c (Proc.devRef .tc main_v12) = Ker.degInv (m ((c : Thread nD τ).loc main_arg1)) := (c2_v12 m ρ c).trans (v1_v12 m ρ c)
theorem c2_v13 : W2 m ρ c (Proc.devRef .tc main_v13) = W1 m ρ c (Proc.devRef .tc main_v13) := W2_of_ne m ρ c main_v13 (by decide)
theorem v2_v13 : W2 m ρ c (Proc.devRef .tc main_v13) = trStack (m ((c : Thread nD τ).loc main_arg2)) := (c2_v13 m ρ c).trans (v1_v13 m ρ c)
theorem c2_v14 : W2 m ρ c (Proc.devRef .tc main_v14) = W1 m ρ c (Proc.devRef .tc main_v14) := W2_of_ne m ρ c main_v14 (by decide)
theorem v2_v14 : W2 m ρ c (Proc.devRef .tc main_v14) = trStack (m ((c : Thread nD τ).loc main_arg4)) := (c2_v14 m ρ c).trans (v1_v14 m ρ c)
theorem c2_arg3 : W2 m ρ c (Proc.devRef .tc main_arg3) = W1 m ρ c (Proc.devRef .tc main_arg3) := W2_of_ne m ρ c main_arg3 (by decide)
theorem v2_arg3 : W2 m ρ c (Proc.devRef .tc main_arg3) = (m ((c : Thread nD τ).loc main_arg3)) := (c2_arg3 m ρ c).trans (v1_arg3 m ρ c)
theorem c2_arg5 : W2 m ρ c (Proc.devRef .tc main_arg5) = W1 m ρ c (Proc.devRef .tc main_arg5) := W2_of_ne m ρ c main_arg5 (by decide)
theorem v2_arg5 : W2 m ρ c (Proc.devRef .tc main_arg5) = (m ((c : Thread nD τ).loc main_arg5)) := (c2_arg5 m ρ c).trans (v1_arg5 m ρ c)
theorem c2_arg6 : W2 m ρ c (Proc.devRef .tc main_arg6) = W1 m ρ c (Proc.devRef .tc main_arg6) := W2_of_ne m ρ c main_arg6 (by decide)
theorem v2_arg6 : W2 m ρ c (Proc.devRef .tc main_arg6) = (m ((c : Thread nD τ).loc main_arg6)) := (c2_arg6 m ρ c).trans (v1_arg6 m ρ c)
theorem c2_v15 : W2 m ρ c (Proc.devRef .tc main_v15) = W1 m ρ c (Proc.devRef .tc main_v15) := (W2_arr m ρ c 5).trans (((dat0 (V1 m ρ) c).arrAt_in 5 rfl _).trans (A_eq0 (V1 m ρ) c 5))
theorem v2_v15 : W2 m ρ c (Proc.devRef .tc main_v15) = tr (m ((c : Thread nD τ).loc main_arg7)) := (c2_v15 m ρ c).trans (v1_v15 m ρ c)
theorem c2_v16 : W2 m ρ c (Proc.devRef .tc main_v16) = W1 m ρ c (Proc.devRef .tc main_v16) := (W2_arr m ρ c 6).trans (((dat0 (V1 m ρ) c).arrAt_in 6 rfl _).trans (A_eq0 (V1 m ρ) c 6))
theorem v2_v16 : W2 m ρ c (Proc.devRef .tc main_v16) = castRow (m ((c : Thread nD τ).loc main_arg8)) := (c2_v16 m ρ c).trans (v1_v16 m ρ c)
theorem c3_v1 : W3 m ρ c (Proc.devRef .tc main_v1) = W2 m ρ c (Proc.devRef .tc main_v1) := s1_keep_v1 (W2 m ρ c)
theorem v3_v1 : W3 m ρ c (Proc.devRef .tc main_v1) = edgeRow (m ((c : Thread nD τ).loc main_arg1)) 0 := (c3_v1 m ρ c).trans (v2_v1 m ρ c)
theorem c3_v3 : W3 m ρ c (Proc.devRef .tc main_v3) = W2 m ρ c (Proc.devRef .tc main_v3) := s1_keep_v3 (W2 m ρ c)
theorem v3_v3 : W3 m ρ c (Proc.devRef .tc main_v3) = edgeRow (m ((c : Thread nD τ).loc main_arg1)) 1 := (c3_v3 m ρ c).trans (v2_v3 m ρ c)
theorem c3_v12 : W3 m ρ c (Proc.devRef .tc main_v12) = W2 m ρ c (Proc.devRef .tc main_v12) := s1_keep_v12 (W2 m ρ c)
theorem v3_v12 : W3 m ρ c (Proc.devRef .tc main_v12) = Ker.degInv (m ((c : Thread nD τ).loc main_arg1)) := (c3_v12 m ρ c).trans (v2_v12 m ρ c)
theorem c3_v13 : W3 m ρ c (Proc.devRef .tc main_v13) = W2 m ρ c (Proc.devRef .tc main_v13) := s1_keep_v13 (W2 m ρ c)
theorem v3_v13 : W3 m ρ c (Proc.devRef .tc main_v13) = trStack (m ((c : Thread nD τ).loc main_arg2)) := (c3_v13 m ρ c).trans (v2_v13 m ρ c)
theorem c3_v14 : W3 m ρ c (Proc.devRef .tc main_v14) = W2 m ρ c (Proc.devRef .tc main_v14) := s1_keep_v14 (W2 m ρ c)
theorem v3_v14 : W3 m ρ c (Proc.devRef .tc main_v14) = trStack (m ((c : Thread nD τ).loc main_arg4)) := (c3_v14 m ρ c).trans (v2_v14 m ρ c)
theorem c3_arg3 : W3 m ρ c (Proc.devRef .tc main_arg3) = W2 m ρ c (Proc.devRef .tc main_arg3) := s1_keep_arg3 (W2 m ρ c)
theorem v3_arg3 : W3 m ρ c (Proc.devRef .tc main_arg3) = (m ((c : Thread nD τ).loc main_arg3)) := (c3_arg3 m ρ c).trans (v2_arg3 m ρ c)
theorem c3_arg5 : W3 m ρ c (Proc.devRef .tc main_arg5) = W2 m ρ c (Proc.devRef .tc main_arg5) := s1_keep_arg5 (W2 m ρ c)
theorem v3_arg5 : W3 m ρ c (Proc.devRef .tc main_arg5) = (m ((c : Thread nD τ).loc main_arg5)) := (c3_arg5 m ρ c).trans (v2_arg5 m ρ c)
theorem c3_arg6 : W3 m ρ c (Proc.devRef .tc main_arg6) = W2 m ρ c (Proc.devRef .tc main_arg6) := s1_keep_arg6 (W2 m ρ c)
theorem v3_arg6 : W3 m ρ c (Proc.devRef .tc main_arg6) = (m ((c : Thread nD τ).loc main_arg6)) := (c3_arg6 m ρ c).trans (v2_arg6 m ρ c)
theorem c3_v15 : W3 m ρ c (Proc.devRef .tc main_v15) = W2 m ρ c (Proc.devRef .tc main_v15) := s1_keep_v15 (W2 m ρ c)
theorem v3_v15 : W3 m ρ c (Proc.devRef .tc main_v15) = tr (m ((c : Thread nD τ).loc main_arg7)) := (c3_v15 m ρ c).trans (v2_v15 m ρ c)
theorem c3_v16 : W3 m ρ c (Proc.devRef .tc main_v16) = W2 m ρ c (Proc.devRef .tc main_v16) := s1_keep_v16 (W2 m ρ c)
theorem v3_v16 : W3 m ρ c (Proc.devRef .tc main_v16) = castRow (m ((c : Thread nD τ).loc main_arg8)) := (c3_v16 m ρ c).trans (v2_v16 m ρ c)
theorem c4_v1 : W4 m ρ c (Proc.devRef .tc main_v1) = W3 m ρ c (Proc.devRef .tc main_v1) := W4_of_ne m ρ c main_v1 (by decide)
theorem v4_v1 : W4 m ρ c (Proc.devRef .tc main_v1) = edgeRow (m ((c : Thread nD τ).loc main_arg1)) 0 := (c4_v1 m ρ c).trans (v3_v1 m ρ c)
theorem c4_v3 : W4 m ρ c (Proc.devRef .tc main_v3) = W3 m ρ c (Proc.devRef .tc main_v3) := W4_of_ne m ρ c main_v3 (by decide)
theorem v4_v3 : W4 m ρ c (Proc.devRef .tc main_v3) = edgeRow (m ((c : Thread nD τ).loc main_arg1)) 1 := (c4_v3 m ρ c).trans (v3_v3 m ρ c)
theorem c4_v12 : W4 m ρ c (Proc.devRef .tc main_v12) = W3 m ρ c (Proc.devRef .tc main_v12) := W4_of_ne m ρ c main_v12 (by decide)
theorem v4_v12 : W4 m ρ c (Proc.devRef .tc main_v12) = Ker.degInv (m ((c : Thread nD τ).loc main_arg1)) := (c4_v12 m ρ c).trans (v3_v12 m ρ c)
theorem c4_v13 : W4 m ρ c (Proc.devRef .tc main_v13) = W3 m ρ c (Proc.devRef .tc main_v13) := W4_of_ne m ρ c main_v13 (by decide)
theorem v4_v13 : W4 m ρ c (Proc.devRef .tc main_v13) = trStack (m ((c : Thread nD τ).loc main_arg2)) := (c4_v13 m ρ c).trans (v3_v13 m ρ c)
theorem c4_v14 : W4 m ρ c (Proc.devRef .tc main_v14) = W3 m ρ c (Proc.devRef .tc main_v14) := W4_of_ne m ρ c main_v14 (by decide)
theorem v4_v14 : W4 m ρ c (Proc.devRef .tc main_v14) = trStack (m ((c : Thread nD τ).loc main_arg4)) := (c4_v14 m ρ c).trans (v3_v14 m ρ c)
theorem c4_arg3 : W4 m ρ c (Proc.devRef .tc main_arg3) = W3 m ρ c (Proc.devRef .tc main_arg3) := W4_of_ne m ρ c main_arg3 (by decide)
theorem v4_arg3 : W4 m ρ c (Proc.devRef .tc main_arg3) = (m ((c : Thread nD τ).loc main_arg3)) := (c4_arg3 m ρ c).trans (v3_arg3 m ρ c)
theorem c4_arg5 : W4 m ρ c (Proc.devRef .tc main_arg5) = W3 m ρ c (Proc.devRef .tc main_arg5) := W4_of_ne m ρ c main_arg5 (by decide)
theorem v4_arg5 : W4 m ρ c (Proc.devRef .tc main_arg5) = (m ((c : Thread nD τ).loc main_arg5)) := (c4_arg5 m ρ c).trans (v3_arg5 m ρ c)
theorem c4_arg6 : W4 m ρ c (Proc.devRef .tc main_arg6) = W3 m ρ c (Proc.devRef .tc main_arg6) := W4_of_ne m ρ c main_arg6 (by decide)
theorem v4_arg6 : W4 m ρ c (Proc.devRef .tc main_arg6) = (m ((c : Thread nD τ).loc main_arg6)) := (c4_arg6 m ρ c).trans (v3_arg6 m ρ c)
theorem c4_v15 : W4 m ρ c (Proc.devRef .tc main_v15) = W3 m ρ c (Proc.devRef .tc main_v15) := W4_of_ne m ρ c main_v15 (by decide)
theorem v4_v15 : W4 m ρ c (Proc.devRef .tc main_v15) = tr (m ((c : Thread nD τ).loc main_arg7)) := (c4_v15 m ρ c).trans (v3_v15 m ρ c)
theorem c4_v16 : W4 m ρ c (Proc.devRef .tc main_v16) = W3 m ρ c (Proc.devRef .tc main_v16) := W4_of_ne m ρ c main_v16 (by decide)
theorem v4_v16 : W4 m ρ c (Proc.devRef .tc main_v16) = castRow (m ((c : Thread nD τ).loc main_arg8)) := (c4_v16 m ρ c).trans (v3_v16 m ρ c)
theorem c5_v1 : W5 m ρ c (Proc.devRef .tc main_v1) = W4 m ρ c (Proc.devRef .tc main_v1) := s2_keep_v1 (W4 m ρ c)
theorem v5_v1 : W5 m ρ c (Proc.devRef .tc main_v1) = edgeRow (m ((c : Thread nD τ).loc main_arg1)) 0 := (c5_v1 m ρ c).trans (v4_v1 m ρ c)
theorem c5_v3 : W5 m ρ c (Proc.devRef .tc main_v3) = W4 m ρ c (Proc.devRef .tc main_v3) := s2_keep_v3 (W4 m ρ c)
theorem v5_v3 : W5 m ρ c (Proc.devRef .tc main_v3) = edgeRow (m ((c : Thread nD τ).loc main_arg1)) 1 := (c5_v3 m ρ c).trans (v4_v3 m ρ c)
theorem c5_v12 : W5 m ρ c (Proc.devRef .tc main_v12) = W4 m ρ c (Proc.devRef .tc main_v12) := s2_keep_v12 (W4 m ρ c)
theorem v5_v12 : W5 m ρ c (Proc.devRef .tc main_v12) = Ker.degInv (m ((c : Thread nD τ).loc main_arg1)) := (c5_v12 m ρ c).trans (v4_v12 m ρ c)
theorem c5_v13 : W5 m ρ c (Proc.devRef .tc main_v13) = W4 m ρ c (Proc.devRef .tc main_v13) := s2_keep_v13 (W4 m ρ c)
theorem v5_v13 : W5 m ρ c (Proc.devRef .tc main_v13) = trStack (m ((c : Thread nD τ).loc main_arg2)) := (c5_v13 m ρ c).trans (v4_v13 m ρ c)
theorem c5_v14 : W5 m ρ c (Proc.devRef .tc main_v14) = W4 m ρ c (Proc.devRef .tc main_v14) := s2_keep_v14 (W4 m ρ c)
theorem v5_v14 : W5 m ρ c (Proc.devRef .tc main_v14) = trStack (m ((c : Thread nD τ).loc main_arg4)) := (c5_v14 m ρ c).trans (v4_v14 m ρ c)
theorem c5_arg3 : W5 m ρ c (Proc.devRef .tc main_arg3) = W4 m ρ c (Proc.devRef .tc main_arg3) := s2_keep_arg3 (W4 m ρ c)
theorem v5_arg3 : W5 m ρ c (Proc.devRef .tc main_arg3) = (m ((c : Thread nD τ).loc main_arg3)) := (c5_arg3 m ρ c).trans (v4_arg3 m ρ c)
theorem c5_arg5 : W5 m ρ c (Proc.devRef .tc main_arg5) = W4 m ρ c (Proc.devRef .tc main_arg5) := s2_keep_arg5 (W4 m ρ c)
theorem v5_arg5 : W5 m ρ c (Proc.devRef .tc main_arg5) = (m ((c : Thread nD τ).loc main_arg5)) := (c5_arg5 m ρ c).trans (v4_arg5 m ρ c)
theorem c5_arg6 : W5 m ρ c (Proc.devRef .tc main_arg6) = W4 m ρ c (Proc.devRef .tc main_arg6) := s2_keep_arg6 (W4 m ρ c)
theorem v5_arg6 : W5 m ρ c (Proc.devRef .tc main_arg6) = (m ((c : Thread nD τ).loc main_arg6)) := (c5_arg6 m ρ c).trans (v4_arg6 m ρ c)
theorem c5_v15 : W5 m ρ c (Proc.devRef .tc main_v15) = W4 m ρ c (Proc.devRef .tc main_v15) := s2_keep_v15 (W4 m ρ c)
theorem v5_v15 : W5 m ρ c (Proc.devRef .tc main_v15) = tr (m ((c : Thread nD τ).loc main_arg7)) := (c5_v15 m ρ c).trans (v4_v15 m ρ c)
theorem c5_v16 : W5 m ρ c (Proc.devRef .tc main_v16) = W4 m ρ c (Proc.devRef .tc main_v16) := s2_keep_v16 (W4 m ρ c)
theorem v5_v16 : W5 m ρ c (Proc.devRef .tc main_v16) = castRow (m ((c : Thread nD τ).loc main_arg8)) := (c5_v16 m ρ c).trans (v4_v16 m ρ c)
theorem c6_v1 : W6 m ρ c (Proc.devRef .tc main_v1) = W5 m ρ c (Proc.devRef .tc main_v1) := W6_of_ne m ρ c main_v1 (by decide)
theorem v6_v1 : W6 m ρ c (Proc.devRef .tc main_v1) = edgeRow (m ((c : Thread nD τ).loc main_arg1)) 0 := (c6_v1 m ρ c).trans (v5_v1 m ρ c)
theorem c6_v3 : W6 m ρ c (Proc.devRef .tc main_v3) = W5 m ρ c (Proc.devRef .tc main_v3) := W6_of_ne m ρ c main_v3 (by decide)
theorem v6_v3 : W6 m ρ c (Proc.devRef .tc main_v3) = edgeRow (m ((c : Thread nD τ).loc main_arg1)) 1 := (c6_v3 m ρ c).trans (v5_v3 m ρ c)
theorem c6_v12 : W6 m ρ c (Proc.devRef .tc main_v12) = W5 m ρ c (Proc.devRef .tc main_v12) := W6_of_ne m ρ c main_v12 (by decide)
theorem v6_v12 : W6 m ρ c (Proc.devRef .tc main_v12) = Ker.degInv (m ((c : Thread nD τ).loc main_arg1)) := (c6_v12 m ρ c).trans (v5_v12 m ρ c)
theorem c6_v13 : W6 m ρ c (Proc.devRef .tc main_v13) = W5 m ρ c (Proc.devRef .tc main_v13) := W6_of_ne m ρ c main_v13 (by decide)
theorem v6_v13 : W6 m ρ c (Proc.devRef .tc main_v13) = trStack (m ((c : Thread nD τ).loc main_arg2)) := (c6_v13 m ρ c).trans (v5_v13 m ρ c)
theorem c6_v14 : W6 m ρ c (Proc.devRef .tc main_v14) = W5 m ρ c (Proc.devRef .tc main_v14) := W6_of_ne m ρ c main_v14 (by decide)
theorem v6_v14 : W6 m ρ c (Proc.devRef .tc main_v14) = trStack (m ((c : Thread nD τ).loc main_arg4)) := (c6_v14 m ρ c).trans (v5_v14 m ρ c)
theorem c6_arg3 : W6 m ρ c (Proc.devRef .tc main_arg3) = W5 m ρ c (Proc.devRef .tc main_arg3) := W6_of_ne m ρ c main_arg3 (by decide)
theorem v6_arg3 : W6 m ρ c (Proc.devRef .tc main_arg3) = (m ((c : Thread nD τ).loc main_arg3)) := (c6_arg3 m ρ c).trans (v5_arg3 m ρ c)
theorem c6_arg5 : W6 m ρ c (Proc.devRef .tc main_arg5) = W5 m ρ c (Proc.devRef .tc main_arg5) := W6_of_ne m ρ c main_arg5 (by decide)
theorem v6_arg5 : W6 m ρ c (Proc.devRef .tc main_arg5) = (m ((c : Thread nD τ).loc main_arg5)) := (c6_arg5 m ρ c).trans (v5_arg5 m ρ c)
theorem c6_arg6 : W6 m ρ c (Proc.devRef .tc main_arg6) = W5 m ρ c (Proc.devRef .tc main_arg6) := W6_of_ne m ρ c main_arg6 (by decide)
theorem v6_arg6 : W6 m ρ c (Proc.devRef .tc main_arg6) = (m ((c : Thread nD τ).loc main_arg6)) := (c6_arg6 m ρ c).trans (v5_arg6 m ρ c)
theorem c6_v15 : W6 m ρ c (Proc.devRef .tc main_v15) = W5 m ρ c (Proc.devRef .tc main_v15) := (W6_arr m ρ c 5).trans (((dat2 (V5 m ρ) c).arrAt_in 5 rfl _).trans (A_eq2 (V5 m ρ) c 5))
theorem v6_v15 : W6 m ρ c (Proc.devRef .tc main_v15) = tr (m ((c : Thread nD τ).loc main_arg7)) := (c6_v15 m ρ c).trans (v5_v15 m ρ c)
theorem c6_v16 : W6 m ρ c (Proc.devRef .tc main_v16) = W5 m ρ c (Proc.devRef .tc main_v16) := (W6_arr m ρ c 6).trans (((dat2 (V5 m ρ) c).arrAt_in 6 rfl _).trans (A_eq2 (V5 m ρ) c 6))
theorem v6_v16 : W6 m ρ c (Proc.devRef .tc main_v16) = castRow (m ((c : Thread nD τ).loc main_arg8)) := (c6_v16 m ρ c).trans (v5_v16 m ρ c)
theorem c7_v1 : W7 m ρ c (Proc.devRef .tc main_v1) = W6 m ρ c (Proc.devRef .tc main_v1) := s3_keep_v1 (W6 m ρ c)
theorem v7_v1 : W7 m ρ c (Proc.devRef .tc main_v1) = edgeRow (m ((c : Thread nD τ).loc main_arg1)) 0 := (c7_v1 m ρ c).trans (v6_v1 m ρ c)
theorem c7_v3 : W7 m ρ c (Proc.devRef .tc main_v3) = W6 m ρ c (Proc.devRef .tc main_v3) := s3_keep_v3 (W6 m ρ c)
theorem v7_v3 : W7 m ρ c (Proc.devRef .tc main_v3) = edgeRow (m ((c : Thread nD τ).loc main_arg1)) 1 := (c7_v3 m ρ c).trans (v6_v3 m ρ c)
theorem c7_v12 : W7 m ρ c (Proc.devRef .tc main_v12) = W6 m ρ c (Proc.devRef .tc main_v12) := s3_keep_v12 (W6 m ρ c)
theorem v7_v12 : W7 m ρ c (Proc.devRef .tc main_v12) = Ker.degInv (m ((c : Thread nD τ).loc main_arg1)) := (c7_v12 m ρ c).trans (v6_v12 m ρ c)
theorem c7_v13 : W7 m ρ c (Proc.devRef .tc main_v13) = W6 m ρ c (Proc.devRef .tc main_v13) := s3_keep_v13 (W6 m ρ c)
theorem v7_v13 : W7 m ρ c (Proc.devRef .tc main_v13) = trStack (m ((c : Thread nD τ).loc main_arg2)) := (c7_v13 m ρ c).trans (v6_v13 m ρ c)
theorem c7_v14 : W7 m ρ c (Proc.devRef .tc main_v14) = W6 m ρ c (Proc.devRef .tc main_v14) := s3_keep_v14 (W6 m ρ c)
theorem v7_v14 : W7 m ρ c (Proc.devRef .tc main_v14) = trStack (m ((c : Thread nD τ).loc main_arg4)) := (c7_v14 m ρ c).trans (v6_v14 m ρ c)
theorem c7_arg3 : W7 m ρ c (Proc.devRef .tc main_arg3) = W6 m ρ c (Proc.devRef .tc main_arg3) := s3_keep_arg3 (W6 m ρ c)
theorem v7_arg3 : W7 m ρ c (Proc.devRef .tc main_arg3) = (m ((c : Thread nD τ).loc main_arg3)) := (c7_arg3 m ρ c).trans (v6_arg3 m ρ c)
theorem c7_arg5 : W7 m ρ c (Proc.devRef .tc main_arg5) = W6 m ρ c (Proc.devRef .tc main_arg5) := s3_keep_arg5 (W6 m ρ c)
theorem v7_arg5 : W7 m ρ c (Proc.devRef .tc main_arg5) = (m ((c : Thread nD τ).loc main_arg5)) := (c7_arg5 m ρ c).trans (v6_arg5 m ρ c)
theorem c7_arg6 : W7 m ρ c (Proc.devRef .tc main_arg6) = W6 m ρ c (Proc.devRef .tc main_arg6) := s3_keep_arg6 (W6 m ρ c)
theorem v7_arg6 : W7 m ρ c (Proc.devRef .tc main_arg6) = (m ((c : Thread nD τ).loc main_arg6)) := (c7_arg6 m ρ c).trans (v6_arg6 m ρ c)
theorem c7_v15 : W7 m ρ c (Proc.devRef .tc main_v15) = W6 m ρ c (Proc.devRef .tc main_v15) := s3_keep_v15 (W6 m ρ c)
theorem v7_v15 : W7 m ρ c (Proc.devRef .tc main_v15) = tr (m ((c : Thread nD τ).loc main_arg7)) := (c7_v15 m ρ c).trans (v6_v15 m ρ c)
theorem c7_v16 : W7 m ρ c (Proc.devRef .tc main_v16) = W6 m ρ c (Proc.devRef .tc main_v16) := s3_keep_v16 (W6 m ρ c)
theorem v7_v16 : W7 m ρ c (Proc.devRef .tc main_v16) = castRow (m ((c : Thread nD τ).loc main_arg8)) := (c7_v16 m ρ c).trans (v6_v16 m ρ c)
theorem c8_v1 : W8 m ρ c (Proc.devRef .tc main_v1) = W7 m ρ c (Proc.devRef .tc main_v1) := W8_of_ne m ρ c main_v1 (by decide)
theorem v8_v1 : W8 m ρ c (Proc.devRef .tc main_v1) = edgeRow (m ((c : Thread nD τ).loc main_arg1)) 0 := (c8_v1 m ρ c).trans (v7_v1 m ρ c)
theorem c8_v3 : W8 m ρ c (Proc.devRef .tc main_v3) = W7 m ρ c (Proc.devRef .tc main_v3) := W8_of_ne m ρ c main_v3 (by decide)
theorem v8_v3 : W8 m ρ c (Proc.devRef .tc main_v3) = edgeRow (m ((c : Thread nD τ).loc main_arg1)) 1 := (c8_v3 m ρ c).trans (v7_v3 m ρ c)
theorem c8_v12 : W8 m ρ c (Proc.devRef .tc main_v12) = W7 m ρ c (Proc.devRef .tc main_v12) := W8_of_ne m ρ c main_v12 (by decide)
theorem v8_v12 : W8 m ρ c (Proc.devRef .tc main_v12) = Ker.degInv (m ((c : Thread nD τ).loc main_arg1)) := (c8_v12 m ρ c).trans (v7_v12 m ρ c)
theorem c8_v13 : W8 m ρ c (Proc.devRef .tc main_v13) = W7 m ρ c (Proc.devRef .tc main_v13) := W8_of_ne m ρ c main_v13 (by decide)
theorem v8_v13 : W8 m ρ c (Proc.devRef .tc main_v13) = trStack (m ((c : Thread nD τ).loc main_arg2)) := (c8_v13 m ρ c).trans (v7_v13 m ρ c)
theorem c8_v14 : W8 m ρ c (Proc.devRef .tc main_v14) = W7 m ρ c (Proc.devRef .tc main_v14) := W8_of_ne m ρ c main_v14 (by decide)
theorem v8_v14 : W8 m ρ c (Proc.devRef .tc main_v14) = trStack (m ((c : Thread nD τ).loc main_arg4)) := (c8_v14 m ρ c).trans (v7_v14 m ρ c)
theorem c8_arg3 : W8 m ρ c (Proc.devRef .tc main_arg3) = W7 m ρ c (Proc.devRef .tc main_arg3) := W8_of_ne m ρ c main_arg3 (by decide)
theorem v8_arg3 : W8 m ρ c (Proc.devRef .tc main_arg3) = (m ((c : Thread nD τ).loc main_arg3)) := (c8_arg3 m ρ c).trans (v7_arg3 m ρ c)
theorem c8_arg5 : W8 m ρ c (Proc.devRef .tc main_arg5) = W7 m ρ c (Proc.devRef .tc main_arg5) := W8_of_ne m ρ c main_arg5 (by decide)
theorem v8_arg5 : W8 m ρ c (Proc.devRef .tc main_arg5) = (m ((c : Thread nD τ).loc main_arg5)) := (c8_arg5 m ρ c).trans (v7_arg5 m ρ c)
theorem c8_arg6 : W8 m ρ c (Proc.devRef .tc main_arg6) = W7 m ρ c (Proc.devRef .tc main_arg6) := W8_of_ne m ρ c main_arg6 (by decide)
theorem v8_arg6 : W8 m ρ c (Proc.devRef .tc main_arg6) = (m ((c : Thread nD τ).loc main_arg6)) := (c8_arg6 m ρ c).trans (v7_arg6 m ρ c)
theorem c8_v15 : W8 m ρ c (Proc.devRef .tc main_v15) = W7 m ρ c (Proc.devRef .tc main_v15) := W8_of_ne m ρ c main_v15 (by decide)
theorem v8_v15 : W8 m ρ c (Proc.devRef .tc main_v15) = tr (m ((c : Thread nD τ).loc main_arg7)) := (c8_v15 m ρ c).trans (v7_v15 m ρ c)
theorem c8_v16 : W8 m ρ c (Proc.devRef .tc main_v16) = W7 m ρ c (Proc.devRef .tc main_v16) := W8_of_ne m ρ c main_v16 (by decide)
theorem v8_v16 : W8 m ρ c (Proc.devRef .tc main_v16) = castRow (m ((c : Thread nD τ).loc main_arg8)) := (c8_v16 m ρ c).trans (v7_v16 m ρ c)
theorem c9_v1 : W9 m ρ c (Proc.devRef .tc main_v1) = W8 m ρ c (Proc.devRef .tc main_v1) := s4_keep_v1 (W8 m ρ c)
theorem v9_v1 : W9 m ρ c (Proc.devRef .tc main_v1) = edgeRow (m ((c : Thread nD τ).loc main_arg1)) 0 := (c9_v1 m ρ c).trans (v8_v1 m ρ c)
theorem c9_v3 : W9 m ρ c (Proc.devRef .tc main_v3) = W8 m ρ c (Proc.devRef .tc main_v3) := s4_keep_v3 (W8 m ρ c)
theorem v9_v3 : W9 m ρ c (Proc.devRef .tc main_v3) = edgeRow (m ((c : Thread nD τ).loc main_arg1)) 1 := (c9_v3 m ρ c).trans (v8_v3 m ρ c)
theorem c9_v12 : W9 m ρ c (Proc.devRef .tc main_v12) = W8 m ρ c (Proc.devRef .tc main_v12) := s4_keep_v12 (W8 m ρ c)
theorem v9_v12 : W9 m ρ c (Proc.devRef .tc main_v12) = Ker.degInv (m ((c : Thread nD τ).loc main_arg1)) := (c9_v12 m ρ c).trans (v8_v12 m ρ c)
theorem c9_v13 : W9 m ρ c (Proc.devRef .tc main_v13) = W8 m ρ c (Proc.devRef .tc main_v13) := s4_keep_v13 (W8 m ρ c)
theorem v9_v13 : W9 m ρ c (Proc.devRef .tc main_v13) = trStack (m ((c : Thread nD τ).loc main_arg2)) := (c9_v13 m ρ c).trans (v8_v13 m ρ c)
theorem c9_v14 : W9 m ρ c (Proc.devRef .tc main_v14) = W8 m ρ c (Proc.devRef .tc main_v14) := s4_keep_v14 (W8 m ρ c)
theorem v9_v14 : W9 m ρ c (Proc.devRef .tc main_v14) = trStack (m ((c : Thread nD τ).loc main_arg4)) := (c9_v14 m ρ c).trans (v8_v14 m ρ c)
theorem c9_arg3 : W9 m ρ c (Proc.devRef .tc main_arg3) = W8 m ρ c (Proc.devRef .tc main_arg3) := s4_keep_arg3 (W8 m ρ c)
theorem v9_arg3 : W9 m ρ c (Proc.devRef .tc main_arg3) = (m ((c : Thread nD τ).loc main_arg3)) := (c9_arg3 m ρ c).trans (v8_arg3 m ρ c)
theorem c9_arg5 : W9 m ρ c (Proc.devRef .tc main_arg5) = W8 m ρ c (Proc.devRef .tc main_arg5) := s4_keep_arg5 (W8 m ρ c)
theorem v9_arg5 : W9 m ρ c (Proc.devRef .tc main_arg5) = (m ((c : Thread nD τ).loc main_arg5)) := (c9_arg5 m ρ c).trans (v8_arg5 m ρ c)
theorem c9_arg6 : W9 m ρ c (Proc.devRef .tc main_arg6) = W8 m ρ c (Proc.devRef .tc main_arg6) := s4_keep_arg6 (W8 m ρ c)
theorem v9_arg6 : W9 m ρ c (Proc.devRef .tc main_arg6) = (m ((c : Thread nD τ).loc main_arg6)) := (c9_arg6 m ρ c).trans (v8_arg6 m ρ c)
theorem c9_v15 : W9 m ρ c (Proc.devRef .tc main_v15) = W8 m ρ c (Proc.devRef .tc main_v15) := s4_keep_v15 (W8 m ρ c)
theorem v9_v15 : W9 m ρ c (Proc.devRef .tc main_v15) = tr (m ((c : Thread nD τ).loc main_arg7)) := (c9_v15 m ρ c).trans (v8_v15 m ρ c)
theorem c9_v16 : W9 m ρ c (Proc.devRef .tc main_v16) = W8 m ρ c (Proc.devRef .tc main_v16) := s4_keep_v16 (W8 m ρ c)
theorem v9_v16 : W9 m ρ c (Proc.devRef .tc main_v16) = castRow (m ((c : Thread nD τ).loc main_arg8)) := (c9_v16 m ρ c).trans (v8_v16 m ρ c)
theorem c10_arg5 : W10 m ρ c (Proc.devRef .tc main_arg5) = W9 m ρ c (Proc.devRef .tc main_arg5) := W10_of_ne m ρ c main_arg5 (by decide)
theorem v10_arg5 : W10 m ρ c (Proc.devRef .tc main_arg5) = (m ((c : Thread nD τ).loc main_arg5)) := (c10_arg5 m ρ c).trans (v9_arg5 m ρ c)
theorem c10_arg6 : W10 m ρ c (Proc.devRef .tc main_arg6) = W9 m ρ c (Proc.devRef .tc main_arg6) := W10_of_ne m ρ c main_arg6 (by decide)
theorem v10_arg6 : W10 m ρ c (Proc.devRef .tc main_arg6) = (m ((c : Thread nD τ).loc main_arg6)) := (c10_arg6 m ρ c).trans (v9_arg6 m ρ c)

/-! ## Layer 0 -/

theorem b1_agg : W1 m ρ c (Proc.devRef .tc main_v28) = Ker.agg (m ((c : Thread nD τ).loc main_arg0)) (m ((c : Thread nD τ).loc main_arg1)) := s0_v28 (W0 m ρ c)
theorem b1_bl : W1 m ρ c (Proc.devRef .tc main_v31) = Ker.row3 (m ((c : Thread nD τ).loc main_arg3)) 0 := s0_v31 (W0 m ρ c)
theorem b1_wl : W1 m ρ c (Proc.devRef .tc main_v33) = Ker.sqT3 (m ((c : Thread nD τ).loc main_arg2)) 0 := s0_v33 (W0 m ρ c)
theorem b1_wr : W1 m ρ c (Proc.devRef .tc main_v35) = Ker.sqT3 (m ((c : Thread nD τ).loc main_arg4)) 0 := s0_v35 (W0 m ρ c)
theorem b1_x : W1 m ρ c (Proc.devRef .tc main_arg0) = (m ((c : Thread nD τ).loc main_arg0)) := s0_keep_arg0 (W0 m ρ c)

theorem r0_7 : W2 m ρ c (Proc.devRef .tc main_v36_0) = (normed (pre (W1 m ρ c (Proc.devRef .tc main_arg0)) (W1 m ρ c (Proc.devRef .tc main_v28)) (W1 m ρ c (Proc.devRef .tc main_v33)) (W1 m ρ c (Proc.devRef .tc main_v31)) (W1 m ρ c (Proc.devRef .tc main_v35)))) :=
  (W2_arr m ρ c 7).trans (Cert.KernelIdeal.Pass1Blk.arr7_R0 (V1 m ρ) c)
theorem r0_8 : W2 m ρ c (Proc.devRef .tc main_v36_1) = resid (W1 m ρ c (Proc.devRef .tc main_arg0)) (W1 m ρ c (Proc.devRef .tc main_v15)) (W1 m ρ c (Proc.devRef .tc main_v16)) :=
  (W2_arr m ρ c 8).trans (Cert.KernelIdeal.Pass1Blk.arr8_R0 (V1 m ρ) c)
theorem r0_9 : W2 m ρ c (Proc.devRef .tc main_v36_2) = Ker.colSumRow (normed (pre (W1 m ρ c (Proc.devRef .tc main_arg0)) (W1 m ρ c (Proc.devRef .tc main_v28)) (W1 m ρ c (Proc.devRef .tc main_v33)) (W1 m ρ c (Proc.devRef .tc main_v31)) (W1 m ρ c (Proc.devRef .tc main_v35)))) :=
  (W2_arr m ρ c 9).trans (Cert.KernelIdeal.Pass1Sum.arr9_R0 (V1 m ρ) c _ (fun t => Cert.KernelIdeal.Pass1Blk.pay7_R0 (V1 m ρ) c t))
theorem r0_10 : W2 m ρ c (Proc.devRef .tc main_v36_3) = Ker.colSumRow (mulf (normed (pre (W1 m ρ c (Proc.devRef .tc main_arg0)) (W1 m ρ c (Proc.devRef .tc main_v28)) (W1 m ρ c (Proc.devRef .tc main_v33)) (W1 m ρ c (Proc.devRef .tc main_v31)) (W1 m ρ c (Proc.devRef .tc main_v35)))) (normed (pre (W1 m ρ c (Proc.devRef .tc main_arg0)) (W1 m ρ c (Proc.devRef .tc main_v28)) (W1 m ρ c (Proc.devRef .tc main_v33)) (W1 m ρ c (Proc.devRef .tc main_v31)) (W1 m ρ c (Proc.devRef .tc main_v35))))) :=
  (W2_arr m ρ c 10).trans (Cert.KernelIdeal.Pass1Sum.arr10_R0 (V1 m ρ) c _ (fun t => Cert.KernelIdeal.Pass1Blk.pay7_R0 (V1 m ρ) c t))

theorem d3_o7 : W3 m ρ c (Proc.devRef .tc main_v36_0) = W2 m ρ c (Proc.devRef .tc main_v36_0) := s1_keep_v36_0 (W2 m ρ c)
theorem d3_o8 : W3 m ρ c (Proc.devRef .tc main_v36_1) = W2 m ρ c (Proc.devRef .tc main_v36_1) := s1_keep_v36_1 (W2 m ρ c)
theorem d3_mu : W3 m ρ c (Proc.devRef .tc main_v38) = muOf (W2 m ρ c (Proc.devRef .tc main_v36_2)) := s1_mu (W2 m ρ c)
theorem d3_sig2 : W3 m ρ c (Proc.devRef .tc main_v42) = sig2Of (W2 m ρ c (Proc.devRef .tc main_v36_2)) (W2 m ρ c (Proc.devRef .tc main_v36_3)) := s1_sig2 (W2 m ρ c)
theorem d3_g : W3 m ρ c (Proc.devRef .tc main_v45) = Ker.row3 (W2 m ρ c (Proc.devRef .tc main_arg5)) 0 := s1_g (W2 m ρ c)
theorem d3_b : W3 m ρ c (Proc.devRef .tc main_v48) = Ker.row3 (W2 m ρ c (Proc.devRef .tc main_arg6)) 0 := s1_b (W2 m ρ c)

theorem r1_out : W4 m ρ c (Proc.devRef .tc main_v49) = Ker.pass2 (W3 m ρ c (Proc.devRef .tc main_v36_0)) (W3 m ρ c (Proc.devRef .tc main_v36_1)) (W3 m ρ c (Proc.devRef .tc main_v38)) (W3 m ρ c (Proc.devRef .tc main_v42)) (W3 m ρ c (Proc.devRef .tc main_v45)) (W3 m ρ c (Proc.devRef .tc main_v48)) :=
  (W4_arr m ρ c 6).trans (Cert.KernelIdeal.Pass2.arr6_R1 (V3 m ρ) c)

/-- Layer 0 of the kernel's program. -/
theorem layer0 : W4 m ρ c (Proc.devRef .tc main_v49) = Ker.layerAt 0 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [r1_out, d3_o7, d3_o8, d3_mu, d3_sig2, d3_g, d3_b, r0_7, r0_8, r0_9, r0_10,
    v2_arg5, v2_arg6, v1_v15, v1_v16, b1_agg, b1_bl, b1_wl, b1_wr, b1_x]
  rfl

/-! ## Layer 1 -/

theorem b5_agg : W5 m ρ c (Proc.devRef .tc main_v61) = aggOf (W4 m ρ c (Proc.devRef .tc main_v1)) (W4 m ρ c (Proc.devRef .tc main_v3)) (W4 m ρ c (Proc.devRef .tc main_v12)) (W4 m ρ c (Proc.devRef .tc main_v49)) := s2_agg (W4 m ρ c)
theorem b5_bl : W5 m ρ c (Proc.devRef .tc main_v64) = Ker.row3 (W4 m ρ c (Proc.devRef .tc main_arg3)) 1 := s2_bl (W4 m ρ c)
theorem b5_wl : W5 m ρ c (Proc.devRef .tc main_v66) = cutSq (W4 m ρ c (Proc.devRef .tc main_v13)) 1 := s2_wl (W4 m ρ c)
theorem b5_wr : W5 m ρ c (Proc.devRef .tc main_v68) = cutSq (W4 m ρ c (Proc.devRef .tc main_v14)) 1 := s2_wr (W4 m ρ c)
theorem b5_x : W5 m ρ c (Proc.devRef .tc main_v49) = W4 m ρ c (Proc.devRef .tc main_v49) := s2_keep_v49 (W4 m ρ c)

theorem r2_7 : W6 m ρ c (Proc.devRef .tc main_v69_0) = (normed (pre (W5 m ρ c (Proc.devRef .tc main_v49)) (W5 m ρ c (Proc.devRef .tc main_v61)) (W5 m ρ c (Proc.devRef .tc main_v66)) (W5 m ρ c (Proc.devRef .tc main_v64)) (W5 m ρ c (Proc.devRef .tc main_v68)))) :=
  (W6_arr m ρ c 7).trans (Cert.KernelIdeal.Pass1Blk.arr7_R2 (V5 m ρ) c)
theorem r2_8 : W6 m ρ c (Proc.devRef .tc main_v69_1) = resid (W5 m ρ c (Proc.devRef .tc main_v49)) (W5 m ρ c (Proc.devRef .tc main_v15)) (W5 m ρ c (Proc.devRef .tc main_v16)) :=
  (W6_arr m ρ c 8).trans (Cert.KernelIdeal.Pass1Blk.arr8_R2 (V5 m ρ) c)
theorem r2_9 : W6 m ρ c (Proc.devRef .tc main_v69_2) = Ker.colSumRow (normed (pre (W5 m ρ c (Proc.devRef .tc main_v49)) (W5 m ρ c (Proc.devRef .tc main_v61)) (W5 m ρ c (Proc.devRef .tc main_v66)) (W5 m ρ c (Proc.devRef .tc main_v64)) (W5 m ρ c (Proc.devRef .tc main_v68)))) :=
  (W6_arr m ρ c 9).trans (Cert.KernelIdeal.Pass1Sum.arr9_R2 (V5 m ρ) c _ (fun t => Cert.KernelIdeal.Pass1Blk.pay7_R2 (V5 m ρ) c t))
theorem r2_10 : W6 m ρ c (Proc.devRef .tc main_v69_3) = Ker.colSumRow (mulf (normed (pre (W5 m ρ c (Proc.devRef .tc main_v49)) (W5 m ρ c (Proc.devRef .tc main_v61)) (W5 m ρ c (Proc.devRef .tc main_v66)) (W5 m ρ c (Proc.devRef .tc main_v64)) (W5 m ρ c (Proc.devRef .tc main_v68)))) (normed (pre (W5 m ρ c (Proc.devRef .tc main_v49)) (W5 m ρ c (Proc.devRef .tc main_v61)) (W5 m ρ c (Proc.devRef .tc main_v66)) (W5 m ρ c (Proc.devRef .tc main_v64)) (W5 m ρ c (Proc.devRef .tc main_v68))))) :=
  (W6_arr m ρ c 10).trans (Cert.KernelIdeal.Pass1Sum.arr10_R2 (V5 m ρ) c _ (fun t => Cert.KernelIdeal.Pass1Blk.pay7_R2 (V5 m ρ) c t))

theorem d7_o7 : W7 m ρ c (Proc.devRef .tc main_v69_0) = W6 m ρ c (Proc.devRef .tc main_v69_0) := s3_keep_v69_0 (W6 m ρ c)
theorem d7_o8 : W7 m ρ c (Proc.devRef .tc main_v69_1) = W6 m ρ c (Proc.devRef .tc main_v69_1) := s3_keep_v69_1 (W6 m ρ c)
theorem d7_mu : W7 m ρ c (Proc.devRef .tc main_v71) = muOf (W6 m ρ c (Proc.devRef .tc main_v69_2)) := s3_mu (W6 m ρ c)
theorem d7_sig2 : W7 m ρ c (Proc.devRef .tc main_v75) = sig2Of (W6 m ρ c (Proc.devRef .tc main_v69_2)) (W6 m ρ c (Proc.devRef .tc main_v69_3)) := s3_sig2 (W6 m ρ c)
theorem d7_g : W7 m ρ c (Proc.devRef .tc main_v78) = Ker.row3 (W6 m ρ c (Proc.devRef .tc main_arg5)) 1 := s3_g (W6 m ρ c)
theorem d7_b : W7 m ρ c (Proc.devRef .tc main_v81) = Ker.row3 (W6 m ρ c (Proc.devRef .tc main_arg6)) 1 := s3_b (W6 m ρ c)

theorem r3_out : W8 m ρ c (Proc.devRef .tc main_v82) = Ker.pass2 (W7 m ρ c (Proc.devRef .tc main_v69_0)) (W7 m ρ c (Proc.devRef .tc main_v69_1)) (W7 m ρ c (Proc.devRef .tc main_v71)) (W7 m ρ c (Proc.devRef .tc main_v75)) (W7 m ρ c (Proc.devRef .tc main_v78)) (W7 m ρ c (Proc.devRef .tc main_v81)) :=
  (W8_arr m ρ c 6).trans (Cert.KernelIdeal.Pass2.arr6_R3 (V7 m ρ) c)

/-- Layer 1 of the kernel's program. -/
theorem layer1 : W8 m ρ c (Proc.devRef .tc main_v82) = Ker.layerAt 1 (W4 m ρ c (Proc.devRef .tc main_v49)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [r3_out, d7_o7, d7_o8, d7_mu, d7_sig2, d7_g, d7_b, r2_7, r2_8, r2_9, r2_10,
    v6_arg5, v6_arg6, v5_v15, v5_v16, b5_agg, b5_bl, b5_wl, b5_wr, b5_x,
    v4_v1, v4_v3, v4_v12, v4_v13, v4_v14, v4_arg3, ← agg_eq_aggOf, ← sqT3_eq_cut, ← sqT3_eq_cut]
  rfl

/-! ## Layer 2 -/

theorem b9_agg : W9 m ρ c (Proc.devRef .tc main_v94) = aggOf (W8 m ρ c (Proc.devRef .tc main_v1)) (W8 m ρ c (Proc.devRef .tc main_v3)) (W8 m ρ c (Proc.devRef .tc main_v12)) (W8 m ρ c (Proc.devRef .tc main_v82)) := s4_agg (W8 m ρ c)
theorem b9_bl : W9 m ρ c (Proc.devRef .tc main_v97) = Ker.row3 (W8 m ρ c (Proc.devRef .tc main_arg3)) 2 := s4_bl (W8 m ρ c)
theorem b9_wl : W9 m ρ c (Proc.devRef .tc main_v99) = cutSq (W8 m ρ c (Proc.devRef .tc main_v13)) 2 := s4_wl (W8 m ρ c)
theorem b9_wr : W9 m ρ c (Proc.devRef .tc main_v101) = cutSq (W8 m ρ c (Proc.devRef .tc main_v14)) 2 := s4_wr (W8 m ρ c)
theorem b9_x : W9 m ρ c (Proc.devRef .tc main_v82) = W8 m ρ c (Proc.devRef .tc main_v82) := s4_keep_v82 (W8 m ρ c)

theorem r4_7 : W10 m ρ c (Proc.devRef .tc main_v102_0) = (normed (pre (W9 m ρ c (Proc.devRef .tc main_v82)) (W9 m ρ c (Proc.devRef .tc main_v94)) (W9 m ρ c (Proc.devRef .tc main_v99)) (W9 m ρ c (Proc.devRef .tc main_v97)) (W9 m ρ c (Proc.devRef .tc main_v101)))) :=
  (W10_arr m ρ c 7).trans (Cert.KernelIdeal.Pass1Blk.arr7_R4 (V9 m ρ) c)
theorem r4_8 : W10 m ρ c (Proc.devRef .tc main_v102_1) = resid (W9 m ρ c (Proc.devRef .tc main_v82)) (W9 m ρ c (Proc.devRef .tc main_v15)) (W9 m ρ c (Proc.devRef .tc main_v16)) :=
  (W10_arr m ρ c 8).trans (Cert.KernelIdeal.Pass1Blk.arr8_R4 (V9 m ρ) c)
theorem r4_9 : W10 m ρ c (Proc.devRef .tc main_v102_2) = Ker.colSumRow (normed (pre (W9 m ρ c (Proc.devRef .tc main_v82)) (W9 m ρ c (Proc.devRef .tc main_v94)) (W9 m ρ c (Proc.devRef .tc main_v99)) (W9 m ρ c (Proc.devRef .tc main_v97)) (W9 m ρ c (Proc.devRef .tc main_v101)))) :=
  (W10_arr m ρ c 9).trans (Cert.KernelIdeal.Pass1Sum.arr9_R4 (V9 m ρ) c _ (fun t => Cert.KernelIdeal.Pass1Blk.pay7_R4 (V9 m ρ) c t))
theorem r4_10 : W10 m ρ c (Proc.devRef .tc main_v102_3) = Ker.colSumRow (mulf (normed (pre (W9 m ρ c (Proc.devRef .tc main_v82)) (W9 m ρ c (Proc.devRef .tc main_v94)) (W9 m ρ c (Proc.devRef .tc main_v99)) (W9 m ρ c (Proc.devRef .tc main_v97)) (W9 m ρ c (Proc.devRef .tc main_v101)))) (normed (pre (W9 m ρ c (Proc.devRef .tc main_v82)) (W9 m ρ c (Proc.devRef .tc main_v94)) (W9 m ρ c (Proc.devRef .tc main_v99)) (W9 m ρ c (Proc.devRef .tc main_v97)) (W9 m ρ c (Proc.devRef .tc main_v101))))) :=
  (W10_arr m ρ c 10).trans (Cert.KernelIdeal.Pass1Sum.arr10_R4 (V9 m ρ) c _ (fun t => Cert.KernelIdeal.Pass1Blk.pay7_R4 (V9 m ρ) c t))

theorem d11_o7 : W11 m ρ c (Proc.devRef .tc main_v102_0) = W10 m ρ c (Proc.devRef .tc main_v102_0) := s5_keep_v102_0 (W10 m ρ c)
theorem d11_o8 : W11 m ρ c (Proc.devRef .tc main_v102_1) = W10 m ρ c (Proc.devRef .tc main_v102_1) := s5_keep_v102_1 (W10 m ρ c)
theorem d11_mu : W11 m ρ c (Proc.devRef .tc main_v104) = muOf (W10 m ρ c (Proc.devRef .tc main_v102_2)) := s5_mu (W10 m ρ c)
theorem d11_sig2 : W11 m ρ c (Proc.devRef .tc main_v108) = sig2Of (W10 m ρ c (Proc.devRef .tc main_v102_2)) (W10 m ρ c (Proc.devRef .tc main_v102_3)) := s5_sig2 (W10 m ρ c)
theorem d11_g : W11 m ρ c (Proc.devRef .tc main_v111) = Ker.row3 (W10 m ρ c (Proc.devRef .tc main_arg5)) 2 := s5_g (W10 m ρ c)
theorem d11_b : W11 m ρ c (Proc.devRef .tc main_v114) = Ker.row3 (W10 m ρ c (Proc.devRef .tc main_arg6)) 2 := s5_b (W10 m ρ c)

theorem r5_out : W12 m ρ c (Proc.devRef .tc main_v115) = Ker.pass2 (W11 m ρ c (Proc.devRef .tc main_v102_0)) (W11 m ρ c (Proc.devRef .tc main_v102_1)) (W11 m ρ c (Proc.devRef .tc main_v104)) (W11 m ρ c (Proc.devRef .tc main_v108)) (W11 m ρ c (Proc.devRef .tc main_v111)) (W11 m ρ c (Proc.devRef .tc main_v114)) :=
  (W12_arr m ρ c 6).trans (Cert.KernelIdeal.Pass2.arr6_R5 (V11 m ρ) c)

/-- Layer 2 of the kernel's program. -/
theorem layer2 : W12 m ρ c (Proc.devRef .tc main_v115) = Ker.layerAt 2 (W8 m ρ c (Proc.devRef .tc main_v82)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [r5_out, d11_o7, d11_o8, d11_mu, d11_sig2, d11_g, d11_b, r4_7, r4_8, r4_9, r4_10,
    v10_arg5, v10_arg6, v9_v15, v9_v16, b9_agg, b9_bl, b9_wl, b9_wr, b9_x,
    v8_v1, v8_v3, v8_v12, v8_v13, v8_v14, v8_arg3, ← agg_eq_aggOf, ← sqT3_eq_cut, ← sqT3_eq_cut]
  rfl

/-- The result buffer at the last boundary is the kernel program's three-layer function of the launch arguments. -/
theorem result : W12 m ρ c (Proc.devRef .tc main_v115) = Ker.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [layer2, layer1, layer0]
  rfl

end Cert.KernelIdeal.Chain

end
-- ==== Proof.LibHostPieces.lean ====
/-
  Two facts for reading a long line of host operations piece by piece.

  What a buffer holds after a line of host operations is a fold over the line. When the whole line's result is too
  large a term to compare in one step, the line can be cut at any point: the fold over a concatenation is the fold
  over the second part, started from what the first part leaves (`after_append`); with `List.take_append_drop` this
  cuts a line given as one list into stretches whose results are small terms, each read from any incoming contents.

  An operation spelt over typed references moves its operands from each buffer's own type to the tensor type it
  carries and its result back; these transports are identities, and a value moved to a buffer's type and back is the
  value (`ofBuf_toBuf`). Rewriting with it before comparing a stretch's result with a closed term removes the pairs
  of transports that otherwise stand between the two sides. Both facts hold for any topology, signature and element
  values.
-/
import Idealize.ShloMosaic.Lib.StableHlo.Run

namespace Idealize.ShloMosaic.HostPieces

open Idealize.ShloMosaic Idealize.ShloMosaic.StableHlo

variable {τ : Topo} {sig : RefSig} {Val : EltTy → Type}

/-- Running two stretches of operations one after the other is running their concatenation. -/
theorem after_append (l₁ l₂ : List (HloOp τ sig Val)) (V : Valuation τ sig Val) :
    after (l₁ ++ l₂) V = after l₂ (after l₁ V) := by
  induction l₁ generalizing V with
  | nil => rfl
  | cons op l ih => exact ih _

/-- A line of operations cut at position `n`: the part after `n` run from what the first `n` leave. -/
theorem after_take_drop (n : ℕ) (l : List (HloOp τ sig Val)) (V : Valuation τ sig Val) :
    after l V = after (l.drop n) (after (l.take n) V) := by
  rw [← after_append, List.take_append_drop]

/-- Contents moved to a buffer's own type and back are unchanged. -/
theorem ofBuf_toBuf {T : BufTy} (x : TRef sig T) (v : T.Contents Val) : x.ofBuf (x.toBuf v) = v := by
  obtain ⟨r, rfl, _, _⟩ := x
  rfl

end Idealize.ShloMosaic.HostPieces
-- ==== Proof.RefRunOps.lean ====
/-
  The reference program's @main as a list of its host operations, in order, the calls of its module-local
  functions unfolded at their call sites: each column-variance call is twenty-two operations (nineteen of its own and the
  three of the select it calls) over that call's buffers, each elementwise select call is one. The list is given in
  nine consecutive stretches; a layer of the network is the stretches A B C, then D E F G, then H I. The program is
  the straight line of these operations (`main_eq`), every operation touches TensorCore buffers only and determines
  its results.
-/
import proofs.«131685_j69784628625939_1_alg».proof.Proof.Gen.ReferenceIdeal
import Idealize.ShloMosaic.Lib.StableHlo.Run
import proofs.«131685_j69784628625939_1_alg».proof.Proof.LibHostPieces

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo Idealize.ShloMosaic.HostPieces

/-- An operation whose one written buffer is in a list writes inside the list. -/
theorem writes_sub_of_mem {Val : EltTy → Type} {W : List (Ref sig .tc)} {op : HloOp τ sig Val} {y : Ref sig .tc}
    (h : op.writes = {Proc.devRef .tc y}) (hy : y ∈ W) : op.writes ⊆ (W.map (Proc.devRef (τ := τ) .tc)).toFinset := by
  rw [h, Finset.singleton_subset_iff, List.mem_toFinset]
  exact List.mem_map_of_mem hy

variable {F : FTy → Type} [FloatOps F]

/-- Operations 1 … 60 of @main's 334. -/
abbrev pcA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.unary main_arg2 main_v4 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v4 main_v5 rfl shapeCasts_S1x128x128_S128x128,
    StableHlo.unary main_arg3 main_v6 ((extractStridedSlice S1x128 ![0, 0] · slices_S3x128_S1x128_0_0) : (⟨S3x128, .f32⟩ : BufTy).Contents (Elt F) → (⟨S1x128, .f32⟩ : BufTy).Contents (Elt F)),
    StableHlo.reshape main_v6 main_v7 rfl shapeCasts_S1x128_S128,
    StableHlo.unary main_arg4 main_v8 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v8 main_v9 rfl shapeCasts_S1x128x128_S128x128,
    StableHlo.unary main_arg5 main_v10 ((extractStridedSlice S1x128 ![0, 0] · slices_S3x128_S1x128_0_0) : (⟨S3x128, .f32⟩ : BufTy).Contents (Elt F) → (⟨S1x128, .f32⟩ : BufTy).Contents (Elt F)),
    StableHlo.reshape main_v10 main_v11 rfl shapeCasts_S1x128_S128,
    StableHlo.unary main_arg6 main_v12 ((extractStridedSlice S1x128 ![0, 0] · slices_S3x128_S1x128_0_0) : (⟨S3x128, .f32⟩ : BufTy).Contents (Elt F) → (⟨S1x128, .f32⟩ : BufTy).Contents (Elt F)),
    StableHlo.reshape main_v12 main_v13 rfl shapeCasts_S1x128_S128,
    StableHlo.unary main_arg7 main_v14 ((transpose S128x128 [1, 0] · transposes_S128x128_S128x128_1_0) : (⟨S128x128, .f32⟩ : BufTy).Contents (Elt F) → (⟨S128x128, .f32⟩ : BufTy).Contents (Elt F)),
    StableHlo.binary main_arg0 main_v14 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v16 (broadcastInDim S1x128 ![1] bcast_S128_S1x128_1 : (⟨S128, .f32⟩ : BufTy).Contents (Elt F) → (⟨S1x128, .f32⟩ : BufTy).Contents (Elt F)),
    StableHlo.unary main_v16 main_v17 (broadcastInDim S50000x128 ![0, 1] bcast_S1x128_S50000x128_0_1 : (⟨S1x128, .f32⟩ : BufTy).Contents (Elt F) → (⟨S50000x128, .f32⟩ : BufTy).Contents (Elt F)),
    StableHlo.binary main_v15 main_v17 main_v18 (addf : (⟨S50000x128, .f32⟩ : BufTy).Contents (Elt F) → (⟨S50000x128, .f32⟩ : BufTy).Contents (Elt F) → (⟨S50000x128, .f32⟩ : BufTy).Contents (Elt F)),
    StableHlo.nullary main_c (constantI S_ 32 0#32),
    StableHlo.unary main_c main_v19 (broadcastInDim S800000 ![] bcast_S_S800000 : (⟨S_, .i32⟩ : BufTy).Contents (Elt F) → (⟨S800000, .i32⟩ : BufTy).Contents (Elt F)),
    StableHlo.binary main_v1 main_v19 main_v20 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v21 (broadcastInDim S800000 ![] bcast_S_S800000 : (⟨S_, .i32⟩ : BufTy).Contents (Elt F) → (⟨S800000, .i32⟩ : BufTy).Contents (Elt F)),
    StableHlo.binary main_v1 main_v21 main_v22 (addi : (⟨S800000, .i32⟩ : BufTy).Contents (Elt F) → (⟨S800000, .i32⟩ : BufTy).Contents (Elt F) → (⟨S800000, .i32⟩ : BufTy).Contents (Elt F)),
    StableHlo.ternary main_v20 main_v22 main_v1 main_v23 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v23 main_v24 (broadcastInDim S800000x1 ![0] bcast_S800000_S800000x1_0 : (⟨S800000, .i32⟩ : BufTy).Contents (Elt F) → (⟨S800000x1, .i32⟩ : BufTy).Contents (Elt F)),
    StableHlo.binary main_arg0 main_v24 main_v25 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v26 (broadcastInDim S50000x128 ![] bcast_S_S50000x128 : (⟨S_, .f32⟩ : BufTy).Contents (Elt F) → (⟨S50000x128, .f32⟩ : BufTy).Contents (Elt F)),
    StableHlo.unary main_v3 main_v27 (broadcastInDim S800000x1 ![0] bcast_S800000_S800000x1_0 : (⟨S800000, .i32⟩ : BufTy).Contents (Elt F) → (⟨S800000x1, .i32⟩ : BufTy).Contents (Elt F)),
    StableHlo.ternary main_v26 main_v27 main_v25 main_v28 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.unary main_cst_1 main_v29 (broadcastInDim S800000 ![] bcast_S_S800000 : (⟨S_, .f32⟩ : BufTy).Contents (Elt F) → (⟨S800000, .f32⟩ : BufTy).Contents (Elt F)),
    StableHlo.nullary main_cst_2 (constant S_ .f32 0x00000000#32),
    StableHlo.unary main_cst_2 main_v30 (broadcastInDim S50000 ![] bcast_S_S50000 : (⟨S_, .f32⟩ : BufTy).Contents (Elt F) → (⟨S50000, .f32⟩ : BufTy).Contents (Elt F)),
    StableHlo.unary main_v3 main_v31 (broadcastInDim S800000x1 ![0] bcast_S800000_S800000x1_0 : (⟨S800000, .i32⟩ : BufTy).Contents (Elt F) → (⟨S800000x1, .i32⟩ : BufTy).Contents (Elt F)),
    StableHlo.ternary main_v30 main_v31 main_v29 main_v32 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_3 (constant S_ .f32 0x3F800000#32),
    StableHlo.unary main_cst_3 main_v33 (broadcastInDim S50000 ![] bcast_S_S50000 : (⟨S_, .f32⟩ : BufTy).Contents (Elt F) → (⟨S50000, .f32⟩ : BufTy).Contents (Elt F)),
    StableHlo.binary main_v32 main_v33 main_v34 (maximumf : (⟨S50000, .f32⟩ : BufTy).Contents (Elt F) → (⟨S50000, .f32⟩ : BufTy).Contents (Elt F) → (⟨S50000, .f32⟩ : BufTy).Contents (Elt F)),
    StableHlo.unary main_v34 main_v35 (broadcastInDim S50000x1 ![0] bcast_S50000_S50000x1_0 : (⟨S50000, .f32⟩ : BufTy).Contents (Elt F) → (⟨S50000x1, .f32⟩ : BufTy).Contents (Elt F)),
    StableHlo.unary main_v35 main_v36 (broadcastInDim S50000x128 ![0, 1] bcast_S50000x1_S50000x128_0_1 : (⟨S50000x1, .f32⟩ : BufTy).Contents (Elt F) → (⟨S50000x128, .f32⟩ : BufTy).Contents (Elt F)),
    StableHlo.binary main_v28 main_v36 main_v37 (Host.divf : (⟨S50000x128, .f32⟩ : BufTy).Contents (Elt F) → (⟨S50000x128, .f32⟩ : BufTy).Contents (Elt F) → (⟨S50000x128, .f32⟩ : BufTy).Contents (Elt F)),
    StableHlo.unary main_v5 main_v38 ((transpose S128x128 [1, 0] · transposes_S128x128_S128x128_1_0) : (⟨S128x128, .f32⟩ : BufTy).Contents (Elt F) → (⟨S128x128, .f32⟩ : BufTy).Contents (Elt F)),
    StableHlo.binary main_v37 main_v38 main_v39 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v7 main_v40 (broadcastInDim S1x128 ![1] bcast_S128_S1x128_1 : (⟨S128, .f32⟩ : BufTy).Contents (Elt F) → (⟨S1x128, .f32⟩ : BufTy).Contents (Elt F)),
    StableHlo.unary main_v40 main_v41 (broadcastInDim S50000x128 ![0, 1] bcast_S1x128_S50000x128_0_1 : (⟨S1x128, .f32⟩ : BufTy).Contents (Elt F) → (⟨S50000x128, .f32⟩ : BufTy).Contents (Elt F)),
    StableHlo.binary main_v39 main_v41 main_v42 (addf : (⟨S50000x128, .f32⟩ : BufTy).Contents (Elt F) → (⟨S50000x128, .f32⟩ : BufTy).Contents (Elt F) → (⟨S50000x128, .f32⟩ : BufTy).Contents (Elt F)),
    StableHlo.unary main_v9 main_v43 ((transpose S128x128 [1, 0] · transposes_S128x128_S128x128_1_0) : (⟨S128x128, .f32⟩ : BufTy).Contents (Elt F) → (⟨S128x128, .f32⟩ : BufTy).Contents (Elt F)),
    StableHlo.binary main_arg0 main_v43 main_v44 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v42 main_v44 main_v45 (addf : (⟨S50000x128, .f32⟩ : BufTy).Contents (Elt F) → (⟨S50000x128, .f32⟩ : BufTy).Contents (Elt F) → (⟨S50000x128, .f32⟩ : BufTy).Contents (Elt F)),
    StableHlo.binary main_v45 main_v45 main_v46 (mulf : (⟨S50000x128, .f32⟩ : BufTy).Contents (Elt F) → (⟨S50000x128, .f32⟩ : BufTy).Contents (Elt F) → (⟨S50000x128, .f32⟩ : BufTy).Contents (Elt F)),
    StableHlo.nullary main_cst_4 (constant S_ .f32 0x00000000#32),
    StableHlo.binary main_v46 main_cst_4 main_v47 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v47 main_v48 (broadcastInDim S50000x1 ![0] bcast_S50000_S50000x1_0 : (⟨S50000, .f32⟩ : BufTy).Contents (Elt F) → (⟨S50000x1, .f32⟩ : BufTy).Contents (Elt F)),
    StableHlo.unary main_v48 main_v49 (Host.sqrt : (⟨S50000x1, .f32⟩ : BufTy).Contents (Elt F) → (⟨S50000x1, .f32⟩ : BufTy).Contents (Elt F)),
    StableHlo.nullary main_cst_5 (constant S_ .f32 0x2B8CBCCC#32),
    StableHlo.unary main_cst_5 main_v50 (broadcastInDim S50000x1 ![] bcast_S_S50000x1 : (⟨S_, .f32⟩ : BufTy).Contents (Elt F) → (⟨S50000x1, .f32⟩ : BufTy).Contents (Elt F)),
    StableHlo.binary main_v49 main_v50 main_v51 (maximumf : (⟨S50000x1, .f32⟩ : BufTy).Contents (Elt F) → (⟨S50000x1, .f32⟩ : BufTy).Contents (Elt F) → (⟨S50000x1, .f32⟩ : BufTy).Contents (Elt F)) ]

/-- Operations 61 … 62 of @main's 334. -/
abbrev pcB : List (HloOp τ sig (Elt F)) :=
  [ StableHlo.unary main_v51 main_v52 (broadcastInDim S50000x128 ![0, 1] bcast_S50000x1_S50000x128_0_1 : (⟨S50000x1, .f32⟩ : BufTy).Contents (Elt F) → (⟨S50000x128, .f32⟩ : BufTy).Contents (Elt F)),
    StableHlo.binary main_v45 main_v52 main_v53 (Host.divf : (⟨S50000x128, .f32⟩ : BufTy).Contents (Elt F) → (⟨S50000x128, .f32⟩ : BufTy).Contents (Elt F) → (⟨S50000x128, .f32⟩ : BufTy).Contents (Elt F)) ]

/-- Operations 63 … 114 of @main's 334. -/
abbrev pcC : List (HloOp τ sig (Elt F)) :=
  [ StableHlo.nullary main_cst_6 (constant S_ .f32 0x00000000#32),
    StableHlo.binary main_v53 main_cst_6 main_v54 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_7 (constant S_ .f32 0x47435000#32),
    StableHlo.unary main_cst_7 main_v55 (broadcastInDim S128 ![] bcast_S_S128 : (⟨S_, .f32⟩ : BufTy).Contents (Elt F) → (⟨S128, .f32⟩ : BufTy).Contents (Elt F)),
    StableHlo.binary main_v54 main_v55 main_v56 (Host.divf : (⟨S128, .f32⟩ : BufTy).Contents (Elt F) → (⟨S128, .f32⟩ : BufTy).Contents (Elt F) → (⟨S128, .f32⟩ : BufTy).Contents (Elt F)),
    StableHlo.nullary main_c_8 (constantI S_ 32 0#32),
    StableHlo.TRef.nullary main_call0.cst (constant S_ .f32 0x00000000#32),
    StableHlo.TRef.binary (.of main_v53) main_call0.cst main_call0.v0 (fun x v => Host.reduceAdd x v reducesTo_S50000x128_S128_d0 h_S_),
    StableHlo.TRef.unary main_call0.v0 main_call0.v1 (broadcastInDim S1x128 ![1] bcast_S128_S1x128_1),
    StableHlo.TRef.nullary main_call0.cst_0 (constant S_ .f32 0x47435000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S50000x128 ![0, 1] bcast_S1x128_S50000x128_0_1),
    StableHlo.TRef.binary (.of main_v53) main_call0.v4 main_call0.v5 subf,
    StableHlo.TRef.binary main_call0.v5 main_call0.v5 main_call0.v6 mulf,
    StableHlo.TRef.unary (.of main_c_8) main_call0.v7 (sitofp .f32),
    StableHlo.TRef.nullary main_call0.cst_1 (constant S_ .f32 0x47435000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S50000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v56 main_v58 (broadcastInDim S1x128 ![1] bcast_S128_S1x128_1 : (⟨S128, .f32⟩ : BufTy).Contents (Elt F) → (⟨S1x128, .f32⟩ : BufTy).Contents (Elt F)),
    StableHlo.unary main_v58 main_v59 (broadcastInDim S50000x128 ![0, 1] bcast_S1x128_S50000x128_0_1 : (⟨S1x128, .f32⟩ : BufTy).Contents (Elt F) → (⟨S50000x128, .f32⟩ : BufTy).Contents (Elt F)),
    StableHlo.binary main_v53 main_v59 main_v60 (subf : (⟨S50000x128, .f32⟩ : BufTy).Contents (Elt F) → (⟨S50000x128, .f32⟩ : BufTy).Contents (Elt F) → (⟨S50000x128, .f32⟩ : BufTy).Contents (Elt F)),
    StableHlo.nullary main_cst_9 (constant S_ .f32 0x3727C5AC#32),
    StableHlo.unary main_cst_9 main_v61 (broadcastInDim S128 ![] bcast_S_S128 : (⟨S_, .f32⟩ : BufTy).Contents (Elt F) → (⟨S128, .f32⟩ : BufTy).Contents (Elt F)),
    StableHlo.binary main_v57 main_v61 main_v62 (addf : (⟨S128, .f32⟩ : BufTy).Contents (Elt F) → (⟨S128, .f32⟩ : BufTy).Contents (Elt F) → (⟨S128, .f32⟩ : BufTy).Contents (Elt F)),
    StableHlo.unary main_v62 main_v63 (Host.rsqrt : (⟨S128, .f32⟩ : BufTy).Contents (Elt F) → (⟨S128, .f32⟩ : BufTy).Contents (Elt F)),
    StableHlo.unary main_v63 main_v64 (broadcastInDim S1x128 ![1] bcast_S128_S1x128_1 : (⟨S128, .f32⟩ : BufTy).Contents (Elt F) → (⟨S1x128, .f32⟩ : BufTy).Contents (Elt F)),
    StableHlo.unary main_v64 main_v65 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v65 main_v66 (mulf : (⟨S50000x128, .f32⟩ : BufTy).Contents (Elt F) → (⟨S50000x128, .f32⟩ : BufTy).Contents (Elt F) → (⟨S50000x128, .f32⟩ : BufTy).Contents (Elt F)),
    StableHlo.unary main_v11 main_v67 (broadcastInDim S1x128 ![1] bcast_S128_S1x128_1 : (⟨S128, .f32⟩ : BufTy).Contents (Elt F) → (⟨S1x128, .f32⟩ : BufTy).Contents (Elt F)),
    StableHlo.unary main_v67 main_v68 (broadcastInDim S50000x128 ![0, 1] bcast_S1x128_S50000x128_0_1 : (⟨S1x128, .f32⟩ : BufTy).Contents (Elt F) → (⟨S50000x128, .f32⟩ : BufTy).Contents (Elt F)),
    StableHlo.binary main_v66 main_v68 main_v69 (mulf : (⟨S50000x128, .f32⟩ : BufTy).Contents (Elt F) → (⟨S50000x128, .f32⟩ : BufTy).Contents (Elt F) → (⟨S50000x128, .f32⟩ : BufTy).Contents (Elt F)),
    StableHlo.unary main_v13 main_v70 (broadcastInDim S1x128 ![1] bcast_S128_S1x128_1 : (⟨S128, .f32⟩ : BufTy).Contents (Elt F) → (⟨S1x128, .f32⟩ : BufTy).Contents (Elt F)),
    StableHlo.unary main_v70 main_v71 (broadcastInDim S50000x128 ![0, 1] bcast_S1x128_S50000x128_0_1 : (⟨S1x128, .f32⟩ : BufTy).Contents (Elt F) → (⟨S50000x128, .f32⟩ : BufTy).Contents (Elt F)),
    StableHlo.binary main_v69 main_v71 main_v72 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.unary main_cst_10 main_v73 (broadcastInDim S50000x128 ![] bcast_S_S50000x128 : (⟨S_, .f32⟩ : BufTy).Contents (Elt F) → (⟨S50000x128, .f32⟩ : BufTy).Contents (Elt F)),
    StableHlo.binary main_v72 main_v73 main_v74 (cmpf .oge : (⟨S50000x128, .f32⟩ : BufTy).Contents (Elt F) → (⟨S50000x128, .f32⟩ : BufTy).Contents (Elt F) → (⟨S50000x128, .i1⟩ : BufTy).Contents (Elt F)),
    StableHlo.nullary main_cst_11 (constant S_ .f32 0x3DCCCCCD#32),
    StableHlo.unary main_cst_11 main_v75 (broadcastInDim S50000x128 ![] bcast_S_S50000x128 : (⟨S_, .f32⟩ : BufTy).Contents (Elt F) → (⟨S50000x128, .f32⟩ : BufTy).Contents (Elt F)),
    StableHlo.binary main_v75 main_v72 main_v76 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v74) (.of main_v72) (.of main_v76) main_call1.v0 select,
    StableHlo.binary main_v77 main_v18 main_v78 (addf : (⟨S50000x128, .f32⟩ : BufTy).Contents (Elt F) → (⟨S50000x128, .f32⟩ : BufTy).Contents (Elt F) → (⟨S50000x128, .f32⟩ : BufTy).Contents (Elt F)) ]

/-- Operations 115 … 141 of @main's 334. -/
abbrev pcD : List (HloOp τ sig (Elt F)) :=
  [ StableHlo.unary main_arg2 main_v79 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v79 main_v80 rfl shapeCasts_S1x128x128_S128x128,
    StableHlo.unary main_arg3 main_v81 ((extractStridedSlice S1x128 ![1, 0] · slices_S3x128_S1x128_1_0) : (⟨S3x128, .f32⟩ : BufTy).Contents (Elt F) → (⟨S1x128, .f32⟩ : BufTy).Contents (Elt F)),
    StableHlo.reshape main_v81 main_v82 rfl shapeCasts_S1x128_S128,
    StableHlo.unary main_arg4 main_v83 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v83 main_v84 rfl shapeCasts_S1x128x128_S128x128,
    StableHlo.unary main_arg5 main_v85 ((extractStridedSlice S1x128 ![1, 0] · slices_S3x128_S1x128_1_0) : (⟨S3x128, .f32⟩ : BufTy).Contents (Elt F) → (⟨S1x128, .f32⟩ : BufTy).Contents (Elt F)),
    StableHlo.reshape main_v85 main_v86 rfl shapeCasts_S1x128_S128,
    StableHlo.unary main_arg6 main_v87 ((extractStridedSlice S1x128 ![1, 0] · slices_S3x128_S1x128_1_0) : (⟨S3x128, .f32⟩ : BufTy).Contents (Elt F) → (⟨S1x128, .f32⟩ : BufTy).Contents (Elt F)),
    StableHlo.reshape main_v87 main_v88 rfl shapeCasts_S1x128_S128,
    StableHlo.unary main_arg7 main_v89 ((transpose S128x128 [1, 0] · transposes_S128x128_S128x128_1_0) : (⟨S128x128, .f32⟩ : BufTy).Contents (Elt F) → (⟨S128x128, .f32⟩ : BufTy).Contents (Elt F)),
    StableHlo.binary main_v78 main_v89 main_v90 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v91 (broadcastInDim S1x128 ![1] bcast_S128_S1x128_1 : (⟨S128, .f32⟩ : BufTy).Contents (Elt F) → (⟨S1x128, .f32⟩ : BufTy).Contents (Elt F)),
    StableHlo.unary main_v91 main_v92 (broadcastInDim S50000x128 ![0, 1] bcast_S1x128_S50000x128_0_1 : (⟨S1x128, .f32⟩ : BufTy).Contents (Elt F) → (⟨S50000x128, .f32⟩ : BufTy).Contents (Elt F)),
    StableHlo.binary main_v90 main_v92 main_v93 (addf : (⟨S50000x128, .f32⟩ : BufTy).Contents (Elt F) → (⟨S50000x128, .f32⟩ : BufTy).Contents (Elt F) → (⟨S50000x128, .f32⟩ : BufTy).Contents (Elt F)),
    StableHlo.nullary main_c_12 (constantI S_ 32 0#32),
    StableHlo.unary main_c_12 main_v94 (broadcastInDim S800000 ![] bcast_S_S800000 : (⟨S_, .i32⟩ : BufTy).Contents (Elt F) → (⟨S800000, .i32⟩ : BufTy).Contents (Elt F)),
    StableHlo.binary main_v1 main_v94 main_v95 (cmpi .slt : (⟨S800000, .i32⟩ : BufTy).Contents (Elt F) → (⟨S800000, .i32⟩ : BufTy).Contents (Elt F) → (⟨S800000, .i1⟩ : BufTy).Contents (Elt F)),
    StableHlo.nullary main_c_13 (constantI S_ 32 50000#32),
    StableHlo.unary main_c_13 main_v96 (broadcastInDim S800000 ![] bcast_S_S800000 : (⟨S_, .i32⟩ : BufTy).Contents (Elt F) → (⟨S800000, .i32⟩ : BufTy).Contents (Elt F)),
    StableHlo.binary main_v1 main_v96 main_v97 (addi : (⟨S800000, .i32⟩ : BufTy).Contents (Elt F) → (⟨S800000, .i32⟩ : BufTy).Contents (Elt F) → (⟨S800000, .i32⟩ : BufTy).Contents (Elt F)),
    StableHlo.ternary main_v95 main_v97 main_v1 main_v98 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v98 main_v99 (broadcastInDim S800000x1 ![0] bcast_S800000_S800000x1_0 : (⟨S800000, .i32⟩ : BufTy).Contents (Elt F) → (⟨S800000x1, .i32⟩ : BufTy).Contents (Elt F)),
    StableHlo.binary main_v78 main_v99 main_v100 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_14 (constant S_ .f32 0x00000000#32),
    StableHlo.unary main_cst_14 main_v101 (broadcastInDim S50000x128 ![] bcast_S_S50000x128 : (⟨S_, .f32⟩ : BufTy).Contents (Elt F) → (⟨S50000x128, .f32⟩ : BufTy).Contents (Elt F)),
    StableHlo.unary main_v3 main_v102 (broadcastInDim S800000x1 ![0] bcast_S800000_S800000x1_0 : (⟨S800000, .i32⟩ : BufTy).Contents (Elt F) → (⟨S800000x1, .i32⟩ : BufTy).Contents (Elt F)) ]

/-- Operations 142 … 172 of @main's 334. -/
abbrev pcE : List (HloOp τ sig (Elt F)) :=
  [ StableHlo.ternary main_v101 main_v102 main_v100 main_v103 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_15 (constant S_ .f32 0x3F800000#32),
    StableHlo.unary main_cst_15 main_v104 (broadcastInDim S800000 ![] bcast_S_S800000 : (⟨S_, .f32⟩ : BufTy).Contents (Elt F) → (⟨S800000, .f32⟩ : BufTy).Contents (Elt F)),
    StableHlo.nullary main_cst_16 (constant S_ .f32 0x00000000#32),
    StableHlo.unary main_cst_16 main_v105 (broadcastInDim S50000 ![] bcast_S_S50000 : (⟨S_, .f32⟩ : BufTy).Contents (Elt F) → (⟨S50000, .f32⟩ : BufTy).Contents (Elt F)),
    StableHlo.unary main_v3 main_v106 (broadcastInDim S800000x1 ![0] bcast_S800000_S800000x1_0 : (⟨S800000, .i32⟩ : BufTy).Contents (Elt F) → (⟨S800000x1, .i32⟩ : BufTy).Contents (Elt F)),
    StableHlo.ternary main_v105 main_v106 main_v104 main_v107 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_17 (constant S_ .f32 0x3F800000#32),
    StableHlo.unary main_cst_17 main_v108 (broadcastInDim S50000 ![] bcast_S_S50000 : (⟨S_, .f32⟩ : BufTy).Contents (Elt F) → (⟨S50000, .f32⟩ : BufTy).Contents (Elt F)),
    StableHlo.binary main_v107 main_v108 main_v109 (maximumf : (⟨S50000, .f32⟩ : BufTy).Contents (Elt F) → (⟨S50000, .f32⟩ : BufTy).Contents (Elt F) → (⟨S50000, .f32⟩ : BufTy).Contents (Elt F)),
    StableHlo.unary main_v109 main_v110 (broadcastInDim S50000x1 ![0] bcast_S50000_S50000x1_0 : (⟨S50000, .f32⟩ : BufTy).Contents (Elt F) → (⟨S50000x1, .f32⟩ : BufTy).Contents (Elt F)),
    StableHlo.unary main_v110 main_v111 (broadcastInDim S50000x128 ![0, 1] bcast_S50000x1_S50000x128_0_1 : (⟨S50000x1, .f32⟩ : BufTy).Contents (Elt F) → (⟨S50000x128, .f32⟩ : BufTy).Contents (Elt F)),
    StableHlo.binary main_v103 main_v111 main_v112 (Host.divf : (⟨S50000x128, .f32⟩ : BufTy).Contents (Elt F) → (⟨S50000x128, .f32⟩ : BufTy).Contents (Elt F) → (⟨S50000x128, .f32⟩ : BufTy).Contents (Elt F)),
    StableHlo.unary main_v80 main_v113 ((transpose S128x128 [1, 0] · transposes_S128x128_S128x128_1_0) : (⟨S128x128, .f32⟩ : BufTy).Contents (Elt F) → (⟨S128x128, .f32⟩ : BufTy).Contents (Elt F)),
    StableHlo.binary main_v112 main_v113 main_v114 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v82 main_v115 (broadcastInDim S1x128 ![1] bcast_S128_S1x128_1 : (⟨S128, .f32⟩ : BufTy).Contents (Elt F) → (⟨S1x128, .f32⟩ : BufTy).Contents (Elt F)),
    StableHlo.unary main_v115 main_v116 (broadcastInDim S50000x128 ![0, 1] bcast_S1x128_S50000x128_0_1 : (⟨S1x128, .f32⟩ : BufTy).Contents (Elt F) → (⟨S50000x128, .f32⟩ : BufTy).Contents (Elt F)),
    StableHlo.binary main_v114 main_v116 main_v117 (addf : (⟨S50000x128, .f32⟩ : BufTy).Contents (Elt F) → (⟨S50000x128, .f32⟩ : BufTy).Contents (Elt F) → (⟨S50000x128, .f32⟩ : BufTy).Contents (Elt F)),
    StableHlo.unary main_v84 main_v118 ((transpose S128x128 [1, 0] · transposes_S128x128_S128x128_1_0) : (⟨S128x128, .f32⟩ : BufTy).Contents (Elt F) → (⟨S128x128, .f32⟩ : BufTy).Contents (Elt F)),
    StableHlo.binary main_v78 main_v118 main_v119 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v117 main_v119 main_v120 (addf : (⟨S50000x128, .f32⟩ : BufTy).Contents (Elt F) → (⟨S50000x128, .f32⟩ : BufTy).Contents (Elt F) → (⟨S50000x128, .f32⟩ : BufTy).Contents (Elt F)),
    StableHlo.binary main_v120 main_v120 main_v121 (mulf : (⟨S50000x128, .f32⟩ : BufTy).Contents (Elt F) → (⟨S50000x128, .f32⟩ : BufTy).Contents (Elt F) → (⟨S50000x128, .f32⟩ : BufTy).Contents (Elt F)),
    StableHlo.nullary main_cst_18 (constant S_ .f32 0x00000000#32),
    StableHlo.binary main_v121 main_cst_18 main_v122 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v122 main_v123 (broadcastInDim S50000x1 ![0] bcast_S50000_S50000x1_0 : (⟨S50000, .f32⟩ : BufTy).Contents (Elt F) → (⟨S50000x1, .f32⟩ : BufTy).Contents (Elt F)),
    StableHlo.unary main_v123 main_v124 (Host.sqrt : (⟨S50000x1, .f32⟩ : BufTy).Contents (Elt F) → (⟨S50000x1, .f32⟩ : BufTy).Contents (Elt F)),
    StableHlo.nullary main_cst_19 (constant S_ .f32 0x2B8CBCCC#32),
    StableHlo.unary main_cst_19 main_v125 (broadcastInDim S50000x1 ![] bcast_S_S50000x1 : (⟨S_, .f32⟩ : BufTy).Contents (Elt F) → (⟨S50000x1, .f32⟩ : BufTy).Contents (Elt F)),
    StableHlo.binary main_v124 main_v125 main_v126 (maximumf : (⟨S50000x1, .f32⟩ : BufTy).Contents (Elt F) → (⟨S50000x1, .f32⟩ : BufTy).Contents (Elt F) → (⟨S50000x1, .f32⟩ : BufTy).Contents (Elt F)),
    StableHlo.unary main_v126 main_v127 (broadcastInDim S50000x128 ![0, 1] bcast_S50000x1_S50000x128_0_1 : (⟨S50000x1, .f32⟩ : BufTy).Contents (Elt F) → (⟨S50000x128, .f32⟩ : BufTy).Contents (Elt F)),
    StableHlo.binary main_v120 main_v127 main_v128 (Host.divf : (⟨S50000x128, .f32⟩ : BufTy).Contents (Elt F) → (⟨S50000x128, .f32⟩ : BufTy).Contents (Elt F) → (⟨S50000x128, .f32⟩ : BufTy).Contents (Elt F)) ]

/-- Operations 173 … 222 of @main's 334. -/
abbrev pcF : List (HloOp τ sig (Elt F)) :=
  [ StableHlo.nullary main_cst_20 (constant S_ .f32 0x00000000#32),
    StableHlo.binary main_v128 main_cst_20 main_v129 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_21 (constant S_ .f32 0x47435000#32),
    StableHlo.unary main_cst_21 main_v130 (broadcastInDim S128 ![] bcast_S_S128 : (⟨S_, .f32⟩ : BufTy).Contents (Elt F) → (⟨S128, .f32⟩ : BufTy).Contents (Elt F)),
    StableHlo.binary main_v129 main_v130 main_v131 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call2.cst (constant S_ .f32 0x00000000#32),
    StableHlo.TRef.binary (.of main_v128) main_call2.cst main_call2.v0 (fun x v => Host.reduceAdd x v reducesTo_S50000x128_S128_d0 h_S_),
    StableHlo.TRef.unary main_call2.v0 main_call2.v1 (broadcastInDim S1x128 ![1] bcast_S128_S1x128_1),
    StableHlo.TRef.nullary main_call2.cst_0 (constant S_ .f32 0x47435000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S50000x128 ![0, 1] bcast_S1x128_S50000x128_0_1),
    StableHlo.TRef.binary (.of main_v128) main_call2.v4 main_call2.v5 subf,
    StableHlo.TRef.binary main_call2.v5 main_call2.v5 main_call2.v6 mulf,
    StableHlo.TRef.unary (.of main_c_22) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v131 main_v133 (broadcastInDim S1x128 ![1] bcast_S128_S1x128_1 : (⟨S128, .f32⟩ : BufTy).Contents (Elt F) → (⟨S1x128, .f32⟩ : BufTy).Contents (Elt F)),
    StableHlo.unary main_v133 main_v134 (broadcastInDim S50000x128 ![0, 1] bcast_S1x128_S50000x128_0_1 : (⟨S1x128, .f32⟩ : BufTy).Contents (Elt F) → (⟨S50000x128, .f32⟩ : BufTy).Contents (Elt F)),
    StableHlo.binary main_v128 main_v134 main_v135 (subf : (⟨S50000x128, .f32⟩ : BufTy).Contents (Elt F) → (⟨S50000x128, .f32⟩ : BufTy).Contents (Elt F) → (⟨S50000x128, .f32⟩ : BufTy).Contents (Elt F)),
    StableHlo.nullary main_cst_23 (constant S_ .f32 0x3727C5AC#32),
    StableHlo.unary main_cst_23 main_v136 (broadcastInDim S128 ![] bcast_S_S128 : (⟨S_, .f32⟩ : BufTy).Contents (Elt F) → (⟨S128, .f32⟩ : BufTy).Contents (Elt F)),
    StableHlo.binary main_v132 main_v136 main_v137 (addf : (⟨S128, .f32⟩ : BufTy).Contents (Elt F) → (⟨S128, .f32⟩ : BufTy).Contents (Elt F) → (⟨S128, .f32⟩ : BufTy).Contents (Elt F)),
    StableHlo.unary main_v137 main_v138 (Host.rsqrt : (⟨S128, .f32⟩ : BufTy).Contents (Elt F) → (⟨S128, .f32⟩ : BufTy).Contents (Elt F)),
    StableHlo.unary main_v138 main_v139 (broadcastInDim S1x128 ![1] bcast_S128_S1x128_1 : (⟨S128, .f32⟩ : BufTy).Contents (Elt F) → (⟨S1x128, .f32⟩ : BufTy).Contents (Elt F)),
    StableHlo.unary main_v139 main_v140 (broadcastInDim S50000x128 ![0, 1] bcast_S1x128_S50000x128_0_1 : (⟨S1x128, .f32⟩ : BufTy).Contents (Elt F) → (⟨S50000x128, .f32⟩ : BufTy).Contents (Elt F)),
    StableHlo.binary main_v135 main_v140 main_v141 (mulf : (⟨S50000x128, .f32⟩ : BufTy).Contents (Elt F) → (⟨S50000x128, .f32⟩ : BufTy).Contents (Elt F) → (⟨S50000x128, .f32⟩ : BufTy).Contents (Elt F)),
    StableHlo.unary main_v86 main_v142 (broadcastInDim S1x128 ![1] bcast_S128_S1x128_1 : (⟨S128, .f32⟩ : BufTy).Contents (Elt F) → (⟨S1x128, .f32⟩ : BufTy).Contents (Elt F)),
    StableHlo.unary main_v142 main_v143 (broadcastInDim S50000x128 ![0, 1] bcast_S1x128_S50000x128_0_1 : (⟨S1x128, .f32⟩ : BufTy).Contents (Elt F) → (⟨S50000x128, .f32⟩ : BufTy).Contents (Elt F)),
    StableHlo.binary main_v141 main_v143 main_v144 (mulf : (⟨S50000x128, .f32⟩ : BufTy).Contents (Elt F) → (⟨S50000x128, .f32⟩ : BufTy).Contents (Elt F) → (⟨S50000x128, .f32⟩ : BufTy).Contents (Elt F)),
    StableHlo.unary main_v88 main_v145 (broadcastInDim S1x128 ![1] bcast_S128_S1x128_1 : (⟨S128, .f32⟩ : BufTy).Contents (Elt F) → (⟨S1x128, .f32⟩ : BufTy).Contents (Elt F)),
    StableHlo.unary main_v145 main_v146 (broadcastInDim S50000x128 ![0, 1] bcast_S1x128_S50000x128_0_1 : (⟨S1x128, .f32⟩ : BufTy).Contents (Elt F) → (⟨S50000x128, .f32⟩ : BufTy).Contents (Elt F)),
    StableHlo.binary main_v144 main_v146 main_v147 (addf : (⟨S50000x128, .f32⟩ : BufTy).Contents (Elt F) → (⟨S50000x128, .f32⟩ : BufTy).Contents (Elt F) → (⟨S50000x128, .f32⟩ : BufTy).Contents (Elt F)),
    StableHlo.nullary main_cst_24 (constant S_ .f32 0x00000000#32),
    StableHlo.unary main_cst_24 main_v148 (broadcastInDim S50000x128 ![] bcast_S_S50000x128 : (⟨S_, .f32⟩ : BufTy).Contents (Elt F) → (⟨S50000x128, .f32⟩ : BufTy).Contents (Elt F)),
    StableHlo.binary main_v147 main_v148 main_v149 (cmpf .oge : (⟨S50000x128, .f32⟩ : BufTy).Contents (Elt F) → (⟨S50000x128, .f32⟩ : BufTy).Contents (Elt F) → (⟨S50000x128, .i1⟩ : BufTy).Contents (Elt F)),
    StableHlo.nullary main_cst_25 (constant S_ .f32 0x3DCCCCCD#32),
    StableHlo.unary main_cst_25 main_v150 (broadcastInDim S50000x128 ![] bcast_S_S50000x128 : (⟨S_, .f32⟩ : BufTy).Contents (Elt F) → (⟨S50000x128, .f32⟩ : BufTy).Contents (Elt F)),
    StableHlo.binary main_v150 main_v147 main_v151 (mulf : (⟨S50000x128, .f32⟩ : BufTy).Contents (Elt F) → (⟨S50000x128, .f32⟩ : BufTy).Contents (Elt F) → (⟨S50000x128, .f32⟩ : BufTy).Contents (Elt F)) ]

/-- Operations 223 … 224 of @main's 334. -/
abbrev pcG : List (HloOp τ sig (Elt F)) :=
  [ StableHlo.TRef.ternary (.of main_v149) (.of main_v147) (.of main_v151) main_call3.v0 select,
    StableHlo.binary main_v152 main_v93 main_v153 (addf : (⟨S50000x128, .f32⟩ : BufTy).Contents (Elt F) → (⟨S50000x128, .f32⟩ : BufTy).Contents (Elt F) → (⟨S50000x128, .f32⟩ : BufTy).Contents (Elt F)) ]

/-- Operations 225 … 282 of @main's 334. -/
abbrev pcH : List (HloOp τ sig (Elt F)) :=
  [ StableHlo.unary main_arg2 main_v154 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v154 main_v155 rfl shapeCasts_S1x128x128_S128x128,
    StableHlo.unary main_arg3 main_v156 ((extractStridedSlice S1x128 ![2, 0] · slices_S3x128_S1x128_2_0) : (⟨S3x128, .f32⟩ : BufTy).Contents (Elt F) → (⟨S1x128, .f32⟩ : BufTy).Contents (Elt F)),
    StableHlo.reshape main_v156 main_v157 rfl shapeCasts_S1x128_S128,
    StableHlo.unary main_arg4 main_v158 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v158 main_v159 rfl shapeCasts_S1x128x128_S128x128,
    StableHlo.unary main_arg5 main_v160 ((extractStridedSlice S1x128 ![2, 0] · slices_S3x128_S1x128_2_0) : (⟨S3x128, .f32⟩ : BufTy).Contents (Elt F) → (⟨S1x128, .f32⟩ : BufTy).Contents (Elt F)),
    StableHlo.reshape main_v160 main_v161 rfl shapeCasts_S1x128_S128,
    StableHlo.unary main_arg6 main_v162 ((extractStridedSlice S1x128 ![2, 0] · slices_S3x128_S1x128_2_0) : (⟨S3x128, .f32⟩ : BufTy).Contents (Elt F) → (⟨S1x128, .f32⟩ : BufTy).Contents (Elt F)),
    StableHlo.reshape main_v162 main_v163 rfl shapeCasts_S1x128_S128,
    StableHlo.unary main_arg7 main_v164 ((transpose S128x128 [1, 0] · transposes_S128x128_S128x128_1_0) : (⟨S128x128, .f32⟩ : BufTy).Contents (Elt F) → (⟨S128x128, .f32⟩ : BufTy).Contents (Elt F)),
    StableHlo.binary main_v153 main_v164 main_v165 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_arg8 main_v166 (broadcastInDim S1x128 ![1] bcast_S128_S1x128_1 : (⟨S128, .f32⟩ : BufTy).Contents (Elt F) → (⟨S1x128, .f32⟩ : BufTy).Contents (Elt F)),
    StableHlo.unary main_v166 main_v167 (broadcastInDim S50000x128 ![0, 1] bcast_S1x128_S50000x128_0_1 : (⟨S1x128, .f32⟩ : BufTy).Contents (Elt F) → (⟨S50000x128, .f32⟩ : BufTy).Contents (Elt F)),
    StableHlo.binary main_v165 main_v167 main_v168 (addf : (⟨S50000x128, .f32⟩ : BufTy).Contents (Elt F) → (⟨S50000x128, .f32⟩ : BufTy).Contents (Elt F) → (⟨S50000x128, .f32⟩ : BufTy).Contents (Elt F)),
    StableHlo.nullary main_c_26 (constantI S_ 32 0#32),
    StableHlo.unary main_c_26 main_v169 (broadcastInDim S800000 ![] bcast_S_S800000 : (⟨S_, .i32⟩ : BufTy).Contents (Elt F) → (⟨S800000, .i32⟩ : BufTy).Contents (Elt F)),
    StableHlo.binary main_v1 main_v169 main_v170 (cmpi .slt : (⟨S800000, .i32⟩ : BufTy).Contents (Elt F) → (⟨S800000, .i32⟩ : BufTy).Contents (Elt F) → (⟨S800000, .i1⟩ : BufTy).Contents (Elt F)),
    StableHlo.nullary main_c_27 (constantI S_ 32 50000#32),
    StableHlo.unary main_c_27 main_v171 (broadcastInDim S800000 ![] bcast_S_S800000 : (⟨S_, .i32⟩ : BufTy).Contents (Elt F) → (⟨S800000, .i32⟩ : BufTy).Contents (Elt F)),
    StableHlo.binary main_v1 main_v171 main_v172 (addi : (⟨S800000, .i32⟩ : BufTy).Contents (Elt F) → (⟨S800000, .i32⟩ : BufTy).Contents (Elt F) → (⟨S800000, .i32⟩ : BufTy).Contents (Elt F)),
    StableHlo.ternary main_v170 main_v172 main_v1 main_v173 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v173 main_v174 (broadcastInDim S800000x1 ![0] bcast_S800000_S800000x1_0 : (⟨S800000, .i32⟩ : BufTy).Contents (Elt F) → (⟨S800000x1, .i32⟩ : BufTy).Contents (Elt F)),
    StableHlo.binary main_v153 main_v174 main_v175 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst_28 (constant S_ .f32 0x00000000#32),
    StableHlo.unary main_cst_28 main_v176 (broadcastInDim S50000x128 ![] bcast_S_S50000x128 : (⟨S_, .f32⟩ : BufTy).Contents (Elt F) → (⟨S50000x128, .f32⟩ : BufTy).Contents (Elt F)),
    StableHlo.unary main_v3 main_v177 (broadcastInDim S800000x1 ![0] bcast_S800000_S800000x1_0 : (⟨S800000, .i32⟩ : BufTy).Contents (Elt F) → (⟨S800000x1, .i32⟩ : BufTy).Contents (Elt F)),
    StableHlo.ternary main_v176 main_v177 main_v175 main_v178 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_29 (constant S_ .f32 0x3F800000#32),
    StableHlo.unary main_cst_29 main_v179 (broadcastInDim S800000 ![] bcast_S_S800000 : (⟨S_, .f32⟩ : BufTy).Contents (Elt F) → (⟨S800000, .f32⟩ : BufTy).Contents (Elt F)),
    StableHlo.nullary main_cst_30 (constant S_ .f32 0x00000000#32),
    StableHlo.unary main_cst_30 main_v180 (broadcastInDim S50000 ![] bcast_S_S50000 : (⟨S_, .f32⟩ : BufTy).Contents (Elt F) → (⟨S50000, .f32⟩ : BufTy).Contents (Elt F)),
    StableHlo.unary main_v3 main_v181 (broadcastInDim S800000x1 ![0] bcast_S800000_S800000x1_0 : (⟨S800000, .i32⟩ : BufTy).Contents (Elt F) → (⟨S800000x1, .i32⟩ : BufTy).Contents (Elt F)),
    StableHlo.ternary main_v180 main_v181 main_v179 main_v182 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    StableHlo.nullary main_cst_31 (constant S_ .f32 0x3F800000#32),
    StableHlo.unary main_cst_31 main_v183 (broadcastInDim S50000 ![] bcast_S_S50000 : (⟨S_, .f32⟩ : BufTy).Contents (Elt F) → (⟨S50000, .f32⟩ : BufTy).Contents (Elt F)),
    StableHlo.binary main_v182 main_v183 main_v184 (maximumf : (⟨S50000, .f32⟩ : BufTy).Contents (Elt F) → (⟨S50000, .f32⟩ : BufTy).Contents (Elt F) → (⟨S50000, .f32⟩ : BufTy).Contents (Elt F)),
    StableHlo.unary main_v184 main_v185 (broadcastInDim S50000x1 ![0] bcast_S50000_S50000x1_0 : (⟨S50000, .f32⟩ : BufTy).Contents (Elt F) → (⟨S50000x1, .f32⟩ : BufTy).Contents (Elt F)),
    StableHlo.unary main_v185 main_v186 (broadcastInDim S50000x128 ![0, 1] bcast_S50000x1_S50000x128_0_1 : (⟨S50000x1, .f32⟩ : BufTy).Contents (Elt F) → (⟨S50000x128, .f32⟩ : BufTy).Contents (Elt F)),
    StableHlo.binary main_v178 main_v186 main_v187 (Host.divf : (⟨S50000x128, .f32⟩ : BufTy).Contents (Elt F) → (⟨S50000x128, .f32⟩ : BufTy).Contents (Elt F) → (⟨S50000x128, .f32⟩ : BufTy).Contents (Elt F)),
    StableHlo.unary main_v155 main_v188 ((transpose S128x128 [1, 0] · transposes_S128x128_S128x128_1_0) : (⟨S128x128, .f32⟩ : BufTy).Contents (Elt F) → (⟨S128x128, .f32⟩ : BufTy).Contents (Elt F)),
    StableHlo.binary main_v187 main_v188 main_v189 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.unary main_v157 main_v190 (broadcastInDim S1x128 ![1] bcast_S128_S1x128_1 : (⟨S128, .f32⟩ : BufTy).Contents (Elt F) → (⟨S1x128, .f32⟩ : BufTy).Contents (Elt F)),
    StableHlo.unary main_v190 main_v191 (broadcastInDim S50000x128 ![0, 1] bcast_S1x128_S50000x128_0_1 : (⟨S1x128, .f32⟩ : BufTy).Contents (Elt F) → (⟨S50000x128, .f32⟩ : BufTy).Contents (Elt F)),
    StableHlo.binary main_v189 main_v191 main_v192 (addf : (⟨S50000x128, .f32⟩ : BufTy).Contents (Elt F) → (⟨S50000x128, .f32⟩ : BufTy).Contents (Elt F) → (⟨S50000x128, .f32⟩ : BufTy).Contents (Elt F)),
    StableHlo.unary main_v159 main_v193 ((transpose S128x128 [1, 0] · transposes_S128x128_S128x128_1_0) : (⟨S128x128, .f32⟩ : BufTy).Contents (Elt F) → (⟨S128x128, .f32⟩ : BufTy).Contents (Elt F)),
    StableHlo.binary main_v153 main_v193 main_v194 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v192 main_v194 main_v195 (addf : (⟨S50000x128, .f32⟩ : BufTy).Contents (Elt F) → (⟨S50000x128, .f32⟩ : BufTy).Contents (Elt F) → (⟨S50000x128, .f32⟩ : BufTy).Contents (Elt F)),
    StableHlo.binary main_v195 main_v195 main_v196 (mulf : (⟨S50000x128, .f32⟩ : BufTy).Contents (Elt F) → (⟨S50000x128, .f32⟩ : BufTy).Contents (Elt F) → (⟨S50000x128, .f32⟩ : BufTy).Contents (Elt F)),
    StableHlo.nullary main_cst_32 (constant S_ .f32 0x00000000#32),
    StableHlo.binary main_v196 main_cst_32 main_v197 ((fun x v => Host.reduceAdd x v reducesTo_S50000x128_S50000_d1 h_S_) : (⟨S50000x128, .f32⟩ : BufTy).Contents (Elt F) → (⟨S_, .f32⟩ : BufTy).Contents (Elt F) → (⟨S50000, .f32⟩ : BufTy).Contents (Elt F)),
    StableHlo.unary main_v197 main_v198 (broadcastInDim S50000x1 ![0] bcast_S50000_S50000x1_0 : (⟨S50000, .f32⟩ : BufTy).Contents (Elt F) → (⟨S50000x1, .f32⟩ : BufTy).Contents (Elt F)),
    StableHlo.unary main_v198 main_v199 (Host.sqrt : (⟨S50000x1, .f32⟩ : BufTy).Contents (Elt F) → (⟨S50000x1, .f32⟩ : BufTy).Contents (Elt F)),
    StableHlo.nullary main_cst_33 (constant S_ .f32 0x2B8CBCCC#32),
    StableHlo.unary main_cst_33 main_v200 (broadcastInDim S50000x1 ![] bcast_S_S50000x1 : (⟨S_, .f32⟩ : BufTy).Contents (Elt F) → (⟨S50000x1, .f32⟩ : BufTy).Contents (Elt F)),
    StableHlo.binary main_v199 main_v200 main_v201 (maximumf : (⟨S50000x1, .f32⟩ : BufTy).Contents (Elt F) → (⟨S50000x1, .f32⟩ : BufTy).Contents (Elt F) → (⟨S50000x1, .f32⟩ : BufTy).Contents (Elt F)),
    StableHlo.unary main_v201 main_v202 (broadcastInDim S50000x128 ![0, 1] bcast_S50000x1_S50000x128_0_1 : (⟨S50000x1, .f32⟩ : BufTy).Contents (Elt F) → (⟨S50000x128, .f32⟩ : BufTy).Contents (Elt F)),
    StableHlo.binary main_v195 main_v202 main_v203 (Host.divf : (⟨S50000x128, .f32⟩ : BufTy).Contents (Elt F) → (⟨S50000x128, .f32⟩ : BufTy).Contents (Elt F) → (⟨S50000x128, .f32⟩ : BufTy).Contents (Elt F)) ]

/-- Operations 283 … 334 of @main's 334. -/
abbrev pcI : List (HloOp τ sig (Elt F)) :=
  [ StableHlo.nullary main_cst_34 (constant S_ .f32 0x00000000#32),
    StableHlo.binary main_v203 main_cst_34 main_v204 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_35 (constant S_ .f32 0x47435000#32),
    StableHlo.unary main_cst_35 main_v205 (broadcastInDim S128 ![] bcast_S_S128 : (⟨S_, .f32⟩ : BufTy).Contents (Elt F) → (⟨S128, .f32⟩ : BufTy).Contents (Elt F)),
    StableHlo.binary main_v204 main_v205 main_v206 (Host.divf : (⟨S128, .f32⟩ : BufTy).Contents (Elt F) → (⟨S128, .f32⟩ : BufTy).Contents (Elt F) → (⟨S128, .f32⟩ : BufTy).Contents (Elt F)),
    StableHlo.nullary main_c_36 (constantI S_ 32 0#32),
    StableHlo.TRef.nullary main_call4.cst (constant S_ .f32 0x00000000#32),
    StableHlo.TRef.binary (.of main_v203) main_call4.cst main_call4.v0 (fun x v => Host.reduceAdd x v reducesTo_S50000x128_S128_d0 h_S_),
    StableHlo.TRef.unary main_call4.v0 main_call4.v1 (broadcastInDim S1x128 ![1] bcast_S128_S1x128_1),
    StableHlo.TRef.nullary main_call4.cst_0 (constant S_ .f32 0x47435000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S50000x128 ![0, 1] bcast_S1x128_S50000x128_0_1),
    StableHlo.TRef.binary (.of main_v203) main_call4.v4 main_call4.v5 subf,
    StableHlo.TRef.binary main_call4.v5 main_call4.v5 main_call4.v6 mulf,
    StableHlo.TRef.unary (.of main_c_36) main_call4.v7 (sitofp .f32),
    StableHlo.TRef.nullary main_call4.cst_1 (constant S_ .f32 0x47435000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S50000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v206 main_v208 (broadcastInDim S1x128 ![1] bcast_S128_S1x128_1 : (⟨S128, .f32⟩ : BufTy).Contents (Elt F) → (⟨S1x128, .f32⟩ : BufTy).Contents (Elt F)),
    StableHlo.unary main_v208 main_v209 (broadcastInDim S50000x128 ![0, 1] bcast_S1x128_S50000x128_0_1 : (⟨S1x128, .f32⟩ : BufTy).Contents (Elt F) → (⟨S50000x128, .f32⟩ : BufTy).Contents (Elt F)),
    StableHlo.binary main_v203 main_v209 main_v210 (subf : (⟨S50000x128, .f32⟩ : BufTy).Contents (Elt F) → (⟨S50000x128, .f32⟩ : BufTy).Contents (Elt F) → (⟨S50000x128, .f32⟩ : BufTy).Contents (Elt F)),
    StableHlo.nullary main_cst_37 (constant S_ .f32 0x3727C5AC#32),
    StableHlo.unary main_cst_37 main_v211 (broadcastInDim S128 ![] bcast_S_S128 : (⟨S_, .f32⟩ : BufTy).Contents (Elt F) → (⟨S128, .f32⟩ : BufTy).Contents (Elt F)),
    StableHlo.binary main_v207 main_v211 main_v212 (addf : (⟨S128, .f32⟩ : BufTy).Contents (Elt F) → (⟨S128, .f32⟩ : BufTy).Contents (Elt F) → (⟨S128, .f32⟩ : BufTy).Contents (Elt F)),
    StableHlo.unary main_v212 main_v213 (Host.rsqrt : (⟨S128, .f32⟩ : BufTy).Contents (Elt F) → (⟨S128, .f32⟩ : BufTy).Contents (Elt F)),
    StableHlo.unary main_v213 main_v214 (broadcastInDim S1x128 ![1] bcast_S128_S1x128_1 : (⟨S128, .f32⟩ : BufTy).Contents (Elt F) → (⟨S1x128, .f32⟩ : BufTy).Contents (Elt F)),
    StableHlo.unary main_v214 main_v215 (broadcastInDim S50000x128 ![0, 1] bcast_S1x128_S50000x128_0_1 : (⟨S1x128, .f32⟩ : BufTy).Contents (Elt F) → (⟨S50000x128, .f32⟩ : BufTy).Contents (Elt F)),
    StableHlo.binary main_v210 main_v215 main_v216 (mulf : (⟨S50000x128, .f32⟩ : BufTy).Contents (Elt F) → (⟨S50000x128, .f32⟩ : BufTy).Contents (Elt F) → (⟨S50000x128, .f32⟩ : BufTy).Contents (Elt F)),
    StableHlo.unary main_v161 main_v217 (broadcastInDim S1x128 ![1] bcast_S128_S1x128_1 : (⟨S128, .f32⟩ : BufTy).Contents (Elt F) → (⟨S1x128, .f32⟩ : BufTy).Contents (Elt F)),
    StableHlo.unary main_v217 main_v218 (broadcastInDim S50000x128 ![0, 1] bcast_S1x128_S50000x128_0_1 : (⟨S1x128, .f32⟩ : BufTy).Contents (Elt F) → (⟨S50000x128, .f32⟩ : BufTy).Contents (Elt F)),
    StableHlo.binary main_v216 main_v218 main_v219 (mulf : (⟨S50000x128, .f32⟩ : BufTy).Contents (Elt F) → (⟨S50000x128, .f32⟩ : BufTy).Contents (Elt F) → (⟨S50000x128, .f32⟩ : BufTy).Contents (Elt F)),
    StableHlo.unary main_v163 main_v220 (broadcastInDim S1x128 ![1] bcast_S128_S1x128_1 : (⟨S128, .f32⟩ : BufTy).Contents (Elt F) → (⟨S1x128, .f32⟩ : BufTy).Contents (Elt F)),
    StableHlo.unary main_v220 main_v221 (broadcastInDim S50000x128 ![0, 1] bcast_S1x128_S50000x128_0_1 : (⟨S1x128, .f32⟩ : BufTy).Contents (Elt F) → (⟨S50000x128, .f32⟩ : BufTy).Contents (Elt F)),
    StableHlo.binary main_v219 main_v221 main_v222 (addf : (⟨S50000x128, .f32⟩ : BufTy).Contents (Elt F) → (⟨S50000x128, .f32⟩ : BufTy).Contents (Elt F) → (⟨S50000x128, .f32⟩ : BufTy).Contents (Elt F)),
    StableHlo.nullary main_cst_38 (constant S_ .f32 0x00000000#32),
    StableHlo.unary main_cst_38 main_v223 (broadcastInDim S50000x128 ![] bcast_S_S50000x128 : (⟨S_, .f32⟩ : BufTy).Contents (Elt F) → (⟨S50000x128, .f32⟩ : BufTy).Contents (Elt F)),
    StableHlo.binary main_v222 main_v223 main_v224 (cmpf .oge : (⟨S50000x128, .f32⟩ : BufTy).Contents (Elt F) → (⟨S50000x128, .f32⟩ : BufTy).Contents (Elt F) → (⟨S50000x128, .i1⟩ : BufTy).Contents (Elt F)),
    StableHlo.nullary main_cst_39 (constant S_ .f32 0x3DCCCCCD#32),
    StableHlo.unary main_cst_39 main_v225 (broadcastInDim S50000x128 ![] bcast_S_S50000x128 : (⟨S_, .f32⟩ : BufTy).Contents (Elt F) → (⟨S50000x128, .f32⟩ : BufTy).Contents (Elt F)),
    StableHlo.binary main_v225 main_v222 main_v226 (mulf : (⟨S50000x128, .f32⟩ : BufTy).Contents (Elt F) → (⟨S50000x128, .f32⟩ : BufTy).Contents (Elt F) → (⟨S50000x128, .f32⟩ : BufTy).Contents (Elt F)),
    StableHlo.TRef.ternary (.of main_v224) (.of main_v222) (.of main_v226) main_call5.v0 select,
    StableHlo.binary main_v227 main_v168 main_v228 (addf : (⟨S50000x128, .f32⟩ : BufTy).Contents (Elt F) → (⟨S50000x128, .f32⟩ : BufTy).Contents (Elt F) → (⟨S50000x128, .f32⟩ : BufTy).Contents (Elt F)) ]

/-- The five windows @main is printed in. -/
abbrev P0 : List (HloOp τ sig (Elt F)) := pcA
abbrev P1 : List (HloOp τ sig (Elt F)) := pcB ++ (pcC ++ pcD)
abbrev P2 : List (HloOp τ sig (Elt F)) := pcE ++ pcF
abbrev P3 : List (HloOp τ sig (Elt F)) := pcG ++ pcH
abbrev P4 : List (HloOp τ sig (Elt F)) := pcI
/-- @main's operations, in order. -/
abbrev ops : List (HloOp τ sig (Elt F)) := P0 ++ (P1 ++ (P2 ++ (P3 ++ P4)))

set_option maxRecDepth 8192 in
theorem part0_eq (d : Dev nD) : main_part0 (F := F) d = seq P0 := rfl
set_option maxRecDepth 8192 in
theorem part1_eq (d : Dev nD) : main_part1 (F := F) d = seq P1 := rfl
set_option maxRecDepth 8192 in
theorem part2_eq (d : Dev nD) : main_part2 (F := F) d = seq P2 := rfl
set_option maxRecDepth 8192 in
theorem part3_eq (d : Dev nD) : main_part3 (F := F) d = seq P3 := rfl
set_option maxRecDepth 8192 in
theorem part4_eq (d : Dev nD) : main_part4 (F := F) d = seq P4 := rfl

/-- @main is the straight line of its operations: window by window, the windows run one after the other. -/
theorem main_eq (d : Dev nD) : main (F := F) d = seq ops := by
  show (main_part0 d >>= fun _ => main_part1 d >>= fun _ => main_part2 d >>= fun _ => main_part3 d >>= fun _ => main_part4 d) = _
  rw [part0_eq, part1_eq, part2_eq, part3_eq, part4_eq]
  simp only [ops, seq_append]

theorem scopedRefs_eq : (Finset.univ.filter fun b : Ref sig .tc => b.isScoped) = ∅ := by decide
theorem scopedSems_eq : (Finset.univ.filter fun sm : SemLoc sig => sm.isScoped .tc) = ∅ := by decide

theorem pcA_sub : (pcA : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub ..⟩
theorem pcA_fresh : (pcA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch A writes, in order. -/
abbrev wrA : List (Ref sig .tc) := [main_v0, main_v1, main_v2, main_v3, main_v4, main_v5, main_v6, main_v7, main_v8, main_v9, main_v10, main_v11, main_v12, main_v13, main_v14, main_v15, main_v16, main_v17, main_v18, main_c, main_v19, main_v20, main_c_0, main_v21, main_v22, main_v23, main_v24, main_v25, main_cst, main_v26, main_v27, main_v28, main_cst_1, main_v29, main_cst_2, main_v30, main_v31, main_v32, main_cst_3, main_v33, main_v34, main_v35, main_v36, main_v37, main_v38, main_v39, main_v40, main_v41, main_v42, main_v43, main_v44, main_v45, main_v46, main_cst_4, main_v47, main_v48, main_v49, main_cst_5, main_v50, main_v51]
theorem pcA_writes : (pcA : List (HloOp τ sig (Elt F))).Forall fun op => op.writes ⊆ ((wrA).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer stretch A does not write keeps its contents through it. -/
theorem keepA (W : Valuation τ sig (Elt F)) {r : Ref sig .tc} (hr : r ∉ wrA) : after pcA W (Proc.devRef .tc r) = W (Proc.devRef .tc r) :=
  after_of_writes_sub pcA W pcA_writes hr

theorem pcB_sub : (pcB : List (HloOp τ sig (Elt F))).Forall fun op => op.bufs ⊆ tcRefs τ sig :=
  ⟨unary_bufs_sub .., binary_bufs_sub ..⟩
theorem pcB_fresh : (pcB : List (HloOp τ sig (Elt F))).Forall fun op => op.fresh = ∅ :=
  ⟨rfl, rfl⟩
/-- The buffers stretch B writes, in order. -/
abbrev wrB : List (Ref sig .tc) := [main_v52, main_v53]
theorem pcB_writes : (pcB : List (HloOp τ sig (Elt F))).Forall fun op => op.writes ⊆ ((wrB).map (Proc.devRef (τ := τ) .tc)).toFinset :=
  ⟨writes_sub_of_mem rfl (by decide), writes_sub_of_mem rfl (by decide)⟩
/-- A buffer stretch B does not write keeps its contents through it. -/
theorem keepB (W : Valuation τ sig (Elt F)) {r : Ref sig .tc} (hr : r ∉ wrB) : after pcB W (Proc.devRef .tc r) = W (Proc.devRef .tc r) :=
  after_of_writes_sub pcB W pcB_writes hr

theorem pcC_sub : (pcC : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩
theorem pcC_fresh : (pcC : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch C writes, in order. -/
abbrev wrC : List (Ref sig .tc) := [main_cst_6, main_v54, main_cst_7, main_v55, main_v56, main_c_8, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v57, main_v58, main_v59, main_v60, main_cst_9, main_v61, main_v62, main_v63, main_v64, main_v65, main_v66, main_v67, main_v68, main_v69, main_v70, main_v71, main_v72, main_cst_10, main_v73, main_v74, main_cst_11, main_v75, main_v76, main_v77, main_v78]
theorem pcC_writes : (pcC : List (HloOp τ sig (Elt F))).Forall fun op => op.writes ⊆ ((wrC).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer stretch C does not write keeps its contents through it. -/
theorem keepC (W : Valuation τ sig (Elt F)) {r : Ref sig .tc} (hr : r ∉ wrC) : after pcC W (Proc.devRef .tc r) = W (Proc.devRef .tc r) :=
  after_of_writes_sub pcC W pcC_writes hr

theorem pcD_sub : (pcD : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩
theorem pcD_fresh : (pcD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl⟩
/-- The buffers stretch D writes, in order. -/
abbrev wrD : List (Ref sig .tc) := [main_v79, main_v80, main_v81, main_v82, main_v83, main_v84, main_v85, main_v86, main_v87, main_v88, main_v89, main_v90, main_v91, main_v92, main_v93, main_c_12, main_v94, main_v95, main_c_13, main_v96, main_v97, main_v98, main_v99, main_v100, main_cst_14, main_v101, main_v102]
theorem pcD_writes : (pcD : List (HloOp τ sig (Elt F))).Forall fun op => op.writes ⊆ ((wrD).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer stretch D does not write keeps its contents through it. -/
theorem keepD (W : Valuation τ sig (Elt F)) {r : Ref sig .tc} (hr : r ∉ wrD) : after pcD W (Proc.devRef .tc r) = W (Proc.devRef .tc r) :=
  after_of_writes_sub pcD W pcD_writes hr

theorem pcE_sub : (pcE : List (HloOp τ sig (Elt F))).Forall fun op => op.bufs ⊆ tcRefs τ sig :=
  ⟨ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem pcE_fresh : (pcE : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch E writes, in order. -/
abbrev wrE : List (Ref sig .tc) := [main_v103, main_cst_15, main_v104, main_cst_16, main_v105, main_v106, main_v107, main_cst_17, main_v108, main_v109, main_v110, main_v111, main_v112, main_v113, main_v114, main_v115, main_v116, main_v117, main_v118, main_v119, main_v120, main_v121, main_cst_18, main_v122, main_v123, main_v124, main_cst_19, main_v125, main_v126, main_v127, main_v128]
theorem pcE_writes : (pcE : List (HloOp τ sig (Elt F))).Forall fun op => op.writes ⊆ ((wrE).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer stretch E does not write keeps its contents through it. -/
theorem keepE (W : Valuation τ sig (Elt F)) {r : Ref sig .tc} (hr : r ∉ wrE) : after pcE W (Proc.devRef .tc r) = W (Proc.devRef .tc r) :=
  after_of_writes_sub pcE W pcE_writes hr

theorem pcF_sub : (pcF : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub ..⟩
theorem pcF_fresh : (pcF : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch F writes, in order. -/
abbrev wrF : List (Ref sig .tc) := [main_cst_20, main_v129, main_cst_21, main_v130, main_v131, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v132, main_v133, main_v134, main_v135, main_cst_23, main_v136, main_v137, main_v138, main_v139, main_v140, main_v141, main_v142, main_v143, main_v144, main_v145, main_v146, main_v147, main_cst_24, main_v148, main_v149, main_cst_25, main_v150, main_v151]
theorem pcF_writes : (pcF : List (HloOp τ sig (Elt F))).Forall fun op => op.writes ⊆ ((wrF).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer stretch F does not write keeps its contents through it. -/
theorem keepF (W : Valuation τ sig (Elt F)) {r : Ref sig .tc} (hr : r ∉ wrF) : after pcF W (Proc.devRef .tc r) = W (Proc.devRef .tc r) :=
  after_of_writes_sub pcF W pcF_writes hr

theorem pcG_sub : (pcG : List (HloOp τ sig (Elt F))).Forall fun op => op.bufs ⊆ tcRefs τ sig :=
  ⟨ternary_bufs_sub .., binary_bufs_sub ..⟩
theorem pcG_fresh : (pcG : List (HloOp τ sig (Elt F))).Forall fun op => op.fresh = ∅ :=
  ⟨rfl, rfl⟩
/-- The buffers stretch G writes, in order. -/
abbrev wrG : List (Ref sig .tc) := [main_v152, main_v153]
theorem pcG_writes : (pcG : List (HloOp τ sig (Elt F))).Forall fun op => op.writes ⊆ ((wrG).map (Proc.devRef (τ := τ) .tc)).toFinset :=
  ⟨writes_sub_of_mem rfl (by decide), writes_sub_of_mem rfl (by decide)⟩
/-- A buffer stretch G does not write keeps its contents through it. -/
theorem keepG (W : Valuation τ sig (Elt F)) {r : Ref sig .tc} (hr : r ∉ wrG) : after pcG W (Proc.devRef .tc r) = W (Proc.devRef .tc r) :=
  after_of_writes_sub pcG W pcG_writes hr

theorem pcH_sub : (pcH : List (HloOp τ sig (Elt F))).Forall fun op => op.bufs ⊆ tcRefs τ sig :=
  ⟨unary_bufs_sub .., reshape_bufs_sub .., unary_bufs_sub .., reshape_bufs_sub .., unary_bufs_sub .., reshape_bufs_sub .., unary_bufs_sub .., reshape_bufs_sub .., unary_bufs_sub .., reshape_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., unary_bufs_sub .., binary_bufs_sub .., unary_bufs_sub .., unary_bufs_sub .., binary_bufs_sub .., unary_bufs_sub .., binary_bufs_sub .., binary_bufs_sub .., binary_bufs_sub .., nullary_bufs_sub .., binary_bufs_sub .., unary_bufs_sub .., unary_bufs_sub .., nullary_bufs_sub .., unary_bufs_sub .., binary_bufs_sub .., unary_bufs_sub .., binary_bufs_sub ..⟩
theorem pcH_fresh : (pcH : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch H writes, in order. -/
abbrev wrH : List (Ref sig .tc) := [main_v154, main_v155, main_v156, main_v157, main_v158, main_v159, main_v160, main_v161, main_v162, main_v163, main_v164, main_v165, main_v166, main_v167, main_v168, main_c_26, main_v169, main_v170, main_c_27, main_v171, main_v172, main_v173, main_v174, main_v175, main_cst_28, main_v176, main_v177, main_v178, main_cst_29, main_v179, main_cst_30, main_v180, main_v181, main_v182, main_cst_31, main_v183, main_v184, main_v185, main_v186, main_v187, main_v188, main_v189, main_v190, main_v191, main_v192, main_v193, main_v194, main_v195, main_v196, main_cst_32, main_v197, main_v198, main_v199, main_cst_33, main_v200, main_v201, main_v202, main_v203]
theorem pcH_writes : (pcH : List (HloOp τ sig (Elt F))).Forall fun op => op.writes ⊆ ((wrH).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer stretch H does not write keeps its contents through it. -/
theorem keepH (W : Valuation τ sig (Elt F)) {r : Ref sig .tc} (hr : r ∉ wrH) : after pcH W (Proc.devRef .tc r) = W (Proc.devRef .tc r) :=
  after_of_writes_sub pcH W pcH_writes hr

theorem pcI_sub : (pcI : List (HloOp τ sig (Elt F))).Forall fun op => op.bufs ⊆ tcRefs τ sig :=
  ⟨nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩
theorem pcI_fresh : (pcI : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
/-- The buffers stretch I writes, in order. -/
abbrev wrI : List (Ref sig .tc) := [main_cst_34, main_v204, main_cst_35, main_v205, main_v206, main_c_36, main_call4_cst, main_call4_v0, main_call4_v1, main_call4_cst_0, main_call4_v2, main_call4_v3, main_call4_v4, main_call4_v5, main_call4_v6, main_call4_v7, main_call4_cst_1, main_call4_v8, main_call4_cst_2, main_call4_v9, main_call4_v10, main_call4_v11, main_call4_cst_3, main_call4_v12, main_call4_cst_4, main_call4_call0_v0, main_call4_call0_v1, main_v207, main_v208, main_v209, main_v210, main_cst_37, main_v211, main_v212, main_v213, main_v214, main_v215, main_v216, main_v217, main_v218, main_v219, main_v220, main_v221, main_v222, main_cst_38, main_v223, main_v224, main_cst_39, main_v225, main_v226, main_v227, main_v228]
theorem pcI_writes : (pcI : List (HloOp τ sig (Elt F))).Forall fun op => op.writes ⊆ ((wrI).map (Proc.devRef (τ := τ) .tc)).toFinset :=
  ⟨writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide), writes_sub_of_mem rfl (by decide)⟩
/-- A buffer stretch I does not write keeps its contents through it. -/
theorem keepI (W : Valuation τ sig (Elt F)) {r : Ref sig .tc} (hr : r ∉ wrI) : after pcI W (Proc.devRef .tc r) = W (Proc.devRef .tc r) :=
  after_of_writes_sub pcI W pcI_writes hr

theorem forall_append {α : Type} {p : α → Prop} {l₁ l₂ : List α} (h₁ : l₁.Forall p) (h₂ : l₂.Forall p) : (l₁ ++ l₂).Forall p :=
  List.forall_iff_forall_mem.mpr fun x hx => (List.mem_append.mp hx).elim (List.forall_iff_forall_mem.mp h₁ x) (List.forall_iff_forall_mem.mp h₂ x)

theorem ops_sub : (ops : List (HloOp τ sig (Elt F))).Forall fun op => op.bufs ⊆ tcRefs τ sig :=
  forall_append pcA_sub (forall_append (forall_append pcB_sub (forall_append pcC_sub pcD_sub)) (forall_append (forall_append pcE_sub pcF_sub)
    (forall_append (forall_append pcG_sub pcH_sub) pcI_sub)))
theorem ops_fresh : ∀ op ∈ (ops : List (HloOp τ sig (Elt F))), op.fresh = ∅ :=
  List.forall_iff_forall_mem.mp (forall_append pcA_fresh (forall_append (forall_append pcB_fresh (forall_append pcC_fresh pcD_fresh)) (forall_append (forall_append pcE_fresh pcF_fresh)
    (forall_append (forall_append pcG_fresh pcH_fresh) pcI_fresh))))

/-- What the buffers hold after the whole line: the stretches one after the other. -/
theorem after_ops (V : Valuation τ sig (Elt F)) :
    after ops V = after pcI (after pcH (after pcG (after pcF (after pcE (after pcD (after pcC (after pcB (after pcA V)))))))) := by
  simp only [ops, P0, P1, P2, P3, P4, after_append]

/-- On every device, from any memory with zero counters: every weakly fair execution of @main terminates with each
    TensorCore buffer at the fold of the operations over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ (fun _ => ops_fresh)

/-- The congruence lemmas of the program's dimension records and of a literal typed reference, stated once here: the
    layers' modules all rewrite under them, and each would otherwise state its own copy. -/
theorem congr_simp_realized : True := by
  have := @Cert.ReferenceIdeal.scatter_S50000x128_S800000x1_S800000x128_1_0_0_1.congr_simp
  have := @Cert.ReferenceIdeal.scatter_S50000_S800000x1_S800000_n_0_0_1.congr_simp
  have := @Cert.ReferenceIdeal.gather_S50000x128_S800000x1_S800000x128_1_0_n_n_0_1_1128.congr_simp
  have := @Cert.ReferenceIdeal.dot_S50000x128_S128x128_S50000x128_1_0_0_1_n_n.congr_simp
  have := @Idealize.ShloMosaic.StableHlo.TRef.of.congr_simp
  trivial

end Cert.ReferenceIdeal.RefRun

end
-- ==== Proof.RefRunVocab.lean ====
/-
  A layer of the reference as its two halves: the row-normalised pre-activation n with the skip term, scale and shift
  beside it, and then the column statistics of n with the normalisation, the leaky rectifier and the skip added
  (`tailOf`). A layer is the second half applied to the first (`layer_eq`, by unfolding).
-/
import proofs.«131685_j69784628625939_1_alg».proof.Proof.RefRunOps
import proofs.«131685_j69784628625939_1_alg».proof.Proof.Spec

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo Idealize.ShloMosaic.HostPieces Cert.Sage

/-- Column normalisation of `n` by its own column mean and variance, scale `g`, shift `b`, the leaky rectifier, plus `r`. -/
def tailOf (n : Mat) (g b : V128) (r : Mat) : Mat :=
  tailCore n (asRow (Ref.mean n)) (asRow (Host.rsqrt (addf (Ref.var n) (splat S128 bcast_S_S128 0x3727C5AC#32)))) (asRow g) (asRow b) r

theorem layer_eq (x : Mat) (ei : Edges) (wlT : Sq) (bl : V128) (wrT : Sq) (g b : V128) (wsT : Sq) (bs : V128) :
    Ref.layer x ei wlT bl wrT g b wsT bs = tailOf (normed (pre x (Ref.agg x ei) wlT (asRow bl) wrT)) g b (resid x wsT (asRow bs)) := rfl

end Cert.ReferenceIdeal.RefRun

end
-- ==== Proof.RefRunL0.lean ====
/-
  Layer 0 of the reference read off its operations. The first stretch of the layer leaves the row-normalised
  pre-activation, the skip term and the layer's scale and shift; the second stretch leaves the layer's result: the
  column statistics, the normalisation, the leaky rectifier and the skip added. Each is read from ANY incoming
  contents `W`, and every other buffer the later layers read is kept.
-/
import proofs.«131685_j69784628625939_1_alg».proof.Proof.RefRunVocab

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo Idealize.ShloMosaic.HostPieces Cert.Sage

attribute [local irreducible] Host.reduceAdd Host.gather Host.scatterAdd

set_option maxRecDepth 8192 in
set_option maxHeartbeats 1600000 in
/-- The row-normalised pre-activation. -/
theorem X0_n (W : Valuation τ sig (Elt Ideal)) :
    after pcB (after pcA W) (Proc.devRef .tc main_v53)
      = normed (pre (W (Proc.devRef .tc main_arg0)) (Ref.agg (W (Proc.devRef .tc main_arg0)) (W (Proc.devRef .tc main_arg1))) (tr (Ref.sq3 (W (Proc.devRef .tc main_arg2)) 0)) (asRow (Ref.v3 (W (Proc.devRef .tc main_arg3)) 0)) (tr (Ref.sq3 (W (Proc.devRef .tc main_arg4)) 0))) := by
  rw [← after_append]
  simp only [pcA, pcB, List.cons_append, List.nil_append]
  after_results_simp
  rfl

set_option maxRecDepth 8192 in
set_option maxHeartbeats 1600000 in
/-- The skip term. -/
theorem X0_r (W : Valuation τ sig (Elt Ideal)) :
    after pcB (after pcA W) (Proc.devRef .tc main_v18) = resid (W (Proc.devRef .tc main_arg0)) (tr (W (Proc.devRef .tc main_arg7))) (asRow (W (Proc.devRef .tc main_arg8))) := by
  rw [← after_append]
  simp only [pcA, pcB, List.cons_append, List.nil_append]
  after_results_simp
  rfl

set_option maxRecDepth 8192 in
set_option maxHeartbeats 1600000 in
/-- The layer's scale. -/
theorem X0_g (W : Valuation τ sig (Elt Ideal)) :
    after pcB (after pcA W) (Proc.devRef .tc main_v11) = Ref.v3 (W (Proc.devRef .tc main_arg5)) 0 := by
  rw [← after_append]
  simp only [pcA, pcB, List.cons_append, List.nil_append]
  after_results_simp
  rfl

set_option maxRecDepth 8192 in
set_option maxHeartbeats 1600000 in
/-- The layer's shift. -/
theorem X0_b (W : Valuation τ sig (Elt Ideal)) :
    after pcB (after pcA W) (Proc.devRef .tc main_v13) = Ref.v3 (W (Proc.devRef .tc main_arg6)) 0 := by
  rw [← after_append]
  simp only [pcA, pcB, List.cons_append, List.nil_append]
  after_results_simp
  rfl

set_option maxRecDepth 8192 in
set_option maxHeartbeats 1600000 in
/-- The source row of the edge list. -/
theorem X0_e0 (W : Valuation τ sig (Elt Ideal)) :
    after pcB (after pcA W) (Proc.devRef .tc main_v1) = edgeRow (W (Proc.devRef .tc main_arg1)) 0 := by
  rw [← after_append]
  simp only [pcA, pcB, List.cons_append, List.nil_append]
  after_results_simp
  rfl

set_option maxRecDepth 8192 in
set_option maxHeartbeats 1600000 in
/-- The target row of the edge list. -/
theorem X0_e1 (W : Valuation τ sig (Elt Ideal)) :
    after pcB (after pcA W) (Proc.devRef .tc main_v3) = edgeRow (W (Proc.devRef .tc main_arg1)) 1 := by
  rw [← after_append]
  simp only [pcA, pcB, List.cons_append, List.nil_append]
  after_results_simp
  rfl

set_option maxRecDepth 8192 in
set_option maxHeartbeats 1600000 in
/-- The layer's result from the first stretch's four. -/
theorem Y0_out (W : Valuation τ sig (Elt Ideal)) :
    after pcC W (Proc.devRef .tc main_v78) = tailOf (W (Proc.devRef .tc main_v53)) (W (Proc.devRef .tc main_v11)) (W (Proc.devRef .tc main_v13)) (W (Proc.devRef .tc main_v18)) := by
  simp only [pcC]
  after_results_simp
  rfl

/-- The layer: its result is the reference's layer 0 of the incoming contents. -/
theorem stage0_out (W : Valuation τ sig (Elt Ideal)) :
    after pcC (after pcB (after pcA W)) (Proc.devRef .tc main_v78)
      = Ref.layerAt 0 (W (Proc.devRef .tc main_arg0)) (W (Proc.devRef .tc main_arg1)) (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  rw [Y0_out, X0_n W, X0_g, X0_b, X0_r]
  rfl

/-- The layer writes none of the buffers the later ones read. -/
theorem stage0_keep (W : Valuation τ sig (Elt Ideal)) {r : Ref sig .tc}
    (hA : r ∉ wrA) (hB : r ∉ wrB) (hC : r ∉ wrC) :
    after pcC (after pcB (after pcA W)) (Proc.devRef .tc r) = W (Proc.devRef .tc r) := by
  rw [keepC _ hC, keepB _ hB, keepA _ hA]

theorem stage0_e0 (W : Valuation τ sig (Elt Ideal)) :
    after pcC (after pcB (after pcA W)) (Proc.devRef .tc main_v1) = edgeRow (W (Proc.devRef .tc main_arg1)) 0 := by
  rw [keepC _ (by decide), X0_e0]

theorem stage0_e1 (W : Valuation τ sig (Elt Ideal)) :
    after pcC (after pcB (after pcA W)) (Proc.devRef .tc main_v3) = edgeRow (W (Proc.devRef .tc main_arg1)) 1 := by
  rw [keepC _ (by decide), X0_e1]

end Cert.ReferenceIdeal.RefRun

end
-- ==== Proof.RefRunL1.lean ====
/-
  Layer 1 of the reference read off its operations. The first stretch of the layer leaves the row-normalised
  pre-activation, the skip term and the layer's scale and shift; the second stretch leaves the layer's result: the
  column statistics, the normalisation, the leaky rectifier and the skip added. Each is read from ANY incoming
  contents `W` in which the two rows of the edge list have already been cut out, and every other buffer the later layers read is kept.
-/
import proofs.«131685_j69784628625939_1_alg».proof.Proof.RefRunVocab

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo Idealize.ShloMosaic.HostPieces Cert.Sage

attribute [local irreducible] Host.reduceAdd Host.gather Host.scatterAdd

set_option maxRecDepth 8192 in
set_option maxHeartbeats 1600000 in
/-- The row-normalised pre-activation. -/
theorem X1_n (W : Valuation τ sig (Elt Ideal)) (ei : Edges) (h1 : W (Proc.devRef .tc main_v1) = edgeRow ei 0) (h3 : W (Proc.devRef .tc main_v3) = edgeRow ei 1) :
    after pcE (after pcD W) (Proc.devRef .tc main_v128)
      = normed (pre (W (Proc.devRef .tc main_v78)) (Ref.agg (W (Proc.devRef .tc main_v78)) ei) (tr (Ref.sq3 (W (Proc.devRef .tc main_arg2)) 1)) (asRow (Ref.v3 (W (Proc.devRef .tc main_arg3)) 1)) (tr (Ref.sq3 (W (Proc.devRef .tc main_arg4)) 1))) := by
  rw [← after_append]
  simp only [pcD, pcE, List.cons_append, List.nil_append]
  after_results_simp
  rw [h1, h3]
  rfl

set_option maxRecDepth 8192 in
set_option maxHeartbeats 1600000 in
/-- The skip term. -/
theorem X1_r (W : Valuation τ sig (Elt Ideal)) :
    after pcE (after pcD W) (Proc.devRef .tc main_v93) = resid (W (Proc.devRef .tc main_v78)) (tr (W (Proc.devRef .tc main_arg7))) (asRow (W (Proc.devRef .tc main_arg8))) := by
  rw [← after_append]
  simp only [pcD, pcE, List.cons_append, List.nil_append]
  after_results_simp
  rfl

set_option maxRecDepth 8192 in
set_option maxHeartbeats 1600000 in
/-- The layer's scale. -/
theorem X1_g (W : Valuation τ sig (Elt Ideal)) :
    after pcE (after pcD W) (Proc.devRef .tc main_v86) = Ref.v3 (W (Proc.devRef .tc main_arg5)) 1 := by
  rw [← after_append]
  simp only [pcD, pcE, List.cons_append, List.nil_append]
  after_results_simp
  rfl

set_option maxRecDepth 8192 in
set_option maxHeartbeats 1600000 in
/-- The layer's shift. -/
theorem X1_b (W : Valuation τ sig (Elt Ideal)) :
    after pcE (after pcD W) (Proc.devRef .tc main_v88) = Ref.v3 (W (Proc.devRef .tc main_arg6)) 1 := by
  rw [← after_append]
  simp only [pcD, pcE, List.cons_append, List.nil_append]
  after_results_simp
  rfl

set_option maxRecDepth 8192 in
set_option maxHeartbeats 1600000 in
/-- The layer's result from the first stretch's four. -/
theorem Y1_out (W : Valuation τ sig (Elt Ideal)) :
    after pcG (after pcF W) (Proc.devRef .tc main_v153) = tailOf (W (Proc.devRef .tc main_v128)) (W (Proc.devRef .tc main_v86)) (W (Proc.devRef .tc main_v88)) (W (Proc.devRef .tc main_v93)) := by
  rw [← after_append]
  simp only [pcF, pcG, List.cons_append, List.nil_append]
  after_results_simp
  rfl

/-- The layer: its result is the reference's layer 1 of the incoming contents. -/
theorem stage1_out (W : Valuation τ sig (Elt Ideal)) (ei : Edges) (h1 : W (Proc.devRef .tc main_v1) = edgeRow ei 0) (h3 : W (Proc.devRef .tc main_v3) = edgeRow ei 1) :
    after pcG (after pcF (after pcE (after pcD W))) (Proc.devRef .tc main_v153)
      = Ref.layerAt 1 (W (Proc.devRef .tc main_v78)) ei (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  rw [Y1_out, X1_n W ei h1 h3, X1_g, X1_b, X1_r]
  rfl

/-- The layer writes none of the buffers the later ones read. -/
theorem stage1_keep (W : Valuation τ sig (Elt Ideal)) {r : Ref sig .tc}
    (hD : r ∉ wrD) (hE : r ∉ wrE) (hF : r ∉ wrF) (hG : r ∉ wrG) :
    after pcG (after pcF (after pcE (after pcD W))) (Proc.devRef .tc r) = W (Proc.devRef .tc r) := by
  rw [keepG _ hG, keepF _ hF, keepE _ hE, keepD _ hD]

end Cert.ReferenceIdeal.RefRun

end
-- ==== Proof.RefRunL2.lean ====
/-
  Layer 2 of the reference read off its operations. The first stretch of the layer leaves the row-normalised
  pre-activation, the skip term and the layer's scale and shift; the second stretch leaves the layer's result: the
  column statistics, the normalisation, the leaky rectifier and the skip added. Each is read from ANY incoming
  contents `W` in which the two rows of the edge list have already been cut out, and every other buffer the later layers read is kept.
-/
import proofs.«131685_j69784628625939_1_alg».proof.Proof.RefRunVocab

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo Idealize.ShloMosaic.HostPieces Cert.Sage

attribute [local irreducible] Host.reduceAdd Host.gather Host.scatterAdd

set_option maxRecDepth 8192 in
set_option maxHeartbeats 1600000 in
/-- The row-normalised pre-activation. -/
theorem X2_n (W : Valuation τ sig (Elt Ideal)) (ei : Edges) (h1 : W (Proc.devRef .tc main_v1) = edgeRow ei 0) (h3 : W (Proc.devRef .tc main_v3) = edgeRow ei 1) :
    after pcH W (Proc.devRef .tc main_v203)
      = normed (pre (W (Proc.devRef .tc main_v153)) (Ref.agg (W (Proc.devRef .tc main_v153)) ei) (tr (Ref.sq3 (W (Proc.devRef .tc main_arg2)) 2)) (asRow (Ref.v3 (W (Proc.devRef .tc main_arg3)) 2)) (tr (Ref.sq3 (W (Proc.devRef .tc main_arg4)) 2))) := by
  simp only [pcH]
  after_results_simp
  rw [h1, h3]
  rfl

set_option maxRecDepth 8192 in
set_option maxHeartbeats 1600000 in
/-- The skip term. -/
theorem X2_r (W : Valuation τ sig (Elt Ideal)) :
    after pcH W (Proc.devRef .tc main_v168) = resid (W (Proc.devRef .tc main_v153)) (tr (W (Proc.devRef .tc main_arg7))) (asRow (W (Proc.devRef .tc main_arg8))) := by
  simp only [pcH]
  after_results_simp
  rfl

set_option maxRecDepth 8192 in
set_option maxHeartbeats 1600000 in
/-- The layer's scale. -/
theorem X2_g (W : Valuation τ sig (Elt Ideal)) :
    after pcH W (Proc.devRef .tc main_v161) = Ref.v3 (W (Proc.devRef .tc main_arg5)) 2 := by
  simp only [pcH]
  after_results_simp
  rfl

set_option maxRecDepth 8192 in
set_option maxHeartbeats 1600000 in
/-- The layer's shift. -/
theorem X2_b (W : Valuation τ sig (Elt Ideal)) :
    after pcH W (Proc.devRef .tc main_v163) = Ref.v3 (W (Proc.devRef .tc main_arg6)) 2 := by
  simp only [pcH]
  after_results_simp
  rfl

set_option maxRecDepth 8192 in
set_option maxHeartbeats 1600000 in
/-- The layer's result from the first stretch's four. -/
theorem Y2_out (W : Valuation τ sig (Elt Ideal)) :
    after pcI W (Proc.devRef .tc main_v228) = tailOf (W (Proc.devRef .tc main_v203)) (W (Proc.devRef .tc main_v161)) (W (Proc.devRef .tc main_v163)) (W (Proc.devRef .tc main_v168)) := by
  simp only [pcI]
  after_results_simp
  rfl

/-- The layer: its result is the reference's layer 2 of the incoming contents. -/
theorem stage2_out (W : Valuation τ sig (Elt Ideal)) (ei : Edges) (h1 : W (Proc.devRef .tc main_v1) = edgeRow ei 0) (h3 : W (Proc.devRef .tc main_v3) = edgeRow ei 1) :
    after pcI (after pcH W) (Proc.devRef .tc main_v228)
      = Ref.layerAt 2 (W (Proc.devRef .tc main_v153)) ei (W (Proc.devRef .tc main_arg2)) (W (Proc.devRef .tc main_arg3)) (W (Proc.devRef .tc main_arg4)) (W (Proc.devRef .tc main_arg5)) (W (Proc.devRef .tc main_arg6)) (W (Proc.devRef .tc main_arg7)) (W (Proc.devRef .tc main_arg8)) := by
  rw [Y2_out, X2_n W ei h1 h3, X2_g, X2_b, X2_r]
  rfl

/-- The layer writes none of the buffers the later ones read. -/
theorem stage2_keep (W : Valuation τ sig (Elt Ideal)) {r : Ref sig .tc}
    (hH : r ∉ wrH) (hI : r ∉ wrI) :
    after pcI (after pcH W) (Proc.devRef .tc r) = W (Proc.devRef .tc r) := by
  rw [keepI _ hI, keepH _ hH]

end Cert.ReferenceIdeal.RefRun

end
-- ==== Proof.RefRun.lean ====
/-
  The reference's run. Its @main is a straight line of host operations (the calls of its module-local functions
  unfolded), so every weakly fair execution terminates with each buffer at the fold of the operations over the launch
  contents. The fold is read layer by layer: after the first layer's operations the first layer's result and the two
  rows of the edge list stand in their buffers, each later layer's operations turn the previous result into the next,
  and no operation writes an argument. The result buffer therefore holds the reference's value `Cert.Sage.Ref.out` of
  the arguments' launch contents, and the arguments are unchanged.
-/
import proofs.«131685_j69784628625939_1_alg».proof.Proof.RefRunL0
import proofs.«131685_j69784628625939_1_alg».proof.Proof.RefRunL1
import proofs.«131685_j69784628625939_1_alg».proof.Proof.RefRunL2

noncomputable section

namespace Cert.ReferenceIdeal.RefRun

open Cert.ReferenceIdeal Cert.ReferenceIdeal.Facts₀ Cert.ReferenceIdeal.Facts Idealize.ShloMosaic Idealize.ShloMosaic.TcCoe Idealize.SL.Sem Idealize.ShloMosaic.StableHlo Idealize.ShloMosaic.HostPieces Cert.Sage

/-- The result buffer after the whole line: the three layers composed. -/
theorem out_eq (V : Valuation τ sig (Elt Ideal)) :
    after ops V (Proc.devRef .tc main_v228)
      = Ref.out (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  rw [after_ops]
  have h1 : after pcG (after pcF (after pcE (after pcD (after pcC (after pcB (after pcA V)))))) (Proc.devRef .tc main_v1) = edgeRow (V (Proc.devRef .tc main_arg1)) 0 := by
    rw [stage1_keep _ (by decide) (by decide) (by decide) (by decide), stage0_e0]
  have h3 : after pcG (after pcF (after pcE (after pcD (after pcC (after pcB (after pcA V)))))) (Proc.devRef .tc main_v3) = edgeRow (V (Proc.devRef .tc main_arg1)) 1 := by
    rw [stage1_keep _ (by decide) (by decide) (by decide) (by decide), stage0_e1]
  rw [stage2_out _ (V (Proc.devRef .tc main_arg1)) h1 h3,
    stage1_out _ (V (Proc.devRef .tc main_arg1)) (stage0_e0 V) (stage0_e1 V), stage0_out V]
  rw [stage1_keep _ (r := main_arg2) (by decide) (by decide) (by decide) (by decide),
    stage1_keep _ (r := main_arg3) (by decide) (by decide) (by decide) (by decide),
    stage1_keep _ (r := main_arg4) (by decide) (by decide) (by decide) (by decide),
    stage1_keep _ (r := main_arg5) (by decide) (by decide) (by decide) (by decide),
    stage1_keep _ (r := main_arg6) (by decide) (by decide) (by decide) (by decide),
    stage1_keep _ (r := main_arg7) (by decide) (by decide) (by decide) (by decide),
    stage1_keep _ (r := main_arg8) (by decide) (by decide) (by decide) (by decide)]
  rw [stage0_keep _ (r := main_arg2) (by decide) (by decide) (by decide),
    stage0_keep _ (r := main_arg3) (by decide) (by decide) (by decide),
    stage0_keep _ (r := main_arg4) (by decide) (by decide) (by decide),
    stage0_keep _ (r := main_arg5) (by decide) (by decide) (by decide),
    stage0_keep _ (r := main_arg6) (by decide) (by decide) (by decide),
    stage0_keep _ (r := main_arg7) (by decide) (by decide) (by decide),
    stage0_keep _ (r := main_arg8) (by decide) (by decide) (by decide)]
  rfl

/-- No operation writes an argument. -/
theorem arg_keep (V : Valuation τ sig (Elt Ideal)) {r : Ref sig .tc}
    (hA : r ∉ wrA) (hB : r ∉ wrB) (hC : r ∉ wrC) (hD : r ∉ wrD) (hE : r ∉ wrE) (hF : r ∉ wrF) (hG : r ∉ wrG) (hH : r ∉ wrH) (hI : r ∉ wrI) :
    after ops V (Proc.devRef .tc r) = V (Proc.devRef .tc r) := by
  rw [after_ops, keepI _ hI, keepH _ hH, keepG _ hG, keepF _ hF, keepE _ hE, keepD _ hD, keepC _ hC, keepB _ hB, keepA _ hA]

/-- On the device, at the extended reals, from any memory with zero counters: every weakly fair execution of the
    reference's @main terminates with the result buffer at the reference's value of the arguments' launch contents and
    the arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v228) = Cert.Sage.Ref.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c main_v228).trans (out_eq (launchContents m c)),
      (h c main_arg0).trans (arg_keep (launchContents m c) (by decide) (by decide) (by decide) (by decide) (by decide) (by decide) (by decide) (by decide) (by decide)),
      (h c main_arg1).trans (arg_keep (launchContents m c) (by decide) (by decide) (by decide) (by decide) (by decide) (by decide) (by decide) (by decide) (by decide)),
      (h c main_arg2).trans (arg_keep (launchContents m c) (by decide) (by decide) (by decide) (by decide) (by decide) (by decide) (by decide) (by decide) (by decide)),
      (h c main_arg3).trans (arg_keep (launchContents m c) (by decide) (by decide) (by decide) (by decide) (by decide) (by decide) (by decide) (by decide) (by decide)),
      (h c main_arg4).trans (arg_keep (launchContents m c) (by decide) (by decide) (by decide) (by decide) (by decide) (by decide) (by decide) (by decide) (by decide)),
      (h c main_arg5).trans (arg_keep (launchContents m c) (by decide) (by decide) (by decide) (by decide) (by decide) (by decide) (by decide) (by decide) (by decide)),
      (h c main_arg6).trans (arg_keep (launchContents m c) (by decide) (by decide) (by decide) (by decide) (by decide) (by decide) (by decide) (by decide) (by decide)),
      (h c main_arg7).trans (arg_keep (launchContents m c) (by decide) (by decide) (by decide) (by decide) (by decide) (by decide) (by decide) (by decide) (by decide)),
      (h c main_arg8).trans (arg_keep (launchContents m c) (by decide) (by decide) (by decide) (by decide) (by decide) (by decide) (by decide) (by decide) (by decide))⟩)
    (run_all m ρ)

end Cert.ReferenceIdeal.RefRun

end
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.BridgeOutLayout.lean ====
/-
  How the two programs lay out the stacked weights of the three layers.

  A stack [3,128,128] cut at layer l and flattened reads, at (i, j), the stack's entry (l, i, j); the stack transposed
  on its last two axes and then cut reads there the entry (l, j, i), which is what the transpose of the cut matrix
  reads.  A stack [3,128] cut at l reads at q the entry (l, q).  A vector cast to a one-row matrix holds what the
  vector broadcast into the row along the lane axis holds.  Each entry of a transposed or cut array IS an entry of
  the operand, so arrays of reals stay arrays of reals.
-/
import proofs.«131685_j69784628625939_1_alg».proof.Proof.Spec
import proofs.«131685_j69784628625939_1_alg».proof.Proof.LibHostColRow
import proofs.«131685_j69784628625939_1_alg».proof.Proof.LibFinite
import Idealize.ShloMosaic.Lib.ValueLayout
import Idealize.ShloMosaic.Lib.ValueIdx

noncomputable section

namespace Cert.Sage

open Idealize.ShloMosaic Idealize.ShloMosaic.ValueIdx Cert.LibFinite
open Cert.ReferenceIdeal Cert.ReferenceIdeal.Facts₀

/-- A transposed matrix at (i, j) is the matrix at (j, i). -/
theorem tr_apply (w : Sq) (i j : Fin 128) : tr w (ix2 i j) = w (ix2 j i) := by
  unfold tr
  exact transpose_ix2_apply w _ i j

/-- Layer l's matrix at (i, j) is the stack's entry (l, i, j). -/
theorem sq3_apply (W : Sq3) (l : Fin 3) (i j : Fin 128) : Ref.sq3 W l (ix2 i j) = W (ix3 l i j) := by
  match l with
  | 0 =>
    unfold Ref.sq3
    refine (shapeCast_1ab_ab_apply _ _ i j).trans ?_
    exact extractStridedSlice_apply _ W _ _ _ (fun a => by
      match a with
      | ⟨0, _⟩ => rfl
      | ⟨1, _⟩ => exact (Nat.zero_add _).symm
      | ⟨2, _⟩ => exact (Nat.zero_add _).symm)
  | 1 =>
    unfold Ref.sq3
    refine (shapeCast_1ab_ab_apply _ _ i j).trans ?_
    exact extractStridedSlice_apply _ W _ _ _ (fun a => by
      match a with
      | ⟨0, _⟩ => rfl
      | ⟨1, _⟩ => exact (Nat.zero_add _).symm
      | ⟨2, _⟩ => exact (Nat.zero_add _).symm)
  | 2 =>
    unfold Ref.sq3
    refine (shapeCast_1ab_ab_apply _ _ i j).trans ?_
    exact extractStridedSlice_apply _ W _ _ _ (fun a => by
      match a with
      | ⟨0, _⟩ => rfl
      | ⟨1, _⟩ => exact (Nat.zero_add _).symm
      | ⟨2, _⟩ => exact (Nat.zero_add _).symm)

/-- The stack transposed on its last two axes, cut at l, at (i, j): the stack's entry (l, j, i). -/
theorem sqT3_apply (W : Sq3) (l : Fin 3) (i j : Fin 128) : Ker.sqT3 W l (ix2 i j) = W (ix3 l j i) := by
  match l with
  | 0 =>
    unfold Ker.sqT3
    refine (shapeCast_1ab_ab_apply _ _ i j).trans ?_
    refine (extractStridedSlice_apply _ _ _ _ (ix3 (0 : Fin 3) i j) (fun a => by
      match a with
      | ⟨0, _⟩ => rfl
      | ⟨1, _⟩ => exact (Nat.zero_add _).symm
      | ⟨2, _⟩ => exact (Nat.zero_add _).symm)).trans ?_
    exact transpose_ix3_021_apply W _ (0 : Fin 3) i j
  | 1 =>
    unfold Ker.sqT3
    refine (shapeCast_1ab_ab_apply _ _ i j).trans ?_
    refine (extractStridedSlice_apply _ _ _ _ (ix3 (1 : Fin 3) i j) (fun a => by
      match a with
      | ⟨0, _⟩ => rfl
      | ⟨1, _⟩ => exact (Nat.zero_add _).symm
      | ⟨2, _⟩ => exact (Nat.zero_add _).symm)).trans ?_
    exact transpose_ix3_021_apply W _ (1 : Fin 3) i j
  | 2 =>
    unfold Ker.sqT3
    refine (shapeCast_1ab_ab_apply _ _ i j).trans ?_
    refine (extractStridedSlice_apply _ _ _ _ (ix3 (2 : Fin 3) i j) (fun a => by
      match a with
      | ⟨0, _⟩ => rfl
      | ⟨1, _⟩ => exact (Nat.zero_add _).symm
      | ⟨2, _⟩ => exact (Nat.zero_add _).symm)).trans ?_
    exact transpose_ix3_021_apply W _ (2 : Fin 3) i j

/-- Transposing the stack and cutting is cutting and transposing. -/
theorem sqT3_eq (W : Sq3) (l : Fin 3) : Ker.sqT3 W l = tr (Ref.sq3 W l) := by
  funext idx
  obtain ⟨i, j, rfl⟩ : ∃ (i j : Fin 128), idx = ix2 i j := ⟨idx 0, idx 1, eq_ix2 idx⟩
  rw [sqT3_apply, tr_apply, sq3_apply]

/-- Layer l's vector at q is the stack's entry (l, q). -/
theorem v3_apply (w : V3) (l : Fin 3) (q : Fin 128) : Ref.v3 w l (ix1 q) = w (ix2 l q) := by
  match l with
  | 0 =>
    unfold Ref.v3
    refine (shapeCast_1a_a_apply _ _ q).trans ?_
    exact extractStridedSlice_apply _ w _ _ _ (fun a => by
      match a with
      | ⟨0, _⟩ => rfl
      | ⟨1, _⟩ => exact (Nat.zero_add _).symm)
  | 1 =>
    unfold Ref.v3
    refine (shapeCast_1a_a_apply _ _ q).trans ?_
    exact extractStridedSlice_apply _ w _ _ _ (fun a => by
      match a with
      | ⟨0, _⟩ => rfl
      | ⟨1, _⟩ => exact (Nat.zero_add _).symm)
  | 2 =>
    unfold Ref.v3
    refine (shapeCast_1a_a_apply _ _ q).trans ?_
    exact extractStridedSlice_apply _ w _ _ _ (fun a => by
      match a with
      | ⟨0, _⟩ => rfl
      | ⟨1, _⟩ => exact (Nat.zero_add _).symm)

/-- A vector of 128 cast to a one-row matrix is the vector broadcast into the row. -/
theorem castRow_eq (v : V128) : shapeCast S1x128 v Cert.KernelIdeal.Facts₀.shapeCasts_S128_S1x128 = asRow v :=
  HostColRow.row_eq v _ _

/-- Layer l's vector as a one-row matrix, the kernel's way and the reference's. -/
theorem row3_eq (w : V3) (l : Fin 3) : Ker.row3 w l = asRow (Ref.v3 w l) := castRow_eq _

/-! ## Arrays of reals stay arrays of reals -/

theorem tr_fin (w : Sq) (h : ∀ i, IsFin (w i)) : ∀ i, IsFin (tr w i) := fun idx => by
  obtain ⟨i, j, rfl⟩ : ∃ (i j : Fin 128), idx = ix2 i j := ⟨idx 0, idx 1, eq_ix2 idx⟩
  rw [tr_apply]; exact h _

theorem sq3_fin (W : Sq3) (h : ∀ i, IsFin (W i)) (l : Fin 3) : ∀ i, IsFin (Ref.sq3 W l i) := fun idx => by
  obtain ⟨i, j, rfl⟩ : ∃ (i j : Fin 128), idx = ix2 i j := ⟨idx 0, idx 1, eq_ix2 idx⟩
  rw [sq3_apply]; exact h _

theorem v3_fin (w : V3) (h : ∀ i, IsFin (w i)) (l : Fin 3) : ∀ i, IsFin (Ref.v3 w l i) := fun idx => by
  obtain ⟨q, rfl⟩ : ∃ q : Fin 128, idx = ix1 q := ⟨idx 0, eq_ix1 idx⟩
  rw [v3_apply]; exact h _

end Cert.Sage

end
-- ==== Proof.LibScatterRows.lean ====
/-
  A row scatter with an add body, read at an entry, over the extended reals.

  What segment_sum (x.at[idx].add(u) on rows) of an [N, C] operand with R update rows lowers to: a scatter with update
  window axis 1, inserted window axis 0, scatter axis 0 mapped to operand axis 0, the index vector on axis 1 of the
  scatter indices [R, 1], and updates [R, C]. Update entry (e, c) lands on the operand entry (idx (e, 0) read as a signed
  integer, c) when that row exists, and is dropped otherwise. So the result's entry (i, c) is the operand's entry plus
  the sum of the update entries (e, c) over the update rows e whose index is i: the set of those rows depends on the
  indices and on i alone, not on the column nor on the number of columns. The extents N, R, C are arbitrary.
-/
import Idealize.ShloMosaic.PureOps.Ideal
import Idealize.ShloMosaic.Lib.ValueIdx

noncomputable section

open scoped BigOperators

namespace Idealize.ShloMosaic.ScatterRows

open Idealize.ShloMosaic Idealize.ShloMosaic.ValueIdx

/-- An update lands on the operand index `p` exactly when, on every axis, its start plus its window coordinate is `p`'s
    coordinate (any dimension numbers). -/
theorem resultIdx?_eq_some_iff {s si u : Shape} (d : ScatterDims s si u) {w : Nat} (j : u.Idx) (idx : IVec si w) (p : s.Idx) :
    d.resultIdx? j idx = some p ↔ ∀ a, d.start j idx a + (d.window j a : ℤ) = ((p a).val : ℤ) := by
  unfold ScatterDims.resultIdx?
  split
  · rename_i h
    rw [Option.some.injEq]
    constructor
    · rintro rfl a
      have h1 := (h a).1
      show _ = (((d.start j idx a + (d.window j a : ℤ)).toNat : ℕ) : ℤ)
      omega
    · intro hp
      funext a
      apply Fin.ext
      have h1 := hp a
      show (d.start j idx a + (d.window j a : ℤ)).toNat = (p a).val
      omega
  · rename_i h
    constructor
    · intro h'
      exact absurd h' (by simp)
    · intro hp
      exfalso
      apply h
      intro a
      have h1 := hp a
      have h2 := (p a).isLt
      omega

/-- The dimension numbers of a row scatter, for an operand [N, C], scatter indices [R, 1] and updates [R, C]; their
    conditions are decided on a program's literal shapes. -/
abbrev rowDims (N R C : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

variable {N R C w : Nat}

/-- On the row axis the window starts at the update row's index, read signed. -/
theorem start_row (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 0 = (idx (ix2 (j 0) (0 : Fin 1))).toInt := by
  unfold ScatterDims.start
  rw [dif_pos (show (0 : Fin 2) ∈ (rowDims N R C wf).scatterDimsToOperandDims from List.mem_singleton.mpr rfl)]
  have hsi : (rowDims N R C wf).siIdx j ⟨List.idxOf (0 : Fin 2) (rowDims N R C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- On the column axis the window starts at 0. -/
theorem start_col (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) :
    (rowDims N R C wf).start j idx 1 = 0 := by
  unfold ScatterDims.start
  rw [dif_neg (show (1 : Fin 2) ∉ (rowDims N R C wf).scatterDimsToOperandDims from
    (show (1 : Fin 2) ∉ ([0] : List (Fin 2)) by decide))]

/-- The row axis is inserted: its window coordinate is 0. -/
theorem window_row (wf : ScatterDims.WF ⟨2, ![N, C]⟩ ⟨2, ![R, 1]⟩ ⟨2, ![R, C]⟩ [1] [0] [0] 1)
    (j : (⟨2, ![R, C]⟩ : Shape).Idx) : (rowDims N R C wf).window j 0 = 0 := by
  unfold ScatterDims.window
  rw [dif_neg]
  intro h
  have h2 := (List.mem_filter.mp h).2
  simp at h2

/-- The column axis carries the update's column. -/
theorem window_col (wf : ScatterDims.WF ⟨2, ![N, C]⟩ ⟨2, ![R, 1]⟩ ⟨2, ![R, C]⟩ [1] [0] [0] 1)
    (j : (⟨2, ![R, C]⟩ : Shape).Idx) : (rowDims N R C wf).window j 1 = (j 1).val := by
  unfold ScatterDims.window
  rw [dif_pos (show (1 : Fin 2) ∈ (rowDims N R C wf).sKept from
    List.mem_filter.mpr ⟨List.mem_finRange _, by simp⟩)]
  rfl

/-- The update rows that land on operand row `i`: those whose index, read signed, is `i`. -/
def hits (idx : IVec ⟨2, ![R, 1]⟩ w) (i : Fin N) : Finset (Fin R) :=
  Finset.univ.filter fun e => (idx (ix2 e (0 : Fin 1))).toInt = (i.val : ℤ)

/-- An update entry lands on (i, c) exactly when its row's index is i and its column is c. -/
theorem lands_iff (wf : ScatterDims.WF ⟨2, ![N, C]⟩ ⟨2, ![R, 1]⟩ ⟨2, ![R, C]⟩ [1] [0] [0] 1)
    (j : (⟨2, ![R, C]⟩ : Shape).Idx) (idx : IVec ⟨2, ![R, 1]⟩ w) (i : Fin N) (c : Fin C) :
    (rowDims N R C wf).resultIdx? j idx = some (ix2 i c)
      ↔ (idx (ix2 (j 0) (0 : Fin 1))).toInt = (i.val : ℤ) ∧ (j 1).val = c.val := by
  rw [resultIdx?_eq_some_iff]
  constructor
  · intro h
    have h0 : (rowDims N R C wf).start j idx 0 + (((rowDims N R C wf).window j 0 : ℕ) : ℤ) = (i.val : ℤ) := h 0
    have h1 : (rowDims N R C wf).start j idx 1 + (((rowDims N R C wf).window j 1 : ℕ) : ℤ) = (c.val : ℤ) := h 1
    rw [start_row, window_row] at h0
    rw [start_col, window_col] at h1
    exact ⟨by omega, by omega⟩
  · rintro ⟨h0, h1⟩ a
    match a with
    | ⟨0, _⟩ =>
      show (rowDims N R C wf).start j idx 0 + (((rowDims N R C wf).window j 0 : ℕ) : ℤ) = (i.val : ℤ)
      rw [start_row, window_row, h0]
      omega
    | ⟨1, _⟩ =>
      show (rowDims N R C wf).start j idx 1 + (((rowDims N R C wf).window j 1 : ℕ) : ℤ) = (c.val : ℤ)
      rw [start_col, window_col, h1]
      omega

/-- The accumulating row scatter at (i, c): the operand's entry plus the sum of column c over the update rows whose
    index is i. -/
theorem scatterAdd_rows_apply (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (i : Fin N) (c : Fin C) :
    Ideal.hostScatterAdd (rowDims N R C wf) x idx upd (ix2 i c) = x (ix2 i c) + ∑ e ∈ hits (N := N) idx i, upd (ix2 e c) := by
  unfold Ideal.hostScatterAdd
  congr 1
  have key : ∀ j : (⟨2, ![R, C]⟩ : Shape).Idx, (rowDims N R C wf).resultIdx? j idx = some (ix2 i c) → ix2 (j 0) c = j := by
    intro j hj
    have h1 := ((lands_iff wf j idx i c).mp hj).2
    have h2 : j 1 = c := Fin.ext h1
    rw [← h2]
    exact (eq_ix2 j).symm
  refine Finset.sum_nbij' (fun j => (j 0 : Fin R)) (fun e => ix2 e c) ?_ ?_ ?_ ?_ ?_
  · intro j hj
    rw [Finset.mem_filter] at hj
    exact Finset.mem_filter.mpr ⟨Finset.mem_univ _, ((lands_iff wf j idx i c).mp hj.2).1⟩
  · intro e he
    have he2 := (Finset.mem_filter.mp he).2
    rw [Finset.mem_filter]
    exact ⟨Finset.mem_univ _, (lands_iff wf (ix2 e c) idx i c).mpr ⟨he2, rfl⟩⟩
  · intro j hj
    rw [Finset.mem_filter] at hj
    exact key j hj.2
  · intro e _
    rfl
  · intro j hj
    rw [Finset.mem_filter] at hj
    exact congrArg upd (key j hj.2).symm

end Idealize.ShloMosaic.ScatterRows

end
-- ==== Proof.LibGatherRows.lean ====
/-
  A row gather read at an entry.

  What x[idx] of an [N, C] array x at a vector of R row numbers lowers to: a gather with offset axis 1, collapsed
  slice axis 0, start index map [0], the index vector on axis 1 of the start indices [R, 1], and slices of size
  [1, C]. Its entry (e, j) is x at row (the start index idx (e, 0), read as a signed integer and clamped into
  [0, N - 1]) and column j. So the result is x with rows picked by a function of the start indices alone; in
  particular a gather of this kind commutes with every operation that acts on each row separately. The extents
  N, R, C and the element type are arbitrary.
-/
import Idealize.ShloMosaic.PureOps.Ideal
import Idealize.ShloMosaic.Lib.ValueIdx

noncomputable section

namespace Idealize.ShloMosaic.GatherRows

open Idealize.ShloMosaic Idealize.ShloMosaic.ValueIdx

variable {α : Type}

/-- The dimension numbers of a row gather, for an operand [N, C], start indices [R, 1] and a result [R, C]; their
    conditions are decided on a program's literal shapes. -/
abbrev rowDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row e reads: the start index, signed, clamped into [0, N - 1]. -/
def rowOf {N R w : Nat} (hN : 0 < N) (idx : IVec ⟨2, ![R, 1]⟩ w) (e : Fin R) : Fin N :=
  ⟨min (idx (ix2 e (0 : Fin 1))).toInt.toNat (N - 1), by omega⟩

/-- The row gather at (e, j): the operand at the clamped start row and column j. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (e : Fin R) (j : Fin C) :
    Host.gather (rowDims N R C wf) x idx (ix2 e j) = x (ix2 (rowOf hN idx e) j) := by
  unfold Host.gather
  congr 1
  funext a
  refine Fin.ext ?_
  match a with
  | ⟨0, _⟩ =>
    show (rowDims N R C wf).start (ix2 e j) idx 0 + (rowDims N R C wf).batchCoord (ix2 e j) 0
      + (rowDims N R C wf).offCoord (ix2 e j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 e j) ⟨List.idxOf (0 : Fin 2) (rowDims N R C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowDims N R C wf).start (ix2 e j) idx 1 + (rowDims N R C wf).batchCoord (ix2 e j) 1
      + (rowDims N R C wf).offCoord (ix2 e j) 1 = j.val
    rw [GatherDims.batchCoord_eq_zero _ _ _ List.not_mem_nil]
    unfold GatherDims.start
    rw [dif_neg (show (1 : Fin 2) ∉ (rowDims N R C wf).startIndexMap from
      (show (1 : Fin 2) ∉ ([0] : List (Fin 2)) by decide))]
    unfold GatherDims.offCoord
    rw [dif_pos (show (1 : Fin 2) ∈ (rowDims N R C wf).sKept from
      (GatherDims.mem_sKept _ _).mpr ⟨(show (1 : Fin 2) ∉ ([0] : List (Fin 2)) by decide), List.not_mem_nil⟩)]
    have hval : ∀ k : Fin 2, k = 1 → ((ix2 e j k : Fin _) : Nat) = j.val := by rintro _ rfl; rfl
    rw [hval _ (List.getElem_singleton _)]
    omega

/-- The whole result: the operand's rows picked by the clamped start indices. -/
theorem gather_rows {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) :
    Host.gather (rowDims N R C wf) x idx = fun i => x (ix2 (rowOf hN idx (i 0)) (i 1)) := by
  funext i
  obtain ⟨e, j, rfl⟩ : ∃ (e : Fin R) (j : Fin C), i = ix2 e j := ⟨i 0, i 1, eq_ix2 i⟩
  exact gather_rows_apply hN wf x idx e j

end Idealize.ShloMosaic.GatherRows

end
-- ==== Proof.LibScatterVec.lean ====
/-
  A scatter with an add body into a vector, read at an entry, over the extended reals.

  What segment_sum (x.at[idx].add(u)) of a vector x of N entries with R updates lowers to: a scatter with no update
  window axis, inserted window axis 0, scatter axis 0 mapped to operand axis 0, the index vector on axis 1 of the
  scatter indices [R, 1], and updates [R]. Update entry e lands on the operand entry idx (e, 0), read as a signed
  integer, when that entry exists, and is dropped otherwise. So the result's entry i is the operand's entry plus the
  sum of the update entries e whose index is i: the same set of update rows as for a row scatter of an [N, C] operand
  with the same scatter indices. The extents N, R are arbitrary.
-/
import proofs.«131685_j69784628625939_1_alg».proof.Proof.LibScatterRows

noncomputable section

open scoped BigOperators

namespace Idealize.ShloMosaic.ScatterVec

open Idealize.ShloMosaic Idealize.ShloMosaic.ValueIdx

/-- The dimension numbers of a scatter into a vector, for an operand [N], scatter indices [R, 1] and updates [R]; their
    conditions are decided on a program's literal shapes. -/
abbrev vecDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable {N R w : Nat}

/-- On the only operand axis the window starts at the update's index, read signed. -/
theorem start_vec (wf : ScatterDims.WF ⟨1, ![N]⟩ ⟨2, ![R, 1]⟩ ⟨1, ![R]⟩ [] [0] [0] 1)
    (j : (⟨1, ![R]⟩ : Shape).Idx) (idx : IVec ⟨2, ![R, 1]⟩ w) :
    (vecDims N R wf).start j idx 0 = (idx (ix2 (j 0) (0 : Fin 1))).toInt := by
  unfold ScatterDims.start
  rw [dif_pos (show (0 : Fin 1) ∈ (vecDims N R wf).scatterDimsToOperandDims from List.mem_singleton.mpr rfl)]
  have hsi : (vecDims N R wf).siIdx j ⟨List.idxOf (0 : Fin 1) (vecDims N R wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl

/-- The only operand axis is inserted: its window coordinate is 0. -/
theorem window_vec (wf : ScatterDims.WF ⟨1, ![N]⟩ ⟨2, ![R, 1]⟩ ⟨1, ![R]⟩ [] [0] [0] 1)
    (j : (⟨1, ![R]⟩ : Shape).Idx) : (vecDims N R wf).window j 0 = 0 := by
  unfold ScatterDims.window
  rw [dif_neg]
  intro h
  have h2 := (List.mem_filter.mp h).2
  simp at h2

/-- An update entry lands on entry i exactly when its index is i. -/
theorem lands_iff (wf : ScatterDims.WF ⟨1, ![N]⟩ ⟨2, ![R, 1]⟩ ⟨1, ![R]⟩ [] [0] [0] 1)
    (j : (⟨1, ![R]⟩ : Shape).Idx) (idx : IVec ⟨2, ![R, 1]⟩ w) (i : Fin N) :
    (vecDims N R wf).resultIdx? j idx = some (ix1 i) ↔ (idx (ix2 (j 0) (0 : Fin 1))).toInt = (i.val : ℤ) := by
  rw [ScatterRows.resultIdx?_eq_some_iff]
  constructor
  · intro h
    have h0 : (vecDims N R wf).start j idx 0 + (((vecDims N R wf).window j 0 : ℕ) : ℤ) = (i.val : ℤ) := h 0
    rw [start_vec, window_vec] at h0
    omega
  · intro h0 a
    match a with
    | ⟨0, _⟩ =>
      show (vecDims N R wf).start j idx 0 + (((vecDims N R wf).window j 0 : ℕ) : ℤ) = (i.val : ℤ)
      rw [start_vec, window_vec, h0]
      omega

/-- The accumulating scatter into a vector at entry i: the operand's entry plus the sum of the update entries whose
    index is i (the update rows that a row scatter with the same indices lands on row i). -/
theorem scatterAdd_vec_apply (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal)
    (i : Fin N) :
    Ideal.hostScatterAdd (vecDims N R wf) x idx upd (ix1 i)
      = x (ix1 i) + ∑ e ∈ ScatterRows.hits (N := N) idx i, upd (ix1 e) := by
  unfold Ideal.hostScatterAdd
  congr 1
  refine Finset.sum_nbij' (fun j => (j 0 : Fin R)) (fun e => ix1 e) ?_ ?_ ?_ ?_ ?_
  · intro j hj
    rw [Finset.mem_filter] at hj
    exact Finset.mem_filter.mpr ⟨Finset.mem_univ _, (lands_iff wf j idx i).mp hj.2⟩
  · intro e he
    have he2 := (Finset.mem_filter.mp he).2
    rw [Finset.mem_filter]
    exact ⟨Finset.mem_univ _, (lands_iff wf (ix1 e) idx i).mpr he2⟩
  · intro j _
    exact (eq_ix1 j).symm
  · intro e _
    rfl
  · intro j _
    exact congrArg upd (eq_ix1 j)

end Idealize.ShloMosaic.ScatterVec

end
-- ==== Proof.LibCounts.lean ====
/-
  Counts are real and at least one.

  A count is accumulated from zero by adding one per item (per arriving edge, per node of a graph); the programs then
  take the larger of the count and one. As an extended real that value is a real number — a finite sum of ones, and a
  maximum of two reals — which is what lets a division by it be moved across sums.
-/
import Idealize.ShloMosaic.PureOps.Ideal
import Idealize.ShloMosaic.Lib.ValueIdx
import proofs.«131685_j69784628625939_1_alg».proof.Proof.LibFinite
import proofs.«131685_j69784628625939_1_alg».proof.Proof.LibScatterVec
import proofs.«131685_j69784628625939_1_alg».proof.Proof.LibHostSums

noncomputable section

open scoped BigOperators

namespace Cert.Gnn

open Idealize.ShloMosaic Idealize.ShloMosaic.ValueIdx Cert.LibFinite

variable {N R w : Nat}

/-- The larger of a count (ones scattered by index into zeros) and one is a real number. -/
theorem count_max_isFin (wf : ScatterDims.WF ⟨1, ![N]⟩ ⟨2, ![R, 1]⟩ ⟨1, ![R]⟩ [] [0] [0] 1)
    (zeros ones : FVec Ideal ⟨1, ![N]⟩ .f32) (onesR : FVec Ideal ⟨1, ![R]⟩ .f32) (idx : IVec ⟨2, ![R, 1]⟩ w)
    (hz : ∀ i, zeros i = 0) (hR : ∀ e, onesR e = 1) (hones : ∀ i, ones i = 1) (i : (⟨1, ![N]⟩ : Shape).Idx) :
    IsFin (maximumf (Host.scatterAdd (F := Ideal) (Idealize.ShloMosaic.ScatterVec.vecDims N R wf) zeros idx onesR) ones i) := by
  obtain ⟨p, rfl⟩ : ∃ p : Fin N, i = ix1 p := ⟨i 0, eq_ix1 i⟩
  show IsFin (max (Host.scatterAdd (F := Ideal) (Idealize.ShloMosaic.ScatterVec.vecDims N R wf) zeros idx onesR (ix1 p)) (ones (ix1 p)))
  rw [Idealize.ShloMosaic.HostSums.hostScatterAdd_eq, Idealize.ShloMosaic.ScatterVec.scatterAdd_vec_apply, hz, hones]
  exact IsFin.max (IsFin.add IsFin.zero (IsFin.sum _ _ fun e _ => by rw [hR]; exact IsFin.one)) IsFin.one

end Cert.Gnn

end
-- ==== Proof.LibRecipScale.lean ====
/-
  Scaling by the reciprocal of a count, over the extended reals.

  A mean over the arriving edges is computed either as the sum divided by M or as the sum times one over M, where M is
  the larger of the count and one. On the extended reals the quotient by a divisor that is not zero is the product
  with its inverse, so the two agree for every sum (finite or not) as soon as M is not zero; and the larger of anything
  and one is at least one, hence not zero. Mathlib and the ideal instance only; no program.
-/
import Idealize.ShloMosaic.PureOps.Ideal

noncomputable section

namespace Idealize.ShloMosaic.RecipScale

open Idealize.ShloMosaic

/-- For a divisor that is not zero, the product with one over it is the quotient by it. -/
theorem mul_one_div (s M : EReal) (hM : M ≠ 0) : s * Ideal.div 1 M = Ideal.div s M := by
  unfold Ideal.div
  rw [if_neg hM, if_neg hM, one_mul]

/-- The larger of anything and one is not zero. -/
theorem max_one_ne_zero (a o : EReal) (ho : o = 1) : max a o ≠ 0 := by
  subst ho
  intro h
  have h1 : (1 : EReal) ≤ max a 1 := le_max_right _ _
  rw [h] at h1
  have h01 : (0 : EReal) < 1 := by exact_mod_cast (zero_lt_one : (0 : ℝ) < 1)
  exact absurd h1 (not_le.mpr h01)

end Idealize.ShloMosaic.RecipScale

end
-- ==== Proof.LibRealArray.lean ====
/-
  Arrays of reals read as arrays of extended reals, for kernels whose arithmetic is +, - and × on finite inputs.

  At the ideal instance a float is an extended real, and the laws a polynomial identity needs (distributivity,
  cancelling a term) fail at ±∞. When every input is finite, every intermediate array of such a kernel is the image
  of an array of REALS under the coercion ℝ → EReal, and the extended reals' sum, difference and product of two such
  arrays are the images of the reals' (`addf_cv`, `subf_cv`, `mulf_cv`). Rewriting with these three turns an equation
  between arrays of extended reals into one between arrays of reals (`cv_congr`), where `ring` applies. Any shape.
  Also here: the float words 0, 1, 2 and 4 as reals, and a splat of 1 or 2 as a constant real-valued array.
-/
import Idealize.ShloMosaic.PureOps.Ideal
import Idealize.ShloMosaic.PureOps.Ideal.Laws
import Idealize.ShloMosaic.Lib.ValueIdx

noncomputable section

namespace Cert.RealArray

open Idealize.ShloMosaic Idealize.ShloMosaic.ValueIdx

variable {s : Shape}

/-- An array of reals read as an array of (finite) extended reals. -/
def cv (f : s.Idx → ℝ) : FVec Ideal s .f32 := fun i => ((f i : ℝ) : EReal)

/-- Its entry at an index is the real entry, coerced. -/
theorem cv_apply (f : s.Idx → ℝ) (i : s.Idx) : cv f i = ((f i : ℝ) : EReal) := rfl

/-- Two real-valued arrays that agree entry by entry have the same image. -/
theorem cv_congr {f g : s.Idx → ℝ} (h : ∀ i, f i = g i) : cv f = cv g := by
  funext i; rw [cv_apply, cv_apply, h i]

/-- On finite values the extended reals' product is the reals'. -/
theorem mulf_cv (f g : s.Idx → ℝ) : mulf (cv f) (cv g) = cv (fun i => f i * g i) := by
  funext i; rw [mulf_apply, cv_apply, cv_apply, cv_apply, EReal.coe_mul]

/-- On finite values the extended reals' sum is the reals'. -/
theorem addf_cv (f g : s.Idx → ℝ) : addf (cv f) (cv g) = cv (fun i => f i + g i) := by
  funext i; rw [addf_apply, cv_apply, cv_apply, cv_apply, EReal.coe_add]

/-- On finite values the extended reals' difference is the reals'. -/
theorem subf_cv (f g : s.Idx → ℝ) : subf (cv f) (cv g) = cv (fun i => f i - g i) := by
  funext i; rw [subf_apply, cv_apply, cv_apply, cv_apply, EReal.coe_sub]

/-! ## Float words as reals -/

/-- The f32 word of 1.0 is the real 1. -/
theorem word_one : Ideal.ofBits .f32 0x3F800000#32 = ((1 : ℝ) : EReal) := by
  simp [Ideal.ofBits, Ideal.ieee, -EReal.coe_mul]; norm_num

/-- The f32 word of 2.0 is the real 2. -/
theorem word_two : Ideal.ofBits .f32 0x40000000#32 = ((2 : ℝ) : EReal) := by
  simp [Ideal.ofBits, Ideal.ieee, -EReal.coe_mul]; norm_num

/-- The f32 word of 4.0 is the real 4. -/
theorem word_four : Ideal.ofBits .f32 0x40800000#32 = ((4 : ℝ) : EReal) := by
  simp [Ideal.ofBits, Ideal.ieee, -EReal.coe_mul]; norm_num

/-- The f32 word of +0.0 is the real 0. -/
theorem word_zero : Ideal.ofBits .f32 0x00000000#32 = ((0 : ℝ) : EReal) := by
  rw [Ideal.ofBits_zero_f32]; rfl

/-- A kernel's splat of 1.0 is the constant real-valued array 1. -/
theorem broadcast_one : broadcast s (Scalar.ofBits (F := Ideal) .f32 0x3F800000#32) = cv (fun _ => (1 : ℝ)) := by
  funext i; exact word_one

/-- A kernel's splat of 2.0 is the constant real-valued array 2. -/
theorem broadcast_two : broadcast s (Scalar.ofBits (F := Ideal) .f32 0x40000000#32) = cv (fun _ => (2 : ℝ)) := by
  funext i; exact word_two

end Cert.RealArray

end
-- ==== Proof.LibMeanScale.lean ====
/-
  A mean as "sum times one over the count" and as "sum divided by the count".

  Both programs average rows: over the edges arriving at a node, and over the nodes of a graph. One multiplies the sum
  by the reciprocal 1 / M of the count M (raised to at least one), the other divides the sum by M. For a divisor that
  is not zero the quotient of extended reals IS the product with the inverse, so the two agree entry by entry for every
  sum, finite or not. Here M is a vector with one entry per row; it reaches the matrix as a column broadcast over the
  columns. The count is a maximum with one, hence at least one and not zero.
-/
import Idealize.ShloMosaic.PureOps.Ideal
import Idealize.ShloMosaic.Lib.ValueIdx
import Idealize.ShloMosaic.Lib.Pipeline.Value
import proofs.«131685_j69784628625939_1_alg».proof.Proof.LibRecipScale
import proofs.«131685_j69784628625939_1_alg».proof.Proof.LibHostColRow
import proofs.«131685_j69784628625939_1_alg».proof.Proof.LibBcastVec
import proofs.«131685_j69784628625939_1_alg».proof.Proof.LibRealArray

noncomputable section

namespace Cert.Gnn

open Idealize.ShloMosaic Idealize.ShloMosaic.ValueIdx

variable {a b : Nat}

/-- A vector of ones (the word of 1.0 broadcast) has every entry one. -/
theorem ones_apply (h0 : (⟨0, ![]⟩ : Shape).BroadcastsInDim ⟨1, ![a]⟩ ![]) (i : (⟨1, ![a]⟩ : Shape).Idx) :
    broadcastInDim ⟨1, ![a]⟩ ![] h0 (constant (F := Ideal) ⟨0, ![]⟩ .f32 0x3F800000#32) i = 1 := by
  rw [broadcastInDim_apply ![] h0 _ i ix0 (fun d => d.elim0)]
  show Ideal.ofBits .f32 0x3F800000#32 = 1
  rw [Cert.RealArray.word_one]
  rfl

/-- An array of zeros (the zero word broadcast) has every entry zero. -/
theorem zeros_apply {s : Shape} (h0 : (⟨0, ![]⟩ : Shape).BroadcastsInDim s ![]) (i : s.Idx) :
    broadcastInDim s ![] h0 (constant (F := Ideal) ⟨0, ![]⟩ .f32 0x00000000#32) i = 0 := by
  rw [broadcastInDim_apply ![] h0 _ i ix0 (fun d => d.elim0)]
  show Ideal.ofBits .f32 0x00000000#32 = 0
  exact Ideal.ofBits_zero_f32

/-- The larger of a count and one is not zero. -/
theorem max_ones_ne_zero (cnt ones : FVec Ideal ⟨1, ![a]⟩ .f32) (hones : ∀ i, ones i = 1) (i : (⟨1, ![a]⟩ : Shape).Idx) :
    maximumf cnt ones i ≠ 0 :=
  Idealize.ShloMosaic.RecipScale.max_one_ne_zero _ _ (hones i)

/-- Row sums times the column of reciprocal counts = row sums divided by the column of counts, when no count is zero. -/
theorem mean_scale (S : FVec Ideal ⟨2, ![a, b]⟩ .f32) (Mx ones : FVec Ideal ⟨1, ![a]⟩ .f32)
    (hones : ∀ i, ones i = 1) (hM : ∀ i, Mx i ≠ 0)
    (h1 : (⟨1, ![a]⟩ : Shape).BroadcastsInDim ⟨2, ![a, 1]⟩ ![0])
    (h2 : (⟨2, ![a, 1]⟩ : Shape).BroadcastsInDim ⟨2, ![a, b]⟩ ![0, 1]) :
    mulf S (broadcastInDim ⟨2, ![a, b]⟩ ![0, 1] h2 (broadcastInDim ⟨2, ![a, 1]⟩ ![0] h1 (Host.divf (F := Ideal) ones Mx)))
      = Host.divf (F := Ideal) S (broadcastInDim ⟨2, ![a, b]⟩ ![0, 1] h2 (broadcastInDim ⟨2, ![a, 1]⟩ ![0] h1 Mx)) := by
  funext j
  obtain ⟨p, q, rfl⟩ : ∃ (p : Fin a) (q : Fin b), j = ix2 p q := ⟨j 0, j 1, eq_ix2 j⟩
  show S (ix2 p q) * broadcastInDim ⟨2, ![a, b]⟩ ![0, 1] h2 (broadcastInDim ⟨2, ![a, 1]⟩ ![0] h1 (Host.divf (F := Ideal) ones Mx)) (ix2 p q)
    = Ideal.div (S (ix2 p q)) (broadcastInDim ⟨2, ![a, b]⟩ ![0, 1] h2 (broadcastInDim ⟨2, ![a, 1]⟩ ![0] h1 Mx) (ix2 p q))
  rw [Idealize.ShloMosaic.HostColRow.bcast_col_apply, Idealize.ShloMosaic.HostColRow.bcast_col_apply]
  show S (ix2 p q) * broadcastInDim ⟨2, ![a, 1]⟩ ![0] h1 (Host.divf (F := Ideal) ones Mx) (ix2 p (0 : Fin 1))
    = Ideal.div (S (ix2 p q)) (broadcastInDim ⟨2, ![a, 1]⟩ ![0] h1 Mx (ix2 p (0 : Fin 1)))
  rw [Idealize.ShloMosaic.BcastVec.bcast_vec_col_apply, Idealize.ShloMosaic.BcastVec.bcast_vec_col_apply]
  show S (ix2 p q) * Ideal.div (ones (ix1 p)) (Mx (ix1 p)) = _
  rw [hones, Idealize.ShloMosaic.RecipScale.mul_one_div _ _ (hM _)]

end Cert.Gnn

end
-- ==== Proof.LibEdgeSum.lean ====
/-
  Summing over edges commutes with a linear map, on finite values.

  A graph layer sends to each node the sum, over the edges that end there, of the source nodes' rows. Applying a linear
  map (a row times a weight matrix) to every row BEFORE that sum, or applying it once to the summed row AFTER it, gives
  the same result: both are the double sum over edges e and features k of t e k * w k. On the extended reals this needs
  the rows and the weights to be real numbers, because it moves a factor across a sum (a product with an infinity does
  not distribute). The zero that each edge sum and each row-by-column product starts from is carried along as it is
  computed.
-/
import proofs.«131685_j69784628625939_1_alg».proof.Proof.LibFinite

noncomputable section

open scoped BigOperators

namespace Cert.EdgeSum

open Cert.LibFinite

/-- The coercion of a finite sum of reals is the sum of the coercions. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Transform each edge's row, then sum over the edges = sum the rows over the edges, then transform: for real rows
    `t e` and real weights `w`, with the zeros the sums are accumulated from. -/
theorem sum_transform_comm {ε κ : Type} [Fintype κ] (s : Finset ε) (t : ε → κ → EReal) (w : κ → EReal)
    (ht : ∀ e k, IsFin (t e k)) (hw : ∀ k, IsFin (w k)) :
    (0 + ∑ e ∈ s, ∑ k, t e k * w k) = ∑ k, (0 + ∑ e ∈ s, t e k) * w k := by
  choose tr htr using ht
  choose wr hwr using hw
  have hL : (0 + ∑ e ∈ s, ∑ k, t e k * w k) = ((∑ e ∈ s, ∑ k, tr e k * wr k : ℝ) : EReal) := by
    rw [zero_add, coe_sum]
    refine Finset.sum_congr rfl fun e _ => ?_
    rw [coe_sum]
    exact Finset.sum_congr rfl fun k _ => by rw [htr, hwr, EReal.coe_mul]
  have hR : (∑ k, (0 + ∑ e ∈ s, t e k) * w k) = ((∑ k, (∑ e ∈ s, tr e k) * wr k : ℝ) : EReal) := by
    rw [coe_sum]
    refine Finset.sum_congr rfl fun k _ => ?_
    rw [zero_add, EReal.coe_mul, coe_sum, hwr]
    congr 1
    exact Finset.sum_congr rfl fun e _ => htr e k
  rw [hL, hR]
  congr 1
  rw [Finset.sum_comm]
  exact Finset.sum_congr rfl fun k _ => (Finset.sum_mul _ _ _).symm

/-- A sum accumulated from zero over any set of edges of real rows is real. -/
theorem isFin_edge_sum {ε : Type} (s : Finset ε) (f : ε → EReal) (h : ∀ e, IsFin (f e)) : IsFin (0 + ∑ e ∈ s, f e) :=
  IsFin.add IsFin.zero (IsFin.sum s f fun e _ => h e)

/-- A row-by-column product of real rows and columns is real. -/
theorem isFin_dot {κ : Type} [Fintype κ] (a b : κ → EReal) (ha : ∀ k, IsFin (a k)) (hb : ∀ k, IsFin (b k)) :
    IsFin (∑ k, a k * b k) :=
  IsFin.sum _ _ fun k _ => IsFin.mul (ha k) (hb k)

end Cert.EdgeSum

end
-- ==== Proof.BridgeLayerAgg.lean ====
/-
  One layer's neighbour mean and the finiteness of the pre-activation, on real inputs.

  Every array is read entry by entry; an index of a matrix is written (p, q), of a vector (q).  An entry is REAL
  when it is a finite extended real.

  The neighbour sums.  The accumulating row scatter of the gathered rows into the zero matrix holds at (p, q) the
  value  0 + Σ_{e : the edges whose target is p} x (src e, q),  where src e is the source index of edge e read as a
  signed integer and clamped into the rows of x: the scatter read at an entry is the operand's entry plus the sum of
  the update rows whose index is p, and the gather's row e is the row src e of x.  (The two printed records of
  dimension numbers have the same fields as the general row-scatter and row-gather records, so they are equal by
  definition.)  A finite sum of reals from zero is real: every entry of the neighbour sums is real.

  The clamped in-degree.  The count at p is  max (0 + Σ_{e : target p} 1, 1): a real number, at least one, hence not
  zero.  (The word 0x3F800000 is the real 1, the zero word the real 0.)

  The two means agree.  The kernel's program multiplies the sum at (p, q) by the entry p of the column
  "one over the count" (the vector 1 / count cast to a column, which holds what the vector broadcast into a column
  holds); the reference divides the sum at (p, q) by the count's entry p.  For a divisor M that is not zero the
  quotient s / M of extended reals is the product s * M⁻¹, and 1 / M is 1 * M⁻¹, so  s * (1 / M) = s / M  for every s,
  real or not.  Hence the two whole arrays are equal for every x; and on a real x each entry, a real divided by a
  non-zero real, is real.

  The pre-activation at (p, q) is  (Σ_k a (p, k) * Wl (k, q) + bl (0, q)) + Σ_k x (p, k) * Wr (k, q)  (a plain matrix
  product at an entry is the row-by-column sum; a one-row matrix spread over the rows holds its entry (0, q) at
  (p, q)): real for real a, x, weights and bias.  The skip term  Σ_k x (p, k) * Ws (k, q) + bs (0, q)  likewise.

  The row-normalised value at (p, q) is  o (p, q) / max (√(0 + Σ_k o (p, k)²), ε)  with ε the word 0x2B8CBCCC, a
  positive real (sign 0, exponent field 87, fraction 0x0CBCCC, so (2²³ + 834764) * 2⁻⁶³): the sum of squares of
  reals is a real ≥ 0, its root a real, the maximum with ε a real ≥ ε > 0, so the quotient is real.

  A vector of 128 made a one-row matrix holds at (0, q) the vector's entry q.
-/
import proofs.«131685_j69784628625939_1_alg».proof.Proof.Spec
import proofs.«131685_j69784628625939_1_alg».proof.Proof.LibFinite
import proofs.«131685_j69784628625939_1_alg».proof.Proof.LibScatterRows
import proofs.«131685_j69784628625939_1_alg».proof.Proof.LibGatherRows
import proofs.«131685_j69784628625939_1_alg».proof.Proof.LibCounts
import proofs.«131685_j69784628625939_1_alg».proof.Proof.LibMeanScale
import proofs.«131685_j69784628625939_1_alg».proof.Proof.LibEdgeSum
import proofs.«131685_j69784628625939_1_alg».proof.Proof.LibHostDotPlain
import proofs.«131685_j69784628625939_1_alg».proof.Proof.LibHostColRow
import proofs.«131685_j69784628625939_1_alg».proof.Proof.LibBcastVec
import proofs.«131685_j69784628625939_1_alg».proof.Proof.LibTailPieces

noncomputable section

open scoped BigOperators
open Idealize.ShloMosaic Idealize.ShloMosaic.ValueIdx

namespace Cert.Sage

open Cert.ReferenceIdeal Cert.ReferenceIdeal.Facts₀ Cert.LibFinite

/-! ## Entries of the spread arrays -/

/-- A splat holds the word's value at every entry. -/
theorem splat_apply (s : Shape) (h : S_.BroadcastsInDim s (![] : Fin 0 → Fin s.rank)) (w : BitVec 32) (i : s.Idx) :
    splat s h w i = Ideal.ofBits .f32 w := by
  unfold splat
  rw [broadcastInDim_apply ![] h _ i ix0 (fun d => d.elim0)]
  rfl

/-- A one-row matrix spread over the rows, at (p, q): the row's entry (0, q). -/
theorem rowsB_apply (v : Row) (i : S50000x128.Idx) : rowsB v i = v (ix2 (0 : Fin 1) (i 1)) :=
  Idealize.ShloMosaic.HostColRow.bcast_row_apply v bcast_S1x128_S50000x128_0_1 i

/-- A column spread over the lanes, at (p, q): the column's entry (p, 0). -/
theorem colB_apply (v : FVec Ideal S50000x1 .f32) (i : S50000x128.Idx) : colB v i = v (ix2 (i 0) (0 : Fin 1)) :=
  Idealize.ShloMosaic.HostColRow.bcast_col_apply v bcast_S50000x1_S50000x128_0_1 i

/-- A vector made a one-row matrix, at (u, q): the vector's entry q. -/
theorem asRow_apply (v : V128) (i : S1x128.Idx) : asRow v i = v (ix1 (i 1)) := by
  obtain ⟨u, k, rfl⟩ : ∃ (u : Fin 1) (k : Fin 128), i = ix2 u k := ⟨i 0, i 1, eq_ix2 i⟩
  exact Idealize.ShloMosaic.BcastVec.bcast_vec_row_apply v bcast_S128_S1x128_1 u k

theorem asRow_fin (v : V128) (hv : ∀ i, IsFin (v i)) : ∀ i, IsFin (asRow v i) := by
  intro i
  rw [asRow_apply]
  exact hv _

/-- The plain product at (p, q): the row-by-column sum. -/
theorem dot_apply (x : Mat) (wT : Sq) (i : S50000x128.Idx) :
    dot x wT i = ∑ k : Fin 128, x (ix2 (i 0) k) * wT (ix2 k (i 1)) :=
  Idealize.ShloMosaic.HostDotPlain.dotGeneral_apply (M := 50000) (K := 128) (N := 128) none x wT i

theorem dot_fin (x : Mat) (wT : Sq) (hx : ∀ i, IsFin (x i)) (hw : ∀ i, IsFin (wT i)) : ∀ i, IsFin (dot x wT i) := by
  intro i
  rw [dot_apply]
  exact Cert.EdgeSum.isFin_dot _ _ (fun _ => hx _) (fun _ => hw _)

theorem rowsB_fin (v : Row) (hv : ∀ i, IsFin (v i)) : ∀ i, IsFin (rowsB v i) := by
  intro i
  rw [rowsB_apply]
  exact hv _

/-! ## The two means agree -/

/-- No clamped in-degree is zero. -/
theorem cnt_ne_zero (ei : Edges) (i : S50000.Idx) : cnt ei i ≠ 0 :=
  Cert.Gnn.max_ones_ne_zero _ _ (fun j => Cert.Gnn.ones_apply bcast_S_S50000 j) i

/-- The neighbour sums times the reciprocal in-degree are the neighbour sums divided by the in-degree. -/
theorem agg_eq (x : Mat) (ei : Edges) : Ker.agg x ei = Ref.agg x ei := by
  unfold Ker.agg Ref.agg Ker.degInv colB
  rw [Idealize.ShloMosaic.HostColRow.col_eq _ _ bcast_S50000_S50000x1_0]
  exact Cert.Gnn.mean_scale (aggSum x ei) (cnt ei) (splat S50000 bcast_S_S50000 0x3F800000#32)
    (fun j => Cert.Gnn.ones_apply bcast_S_S50000 j) (cnt_ne_zero ei) bcast_S50000_S50000x1_0
    bcast_S50000x1_S50000x128_0_1

/-! ## The neighbour sums and the mean are real -/

/-- The host's quotient at an entry. -/
theorem hostDivf_apply {s : Shape} (a b : FVec Ideal s .f32) (i : s.Idx) : Host.divf a b i = Ideal.div (a i) (b i) := rfl

/-- The neighbour sums at (p, q): zero plus the sum, over the edges whose target is p, of the source row's entry q. -/
theorem aggSum_apply (x : Mat) (ei : Edges) (p : Fin 50000) (q : Fin 128) :
    aggSum x ei (ix2 p q)
      = 0 + ∑ e ∈ Idealize.ShloMosaic.ScatterRows.hits (N := 50000) (dstCol ei) p,
          x (ix2 (Idealize.ShloMosaic.GatherRows.rowOf (N := 50000) (by omega) (srcCol ei) e) q) := by
  have hd : scatter_S50000x128_S800000x1_S800000x128_1_0_0_1
      = Idealize.ShloMosaic.ScatterRows.rowDims 50000 800000 128 scatter_S50000x128_S800000x1_S800000x128_1_0_0_1_wf := rfl
  have hg : gather_S50000x128_S800000x1_S800000x128_1_0_n_n_0_1_1128
      = Idealize.ShloMosaic.GatherRows.rowDims 50000 800000 128 gather_S50000x128_S800000x1_S800000x128_1_0_n_n_0_1_1128_wf := rfl
  unfold aggSum
  rw [Idealize.ShloMosaic.HostSums.hostScatterAdd_eq, hd, hg, Idealize.ShloMosaic.ScatterRows.scatterAdd_rows_apply,
    splat_apply, Ideal.ofBits_zero_f32]
  refine congrArg (0 + ·) (Finset.sum_congr rfl fun e _ => ?_)
  exact Idealize.ShloMosaic.GatherRows.gather_rows_apply (by omega) _ x (srcCol ei) e q

/-- The reference's mean at (p, q): the neighbour sum divided by the in-degree of p. -/
theorem refAgg_apply (x : Mat) (ei : Edges) (i : S50000x128.Idx) :
    Ref.agg x ei i = Ideal.div (aggSum x ei i) (cnt ei (ix1 (i 0))) := by
  unfold Ref.agg
  rw [hostDivf_apply, colB_apply,
    Idealize.ShloMosaic.BcastVec.bcast_vec_col_apply (cnt ei) bcast_S50000_S50000x1_0 (i 0) (0 : Fin 1)]

theorem aggSum_fin (x : Mat) (ei : Edges) (hx : ∀ i, IsFin (x i)) : ∀ i, IsFin (aggSum x ei i) := by
  intro i
  obtain ⟨p, q, rfl⟩ : ∃ (p : Fin 50000) (q : Fin 128), i = ix2 p q := ⟨i 0, i 1, eq_ix2 i⟩
  rw [aggSum_apply]
  exact Cert.EdgeSum.isFin_edge_sum _ _ fun _ => hx _

/-- Every clamped in-degree is real. -/
theorem cnt_fin (ei : Edges) (i : S50000.Idx) : IsFin (cnt ei i) :=
  Cert.Gnn.count_max_isFin scatter_S50000_S800000x1_S800000_n_0_0_1_wf (splat S50000 bcast_S_S50000 0x00000000#32)
    (splat S50000 bcast_S_S50000 0x3F800000#32) (splat S800000 bcast_S_S800000 0x3F800000#32) (dstCol ei)
    (fun j => Cert.Gnn.zeros_apply bcast_S_S50000 j) (fun e => Cert.Gnn.ones_apply bcast_S_S800000 e)
    (fun j => Cert.Gnn.ones_apply bcast_S_S50000 j) i

theorem agg_fin (x : Mat) (ei : Edges) (hx : ∀ i, IsFin (x i)) : ∀ i, IsFin (Ref.agg x ei i) := by
  intro i
  rw [refAgg_apply]
  exact IsFin.div (aggSum_fin x ei hx i) (cnt_fin ei _) (cnt_ne_zero ei _)

/-! ## The pre-activation and the skip term are real -/

theorem pre_fin (x a : Mat) (wlT : Sq) (bl : Row) (wrT : Sq) (hx : ∀ i, IsFin (x i)) (ha : ∀ i, IsFin (a i))
    (hwl : ∀ i, IsFin (wlT i)) (hbl : ∀ i, IsFin (bl i)) (hwr : ∀ i, IsFin (wrT i)) :
    ∀ i, IsFin (pre x a wlT bl wrT i) := by
  intro i
  show IsFin (dot a wlT i + rowsB bl i + dot x wrT i)
  exact IsFin.add (IsFin.add (dot_fin a wlT ha hwl i) (rowsB_fin bl hbl i)) (dot_fin x wrT hx hwr i)

theorem resid_fin (x : Mat) (wsT : Sq) (bs : Row) (hx : ∀ i, IsFin (x i)) (hws : ∀ i, IsFin (wsT i))
    (hbs : ∀ i, IsFin (bs i)) : ∀ i, IsFin (resid x wsT bs i) := by
  intro i
  show IsFin (dot x wsT i + rowsB bs i)
  exact IsFin.add (dot_fin x wsT hx hws i) (rowsB_fin bs hbs i)

/-! ## The row-normalised value is real -/

/-- The word 0x2B8CBCCC is a positive real. -/
theorem eps_word : ∃ r : ℝ, 0 < r ∧ Ideal.ofBits .f32 0x2B8CBCCC#32 = (r : EReal) := by
  refine ⟨((2 ^ 23 + 834764 : ℕ) : ℝ) * (2 : ℝ) ^ ((87 : ℤ) - 127 - 23), by positivity, ?_⟩
  simp [Ideal.ofBits, Ideal.ieee, -EReal.coe_mul]

/-- The root of a real that is not negative is real. -/
theorem sqrt_real_nonneg (r : ℝ) (h : 0 ≤ r) : IsFin (Ideal.sqrt (r : EReal)) := by
  rw [Ideal.sqrt_coe, if_neg (not_lt.mpr h)]
  exact ⟨_, rfl⟩

/-- The root of a sum of squares of reals, accumulated from zero, is real. -/
theorem sqrt_sumsq_fin {κ : Type} [Fintype κ] (o : κ → EReal) (ho : ∀ k, IsFin (o k)) :
    IsFin (Ideal.sqrt (0 + ∑ k, o k * o k)) := by
  choose r hr using ho
  have h : (0 + ∑ k, o k * o k) = ((∑ k, r k * r k : ℝ) : EReal) := by
    rw [zero_add, Cert.EdgeSum.coe_sum]
    exact Finset.sum_congr rfl fun k _ => by rw [hr, EReal.coe_mul]
  rw [h]
  exact sqrt_real_nonneg _ (Finset.sum_nonneg fun k _ => mul_self_nonneg _)

/-- The larger of a real and a positive real is a real that is not zero. -/
theorem max_pos_fin_ne {a e : EReal} (ha : IsFin a) (he : ∃ r : ℝ, 0 < r ∧ e = (r : EReal)) :
    IsFin (max a e) ∧ max a e ≠ 0 := by
  obtain ⟨r, hr, rfl⟩ := he
  refine ⟨IsFin.max ha ⟨r, rfl⟩, ?_⟩
  have h0 : (0 : EReal) < (r : EReal) := by exact_mod_cast hr
  exact ne_of_gt (lt_of_lt_of_le h0 (le_max_right _ _))

/-- The divisor column of the row normalisation: the larger of each row's Euclidean norm and the word 0x2B8CBCCC. -/
def normCol (o : Mat) : FVec Ideal S50000x1 .f32 :=
  maximumf (Host.sqrt (broadcastInDim S50000x1 ![0] bcast_S50000_S50000x1_0
      (Host.reduceAdd (mulf o o) (constant (F := Ideal) S_ .f32 0x00000000#32) reducesTo_S50000x128_S50000_d1 h_S_)))
    (splat S50000x1 bcast_S_S50000x1 0x2B8CBCCC#32)

theorem normed_eq (o : Mat) : normed o = Host.divf o (colB (normCol o)) := rfl

/-- The divisor column at (p, 0):  max (√(0 + Σ_k o (p, k)²), ε). -/
theorem normCol_apply (o : Mat) (p : Fin 50000) (u : Fin 1) :
    normCol o (ix2 p u)
      = max (Ideal.sqrt (0 + ∑ k : Fin 128, o (ix2 p k) * o (ix2 p k))) (Ideal.ofBits .f32 0x2B8CBCCC#32) := by
  unfold normCol maximumf Host.sqrt
  rw [splat_apply, Idealize.ShloMosaic.BcastVec.bcast_vec_col_apply,
    Idealize.ShloMosaic.TailPieces.hostRowSum_apply (mulf o o) _ reducesTo_S50000x128_S50000_d1
      ⟨reducesTo_S50000x128_S50000_d1.1, Nat.one_pos, reducesTo_S50000x128_S50000_d1.2⟩ h_S_ p]
  show max (Ideal.sqrt (Ideal.ofBits .f32 0x00000000#32 + ∑ k : Fin 128, o (ix2 p k) * o (ix2 p k))) _ = _
  rw [Ideal.ofBits_zero_f32]

/-- On a real matrix every entry of the divisor column is a real that is not zero. -/
theorem normCol_fin_ne (o : Mat) (ho : ∀ i, IsFin (o i)) (j : S50000x1.Idx) : IsFin (normCol o j) ∧ normCol o j ≠ 0 := by
  obtain ⟨p, u, rfl⟩ : ∃ (p : Fin 50000) (u : Fin 1), j = ix2 p u := ⟨j 0, j 1, eq_ix2 j⟩
  rw [normCol_apply]
  exact max_pos_fin_ne (sqrt_sumsq_fin _ fun _ => ho _) eps_word

theorem normed_fin (o : Mat) (ho : ∀ i, IsFin (o i)) : ∀ i, IsFin (normed o i) := by
  intro i
  rw [normed_eq, hostDivf_apply, colB_apply]
  exact IsFin.div (ho i) (normCol_fin_ne o ho _).1 (normCol_fin_ne o ho _).2

end Cert.Sage

end
-- ==== Proof.BridgeLayerStats.lean ====
/-
  The column statistics of one layer, read entry by entry over the extended reals.

  Indices: a matrix entry is (p, q), a one-row matrix entry (0, q), a vector entry (q).  N = 50000 is the number of rows.

  A vector made a one-row matrix holds v q at (0, q); a one-row matrix spread over the rows holds its entry (0, q) at
  (p, q); a word spread over a shape holds the word's value everywhere; the column sum at q is 0 + Σ_p z (p, q).

  The mean.  The quotient is taken entry by entry, so dividing the row of column sums by the row of N's gives the
  same entries as dividing the vector of column sums by the vector of N's and making the result a row.

  The inverse deviation.  Likewise the reciprocal root of (variance + ε) is the same function of the same entry
  whether the variance is made a row before or after.

  The variance.  The word 0x47435000 has sign 0, exponent field 142 and fraction 0x435000, so it denotes
  (2²³ + 4411392) · 2⁻⁸ = 50000; the integer 0 converted is the real 0; so the reference's divisor is 50000 − 0 = 50000,
  its guard 50000 > 0 holds and its select takes the quotient.  For a matrix of reals n with column sum s:
      Σ_p (n_p − s/N)² = Σ_p n_p² − 2 (s/N) s + N (s/N)²,
  and dividing by N = 50000 ≠ 0 gives  (Σ_p n_p²)/N − (s/N)².  The coercion of the reals into the extended reals
  commutes with finite sums, products, differences, and quotients by a non-zero real, so the two variance rows are
  equal as extended reals.

  Reality.  The variance is a sum of squares over N, a real ≥ 0; the word 0x3727C5AC (sign 0, exponent field 110) is
  a positive real; so variance + ε is a real > 0 and its reciprocal root is the real (√·)⁻¹.  The tail of the layer
  subtracts, multiplies and adds reals and selects one of two reals: real.
-/
import proofs.«131685_j69784628625939_1_alg».proof.Proof.Spec
import proofs.«131685_j69784628625939_1_alg».proof.Proof.LibFinite
import proofs.«131685_j69784628625939_1_alg».proof.Proof.LibRealArray
import proofs.«131685_j69784628625939_1_alg».proof.Proof.LibEdgeSum
import proofs.«131685_j69784628625939_1_alg».proof.Proof.LibHostSums
import proofs.«131685_j69784628625939_1_alg».proof.Proof.LibBcastVec
import proofs.«131685_j69784628625939_1_alg».proof.Proof.LibHostColRow

noncomputable section

open scoped BigOperators
open Idealize.ShloMosaic Idealize.ShloMosaic.ValueIdx

namespace Cert.Sage
open Cert.ReferenceIdeal Cert.ReferenceIdeal.Facts₀ Cert.LibFinite Cert.RealArray

namespace Stats

/-! ## Arrays read at an entry -/

/-- A word spread over a shape holds the word's value at every entry. -/
theorem splat_apply (s : Shape) (h : S_.BroadcastsInDim s (![] : Fin 0 → Fin s.rank)) (w : BitVec 32) (i : s.Idx) :
    splat s h w i = Ideal.ofBits .f32 w := by
  unfold splat
  exact (broadcastInDim_apply ![] h _ i ix0 (fun d => d.elim0)).trans rfl

/-- A vector made a one-row matrix holds the vector's entry q at (0, q). -/
theorem asRow_apply (v : V128) (i : S1x128.Idx) : asRow v i = v (ix1 (i 1)) := by
  obtain ⟨u, q, rfl⟩ : ∃ (u : Fin 1) (q : Fin 128), i = ix2 u q := ⟨i 0, i 1, eq_ix2 i⟩
  exact BcastVec.bcast_vec_row_apply v bcast_S128_S1x128_1 u q

/-- A one-row matrix spread over the rows holds its entry (0, q) at (p, q). -/
theorem rowsB_apply (v : Row) (i : S50000x128.Idx) : rowsB v i = v (ix2 (0 : Fin 1) (i 1)) :=
  HostColRow.bcast_row_apply v bcast_S1x128_S50000x128_0_1 i

/-- The column sum at q: zero plus the sum of the column's entries. -/
theorem colSum_apply (z : Mat) (q : Fin 128) : colSum z (ix1 q) = 0 + ∑ p : Fin 50000, z (ix2 p q) := by
  unfold colSum Host.reduceAdd
  show Ideal.hostReduceAdd reducesTo_S50000x128_S128_d0 z (Ideal.ofBits .f32 0x00000000#32) (ix1 q) = _
  rw [HostSums.hostColSum_apply, Ideal.ofBits_zero_f32]

theorem hdivf_apply {s : Shape} (a b : FVec Ideal s .f32) (i : s.Idx) : Host.divf a b i = Ideal.div (a i) (b i) := rfl
theorem hrsqrt_apply {s : Shape} (a : FVec Ideal s .f32) (i : s.Idx) : Host.rsqrt a i = Ideal.rsqrt (a i) := rfl
theorem rsqrt_apply {s : Shape} (a : FVec Ideal s .f32) (i : s.Idx) : rsqrt a i = Ideal.rsqrt (a i) := rfl

end Stats
open Stats

/-! ## The mean and the inverse deviation: a row made before or after an entrywise operation -/

/-- The row of column sums over the row of N's is the vector of means made a row. -/
theorem mean_eq (n : Mat) :
    Host.divf (Ker.colSumRow n) (splat S1x128 bcast_S_S1x128 0x47435000#32) = asRow (Ref.mean n) := by
  funext i
  unfold Ker.colSumRow Ref.mean
  rw [hdivf_apply, asRow_apply, asRow_apply, hdivf_apply, splat_apply, splat_apply]

/-- The reciprocal root of (variance + ε) on the row is the vector's reciprocal root made a row. -/
theorem istd_eq (v : V128) :
    rsqrt (addf (asRow v) (broadcast S1x128 (Scalar.ofBits (F := Ideal) .f32 0x3727C5AC#32)))
      = asRow (Host.rsqrt (addf v (splat S128 bcast_S_S128 0x3727C5AC#32))) := by
  funext i
  rw [rsqrt_apply, asRow_apply, hrsqrt_apply, addf_apply, addf_apply, asRow_apply, broadcast_apply, splat_apply]
  rfl

namespace Stats

/-! ## The words of this layer as reals -/

/-- The word 0x47435000 is the real 50000. -/
theorem word_N : Ideal.ofBits .f32 0x47435000#32 = ((50000 : ℝ) : EReal) := by
  simp [Ideal.ofBits, Ideal.ieee, -EReal.coe_mul]; norm_num

/-- The quotient of a real by a non-zero real is the reals' quotient. -/
theorem div_coe (a b : ℝ) (hb : b ≠ 0) : Ideal.div (a : EReal) (b : EReal) = ((a / b : ℝ) : EReal) := by
  unfold Ideal.div
  rw [if_neg (fun h => hb (EReal.coe_eq_zero.mp h)), ← EReal.coe_inv, ← EReal.coe_mul, div_eq_mul_inv]

/-! ## A matrix of reals -/

/-- Every matrix of finite extended reals is the image of a matrix of reals. -/
theorem exists_cv (n : Mat) (hn : ∀ i, IsFin (n i)) : ∃ f : S50000x128.Idx → ℝ, n = cv f :=
  ⟨fun i => (hn i).choose, funext fun i => (hn i).choose_spec⟩

/-- The column sum of a matrix of reals is the real column sum. -/
theorem colSum_cv (f : S50000x128.Idx → ℝ) (q : Fin 128) :
    colSum (cv f) (ix1 q) = ((∑ p : Fin 50000, f (ix2 p q) : ℝ) : EReal) := by
  rw [colSum_apply, zero_add, EdgeSum.coe_sum]
  exact Finset.sum_congr rfl fun p _ => cv_apply f _

/-- The column sum at any index of the vector of sums. -/
theorem colSum_cv' (f : S50000x128.Idx → ℝ) (j : S128.Idx) :
    colSum (cv f) j = ((∑ p : Fin 50000, f (ix2 p (j 0)) : ℝ) : EReal) := by
  obtain ⟨q, rfl⟩ : ∃ q : Fin 128, j = ix1 q := ⟨j 0, eq_ix1 j⟩
  exact colSum_cv f q

/-- The row of means of a matrix of reals, spread over the rows, is the matrix of real column means. -/
theorem meanRows_cv (f : S50000x128.Idx → ℝ) :
    rowsB (Host.divf (asRow (colSum (cv f))) (splat S1x128 bcast_S_S1x128 0x47435000#32))
      = cv (fun i => (∑ p : Fin 50000, f (ix2 p (i 1))) / 50000) := by
  funext i
  rw [rowsB_apply, hdivf_apply, asRow_apply, splat_apply, word_N, colSum_cv', div_coe _ _ (by norm_num)]
  rfl

/-- The reference's divisor 50000 − 0 is the real 50000. -/
theorem divisor_apply (j : S_.Idx) :
    (subf (constant (F := Ideal) S_ .f32 0x47435000#32) (sitofp .f32 (constantI S_ 32 0#32)) : FVec Ideal S_ .f32) j
      = ((50000 : ℝ) : EReal) := by
  rw [subf_apply, constant_apply, sitofp_apply, constantI_apply, word_N]
  show ((50000 : ℝ) : EReal) - (((0#32 : BitVec 32).toInt : ℝ) : EReal) = _
  simp

end Stats

namespace Stats
/-- The reference's variance of a matrix of reals: the guard holds, and the entry is the real mean of the squared
    deviations from the column mean. -/
theorem var_cv (f : S50000x128.Idx → ℝ) (q : Fin 128) :
    Ref.var (cv f) (ix1 q)
      = (((∑ p : Fin 50000, (f (ix2 p q) - (∑ r : Fin 50000, f (ix2 r q)) / 50000)
            * (f (ix2 p q) - (∑ r : Fin 50000, f (ix2 r q)) / 50000)) / 50000 : ℝ) : EReal) := by
  have hpos : (0 : EReal) < ((50000 : ℝ) : EReal) := by exact_mod_cast (by norm_num : (0 : ℝ) < 50000)
  have hc : FloatOps.cmpf (F := Ideal) (φ := .f32) CmpFPredicate.ogt ((50000 : ℝ) : EReal) 0 = 1#1 := by
    show Ideal.cmp CmpFPredicate.ogt _ _ = _
    simp [Ideal.cmp, hpos]
  unfold Ref.var
  simp only []
  rw [select_apply, broadcastInDim_apply ![] bcast_S_S128 _ (ix1 q) ix0 (fun a => a.elim0), cmpf_apply, divisor_apply,
    constant_apply, Ideal.ofBits_zero_f32, hc, select_one, hdivf_apply,
    broadcastInDim_apply ![] bcast_S_S128 _ (ix1 q) ix0 (fun a => a.elim0), divisor_apply, meanRows_cv, subf_cv, mulf_cv,
    colSum_cv, div_coe _ _ (by norm_num)]

/-- Over the reals, with s the sum of N = 50000 numbers: the mean of the squares minus the squared mean is the mean
    of the squared deviations from the mean. -/
theorem var_identity (g : Fin 50000 → ℝ) (s : ℝ) (hs : ∑ p, g p = s) :
    (∑ p, g p * g p) / 50000 - s / 50000 * (s / 50000)
      = (∑ p, (g p - s / 50000) * (g p - s / 50000)) / 50000 := by
  have h : ∑ p, (g p - s / 50000) * (g p - s / 50000)
      = ∑ p, g p * g p - 2 * (s / 50000) * s + 50000 * (s / 50000 * (s / 50000)) := by
    have e : ∀ p, (g p - s / 50000) * (g p - s / 50000)
        = g p * g p - 2 * (s / 50000) * g p + s / 50000 * (s / 50000) := fun p => by ring
    rw [Finset.sum_congr rfl fun p _ => e p, Finset.sum_add_distrib, Finset.sum_sub_distrib, ← Finset.mul_sum, hs,
      Finset.sum_const, Finset.card_univ, Fintype.card_fin, nsmul_eq_mul]
    norm_num
  rw [h]
  field_simp
  ring
end Stats

/-- The kernel program's variance row, mean of squares minus squared mean, is the reference's variance made a row,
    for a matrix of reals. -/
theorem var_eq (n : Mat) (hn : ∀ i, IsFin (n i)) :
    subf (Host.divf (Ker.colSumRow (mulf n n)) (splat S1x128 bcast_S_S1x128 0x47435000#32))
        (mulf (asRow (Ref.mean n)) (asRow (Ref.mean n))) = asRow (Ref.var n) := by
  obtain ⟨f, rfl⟩ := exists_cv n hn
  funext i
  obtain ⟨u, q, rfl⟩ : ∃ (u : Fin 1) (q : Fin 128), i = ix2 u q := ⟨i 0, i 1, eq_ix2 i⟩
  unfold Ker.colSumRow Ref.mean
  rw [subf_apply, mulf_apply, hdivf_apply, asRow_apply, asRow_apply, asRow_apply, hdivf_apply, splat_apply, splat_apply,
    word_N, mulf_cv, colSum_cv', colSum_cv', div_coe _ _ (by norm_num), div_coe _ _ (by norm_num), ← EReal.coe_mul,
    ← EReal.coe_sub]
  show _ = Ref.var (cv f) (ix1 q)
  rw [var_cv]
  exact congrArg _ (var_identity (fun p => f (ix2 p q)) _ rfl)

/-! ## Reality of the statistics and of the tail -/

namespace Stats

/-- The word 0x3727C5AC is a positive real. -/
theorem word_eps : ∃ e : ℝ, 0 < e ∧ Ideal.ofBits .f32 0x3727C5AC#32 = (e : EReal) := by
  refine ⟨10995116 * (2 : ℝ) ^ (-40 : ℤ), by positivity, ?_⟩
  simp [Ideal.ofBits, Ideal.ieee, -EReal.coe_mul]

/-- The word 0x3DCCCCCD is a real. -/
theorem word_slope_fin : IsFin (Ideal.ofBits .f32 0x3DCCCCCD#32) := by
  refine ⟨13421773 * (2 : ℝ) ^ (-27 : ℤ), ?_⟩
  simp [Ideal.ofBits, Ideal.ieee, -EReal.coe_mul]

/-- A difference of reals is real. -/
theorem isFin_sub {x y : EReal} (hx : IsFin x) (hy : IsFin y) : IsFin (x - y) := by
  obtain ⟨a, rfl⟩ := hx; obtain ⟨b, rfl⟩ := hy
  exact ⟨a - b, (EReal.coe_sub a b).symm⟩

/-- Every entry of the reference's variance of a matrix of reals is a real ≥ 0. -/
theorem var_nonneg (n : Mat) (hn : ∀ i, IsFin (n i)) (j : S128.Idx) : ∃ r : ℝ, 0 ≤ r ∧ Ref.var n j = (r : EReal) := by
  obtain ⟨f, rfl⟩ := exists_cv n hn
  obtain ⟨q, rfl⟩ : ∃ q : Fin 128, j = ix1 q := ⟨j 0, eq_ix1 j⟩
  exact ⟨_, div_nonneg (Finset.sum_nonneg fun p _ => mul_self_nonneg _) (by norm_num), var_cv f q⟩

end Stats

/-- Every entry of the mean of a matrix of reals is real. -/
theorem mean_fin (n : Mat) (hn : ∀ i, IsFin (n i)) : ∀ j, IsFin (Ref.mean n j) := by
  obtain ⟨f, rfl⟩ := exists_cv n hn
  intro j
  unfold Ref.mean
  rw [hdivf_apply, splat_apply, word_N, colSum_cv', div_coe _ _ (by norm_num)]
  exact ⟨_, rfl⟩

/-- Every entry of the variance of a matrix of reals is real. -/
theorem var_fin (n : Mat) (hn : ∀ i, IsFin (n i)) : ∀ j, IsFin (Ref.var n j) := fun j => by
  obtain ⟨r, _, h⟩ := var_nonneg n hn j
  exact ⟨r, h⟩

/-- Every entry of the inverse deviation of a matrix of reals is real: variance + ε is a real > 0. -/
theorem istd_fin (n : Mat) (hn : ∀ i, IsFin (n i)) :
    ∀ j, IsFin (Host.rsqrt (addf (Ref.var n) (splat S128 bcast_S_S128 0x3727C5AC#32)) j) := by
  intro j
  obtain ⟨r, hr, hv⟩ := var_nonneg n hn j
  obtain ⟨e, he, hw⟩ := word_eps
  have hpos : 0 < r + e := by linarith
  rw [hrsqrt_apply, addf_apply, splat_apply, hv, hw, ← EReal.coe_add, Ideal.rsqrt_coe, if_neg (not_lt.mpr hpos.le),
    if_neg hpos.ne']
  exact ⟨_, rfl⟩

/-- The tail of a layer on real arrays is real. -/
theorem tail_fin (n : Mat) (mu istd g b : Row) (r : Mat) (hn : ∀ i, IsFin (n i)) (hmu : ∀ i, IsFin (mu i))
    (histd : ∀ i, IsFin (istd i)) (hg : ∀ i, IsFin (g i)) (hb : ∀ i, IsFin (b i)) (hr : ∀ i, IsFin (r i)) :
    ∀ i, IsFin (tailCore n mu istd g b r i) := by
  intro i
  have hy : IsFin (addf (mulf (mulf (subf n (rowsB mu)) (rowsB istd)) (rowsB g)) (rowsB b) i) := by
    rw [addf_apply, mulf_apply, mulf_apply, subf_apply, rowsB_apply, rowsB_apply, rowsB_apply, rowsB_apply]
    exact IsFin.add (IsFin.mul (IsFin.mul (isFin_sub (hn i) (hmu _)) (histd _)) (hg _)) (hb _)
  unfold tailCore
  rw [addf_apply, select_apply]
  refine IsFin.add ?_ (hr i)
  unfold Scalar.select
  split
  · exact hy
  · rw [mulf_apply, splat_apply]
    exact IsFin.mul word_slope_fin hy

end Cert.Sage

end
-- ==== Proof.BridgeLayer.lean ====
/-
  One layer of the two programs on real inputs: the two values are equal, and every entry of the value is real.

  The two layers differ in two places.  The neighbour mean: the kernel's program scales the neighbour sums by the
  reciprocal of the clamped in-degree, the reference divides by it; the two arrays are equal.  The column statistics of
  the row-normalised pre-activation n, a matrix of reals when the inputs are real: the mean row is the same quotient
  taken before or after the vector is made a row; the kernel's variance (mean of squares minus squared mean) equals
  the reference's (mean of squared deviations, with its guard true) on a matrix of reals; the reciprocal root of
  variance + ε is the same function of the same entry.  After these three rewritings the two layers are the same term.

  Reality: n is real, so its mean, variance and inverse deviation are real; scale, shift and the skip term are real;
  the tail of real arrays is real.
-/
import proofs.«131685_j69784628625939_1_alg».proof.Proof.Spec
import proofs.«131685_j69784628625939_1_alg».proof.Proof.LibFinite
import proofs.«131685_j69784628625939_1_alg».proof.Proof.BridgeLayerAgg
import proofs.«131685_j69784628625939_1_alg».proof.Proof.BridgeLayerStats

noncomputable section

namespace Cert.Sage

open Idealize.ShloMosaic Cert.LibFinite

theorem layer_eq (x : Mat) (ei : Edges) (wlT : Sq) (bl : V128) (wrT : Sq) (g b : V128) (wsT : Sq) (bs : V128)
    (hx : ∀ i, IsFin (x i)) (hwl : ∀ i, IsFin (wlT i)) (hbl : ∀ i, IsFin (bl i)) (hwr : ∀ i, IsFin (wrT i))
    (hg : ∀ i, IsFin (g i)) (hb : ∀ i, IsFin (b i)) (hws : ∀ i, IsFin (wsT i)) (hbs : ∀ i, IsFin (bs i)) :
    Ker.layer x ei wlT (asRow bl) wrT (asRow g) (asRow b) wsT (asRow bs) = Ref.layer x ei wlT bl wrT g b wsT bs := by
  have hn : ∀ i, IsFin (normed (pre x (Ref.agg x ei) wlT (asRow bl) wrT) i) :=
    normed_fin _ (pre_fin x (Ref.agg x ei) wlT (asRow bl) wrT hx (agg_fin x ei hx) hwl (asRow_fin bl hbl) hwr)
  unfold Ker.layer Ker.pass2 Ref.layer
  simp only []
  rw [agg_eq, mean_eq, var_eq _ hn, istd_eq]

theorem layer_fin (x : Mat) (ei : Edges) (wlT : Sq) (bl : V128) (wrT : Sq) (g b : V128) (wsT : Sq) (bs : V128)
    (hx : ∀ i, IsFin (x i)) (hwl : ∀ i, IsFin (wlT i)) (hbl : ∀ i, IsFin (bl i)) (hwr : ∀ i, IsFin (wrT i))
    (hg : ∀ i, IsFin (g i)) (hb : ∀ i, IsFin (b i)) (hws : ∀ i, IsFin (wsT i)) (hbs : ∀ i, IsFin (bs i)) :
    ∀ i, IsFin (Ref.layer x ei wlT bl wrT g b wsT bs i) := by
  have hn : ∀ i, IsFin (normed (pre x (Ref.agg x ei) wlT (asRow bl) wrT) i) :=
    normed_fin _ (pre_fin x (Ref.agg x ei) wlT (asRow bl) wrT hx (agg_fin x ei hx) hwl (asRow_fin bl hbl) hwr)
  unfold Ref.layer
  exact tail_fin _ _ _ _ _ _ hn (asRow_fin _ (mean_fin _ hn)) (asRow_fin _ (istd_fin _ hn)) (asRow_fin g hg)
    (asRow_fin b hb) (resid_fin x wsT (asRow bs) hx hws (asRow_fin bs hbs))

end Cert.Sage

end
-- ==== Proof.BridgeOutNet.lean ====
/-
  The three-layer network from one layer.

  Layer l of either program is one layer applied to the l-th cut of the stacked weights; by the re-layings the
  kernel's cut weights are the reference's, so layer by layer the two agree on real inputs, and the features a layer
  returns are real again, which is what the next layer asks for.
-/
import proofs.«131685_j69784628625939_1_alg».proof.Proof.BridgeOutLayout
import proofs.«131685_j69784628625939_1_alg».proof.Proof.BridgeLayer

noncomputable section

namespace Cert.Sage

open Idealize.ShloMosaic Cert.LibFinite

/-- Layer l of the kernel's program is layer l of the reference, on real inputs. -/
theorem layerAt_eq (l : Fin 3) (x : Mat) (ei : Edges) (Wl : Sq3) (bl : V3) (Wr : Sq3) (g b : V3) (Ws : Sq) (bs : V128)
    (hx : ∀ i, IsFin (x i)) (hWl : ∀ i, IsFin (Wl i)) (hbl : ∀ i, IsFin (bl i)) (hWr : ∀ i, IsFin (Wr i))
    (hg : ∀ i, IsFin (g i)) (hb : ∀ i, IsFin (b i)) (hWs : ∀ i, IsFin (Ws i)) (hbs : ∀ i, IsFin (bs i)) :
    Ker.layerAt l x ei Wl bl Wr g b Ws bs = Ref.layerAt l x ei Wl bl Wr g b Ws bs := by
  unfold Ker.layerAt Ref.layerAt
  rw [sqT3_eq, sqT3_eq, row3_eq, row3_eq, row3_eq, castRow_eq]
  exact layer_eq x ei _ _ _ _ _ _ _ hx (tr_fin _ (sq3_fin Wl hWl l)) (v3_fin bl hbl l) (tr_fin _ (sq3_fin Wr hWr l))
    (v3_fin g hg l) (v3_fin b hb l) (tr_fin _ hWs) hbs

/-- The features layer l returns are real. -/
theorem layerAt_fin (l : Fin 3) (x : Mat) (ei : Edges) (Wl : Sq3) (bl : V3) (Wr : Sq3) (g b : V3) (Ws : Sq) (bs : V128)
    (hx : ∀ i, IsFin (x i)) (hWl : ∀ i, IsFin (Wl i)) (hbl : ∀ i, IsFin (bl i)) (hWr : ∀ i, IsFin (Wr i))
    (hg : ∀ i, IsFin (g i)) (hb : ∀ i, IsFin (b i)) (hWs : ∀ i, IsFin (Ws i)) (hbs : ∀ i, IsFin (bs i)) :
    ∀ i, IsFin (Ref.layerAt l x ei Wl bl Wr g b Ws bs i) := by
  unfold Ref.layerAt
  exact layer_fin x ei _ _ _ _ _ _ _ hx (tr_fin _ (sq3_fin Wl hWl l)) (v3_fin bl hbl l) (tr_fin _ (sq3_fin Wr hWr l))
    (v3_fin g hg l) (v3_fin b hb l) (tr_fin _ hWs) hbs

/-- The two programs' results agree on real inputs. -/
theorem out_eq (x : Mat) (ei : Edges) (Wl : Sq3) (bl : V3) (Wr : Sq3) (g b : V3) (Ws : Sq) (bs : V128)
    (hx : ∀ i, IsFin (x i)) (hWl : ∀ i, IsFin (Wl i)) (hbl : ∀ i, IsFin (bl i)) (hWr : ∀ i, IsFin (Wr i))
    (hg : ∀ i, IsFin (g i)) (hb : ∀ i, IsFin (b i)) (hWs : ∀ i, IsFin (Ws i)) (hbs : ∀ i, IsFin (bs i)) :
    Ker.out x ei Wl bl Wr g b Ws bs = Ref.out x ei Wl bl Wr g b Ws bs := by
  unfold Ker.out Ref.out
  have f0 := layerAt_fin 0 x ei Wl bl Wr g b Ws bs hx hWl hbl hWr hg hb hWs hbs
  have f1 := layerAt_fin 1 _ ei Wl bl Wr g b Ws bs f0 hWl hbl hWr hg hb hWs hbs
  rw [layerAt_eq 0 x ei Wl bl Wr g b Ws bs hx hWl hbl hWr hg hb hWs hbs,
    layerAt_eq 1 _ ei Wl bl Wr g b Ws bs f0 hWl hbl hWr hg hb hWs hbs,
    layerAt_eq 2 _ ei Wl bl Wr g b Ws bs f1 hWl hbl hWr hg hb hWs hbs]

end Cert.Sage

end
-- ==== Proof.LibFinDecode.lean ====
/-
  "Every entry is finite", decoded from its printed test, over the extended reals.

  A precondition written `all(|x| < +∞)` prints as a reduction by `and` of the entrywise comparison of `|x|` with the
  f32 word of `+∞`. On the extended reals `|x| = max x (−x)`, and `max x (−x) < ⊤` rules out both infinities: what
  is left is a real number. Stated for one array of any shape reduced along any axes to a scalar, whatever evidence
  the program carries for the broadcast and the reduction.
-/
import proofs.«131685_j69784628625939_1_alg».proof.Proof.LibFinite
import Idealize.ShloMosaic.Lib.ReduceAll
import Idealize.ShloMosaic.Lib.Pipeline.Value
import Idealize.ShloMosaic.Lib.ValueIdx

noncomputable section

namespace Cert.LibFinDecode

open Idealize.ShloMosaic Idealize.ShloMosaic.ValueIdx Cert.LibFinite

/-- The scalar shape has one index. -/
instance : Subsingleton (⟨0, ![]⟩ : Shape).Idx := ⟨fun a b => funext fun d => d.elim0⟩

/-- The f32 word `0x7F800000` is `+∞`. -/
theorem word_inf : Ideal.ofBits .f32 0x7F800000#32 = ⊤ := by simp [Ideal.ofBits, Ideal.ieee]

/-- An extended real whose absolute value is below `+∞` is a real number. -/
theorem isFin_of_abs_lt (x : EReal) (h : Ideal.cmp .olt (max x (-x)) (Ideal.ofBits .f32 0x7F800000#32) = 1#1) : IsFin x := by
  rw [word_inf] at h
  induction x using EReal.rec with
  | bot => simp [Ideal.cmp] at h
  | coe r => exact ⟨r, rfl⟩
  | top => simp [Ideal.cmp] at h

/-- One array's conjunct: if "all entries are below +∞ in absolute value" evaluates to true, every entry is real. -/
theorem all_fin {s : Shape} {axes : List (Fin s.rank)} (x : FVec Ideal s .f32) (hb : (⟨0, ![]⟩ : Shape).BroadcastsInDim s ![])
    (hr : s.ReducesTo axes (⟨0, ![]⟩ : Shape)) (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) (i : s.Idx) : IsFin (x i) := by
  have h1 := Host.reduce_andi_all _ _ hr hu ix0 e i
  have h2 : broadcastInDim s ![] hb (constant (F := Ideal) (⟨0, ![]⟩ : Shape) .f32 0x7F800000#32) i = Ideal.ofBits .f32 0x7F800000#32 :=
    broadcastInDim_apply _ hb _ i ix0 (fun a => a.elim0)
  apply isFin_of_abs_lt
  rw [← h2]
  exact h1

end Cert.LibFinDecode

end
-- ==== Proof.BridgeOutPre.lean ====
/-
  From the printed precondition to "every entry is a real number".

  The precondition is the conjunction, array by array, of "all entries are below +∞ in absolute value"; it is true
  exactly when each conjunct is, and each conjunct says that every entry of its array is a real number.
-/
import proofs.«131685_j69784628625939_1_alg».proof.Proof.Spec
import proofs.«131685_j69784628625939_1_alg».proof.Proof.LibFinDecode
import proofs.«131685_j69784628625939_1_alg».proof.Pre_finite_inputs
import Idealize.ShloMosaic.Lib.Affine

noncomputable section

namespace Cert.Sage

open Idealize.ShloMosaic Idealize.ShloMosaic.ValueIdx Cert.LibFinite
open Cert.Pre_finite_inputs.Facts

variable [Cert.Pre_finite_inputs.Facts]

theorem fin_of_pre (a0 : Mat) (a1 : Edges) (a2 : Sq3) (a3 : V3) (a4 : Sq3) (a5 a6 : V3) (a7 : Sq) (a8 : V128)
    (h : Cert.Pre_finite_inputs.fn (F := Ideal) a0 a1 a2 a3 a4 a5 a6 a7 a8 = fun _ => 1#1) :
    (∀ i, IsFin (a0 i)) ∧ (∀ i, IsFin (a2 i)) ∧ (∀ i, IsFin (a3 i)) ∧ (∀ i, IsFin (a4 i)) ∧ (∀ i, IsFin (a5 i)) ∧
      (∀ i, IsFin (a6 i)) ∧ (∀ i, IsFin (a7 i)) ∧ (∀ i, IsFin (a8 i)) := by
  have h0 := congrFun h ix0
  dsimp only [Cert.Pre_finite_inputs.fn, Cert.Pre_finite_inputs.fn_part1, Cert.Pre_finite_inputs.fn_part2] at h0
  obtain ⟨h7, e8⟩ := IntOp.andi_eq_one.1 (show IntOp.andi _ _ = 1#1 from h0)
  obtain ⟨h6, e7⟩ := IntOp.andi_eq_one.1 (show IntOp.andi _ _ = 1#1 from h7)
  obtain ⟨h5, e6⟩ := IntOp.andi_eq_one.1 (show IntOp.andi _ _ = 1#1 from h6)
  obtain ⟨h4, e5⟩ := IntOp.andi_eq_one.1 (show IntOp.andi _ _ = 1#1 from h5)
  obtain ⟨h3, e4⟩ := IntOp.andi_eq_one.1 (show IntOp.andi _ _ = 1#1 from h4)
  obtain ⟨h2, e3⟩ := IntOp.andi_eq_one.1 (show IntOp.andi _ _ = 1#1 from h3)
  obtain ⟨e0, e2⟩ := IntOp.andi_eq_one.1 (show IntOp.andi _ _ = 1#1 from h2)
  exact ⟨Cert.LibFinDecode.all_fin a0 _ _ _ e0, Cert.LibFinDecode.all_fin a2 _ _ _ e2, Cert.LibFinDecode.all_fin a3 _ _ _ e3,
    Cert.LibFinDecode.all_fin a4 _ _ _ e4, Cert.LibFinDecode.all_fin a5 _ _ _ e5, Cert.LibFinDecode.all_fin a6 _ _ _ e6,
    Cert.LibFinDecode.all_fin a7 _ _ _ e7, Cert.LibFinDecode.all_fin a8 _ _ _ e8⟩

end Cert.Sage

end
-- ==== Proof.BridgeOut.lean ====
/-
  The two programs' results agree wherever the printed precondition holds: the precondition makes every entry of
  every float argument a real number, and on real inputs the three-layer networks agree.
-/
import proofs.«131685_j69784628625939_1_alg».proof.Proof.BridgeOutNet
import proofs.«131685_j69784628625939_1_alg».proof.Proof.BridgeOutPre

noncomputable section

namespace Cert.Sage

open Idealize.ShloMosaic Cert.LibFinite

variable [Cert.Pre_finite_inputs.Facts]

theorem out_eq_of_pre (a0 : Mat) (a1 : Edges) (a2 : Sq3) (a3 : V3) (a4 : Sq3) (a5 a6 : V3) (a7 : Sq) (a8 : V128)
    (h : Cert.Pre_finite_inputs.fn (F := Ideal) a0 a1 a2 a3 a4 a5 a6 a7 a8 = fun _ => 1#1) :
    Ker.out a0 a1 a2 a3 a4 a5 a6 a7 a8 = Ref.out a0 a1 a2 a3 a4 a5 a6 a7 a8 := by
  obtain ⟨h0, h2, h3, h4, h5, h6, h7, h8⟩ := fin_of_pre a0 a1 a2 a3 a4 a5 a6 a7 a8 h
  exact out_eq a0 a1 a2 a3 a4 a5 a6 a7 a8 h0 h2 h3 h4 h5 h6 h7 h8

end Cert.Sage

end
-- ==== Proof.lean ====
/-
  The certificate's five claims.

  The three frames: the two kernel programs by their launch theorems over the program's segments; the reference by
  its run with the result dropped.  The idealization rewrote nothing, so there is nothing to preserve.  The value
  claim: the kernel program's run ends with its result buffer at the three-layer network in the kernel's spelling
  (the reciprocal in-degree scaling, the variance as the mean of squares minus the squared mean), the reference's
  run with its result at the network in the reference's spelling (division by the in-degree, the variance as the
  mean squared deviation); on inputs all of whose entries are real numbers the two networks are the same function,
  and the precondition says exactly that the inputs are such.
-/
import proofs.«131685_j69784628625939_1_alg».proof.Defs
import proofs.«131685_j69784628625939_1_alg».proof.Proof.Gen.Kernel
import proofs.«131685_j69784628625939_1_alg».proof.Proof.Gen.Kernel.Skeleton
import proofs.«131685_j69784628625939_1_alg».proof.Proof.Gen.Kernel.Launch
import proofs.«131685_j69784628625939_1_alg».proof.Proof.Gen.Kernel.Points
import proofs.«131685_j69784628625939_1_alg».proof.Proof.Gen.Kernel.Frame
import proofs.«131685_j69784628625939_1_alg».proof.Proof.Gen.KernelIdeal
import proofs.«131685_j69784628625939_1_alg».proof.Proof.Gen.KernelIdeal.Skeleton
import proofs.«131685_j69784628625939_1_alg».proof.Proof.Gen.KernelIdeal.Launch
import proofs.«131685_j69784628625939_1_alg».proof.Proof.Gen.KernelIdeal.Points
import proofs.«131685_j69784628625939_1_alg».proof.Proof.Gen.KernelIdeal.Frame
import proofs.«131685_j69784628625939_1_alg».proof.Proof.Gen.ReferenceIdeal
import proofs.«131685_j69784628625939_1_alg».proof.Proof.Gen.Pre_finite_inputs
import proofs.«131685_j69784628625939_1_alg».proof.Proof.KernelRun
import proofs.«131685_j69784628625939_1_alg».proof.Proof.KernelChain
import proofs.«131685_j69784628625939_1_alg».proof.Proof.RefRun
import proofs.«131685_j69784628625939_1_alg».proof.Proof.BridgeOut
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.RefRun.run m ρ),
  trivial,
  fun m ρ m' ρ' hpre hagree =>
    ⟨fun c => Cert.Sage.Ker.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
     (θ_run Cert.KernelIdeal.defs _ _).mono (fun _ h c => ⟨(h c).1.trans (Cert.KernelIdeal.Chain.result m ρ c), (h c).2⟩)
       (Cert.KernelIdeal.KRun.run m ρ),
     (θ_run Cert.ReferenceIdeal.defs _ _).mono (fun _ h c => ⟨by
         obtain ⟨e0, e1, e2, e3, e4, e5, e6, e7, e8⟩ := hagree c
         rw [(h c).1, e0, e1, e2, e3, e4, e5, e6, e7, e8]
         exact (Cert.Sage.out_eq_of_pre _ _ _ _ _ _ _ _ _ (hpre c)).symm, (h c).2⟩)
       (Cert.ReferenceIdeal.RefRun.run m' ρ')⟩⟩

end Cert.Proof

end
